-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16384x1024 : Shape := ⟨2, ![16384, 1024]⟩
abbrev S2048x16384 : Shape := ⟨2, ![2048, 16384]⟩
abbrev S2048x2048 : Shape := ⟨2, ![2048, 2048]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S2048x16384 : S_.BroadcastsInDim S2048x16384 (![] : Fin 0 → Fin S2048x16384.rank)
  reducesTo_S2048x16384_S_d0_1 : S2048x16384.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S2048x2048 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x1024 .f32) (main_arg1 : FVec F S16384x1024 .f32) (main_arg2 : FVec F S2048x16384 .f32) (main_arg3 : FVec F S2048x16384 .f32) (main_arg4 : FVec F S2048x2048 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x1024 : Shape := ⟨2, ![2048, 1024]⟩
abbrev S16384x1024 : Shape := ⟨2, ![16384, 1024]⟩
abbrev S2048x16384 : Shape := ⟨2, ![2048, 16384]⟩
abbrev S2048x2048 : Shape := ⟨2, ![2048, 2048]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S16384 : Shape := ⟨1, ![16384]⟩
abbrev S1x16384 : Shape := ⟨2, ![1, 16384]⟩
abbrev S16384x1 : Shape := ⟨2, ![16384, 1]⟩
abbrev S1x1024 : Shape := ⟨2, ![1, 1024]⟩
abbrev S512x512 : Shape := ⟨2, ![512, 512]⟩
abbrev S512x1024 : Shape := ⟨2, ![512, 1024]⟩
abbrev S512x2048 : Shape := ⟨2, ![512, 2048]⟩
abbrev S512x1 : Shape := ⟨2, ![512, 1]⟩
abbrev S2048x512 : Shape := ⟨2, ![2048, 512]⟩

abbrev nBuf : Space → Nat
  | .hbm => 74
  | .vmem => 128
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S2048x16384, .f32⟩
  | .hbm, ⟨3, _⟩ => ⟨S2048x16384, .f32⟩
  | .hbm, ⟨4, _⟩ => ⟨S2048x2048, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S16384, .f32⟩
  | .hbm, ⟨35, _⟩ => ⟨S1x16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384, .f32⟩
  | .hbm, ⟨42, _⟩ => ⟨S1x16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S2048x16384, .bf16⟩
  | .hbm, ⟨48, _⟩ => ⟨S2048x16384, .bf16⟩
  | .hbm, ⟨49, _⟩ => ⟨S2048x2048, .bf16⟩
  | .hbm, ⟨50, _⟩ => ⟨S1x1024, .f32⟩
  | .hbm, ⟨51, _⟩ => ⟨S1x1024, .f32⟩
  | .hbm, ⟨52, _⟩ => ⟨S16384x1024, .bf16⟩
  | .hbm, ⟨53, _⟩ => ⟨S16384x1024, .bf16⟩
  | .hbm, ⟨54, _⟩ => ⟨S1x1024, .f32⟩
  | .hbm, ⟨55, _⟩ => ⟨S2048x1024, .bf16⟩
  | .hbm, ⟨56, _⟩ => ⟨S2048x1024, .f32⟩
  | .hbm, ⟨57, _⟩ => ⟨S1x1024, .f32⟩
  | .hbm, ⟨58, _⟩ => ⟨S1x1024, .f32⟩
  | .hbm, ⟨59, _⟩ => ⟨S2048x1024, .bf16⟩
  | .hbm, ⟨60, _⟩ => ⟨S2048x1024, .bf16⟩
  | .hbm, ⟨61, _⟩ => ⟨S16384x1024, .f32⟩
  | .hbm, ⟨62, _⟩ => ⟨S1x1024, .f32⟩
  | .hbm, ⟨63, _⟩ => ⟨S1x1024, .f32⟩
  | .hbm, ⟨64, _⟩ => ⟨S16384x1024, .bf16⟩
  | .hbm, ⟨65, _⟩ => ⟨S16384x1024, .bf16⟩
  | .hbm, ⟨66, _⟩ => ⟨S1x1024, .f32⟩
  | .hbm, ⟨67, _⟩ => ⟨S2048x1024, .bf16⟩
  | .hbm, ⟨68, _⟩ => ⟨S2048x1024, .f32⟩
  | .hbm, ⟨69, _⟩ => ⟨S1x1024, .f32⟩
  | .hbm, ⟨70, _⟩ => ⟨S1x1024, .f32⟩
  | .hbm, ⟨71, _⟩ => ⟨S2048x1024, .bf16⟩
  | .hbm, ⟨72, _⟩ => ⟨S2048x1024, .bf16⟩
  | .hbm, ⟨73, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x2048, .bf16⟩
  | .local _ .vmem, ⟨25, _⟩ => ⟨S512x2048, .bf16⟩
  | .local _ .vmem, ⟨26, _⟩ => ⟨S2048x1024, .bf16⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S1024x1024, .f32⟩
  | .local _ .vmem, ⟨41, _⟩ => ⟨S1024x1024, .f32⟩
  | .local _ .vmem, ⟨42, _⟩ => ⟨S1024x1024, .f32⟩
  | .local _ .vmem, ⟨43, _⟩ => ⟨S1x1024, .f32⟩
  | .local _ .vmem, ⟨44, _⟩ => ⟨S1024x1024, .f32⟩
  | .local _ .vmem, ⟨45, _⟩ => ⟨S1x1024, .f32⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S2048x512, .bf16⟩
  | .local _ .vmem, ⟨51, _⟩ => ⟨S2048x512, .bf16⟩
  | .local _ .vmem, ⟨52, _⟩ => ⟨S2048x512, .bf16⟩
  | .local _ .vmem, ⟨53, _⟩ => ⟨S2048x512, .bf16⟩
  | .local _ .vmem, ⟨54, _⟩ => ⟨S2048x1024, .bf16⟩
  | .local _ .vmem, ⟨55, _⟩ => ⟨S2048x1024, .bf16⟩
  | .local _ .vmem, ⟨56, _⟩ => ⟨S512x1, .f32⟩
  | .local _ .vmem, ⟨57, _⟩ => ⟨S512x1, .f32⟩
  | .local _ .vmem, ⟨58, _⟩ => ⟨S512x1, .f32⟩
  | .local _ .vmem, ⟨59, _⟩ => ⟨S512x1, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S1024x1024, .f32⟩
  | .local _ .vmem, ⟨65, _⟩ => ⟨S1024x1024, .f32⟩
  | .local _ .vmem, ⟨66, _⟩ => ⟨S1024x1024, .f32⟩
  | .local _ .vmem, ⟨67, _⟩ => ⟨S1x1024, .f32⟩
  | .local _ .vmem, ⟨68, _⟩ => ⟨S1024x1024, .f32⟩
  | .local _ .vmem, ⟨69, _⟩ => ⟨S1x1024, .f32⟩
  | .local _ .vmem, ⟨70, _⟩ => ⟨S1024x1024, .bf16⟩
  | .local _ .vmem, ⟨71, _⟩ => ⟨S1024x1024, .bf16⟩
  | .local _ .vmem, ⟨72, _⟩ => ⟨S1024x1024, .bf16⟩
  | .local _ .vmem, ⟨73, _⟩ => ⟨S1024x1024, .bf16⟩
  | .local _ .vmem, ⟨74, _⟩ => ⟨S1024x1024, .f32⟩
  | .local _ .vmem, ⟨75, _⟩ => ⟨S1024x1024, .f32⟩
  | .local _ .vmem, ⟨76, _⟩ => ⟨S1024x1024, .f32⟩
  | .local _ .vmem, ⟨77, _⟩ => ⟨S1x1024, .f32⟩
  | .local _ .vmem, ⟨78, _⟩ => ⟨S1024x1024, .bf16⟩
  | .local _ .vmem, ⟨79, _⟩ => ⟨S1024x1024, .bf16⟩
  | .local _ .vmem, ⟨80, _⟩ => ⟨S512x512, .bf16⟩
  | .local _ .vmem, ⟨81, _⟩ => ⟨S512x512, .bf16⟩
  | .local _ .vmem, ⟨82, _⟩ => ⟨S512x512, .bf16⟩
  | .local _ .vmem, ⟨83, _⟩ => ⟨S512x512, .bf16⟩
  | .local _ .vmem, ⟨84, _⟩ => ⟨S512x1024, .bf16⟩
  | .local _ .vmem, ⟨85, _⟩ => ⟨S512x1024, .bf16⟩
  | .local _ .vmem, ⟨86, _⟩ => ⟨S512x1024, .bf16⟩
  | .local _ .vmem, ⟨87, _⟩ => ⟨S512x1024, .bf16⟩
  | .local _ .vmem, ⟨88, _⟩ => ⟨S512x2048, .bf16⟩
  | .local _ .vmem, ⟨89, _⟩ => ⟨S512x2048, .bf16⟩
  | .local _ .vmem, ⟨90, _⟩ => ⟨S2048x1024, .bf16⟩
  | .local _ .vmem, ⟨91, _⟩ => ⟨S512x1, .f32⟩
  | .local _ .vmem, ⟨92, _⟩ => ⟨S512x1, .f32⟩
  | .local _ .vmem, ⟨93, _⟩ => ⟨S512x1, .f32⟩
  | .local _ .vmem, ⟨94, _⟩ => ⟨S512x1, .f32⟩
  | .local _ .vmem, ⟨95, _⟩ => ⟨S512x1, .f32⟩
  | .local _ .vmem, ⟨96, _⟩ => ⟨S512x1, .f32⟩
  | .local _ .vmem, ⟨97, _⟩ => ⟨S512x1024, .f32⟩
  | .local _ .vmem, ⟨98, _⟩ => ⟨S512x1024, .f32⟩
  | .local _ .vmem, ⟨99, _⟩ => ⟨S512x1024, .f32⟩
  | .local _ .vmem, ⟨100, _⟩ => ⟨S512x1024, .f32⟩
  | .local _ .vmem, ⟨101, _⟩ => ⟨S512x1024, .f32⟩
  | .local _ .vmem, ⟨102, _⟩ => ⟨S512x1024, .f32⟩
  | .local _ .vmem, ⟨103, _⟩ => ⟨S512x1024, .f32⟩
  | .local _ .vmem, ⟨104, _⟩ => ⟨S1024x1024, .f32⟩
  | .local _ .vmem, ⟨105, _⟩ => ⟨S1024x1024, .f32⟩
  | .local _ .vmem, ⟨106, _⟩ => ⟨S1024x1024, .f32⟩
  | .local _ .vmem, ⟨107, _⟩ => ⟨S1x1024, .f32⟩
  | .local _ .vmem, ⟨108, _⟩ => ⟨S1024x1024, .f32⟩
  | .local _ .vmem, ⟨109, _⟩ => ⟨S1x1024, .f32⟩
  | .local _ .vmem, ⟨110, _⟩ => ⟨S1024x1024, .bf16⟩
  | .local _ .vmem, ⟨111, _⟩ => ⟨S1024x1024, .bf16⟩
  | .local _ .vmem, ⟨112, _⟩ => ⟨S1024x1024, .bf16⟩
  | .local _ .vmem, ⟨113, _⟩ => ⟨S1024x1024, .bf16⟩
  | .local _ .vmem, ⟨114, _⟩ => ⟨S2048x512, .bf16⟩
  | .local _ .vmem, ⟨115, _⟩ => ⟨S2048x512, .bf16⟩
  | .local _ .vmem, ⟨116, _⟩ => ⟨S2048x512, .bf16⟩
  | .local _ .vmem, ⟨117, _⟩ => ⟨S2048x512, .bf16⟩
  | .local _ .vmem, ⟨118, _⟩ => ⟨S2048x1024, .bf16⟩
  | .local _ .vmem, ⟨119, _⟩ => ⟨S2048x1024, .bf16⟩
  | .local _ .vmem, ⟨120, _⟩ => ⟨S512x1, .f32⟩
  | .local _ .vmem, ⟨121, _⟩ => ⟨S512x1, .f32⟩
  | .local _ .vmem, ⟨122, _⟩ => ⟨S512x1, .f32⟩
  | .local _ .vmem, ⟨123, _⟩ => ⟨S512x1, .f32⟩
  | .local _ .vmem, ⟨124, _⟩ => ⟨S512x1024, .f32⟩
  | .local _ .vmem, ⟨125, _⟩ => ⟨S512x1024, .f32⟩
  | .local _ .vmem, ⟨126, _⟩ => ⟨S512x1024, .f32⟩
  | .local _ .vmem, ⟨127, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  ofTc nBuf bufTy 0 122 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_cst_7 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_8 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37_0 : Ref sig .tc := ⟨.hbm, 64, rfl⟩
abbrev main_v37_1 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_v44 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc2_stg10_0 : Ref sig .tc := ⟨.vmem, 35, rfl⟩
abbrev cc2_stg10_1 : Ref sig .tc := ⟨.vmem, 36, rfl⟩
abbrev cc2_scratch0 : Ref sig .tc := ⟨.vmem, 37, rfl⟩
abbrev cc2_scratch1 : Ref sig .tc := ⟨.vmem, 38, rfl⟩
abbrev cc2_scratch2 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg4_1 : Ref sig .tc := ⟨.vmem, 57, rfl⟩
abbrev cc4_stg5_0 : Ref sig .tc := ⟨.vmem, 58, rfl⟩
abbrev cc4_stg5_1 : Ref sig .tc := ⟨.vmem, 59, rfl⟩
abbrev cc4_stg6_0 : Ref sig .tc := ⟨.vmem, 60, rfl⟩
abbrev cc4_stg6_1 : Ref sig .tc := ⟨.vmem, 61, rfl⟩
abbrev cc4_stg7_0 : Ref sig .tc := ⟨.vmem, 62, rfl⟩
abbrev cc4_stg7_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc5_stg6_0 : Ref sig .tc := ⟨.vmem, 72, rfl⟩
abbrev cc5_stg6_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg2_0 : Ref sig .tc := ⟨.vmem, 77, rfl⟩
abbrev cc6_stg3_0 : Ref sig .tc := ⟨.vmem, 78, rfl⟩
abbrev cc6_stg3_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg1_1 : Ref sig .tc := ⟨.vmem, 83, rfl⟩
abbrev cc7_stg2_0 : Ref sig .tc := ⟨.vmem, 84, rfl⟩
abbrev cc7_stg2_1 : Ref sig .tc := ⟨.vmem, 85, rfl⟩
abbrev cc7_stg3_0 : Ref sig .tc := ⟨.vmem, 86, rfl⟩
abbrev cc7_stg3_1 : Ref sig .tc := ⟨.vmem, 87, rfl⟩
abbrev cc7_stg4_0 : Ref sig .tc := ⟨.vmem, 88, rfl⟩
abbrev cc7_stg4_1 : Ref sig .tc := ⟨.vmem, 89, rfl⟩
abbrev cc7_stg5_0 : Ref sig .tc := ⟨.vmem, 90, rfl⟩
abbrev cc7_stg6_0 : Ref sig .tc := ⟨.vmem, 91, rfl⟩
abbrev cc7_stg6_1 : Ref sig .tc := ⟨.vmem, 92, rfl⟩
abbrev cc7_stg7_0 : Ref sig .tc := ⟨.vmem, 93, rfl⟩
abbrev cc7_stg7_1 : Ref sig .tc := ⟨.vmem, 94, rfl⟩
abbrev cc7_stg8_0 : Ref sig .tc := ⟨.vmem, 95, rfl⟩
abbrev cc7_stg8_1 : Ref sig .tc := ⟨.vmem, 96, rfl⟩
abbrev cc7_stg9_0 : Ref sig .tc := ⟨.vmem, 97, rfl⟩
abbrev cc7_stg9_1 : Ref sig .tc := ⟨.vmem, 98, rfl⟩
abbrev cc7_stg10_0 : Ref sig .tc := ⟨.vmem, 99, rfl⟩
abbrev cc7_stg10_1 : Ref sig .tc := ⟨.vmem, 100, rfl⟩
abbrev cc7_scratch0 : Ref sig .tc := ⟨.vmem, 101, rfl⟩
abbrev cc7_scratch1 : Ref sig .tc := ⟨.vmem, 102, rfl⟩
abbrev cc7_scratch2 : Ref sig .tc := ⟨.vmem, 103, rfl⟩
abbrev cc8_stg0_0 : Ref sig .tc := ⟨.vmem, 104, rfl⟩
abbrev cc8_stg0_1 : Ref sig .tc := ⟨.vmem, 105, rfl⟩
abbrev cc8_stg1_0 : Ref sig .tc := ⟨.vmem, 106, rfl⟩
abbrev cc8_stg2_0 : Ref sig .tc := ⟨.vmem, 107, rfl⟩
abbrev cc8_stg3_0 : Ref sig .tc := ⟨.vmem, 108, rfl⟩
abbrev cc8_stg4_0 : Ref sig .tc := ⟨.vmem, 109, rfl⟩
abbrev cc8_stg5_0 : Ref sig .tc := ⟨.vmem, 110, rfl⟩
abbrev cc8_stg5_1 : Ref sig .tc := ⟨.vmem, 111, rfl⟩
abbrev cc8_stg6_0 : Ref sig .tc := ⟨.vmem, 112, rfl⟩
abbrev cc8_stg6_1 : Ref sig .tc := ⟨.vmem, 113, rfl⟩
abbrev cc9_stg0_0 : Ref sig .tc := ⟨.vmem, 114, rfl⟩
abbrev cc9_stg0_1 : Ref sig .tc := ⟨.vmem, 115, rfl⟩
abbrev cc9_stg1_0 : Ref sig .tc := ⟨.vmem, 116, rfl⟩
abbrev cc9_stg1_1 : Ref sig .tc := ⟨.vmem, 117, rfl⟩
abbrev cc9_stg2_0 : Ref sig .tc := ⟨.vmem, 118, rfl⟩
abbrev cc9_stg3_0 : Ref sig .tc := ⟨.vmem, 119, rfl⟩
abbrev cc9_stg4_0 : Ref sig .tc := ⟨.vmem, 120, rfl⟩
abbrev cc9_stg4_1 : Ref sig .tc := ⟨.vmem, 121, rfl⟩
abbrev cc9_stg5_0 : Ref sig .tc := ⟨.vmem, 122, rfl⟩
abbrev cc9_stg5_1 : Ref sig .tc := ⟨.vmem, 123, rfl⟩
abbrev cc9_stg6_0 : Ref sig .tc := ⟨.vmem, 124, rfl⟩
abbrev cc9_stg6_1 : Ref sig .tc := ⟨.vmem, 125, rfl⟩
abbrev cc9_stg7_0 : Ref sig .tc := ⟨.vmem, 126, rfl⟩
abbrev cc9_stg7_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem8_1 : DmaSem sig := 32
abbrev cc2_sem9_0 : DmaSem sig := 33
abbrev cc2_sem9_1 : DmaSem sig := 34
abbrev cc2_sem10_0 : DmaSem sig := 35
abbrev cc2_sem10_1 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem5_1 : DmaSem sig := 44
abbrev cc3_sem6_0 : DmaSem sig := 45
abbrev cc3_sem6_1 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem3_0 : DmaSem sig := 52
abbrev cc4_sem4_0 : DmaSem sig := 53
abbrev cc4_sem4_1 : DmaSem sig := 54
abbrev cc4_sem5_0 : DmaSem sig := 55
abbrev cc4_sem5_1 : DmaSem sig := 56
abbrev cc4_sem6_0 : DmaSem sig := 57
abbrev cc4_sem6_1 : DmaSem sig := 58
abbrev cc4_sem7_0 : DmaSem sig := 59
abbrev cc4_sem7_1 : DmaSem sig := 60
abbrev cc5_sem0_0 : DmaSem sig := 61
abbrev cc5_sem0_1 : DmaSem sig := 62
abbrev cc5_sem1_0 : DmaSem sig := 63
abbrev cc5_sem2_0 : DmaSem sig := 64
abbrev cc5_sem3_0 : DmaSem sig := 65
abbrev cc5_sem4_0 : DmaSem sig := 66
abbrev cc5_sem5_0 : DmaSem sig := 67
abbrev cc5_sem5_1 : DmaSem sig := 68
abbrev cc5_sem6_0 : DmaSem sig := 69
abbrev cc5_sem6_1 : DmaSem sig := 70
abbrev cc6_sem0_0 : DmaSem sig := 71
abbrev cc6_sem0_1 : DmaSem sig := 72
abbrev cc6_sem1_0 : DmaSem sig := 73
abbrev cc6_sem2_0 : DmaSem sig := 74
abbrev cc6_sem3_0 : DmaSem sig := 75
abbrev cc6_sem3_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem2_1 : DmaSem sig := 82
abbrev cc7_sem3_0 : DmaSem sig := 83
abbrev cc7_sem3_1 : DmaSem sig := 84
abbrev cc7_sem4_0 : DmaSem sig := 85
abbrev cc7_sem4_1 : DmaSem sig := 86
abbrev cc7_sem5_0 : DmaSem sig := 87
abbrev cc7_sem6_0 : DmaSem sig := 88
abbrev cc7_sem6_1 : DmaSem sig := 89
abbrev cc7_sem7_0 : DmaSem sig := 90
abbrev cc7_sem7_1 : DmaSem sig := 91
abbrev cc7_sem8_0 : DmaSem sig := 92
abbrev cc7_sem8_1 : DmaSem sig := 93
abbrev cc7_sem9_0 : DmaSem sig := 94
abbrev cc7_sem9_1 : DmaSem sig := 95
abbrev cc7_sem10_0 : DmaSem sig := 96
abbrev cc7_sem10_1 : DmaSem sig := 97
abbrev cc8_sem0_0 : DmaSem sig := 98
abbrev cc8_sem0_1 : DmaSem sig := 99
abbrev cc8_sem1_0 : DmaSem sig := 100
abbrev cc8_sem2_0 : DmaSem sig := 101
abbrev cc8_sem3_0 : DmaSem sig := 102
abbrev cc8_sem4_0 : DmaSem sig := 103
abbrev cc8_sem5_0 : DmaSem sig := 104
abbrev cc8_sem5_1 : DmaSem sig := 105
abbrev cc8_sem6_0 : DmaSem sig := 106
abbrev cc8_sem6_1 : DmaSem sig := 107
abbrev cc9_sem0_0 : DmaSem sig := 108
abbrev cc9_sem0_1 : DmaSem sig := 109
abbrev cc9_sem1_0 : DmaSem sig := 110
abbrev cc9_sem1_1 : DmaSem sig := 111
abbrev cc9_sem2_0 : DmaSem sig := 112
abbrev cc9_sem3_0 : DmaSem sig := 113
abbrev cc9_sem4_0 : DmaSem sig := 114
abbrev cc9_sem4_1 : DmaSem sig := 115
abbrev cc9_sem5_0 : DmaSem sig := 116
abbrev cc9_sem5_1 : DmaSem sig := 117
abbrev cc9_sem6_0 : DmaSem sig := 118
abbrev cc9_sem6_1 : DmaSem sig := 119
abbrev cc9_sem7_0 : DmaSem sig := 120
abbrev cc9_sem7_1 : DmaSem sig := 121

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 32], ![false, false]⟩

def k2_cond2 (i : grid2.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_17 : BitVec 32 := 0#32
  let v25 : BitVec 1 := Scalar.cmpi .ne v24 c0_i32_17
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S2048x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S512x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S512x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1024x1024 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1024x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![4, 32], ![false, false]⟩

def k7_cond2 (i : grid7.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_17 : BitVec 32 := 0#32
  let v25 : BitVec 1 := Scalar.cmpi .ne v24 c0_i32_17
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S512x2048 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 1 → Memref sig .tc .vmem S2048x1024 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 2 → Memref sig .tc .vmem S512x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev stage7_7 : Fin 2 → Memref sig .tc .vmem S512x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, false]

abbrev stage7_8 : Fin 2 → Memref sig .tc .vmem S512x1 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, false]

abbrev stage7_9 : Fin 2 → Memref sig .tc .vmem S512x1024 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, false]

abbrev stage7_10 : Fin 2 → Memref sig .tc .vmem S512x1024 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, false]

abbrev grid8 : Pipeline.Grid := ⟨1, ![2], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1024x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1024x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S1024x1024 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2048x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S2048x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2048x1024 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S512x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S512x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S512x1024 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S512x1024 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  reducesTo_S2048x16384_S2048_d1 : S2048x16384.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S2048x2048_S2048_d1 : S2048x2048.ReducesTo [1] S2048
  reducesTo_S2048x16384_S16384_d0 : S2048x16384.ReducesTo [0] S16384
  bcast_S16384_S1x16384_1 : S16384.BroadcastsInDim S1x16384 (![1] : Fin 1 → Fin S1x16384.rank)
  transposes_S1x16384_S16384x1_1_0 : S1x16384.Transposes [1, 0] S16384x1
  bcast_S_S16384x1 : S_.BroadcastsInDim S16384x1 (![] : Fin 0 → Fin S16384x1.rank)
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  dot_S512x2048_S2048x1024_S512x1024_1_0_0_1_n_n_wf : DotDims.WF S512x2048 S2048x1024 S512x1024 [1] [0] [0] [1] [] []
  dot_S512x512_S512x1024_S512x1024_1_0_0_1_n_n_wf : DotDims.WF S512x512 S512x1024 S512x1024 [1] [0] [0] [1] [] []
  dot_S2048x512_S2048x1024_S512x1024_0_0_1_1_n_n_wf : DotDims.WF S2048x512 S2048x1024 S512x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x1024.size a
  hwx1_0 : ∀ i : grid1.Coords, EltTy.bits .f32 = 32 ∨ (Rect.block (s := S2048x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x1024.size a
  hwx1_3 : ∀ i : grid1.Coords, EltTy.bits .bf16 = 32 ∨ (Rect.block (s := S2048x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S2048x16384.size a
  hwx2_0 : ∀ i : grid2.Coords, EltTy.bits .bf16 = 32 ∨ (Rect.block (s := S2048x16384) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S2048x16384.size a
  hwx2_1 : ∀ i : grid2.Coords, EltTy.bits .bf16 = 32 ∨ (Rect.block (s := S2048x16384) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S16384x1024.size a
  hwx2_2 : ∀ i : grid2.Coords, EltTy.bits .bf16 = 32 ∨ (Rect.block (s := S16384x1024) S512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .bf16 = 32 ∨ (Rect.block (s := S16384x1024) S512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x2048.size a ≤ S2048x2048.size a
  hwx2_4 : ∀ i : grid2.Coords, EltTy.bits .bf16 = 32 ∨ (Rect.block (s := S2048x2048) S512x2048.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x1024.size a ≤ S2048x1024.size a
  hwx2_5 : ∀ i : grid2.Coords, EltTy.bits .bf16 = 32 ∨ (Rect.block (s := S2048x1024) S2048x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S2048x1.size a
  hwx2_6 : ∀ i : grid2.Coords, EltTy.bits .f32 = 32 ∨ (Rect.block (s := S2048x1) S512x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S2048x1.size a
  hwx2_7 : ∀ i : grid2.Coords, EltTy.bits .f32 = 32 ∨ (Rect.block (s := S2048x1) S512x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x1.size a ≤ S2048x1.size a
  hwx2_8 : ∀ i : grid2.Coords, EltTy.bits .f32 = 32 ∨ (Rect.block (s := S2048x1) S512x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x1024.size a ≤ S2048x1024.size a
  hwx2_9 : ∀ i : grid2.Coords, EltTy.bits .f32 = 32 ∨ (Rect.block (s := S2048x1024) S512x1024.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S512x1024.size a ≤ S2048x1024.size a
  hwx2_10 : ∀ i : grid2.Coords, EltTy.bits .f32 = 32 ∨ (Rect.block (s := S2048x1024) S512x1024.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S2048x1024.size a
  hwx3_0 : ∀ i : grid3.Coords, EltTy.bits .f32 = 32 ∨ (Rect.block (s := S2048x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .f32 = 32 ∨ (Rect.block (s := S1024x1024) S1024x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .f32 = 32 ∨ (Rect.block (s := S1024x1024) S1024x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S2048x1024.size a
  hwx3_5 : ∀ i : grid3.Coords, EltTy.bits .bf16 = 32 ∨ (Rect.block (s := S2048x1024) S1024x1024.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x1024.size a ≤ S2048x1024.size a
  hwx3_6 : ∀ i : grid3.Coords, EltTy.bits .bf16 = 32 ∨ (Rect.block (s := S2048x1024) S1024x1024.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S2048x16384.size a
  hwx4_0 : ∀ i : grid4.Coords, EltTy.bits .bf16 = 32 ∨ (Rect.block (s := S2048x16384) S2048x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S2048x16384.size a
  hwx4_1 : ∀ i : grid4.Coords, EltTy.bits .bf16 = 32 ∨ (Rect.block (s := S2048x16384) S2048x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x1024.size a ≤ S2048x1024.size a
  hwx4_2 : ∀ i : grid4.Coords, EltTy.bits .bf16 = 32 ∨ (Rect.block (s := S2048x1024) S2048x1024.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048x1024.size a ≤ S2048x1024.size a
  hwx4_3 : ∀ i : grid4.Coords, EltTy.bits .bf16 = 32 ∨ (Rect.block (s := S2048x1024) S2048x1024.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S16384x1.size a
  hwx4_4 : ∀ i : grid4.Coords, EltTy.bits .f32 = 32 ∨ (Rect.block (s := S16384x1) S512x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x1.size a ≤ S16384x1.size a
  hwx4_5 : ∀ i : grid4.Coords, EltTy.bits .f32 = 32 ∨ (Rect.block (s := S16384x1) S512x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x1024.size a ≤ S16384x1024.size a
  hwx4_6 : ∀ i : grid4.Coords, EltTy.bits .f32 = 32 ∨ (Rect.block (s := S16384x1024) S512x1024.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x1024.size a ≤ S16384x1024.size a
  hwx4_7 : ∀ i : grid4.Coords, EltTy.bits .f32 = 32 ∨ (Rect.block (s := S16384x1024) S512x1024.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S16384x1024.size a
  hwx5_0 : ∀ i : grid5.Coords, EltTy.bits .f32 = 32 ∨ (Rect.block (s := S16384x1024) S1024x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .f32 = 32 ∨ (Rect.block (s := S1024x1024) S1024x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S1024x1024.size a
  hwx5_3 : ∀ i : grid5.Coords, EltTy.bits .f32 = 32 ∨ (Rect.block (s := S1024x1024) S1024x1024.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x1024.size a
  hwx5_4 : ∀ i : grid5.Coords, EltTy.bits .f32 = 32 ∨ (Rect.block (s := S1x1024) S1x1024.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x1024.size a ≤ S16384x1024.size a
  hwx5_5 : ∀ i : grid5.Coords, EltTy.bits .bf16 = 32 ∨ (Rect.block (s := S16384x1024) S1024x1024.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1024x1024.size a ≤ S16384x1024.size a
  hwx5_6 : ∀ i : grid5.Coords, EltTy.bits .bf16 = 32 ∨ (Rect.block (s := S16384x1024) S1024x1024.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S2048x1024.size a
  hwx6_0 : ∀ i : grid6.Coords, EltTy.bits .f32 = 32 ∨ (Rect.block (s := S2048x1024) S1024x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x1024.size a
  hwx6_1 : ∀ i : grid6.Coords, EltTy.bits .f32 = 32 ∨ (Rect.block (s := S1024x1024) S1024x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x1024.size a ≤ S2048x1024.size a
  hwx6_3 : ∀ i : grid6.Coords, EltTy.bits .bf16 = 32 ∨ (Rect.block (s := S2048x1024) S1024x1024.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S2048x16384.size a
  hwx7_0 : ∀ i : grid7.Coords, EltTy.bits .bf16 = 32 ∨ (Rect.block (s := S2048x16384) S512x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S2048x16384.size a
  hwx7_1 : ∀ i : grid7.Coords, EltTy.bits .bf16 = 32 ∨ (Rect.block (s := S2048x16384) S512x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x1024.size a ≤ S16384x1024.size a
  hwx7_2 : ∀ i : grid7.Coords, EltTy.bits .bf16 = 32 ∨ (Rect.block (s := S16384x1024) S512x1024.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x1024.size a ≤ S16384x1024.size a
  hwx7_3 : ∀ i : grid7.Coords, EltTy.bits .bf16 = 32 ∨ (Rect.block (s := S16384x1024) S512x1024.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x2048.size a ≤ S2048x2048.size a
  hwx7_4 : ∀ i : grid7.Coords, EltTy.bits .bf16 = 32 ∨ (Rect.block (s := S2048x2048) S512x2048.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S2048x1024.size a ≤ S2048x1024.size a
  hwx7_5 : ∀ i : grid7.Coords, EltTy.bits .bf16 = 32 ∨ (Rect.block (s := S2048x1024) S2048x1024.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S512x1.size a ≤ S2048x1.size a
  hwx7_6 : ∀ i : grid7.Coords, EltTy.bits .f32 = 32 ∨ (Rect.block (s := S2048x1) S512x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S512x1.size a ≤ S2048x1.size a
  hwx7_7 : ∀ i : grid7.Coords, EltTy.bits .f32 = 32 ∨ (Rect.block (s := S2048x1) S512x1.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S512x1.size a ≤ S2048x1.size a
  hwx7_8 : ∀ i : grid7.Coords, EltTy.bits .f32 = 32 ∨ (Rect.block (s := S2048x1) S512x1.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S512x1024.size a ≤ S2048x1024.size a
  hwx7_9 : ∀ i : grid7.Coords, EltTy.bits .f32 = 32 ∨ (Rect.block (s := S2048x1024) S512x1024.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S512x1024.size a ≤ S2048x1024.size a
  hwx7_10 : ∀ i : grid7.Coords, EltTy.bits .f32 = 32 ∨ (Rect.block (s := S2048x1024) S512x1024.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S2048x1024.size a
  hwx8_0 : ∀ i : grid8.Coords, EltTy.bits .f32 = 32 ∨ (Rect.block (s := S2048x1024) S1024x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x1024.size a ≤ S1024x1024.size a
  hwx8_1 : ∀ i : grid8.Coords, EltTy.bits .f32 = 32 ∨ (Rect.block (s := S1024x1024) S1024x1024.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x1024.size a
  hwx8_2 : ∀ i : grid8.Coords, EltTy.bits .f32 = 32 ∨ (Rect.block (s := S1x1024) S1x1024.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1024x1024.size a ≤ S1024x1024.size a
  hwx8_3 : ∀ i : grid8.Coords, EltTy.bits .f32 = 32 ∨ (Rect.block (s := S1024x1024) S1024x1024.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1024.size a ≤ S1x1024.size a
  hwx8_4 : ∀ i : grid8.Coords, EltTy.bits .f32 = 32 ∨ (Rect.block (s := S1x1024) S1x1024.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x1024.size a ≤ S2048x1024.size a
  hwx8_5 : ∀ i : grid8.Coords, EltTy.bits .bf16 = 32 ∨ (Rect.block (s := S2048x1024) S1024x1024.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1024x1024.size a ≤ S2048x1024.size a
  hwx8_6 : ∀ i : grid8.Coords, EltTy.bits .bf16 = 32 ∨ (Rect.block (s := S2048x1024) S1024x1024.size (cc8_transform_6 i) (hinb8_6 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x512.size a ≤ S2048x16384.size a
  hwx9_0 : ∀ i : grid9.Coords, EltTy.bits .bf16 = 32 ∨ (Rect.block (s := S2048x16384) S2048x512.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x512.size a ≤ S2048x16384.size a
  hwx9_1 : ∀ i : grid9.Coords, EltTy.bits .bf16 = 32 ∨ (Rect.block (s := S2048x16384) S2048x512.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S2048x1024.size a ≤ S2048x1024.size a
  hwx9_2 : ∀ i : grid9.Coords, EltTy.bits .bf16 = 32 ∨ (Rect.block (s := S2048x1024) S2048x1024.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2048x1024.size a ≤ S2048x1024.size a
  hwx9_3 : ∀ i : grid9.Coords, EltTy.bits .bf16 = 32 ∨ (Rect.block (s := S2048x1024) S2048x1024.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S512x1.size a ≤ S16384x1.size a
  hwx9_4 : ∀ i : grid9.Coords, EltTy.bits .f32 = 32 ∨ (Rect.block (s := S16384x1) S512x1.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S512x1.size a ≤ S16384x1.size a
  hwx9_5 : ∀ i : grid9.Coords, EltTy.bits .f32 = 32 ∨ (Rect.block (s := S16384x1) S512x1.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S512x1024.size a ≤ S16384x1024.size a
  hwx9_6 : ∀ i : grid9.Coords, EltTy.bits .f32 = 32 ∨ (Rect.block (s := S16384x1024) S512x1024.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S512x1024.size a ≤ S16384x1024.size a
  hwx9_7 : ∀ i : grid9.Coords, EltTy.bits .f32 = 32 ∨ (Rect.block (s := S16384x1024) S512x1024.size (cc9_transform_7 i) (hinb9_7 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S2048x512_S2048x1024_S512x1024_0_0_1_1_n_n : DotDims S2048x512 S2048x1024 S512x1024 where
  lhsContracting := [0]
  rhsContracting := [0]
  lhsNonContracting := [1]
  rhsNonContracting := [1]
  lhsBatch := []
  rhsBatch := []
  wf := dot_S2048x512_S2048x1024_S512x1024_0_0_1_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27_0) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27_1) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24) S512x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v29) S2048x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S512x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v7) S512x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v11) S512x1.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_arg0) S512x1024.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v30) S512x1024.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k2_cond2 i == 1#1) | ⟨_ + 11, h⟩ => absurd h (Nat.not_lt.2 (Nat.le_add_left _ _))

abbrev win3_0 : Pipeline.Window sig grid3 :=
  Pipeline.Window.ofSpec (Memref.whole main_arg0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33_0) S1024x1024.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v33_1) S1024x1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v22) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33_0) S2048x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33_1) S2048x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v16) S512x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v21) S512x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_arg1) S512x1024.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v34) S512x1024.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v34) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S1024x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v36) S1x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v37_0) S1024x1024.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v37_1) S1024x1024.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v30) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S1024x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v38) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v39) S1024x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v22) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v23) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v37_0) S512x1024.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v37_1) S512x1024.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v24) S512x2048.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v39) S2048x1024.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v3) S512x1.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v7) S512x1.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v11) S512x1.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v30) S512x1024.size cc7_transform_9 reads7_9 false false 2 stage7_9 sem7_9
    hrank7 hreads7_9 hinb7_9 nbuf7_9 (Memref.isWhole_whole _) hwx7_9 hstage7_9

abbrev win7_10 : Pipeline.Window sig grid7 :=
  Pipeline.Window.ofSpec (Memref.whole main_v40) S512x1024.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev idle7 : Fin 11 → grid7.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k7_cond2 i == 1#1) | ⟨_ + 11, h⟩ => absurd h (Nat.not_lt.2 (Nat.le_add_left _ _))

abbrev win8_0 : Pipeline.Window sig grid8 :=
  Pipeline.Window.ofSpec (Memref.whole main_v30) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg9) S1024x1024.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v41) S1x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg11) S1024x1024.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v42) S1x1024.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v43_0) S1024x1024.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v43_1) S1024x1024.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v22) S2048x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v23) S2048x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v43_0) S2048x1024.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v43_1) S2048x1024.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v16) S512x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v21) S512x1.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v34) S512x1024.size cc9_transform_6 reads9_6 false false 2 stage9_6 sem9_6
    hrank9 hreads9_6 hinb9_6 nbuf9_6 (Memref.isWhole_whole _) hwx9_6 hstage9_6

abbrev win9_7 : Pipeline.Window sig grid9 :=
  Pipeline.Window.ofSpec (Memref.whole main_v44) S512x1024.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S2048x1024 : Shape := ⟨2, ![2048, 1024]⟩
abbrev S16384x1024 : Shape := ⟨2, ![16384, 1024]⟩
abbrev S2048x16384 : Shape := ⟨2, ![2048, 16384]⟩
abbrev S2048x2048 : Shape := ⟨2, ![2048, 2048]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S16384x2048 : Shape := ⟨2, ![16384, 2048]⟩
abbrev S16384 : Shape := ⟨1, ![16384]⟩
abbrev S16384x1 : Shape := ⟨2, ![16384, 1]⟩

abbrev nBuf : Space → Nat
  | .hbm => 211
  | .vmem => 0
  | .smem => 0
  | _ => 0

abbrev hbmTy0_0 (i : Nat) : BufTy := match i % 128 with
  | 0 => ⟨S2048x1024, .f32⟩
  | 1 => ⟨S16384x1024, .f32⟩
  | 2 => ⟨S2048x16384, .f32⟩
  | 3 => ⟨S2048x16384, .f32⟩
  | 4 => ⟨S2048x2048, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S16384x1024, .f32⟩
  | 17 => ⟨S1x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S2048x1024, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S2048x1024, .f32⟩
  | 31 => ⟨S2048x1024, .f32⟩
  | 32 => ⟨S1024x1024, .f32⟩
  | 33 => ⟨S16384x1024, .f32⟩
  | 34 => ⟨S1x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S2048x1024, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S2048x1024, .f32⟩
  | 48 => ⟨S2048x1024, .f32⟩
  | 49 => ⟨S1024x1024, .f32⟩
  | 50 => ⟨S2048x1024, .f32⟩
  | 51 => ⟨S1x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S_, .f32⟩
  | 59 => ⟨S2048, .f32⟩
  | 60 => ⟨S2048x1, .f32⟩
  | 61 => ⟨S_, .f32⟩
  | 62 => ⟨S2048x1, .f32⟩
  | 63 => ⟨S2048x1, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S2048x1024, .f32⟩
  | 72 => ⟨S16384x2048, .f32⟩
  | 73 => ⟨S1024x1024, .f32⟩
  | 74 => ⟨S2048x1024, .f32⟩
  | 75 => ⟨S1x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S16384x1024, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S16384x1024, .f32⟩
  | 89 => ⟨S16384x1024, .f32⟩
  | 90 => ⟨S16384x2048, .f32⟩
  | 91 => ⟨S1024x1024, .f32⟩
  | 92 => ⟨S2048x1024, .f32⟩
  | 93 => ⟨S1x1024, .f32⟩
  | 94 => ⟨S2048x1024, .f32⟩
  | 95 => ⟨S2048x1024, .f32⟩
  | 96 => ⟨S_, .f32⟩
  | 97 => ⟨S2048x1024, .f32⟩
  | 98 => ⟨S2048x1024, .f32⟩
  | 99 => ⟨S16384x1024, .f32⟩
  | 100 => ⟨S_, .f32⟩
  | 101 => ⟨S16384, .f32⟩
  | 102 => ⟨S16384x1, .f32⟩
  | 103 => ⟨S_, .f32⟩
  | 104 => ⟨S16384x1, .f32⟩
  | 105 => ⟨S16384x1, .f32⟩
  | 106 => ⟨S16384x1024, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S16384x1024, .f32⟩
  | 113 => ⟨S1024x1024, .f32⟩
  | 114 => ⟨S16384x1024, .f32⟩
  | 115 => ⟨S1x1024, .f32⟩
  | 116 => ⟨S16384x1024, .f32⟩
  | 117 => ⟨S16384x1024, .f32⟩
  | 118 => ⟨S_, .f32⟩
  | 119 => ⟨S16384x1024, .f32⟩
  | 120 => ⟨S16384x1024, .f32⟩
  | 121 => ⟨S2048x1024, .f32⟩
  | 122 => ⟨S_, .f32⟩
  | 123 => ⟨S2048, .f32⟩
  | 124 => ⟨S2048x1, .f32⟩
  | 125 => ⟨S_, .f32⟩
  | 126 => ⟨S2048x1, .f32⟩
  | 127 => ⟨S2048x1, .f32⟩
  | _ => ⟨S2048x1024, .f32⟩

abbrev hbmTy0_1 (i : Nat) : BufTy := match i % 128 with
  | 0 => ⟨S2048x1024, .f32⟩
  | 1 => ⟨S2048x1024, .f32⟩
  | 2 => ⟨S1024x1024, .f32⟩
  | 3 => ⟨S16384x1024, .f32⟩
  | 4 => ⟨S1x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S2048x1024, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S2048x1024, .f32⟩
  | 18 => ⟨S2048x1024, .f32⟩
  | 19 => ⟨S1024x1024, .f32⟩
  | 20 => ⟨S2048x1024, .f32⟩
  | 21 => ⟨S1x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S2048x1024, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S16384x2048, .f32⟩
  | 43 => ⟨S1024x1024, .f32⟩
  | 44 => ⟨S2048x1024, .f32⟩
  | 45 => ⟨S1x1024, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x1024, .f32⟩
  | 59 => ⟨S16384x1024, .f32⟩
  | 60 => ⟨S16384x2048, .f32⟩
  | 61 => ⟨S1024x1024, .f32⟩
  | 62 => ⟨S2048x1024, .f32⟩
  | 63 => ⟨S1x1024, .f32⟩
  | 64 => ⟨S2048x1024, .f32⟩
  | 65 => ⟨S2048x1024, .f32⟩
  | 66 => ⟨S_, .f32⟩
  | 67 => ⟨S2048x1024, .f32⟩
  | 68 => ⟨S2048x1024, .f32⟩
  | 69 => ⟨S16384x1024, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S16384x1024, .f32⟩
  | 77 => ⟨S16384x1024, .f32⟩
  | 78 => ⟨S16384x1024, .f32⟩
  | 79 => ⟨S_, .f32⟩
  | 80 => ⟨S16384x1024, .f32⟩
  | 81 => ⟨S16384x1024, .f32⟩
  | 82 => ⟨S16384x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_cst : Ref sig .tc := ⟨.hbm, 37, rfl⟩
abbrev main_call1_v0 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call3_cst : Ref sig .tc := ⟨.hbm, 78, rfl⟩
abbrev main_call3_v0 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call4_cst : Ref sig .tc := ⟨.hbm, 96, rfl⟩
abbrev main_call4_v0 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_cst_9 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call5_cst : Ref sig .tc := ⟨.hbm, 118, rfl⟩
abbrev main_call5_v0 : Ref sig .tc := ⟨.hbm, 119, rfl⟩
abbrev main_v81 : Ref sig .tc := ⟨.hbm, 120, rfl⟩
abbrev main_v82 : Ref sig .tc := ⟨.hbm, 121, rfl⟩
abbrev main_cst_11 : Ref sig .tc := ⟨.hbm, 122, rfl⟩
abbrev main_v83 : Ref sig .tc := ⟨.hbm, 123, rfl⟩
abbrev main_v84 : Ref sig .tc := ⟨.hbm, 124, rfl⟩
abbrev main_cst_12 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call6_cst : Ref sig .tc := ⟨.hbm, 135, rfl⟩
abbrev main_call6_v0 : Ref sig .tc := ⟨.hbm, 136, rfl⟩
abbrev main_v94 : Ref sig .tc := ⟨.hbm, 137, rfl⟩
abbrev main_v95 : Ref sig .tc := ⟨.hbm, 138, rfl⟩
abbrev main_cst_13 : Ref sig .tc := ⟨.hbm, 139, rfl⟩
abbrev main_v96 : Ref sig .tc := ⟨.hbm, 140, rfl⟩
abbrev main_v97 : Ref sig .tc := ⟨.hbm, 141, rfl⟩
abbrev main_cst_14 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_call7_cst : Ref sig .tc := ⟨.hbm, 152, rfl⟩
abbrev main_call7_v0 : Ref sig .tc := ⟨.hbm, 153, rfl⟩
abbrev main_v107 : Ref sig .tc := ⟨.hbm, 154, rfl⟩
abbrev main_v108 : Ref sig .tc := ⟨.hbm, 155, rfl⟩
abbrev main_cst_15 : Ref sig .tc := ⟨.hbm, 156, rfl⟩
abbrev main_v109 : Ref sig .tc := ⟨.hbm, 157, rfl⟩
abbrev main_v110 : Ref sig .tc := ⟨.hbm, 158, rfl⟩
abbrev main_cst_16 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_17 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_call8_cst : Ref sig .tc := ⟨.hbm, 176, rfl⟩
abbrev main_call8_v0 : Ref sig .tc := ⟨.hbm, 177, rfl⟩
abbrev main_v126 : Ref sig .tc := ⟨.hbm, 178, rfl⟩
abbrev main_v127 : Ref sig .tc := ⟨.hbm, 179, rfl⟩
abbrev main_cst_18 : Ref sig .tc := ⟨.hbm, 180, rfl⟩
abbrev main_v128 : Ref sig .tc := ⟨.hbm, 181, rfl⟩
abbrev main_v129 : Ref sig .tc := ⟨.hbm, 182, rfl⟩
abbrev main_cst_19 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_call9_cst : Ref sig .tc := ⟨.hbm, 194, rfl⟩
abbrev main_call9_v0 : Ref sig .tc := ⟨.hbm, 195, rfl⟩
abbrev main_v140 : Ref sig .tc := ⟨.hbm, 196, rfl⟩
abbrev main_v141 : Ref sig .tc := ⟨.hbm, 197, rfl⟩
abbrev main_cst_20 : Ref sig .tc := ⟨.hbm, 198, rfl⟩
abbrev main_v142 : Ref sig .tc := ⟨.hbm, 199, rfl⟩
abbrev main_v143 : Ref sig .tc := ⟨.hbm, 200, rfl⟩
abbrev main_cst_21 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_22 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S2048x16384_S2048_d1 : S2048x16384.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  reducesTo_S2048x2048_S2048_d1 : S2048x2048.ReducesTo [1] S2048
  transposes_S2048x16384_S16384x2048_1_0 : S2048x16384.Transposes [1, 0] S16384x2048
  reducesTo_S16384x2048_S16384_d1 : S16384x2048.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []
  dot_S2048x16384_S16384x1024_S2048x1024_1_0_0_1_n_n_wf : DotDims.WF S2048x16384 S16384x1024 S2048x1024 [1] [0] [0] [1] [] []
  dot_S2048x1024_S1024x1024_S2048x1024_1_0_0_1_n_n_wf : DotDims.WF S2048x1024 S1024x1024 S2048x1024 [1] [0] [0] [1] [] []
  dot_S2048x2048_S2048x1024_S2048x1024_1_0_0_1_n_n_wf : DotDims.WF S2048x2048 S2048x1024 S2048x1024 [1] [0] [0] [1] [] []
  dot_S16384x2048_S2048x1024_S16384x1024_1_0_0_1_n_n_wf : DotDims.WF S16384x2048 S2048x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S2048x16384_S16384x1024_S2048x1024_1_0_0_1_n_n : DotDims S2048x16384 S16384x1024 S2048x1024 where
  lhsContracting := [1]
  rhsContracting := [0]
  lhsNonContracting := [0]
  rhsNonContracting := [1]
  lhsBatch := []
  rhsBatch := []
  wf := dot_S2048x16384_S16384x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.KB.Reg0.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_M : Rect S1024x1024 := Rect.unit (s := S1024x1024) ![0, 0] S1024x1024.size inb_S1024x1024_S1024x1024_0_0
abbrev r0_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out0_5 (x0 : Vec F S1024x1024 .f32) (x1 : Vec F S1024x1024 .f32) (x2 : Vec F S1x1024 .f32) : Vec F S1024x1024 .bf16 :=
  View.canon [⟨r0_M, k0_pay2 (View.ld x0 r0_M) (View.ld x1 r0_M) (View.ld x2 r0_B)⟩]

/-- Window 6's staging buffer after the body: its one store, of the rounded `max (x · w₂ᵀ + b₂) 0`, over the whole buffer. -/
def out0_6 (x0 : Vec F S1024x1024 .f32) (x3 : Vec F S1024x1024 .f32) (x4 : Vec F S1x1024 .f32) : Vec F S1024x1024 .bf16 :=
  View.canon [⟨r0_M, k0_pay3 (View.ld x0 r0_M) (View.ld x3 r0_M) (View.ld x4 r0_B)⟩]

/-- A store's rectangle is the whole buffer, so it covers it. -/
theorem cover0_5 (p0 : Vec F S1024x1024 .bf16) (y : S1024x1024.Idx) :
    ∃ pc ∈ ([⟨r0_M, p0⟩] : List (View.Piece (Elt F) S1024x1024 .bf16)), y ∈ pc.1.set :=
  View.cover_of_tiled [⟨r0_M, p0⟩] S1024x1024.size (by rfl) y
theorem cover0_6 (p0 : Vec F S1024x1024 .bf16) (y : S1024x1024.Idx) :
    ∃ pc ∈ ([⟨r0_M, p0⟩] : List (View.Piece (Elt F) S1024x1024 .bf16)), y ∈ pc.1.set :=
  View.cover_of_tiled [⟨r0_M, p0⟩] S1024x1024.size (by rfl) y

/-! ## The body's triple -/

set_option maxHeartbeats 1000000 in
/-- The kernel body on whole staging memrefs, the inputs' at read contents `xW` and the outputs' at anything, runs to
    the continuation holding the inputs' as they were and each output's at `out0_W` of the inputs'. The body also
    loads each output buffer before storing to it; the loaded values are not used. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__fc2_kernel i arg1 harg1 arg2 harg2 arg3 harg3 arg4 harg4 arg5 harg5 arg6 harg6 arg7 harg7) K := by
  simp only [cc0__fc2_kernel_eq_skeleton]; unfold cc0__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KB.Reg1.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_M : Rect S1024x1024 := Rect.unit (s := S1024x1024) ![0, 0] S1024x1024.size inb_S1024x1024_S1024x1024_0_0
abbrev r1_B : Rect S1x1024 := Rect.unit (s := S1x1024) ![0, 0] S1x1024.size inb_S1x1024_S1x1024_0_0

/-! ## What the body leaves in the output window's buffer -/

/-- Window 3's staging buffer after the body, from the input windows' blocks: its one store, of the rounded
    `max (x · wᵀ + b) 0`, over the whole buffer. -/
def out1_3 (x0 : Vec F S1024x1024 .f32) (x1 : Vec F S1024x1024 .f32) (x2 : Vec F S1x1024 .f32) : Vec F S1024x1024 .bf16 :=
  View.canon [⟨r1_M, k1_pay1 (View.ld x0 r1_M) (View.ld x1 r1_M) (View.ld x2 r1_B)⟩]

/-- The store's rectangle is the whole buffer, so it covers it. -/
theorem cover1_3 (p0 : Vec F S1024x1024 .bf16) (y : S1024x1024.Idx) :
    ∃ pc ∈ ([⟨r1_M, p0⟩] : List (View.Piece (Elt F) S1024x1024 .bf16)), y ∈ pc.1.set :=
  View.cover_of_tiled [⟨r1_M, p0⟩] S1024x1024.size (by rfl) y

/-! ## The body's triple -/

set_option maxHeartbeats 1000000 in
/-- The kernel body on whole staging memrefs, the inputs' at read contents `xW` and the output's at anything, runs to
    the continuation holding the inputs' as they were and the output's at `out1_3` of the inputs'. The body also
    loads the output buffer before storing to it; the loaded value is not used. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KB.Reg2K.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of this body goes through the rectangle of the buffer's own sizes at zero offsets: such a load
reads the contents, such a store leaves its payload. -/

theorem hz2 : (![0, 0] : Fin 2 → ℕ) = fun _ => 0 := by funext a; fin_cases a <;> rfl

section Whole
variable {sig' : RefSig} {κ : Kind} {sp : Space} {S : Shape} {e : EltTy} {Val : EltTy → Type}

/-- A load through the whole-shape rectangle reads the contents. -/
theorem readAt_unit (v : View sig' κ sp S e) {off : Fin S.rank → Nat} (h : off = fun _ => 0)
    (inb : ∀ a, off a + S.size a ≤ S.size a) (f : v.ty.Contents Val) :
    v.readAt Val (Rect.unit off S.size inb).toLoadRect f = v.read Val f := by
  show View.ld (v.read Val f) (Rect.unit off S.size inb) = _
  exact View.ld_unit_zero h inb _

/-- A store through it, last, leaves its payload. -/
theorem read_writes_cons_unit [∀ e, Nonempty (Val e)] (v : View sig' κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load through it after a store through it reads the payload. -/
theorem readCov_cons_unit [∀ e, Nonempty (Val e)] (v : View sig' κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h inb]
end Whole

/-! ## The body's branch conditions -/

/-- The condition of the body's first `scf.if` (zero the accumulators, compute the self term), from the grid
    coordinates (the skeleton's scalar chain substituted). -/
abbrev cond2_1 (i : grid2.Coords) : Prop := (Scalar.cmpi .ne (Scalar.extui (Scalar.cmpi .eq (BitVec.ofNat 32 (i 1).val) 0#32)) 0#32) = 1#1

/-! ## The body's triple, case by case

The body on whole staging and scratch memrefs at known contents. Case A: the first point of a row (the accumulators
are zeroed and the self term computed, then the two products are added). Case B: a middle point (the two products are
added). Case C: the last point of a row (the two products are added, then the output block is computed and stored). -/

set_option maxHeartbeats 1000000 in
theorem sound_kernel2_A (c : Dev nD) (E : Set ℕ) (i : grid2.Coords) (hc1 : cond2_1 i) (hc2 : ¬ k2_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k2_pay4 x0 x2 k2_pay1) ∗ owns (c : Thread nD τ) arg14 fullShare (k2_pay5 x1 x3 k2_pay2) ∗ owns (c : Thread nD τ) arg15 fullShare (k2_pay3 x4 x5 x8)) -∗ K ⟨⟩))
      ⊢ wp frame (wpE (defs₀ (F := F)) Variants.none c none) E
          (cc2__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__obj_combine_kernel_eq_skeleton]; unfold cc2__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr
  swap; · iexact G2
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

set_option maxHeartbeats 1000000 in
theorem sound_kernel2_B (c : Dev nD) (E : Set ℕ) (i : grid2.Coords) (hc1 : ¬ cond2_1 i) (hc2 : ¬ k2_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k2_pay4 x0 x2 s0) ∗ owns (c : Thread nD τ) arg14 fullShare (k2_pay5 x1 x3 s1) ∗ owns (c : Thread nD τ) arg15 fullShare s2) -∗ K ⟨⟩))
      ⊢ wp frame (wpE (defs₀ (F := F)) Variants.none c none) E
          (cc2__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__obj_combine_kernel_eq_skeleton]; unfold cc2__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr; · ipureintro; rfl
  iexact G2

set_option maxHeartbeats 1000000 in
theorem sound_kernel2_C (c : Dev nD) (E : Set ℕ) (i : grid2.Coords) (hc1 : ¬ cond2_1 i) (hc2 : k2_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k2_pay4 x0 x2 s0) ∗ owns (c : Thread nD τ) arg14 fullShare (k2_pay5 x1 x3 s1) ∗ owns (c : Thread nD τ) arg15 fullShare s2
            ∗ owns (c : Thread nD τ) arg12 fullShare (k2_pay6 (k2_pay4 x0 x2 s0) x6 (k2_pay5 x1 x3 s1) x7 s2 x9)) -∗ K ⟨⟩))
      ⊢ wp frame (wpE (defs₀ (F := F)) Variants.none c none) E
          (cc2__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__obj_combine_kernel_eq_skeleton]; unfold cc2__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%d12, %f12, -, H12⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G2]
  · iexists _; isplitr; · ipureintro; rfl
    iexact G2
  iexists _; isplitr
  swap; · iexact H12
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

end Cert.Kernel.Hand

end
-- ==== Proof.KB.Reg2.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import proofs.«152197_j87351044866369_2_alg».proof.Proof.KB.Reg2K
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # REGION 2 of @main: custom_call 2, `cc2__obj_combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for any proof
    data whose array is `V`'s and whose body leaves the block in place: the windows are uncut and never idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The closed forms of the branch conditions -/

/-- The first `scf.if` is taken at the first point of each row of the grid — decided over the grid. -/
theorem hcond2_1 : ∀ t : Fin cfg2.N, cond2_1 (grid2.coords t) ↔ t.val % 32 = 0 :=
  (by decide +kernel : ∀ t : Fin grid2.N, cond2_1 (grid2.coords t) ↔ t.val % 32 = 0)
/-- The second at the last point of each row. -/
theorem hcond2_2 : ∀ t : Fin cfg2.N, k2_cond2 (grid2.coords t) = 1#1 ↔ t.val % 32 = 31 :=
  (by decide +kernel : ∀ t : Fin grid2.N, k2_cond2 (grid2.coords t) = 1#1 ↔ t.val % 32 = 31)

/-! ## The scratch buffers from point to point -/

/-- The three scratch memrefs, as the pipeline passes them to the body. -/
abbrev sm2_0 : Memref sig .tc .vmem S512x1024 .f32 := Memref.whole cc2_scratch0
abbrev sm2_1 : Memref sig .tc .vmem S512x1024 .f32 := Memref.whole cc2_scratch1
abbrev sm2_2 : Memref sig .tc .vmem S512x1024 .f32 := Memref.whole cc2_scratch2

/-- The contents of the three scratch buffers: the two accumulators and the self term. -/
abbrev Scr (F : FTy → Type) [FloatOps F] := Vec F S512x1024 .f32 × Vec F S512x1024 .f32 × Vec F S512x1024 .f32

/-- What the first point of a row leaves in them: each accumulator at its product added to zero, the self term computed. -/
def stepA2 (c : Dev nD) (t : Fin cfg2.N) : Scr F :=
  (k2_pay4 (iblk2 V c 0 t) (iblk2 V c 2 t) k2_pay1, k2_pay5 (iblk2 V c 1 t) (iblk2 V c 3 t) k2_pay2,
    k2_pay3 (iblk2 V c 4 t) (iblk2 V c 5 t) (iblk2 V c 8 t))

/-- What a later point of a row leaves in them, over what the point before left: each accumulator with its product added, the self term kept. -/
def stepB2 (c : Dev nD) (t : Fin cfg2.N) (s : Scr F) : Scr F :=
  (k2_pay4 (iblk2 V c 0 t) (iblk2 V c 2 t) s.1, k2_pay5 (iblk2 V c 1 t) (iblk2 V c 3 t) s.2.1, s.2.2)

/-- THE ACCUMULATION. What the scratch buffers hold after the body at position `n`. -/
def scr2 (c : Dev nD) : (n : ℕ) → n < cfg2.N → Scr F
  | 0, hn => stepA2 V c ⟨0, hn⟩
  | n + 1, hn =>
    if h0 : (n + 1) % 32 = 0 then stepA2 V c ⟨n + 1, hn⟩
    else stepB2 V c ⟨n + 1, hn⟩ (scr2 c n (Nat.lt_of_succ_lt hn))

/-- `scr2` at the first point of a row. -/
theorem scr2_A (c : Dev nD) (t : Fin cfg2.N) (h0 : t.val % 32 = 0) : scr2 V c t.val t.isLt = stepA2 V c t := by
  obtain ⟨n, hn⟩ := t
  cases n with
  | zero => exact rfl
  | succ n => exact (dif_pos h0).trans rfl

/-- `scr2` at a later point of a row. -/
theorem scr2_B (c : Dev nD) (t : Fin cfg2.N) (h0 : ¬t.val % 32 = 0) :
    scr2 V c t.val t.isLt = stepB2 V c t (scr2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The scratch buffers before position `n`: at anything before the first point, else at what the point before left. -/
def scrAt2 (c : Dev nD) : (n : ℕ) → n ≤ cfg2.N → sProp 𝕄
  | 0, _ => iprop(∃ f0 f1 f2 : Vec F S512x1024 .f32, owns (c : Thread nD τ) sm2_0 fullShare f0 ∗ owns (c : Thread nD τ) sm2_1 fullShare f1 ∗ owns (c : Thread nD τ) sm2_2 fullShare f2)
  | n + 1, hn => iprop(owns (c : Thread nD τ) sm2_0 fullShare (scr2 V c n hn).1 ∗ owns (c : Thread nD τ) sm2_1 fullShare (scr2 V c n hn).2.1 ∗ owns (c : Thread nD τ) sm2_2 fullShare (scr2 V c n hn).2.2)

/-- At any position they are held at some contents. -/
theorem scrAt2_any (c : Dev nD) (n : ℕ) (hn : n ≤ cfg2.N) :
    scrAt2 V c n hn ⊢ iprop(∃ f0 f1 f2 : Vec F S512x1024 .f32, owns (c : Thread nD τ) sm2_0 fullShare f0 ∗ owns (c : Thread nD τ) sm2_1 fullShare f1 ∗ owns (c : Thread nD τ) sm2_2 fullShare f2) := by
  cases n with
  | zero => exact .rfl
  | succ n =>
    unfold scrAt2
    iintro ⟨H0, H1, H2⟩
    iexists _, _, _
    isplitl [H0]; · iexact H0
    isplitl [H1]; · iexact H1
    iexact H2

/-- After the first point they are held at what the point before left. -/
theorem scrAt2_pos (c : Dev nD) (t : Fin cfg2.N) (h0 : t.val ≠ 0) :
    scrAt2 V c t.val (Nat.le_of_lt t.isLt)
      = iprop(owns (c : Thread nD τ) sm2_0 fullShare (scr2 V c (t.val - 1) (Nat.lt_of_le_of_lt (Nat.sub_le _ _) t.isLt)).1
          ∗ owns (c : Thread nD τ) sm2_1 fullShare (scr2 V c (t.val - 1) (Nat.lt_of_le_of_lt (Nat.sub_le _ _) t.isLt)).2.1
          ∗ owns (c : Thread nD τ) sm2_2 fullShare (scr2 V c (t.val - 1) (Nat.lt_of_le_of_lt (Nat.sub_le _ _) t.isLt)).2.2) := by
  obtain ⟨n, hn⟩ := t
  cases n with
  | zero => exact absurd rfl h0
  | succ n => rfl

/-! ## The pipeline's proof data -/

/-- What the last point of a row stores in the output block, from the scratch buffers as that point leaves them. -/
def out2_10 (c : Dev nD) (t : Fin cfg2.N) : Vec F S512x1024 .f32 :=
  k2_pay6 (scr2 V c t.val t.isLt).1 (iblk2 V c 6 t) (scr2 V c t.val t.isLt).2.1 (iblk2 V c 7 t) (scr2 V c t.val t.isLt).2.2 (iblk2 V c 9 t)

/-- The invariant before position `n`: the three scratch buffers at what the points before left (`scrAt2`), the other
    scoped buffers at some contents each, the generator register at some state. -/
def Φ2 (c : Dev nD) (n : ℕ) (hn : n ≤ cfg2.N) : sProp 𝕄 :=
  iprop(scrAt2 V c n hn ∗ Pipeline.scopedRestBut (Ix := Unit) (Name := ℕ) (U := UR sig nD τ) (Lvl := ℕ) (Val := Elt F) spec2 c [cc2_scratch0, cc2_scratch1, cc2_scratch2] ∗ ∃ r, prngReg c r)

/-- The proof data of pipeline 2 on core `c`: the arrays as the region finds them (`V`); after the body at point `t`
    each input's buffer at its block and the output's at `out2_10` (consulted at the last point of a row only: at the
    others the window is idle and its buffer is left as found); the invariant `Φ2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 V c t
  Φ t := Φ2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- The invariant before and after a point. -/
theorem Φ2_castSucc (c : Dev nD) (t : Fin cfg2.N) : (dat2 V c).Φ t.castSucc = Φ2 V c t.val (Nat.le_of_lt t.isLt) := rfl
theorem Φ2_succ (c : Dev nD) (t : Fin cfg2.N) : (dat2 V c).Φ t.succ = Φ2 V c (t.val + 1) t.isLt := rfl

/-- ENTRY: the scoped rest split at the three scratch buffers, each at some contents, with the generator register. -/
theorem Φ2_in (c : Dev nD) : iprop((∃ r, prngReg c r) ∗ Pipeline.scopedRest (Ix := Unit) (Name := ℕ) (U := UR sig nD τ) (Lvl := ℕ) (Val := Elt F) spec2 c) ⊢ (dat2 V c).Φ 0 := by
  rw [scopedRest2_split, show (dat2 V c).Φ 0 = Φ2 V c 0 (Nat.zero_le _) from rfl]
  unfold Φ2 scrAt2
  iintro ⟨Hr, ⟨⟨%f0, H0⟩, ⟨%f1, H1⟩, ⟨%f2, H2⟩⟩, HR⟩
  isplitl [H0 H1 H2]
  · iexists f0, f1, f2
    rw [owns_whole, owns_whole, owns_whole]
    isplitl [H0]; · iexact H0
    isplitl [H1]; · iexact H1
    iexact H2
  isplitl [HR]; · iexact HR
  iexact Hr

/-- EXIT: the same back. -/
theorem Φ2_out (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [scopedRest2_split, show (dat2 V c).Φ (Fin.last cfg2.N) = Φ2 V c cfg2.N (Nat.le_refl _) from rfl]
  unfold Φ2
  iintro ⟨Hs, HR, Hr⟩
  ihave Hs' := scrAt2_any V c cfg2.N (Nat.le_refl _) $$ Hs
  icases Hs' with ⟨%f0, %f1, %f2, H0, H1, H2⟩
  ihave H0' := (Entails.of_eq (owns_whole (c : Thread nD τ) cc2_scratch0 fullShare f0)) $$ H0
  ihave H1' := (Entails.of_eq (owns_whole (c : Thread nD τ) cc2_scratch1 fullShare f1)) $$ H1
  ihave H2' := (Entails.of_eq (owns_whole (c : Thread nD τ) cc2_scratch2 fullShare f2)) $$ H2
  isplitl [Hr]; · iexact Hr
  isplitr [HR]
  · isplitl [H0']; · iexists f0; iexact H0'
    isplitl [H1']; · iexists f1; iexact H1'
    iexists f2; iexact H2'
  iexact HR

/-! ## The body obligation, at a generic point -/

/-- A window live at a point is left at what the body leaves. -/
theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns: the output window, idle off the last point of a row, as the library states it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ (dat2 V c).leavesExact 10 t)

set_option maxHeartbeats 2000000 in
/-- The body at any point: the inputs' memrefs hold their blocks; the closed forms say which case the point is in;
    the scratch buffers hold what the point before left (anything, before a row's first point); so the case's triple
    applies; the rest of the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [Φ2_castSucc, Φ2_succ, show (dat2 V c).owesAt () t.succ = (dat2 V c).owesAt () t.castSucc from rfl,
    after2_0, after2_1, after2_2, after2_3, after2_4, after2_5, after2_6, after2_7, after2_8, after2_9]
  unfold Φ2
  have hN : t.val < 128 := lt_of_lt_of_eq t.isLt (show cfg2.N = 128 from N_2)
  rw [show scrAt2 V c (t.val + 1) t.isLt = iprop(owns (c : Thread nD τ) sm2_0 fullShare (scr2 V c t.val t.isLt).1
      ∗ owns (c : Thread nD τ) sm2_1 fullShare (scr2 V c t.val t.isLt).2.1 ∗ owns (c : Thread nD τ) sm2_2 fullShare (scr2 V c t.val t.isLt).2.2) from rfl]
  by_cases h0 : t.val % 32 = 0
  · have hc1 : cond2_1 (grid2.coords t) := (hcond2_1 t).mpr h0
    have hc2 : ¬ k2_cond2 (grid2.coords t) = 1#1 := fun h => by have := (hcond2_2 t).mp h; omega
    have hidle : cfg2.idle 10 (cfg2.grid.coords t) = true := by
      show (!(k2_cond2 (grid2.coords t) == 1#1)) = true
      rw [Bool.not_eq_true', beq_eq_false_iff_ne]; exact hc2
    have hflush : (cfg2.win 10).flush t = false := Bool.eq_false_iff.mpr fun h => by have := (flush2_10 t).mp h; omega
    rw [Dat.leavesExact_idle _ 10 t hidle hflush, scr2_A V c t h0]
    dsimp only [stepA2]
    iintro ⟨⟨Hs, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    ihave Hs' := scrAt2_any V c t.val _ $$ Hs
    icases Hs' with ⟨%f0, %f1, %f2, S0, S1, S2⟩
    iapply (sound_kernel2_A c Set.univ (grid2.coords t) hc1 hc2 _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) f0 f1 f2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR Hr]
    · isplitl [S0 S1 S2]
      · isplitl [S0]; · iexact S0
        isplitl [S1]; · iexact S1
        iexact S2
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc1 : ¬ cond2_1 (grid2.coords t) := fun h => h0 ((hcond2_1 t).mp h)
    have ht0 : t.val ≠ 0 := fun h => h0 (by rw [h])
    rw [scrAt2_pos V c t ht0, scr2_B V c t h0]
    dsimp only [stepB2]
    by_cases h31 : t.val % 32 = 31
    · have hc2 : k2_cond2 (grid2.coords t) = 1#1 := (hcond2_2 t).mpr h31
      have hidle : cfg2.idle 10 (cfg2.grid.coords t) = false := by
        show (!(k2_cond2 (grid2.coords t) == 1#1)) = false
        rw [hc2]; rfl
      rw [leavesExact_live _ 10 t hidle, after2_10]
      unfold out2_10
      rw [scr2_B V c t h0]
      dsimp only [stepB2]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_C c Set.univ (grid2.coords t) hc1 hc2 _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [H10]; · iexists _; iexact H10
      iintro ⟨H0, H1, H2, H3, H4, H5, H6, H7, H8, H9, S0, S1, S2, H10⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc2 : ¬ k2_cond2 (grid2.coords t) = 1#1 := fun h => h31 ((hcond2_2 t).mp h)
      have hidle : cfg2.idle 10 (cfg2.grid.coords t) = true := by
        show (!(k2_cond2 (grid2.coords t) == 1#1)) = true
        rw [Bool.not_eq_true', beq_eq_false_iff_ne]; exact hc2
      have hflush : (cfg2.win 10).flush t = false := Bool.eq_false_iff.mpr fun h => h31 ((flush2_10 t).mp h)
      rw [Dat.leavesExact_idle _ 10 t hidle hflush]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel2_B c Set.univ (grid2.coords t) hc1 hc2 _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      iintro ⟨H0, H1, H2, H3, H4, H5, H6, H7, H8, H9, S0, S1, S2⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KB.Reg3.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_M : Rect S1024x1024 := Rect.unit (s := S1024x1024) ![0, 0] S1024x1024.size inb_S1024x1024_S1024x1024_0_0
abbrev r3_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out3_5 (x0 : Vec F S1024x1024 .f32) (x1 : Vec F S1024x1024 .f32) (x2 : Vec F S1x1024 .f32) : Vec F S1024x1024 .bf16 :=
  View.canon [⟨r3_M, k3_pay2 (View.ld x0 r3_M) (View.ld x1 r3_M) (View.ld x2 r3_B)⟩]

/-- Window 6's staging buffer after the body: its one store, of the rounded `max (x · w₂ᵀ + b₂) 0`, over the whole buffer. -/
def out3_6 (x0 : Vec F S1024x1024 .f32) (x3 : Vec F S1024x1024 .f32) (x4 : Vec F S1x1024 .f32) : Vec F S1024x1024 .bf16 :=
  View.canon [⟨r3_M, k3_pay3 (View.ld x0 r3_M) (View.ld x3 r3_M) (View.ld x4 r3_B)⟩]

/-- A store's rectangle is the whole buffer, so it covers it. -/
theorem cover3_5 (p0 : Vec F S1024x1024 .bf16) (y : S1024x1024.Idx) :
    ∃ pc ∈ ([⟨r3_M, p0⟩] : List (View.Piece (Elt F) S1024x1024 .bf16)), y ∈ pc.1.set :=
  View.cover_of_tiled [⟨r3_M, p0⟩] S1024x1024.size (by rfl) y
theorem cover3_6 (p0 : Vec F S1024x1024 .bf16) (y : S1024x1024.Idx) :
    ∃ pc ∈ ([⟨r3_M, p0⟩] : List (View.Piece (Elt F) S1024x1024 .bf16)), y ∈ pc.1.set :=
  View.cover_of_tiled [⟨r3_M, p0⟩] S1024x1024.size (by rfl) y

/-! ## The body's triple -/

set_option maxHeartbeats 1000000 in
/-- The kernel body on whole staging memrefs, the inputs' at read contents `xW` and the outputs' at anything, runs to
    the continuation holding the inputs' as they were and each output's at `out3_W` of the inputs'. The body also
    loads each output buffer before storing to it; the loaded values are not used. -/
theorem sound_kernel3 (c : Dev nD) (E : Set ℕ) (i : grid3.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2) ∗ owns (c : Thread nD τ) arg7 fullShare (out3_6 x0 x3 x4)) -∗ K ⟨⟩))
      ⊢ wp frame (wpE (defs₀ (F := F)) Variants.none c none) E (cc3__fc2_kernel i arg1 harg1 arg2 harg2 arg3 harg3 arg4 harg4 arg5 harg5 arg6 harg6 arg7 harg7) K := by
  simp only [cc3__fc2_kernel_eq_skeleton]; unfold cc3__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and each output's at `out3_W` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t)
    | ⟨6, _⟩ => out3_6 (iblk3 V c 0 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) := by dsimp only [dat3]
theorem after3_6 (c : Dev nD) (t : Fin cfg3.N) : (dat3 V c).after 6 t = out3_6 (iblk3 V c 0 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KB.Reg4.lean ====
/- Region 4 of the kernel program, the relation-side combine (`cc4__rel_combine_kernel`, pipeline 4), at a
   PARAMETER `V` — the TensorCore's buffer contents when the region is entered: each window's block at a point
   (`iblk4`), what the body leaves in the output window's buffer (`out4_7`), the body's triple (`sound_kernel4`),
   the pipeline's proof data (`dat4`) and its body obligation (`body_obligation4`). Generic in the float model. -/
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block index
    has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block index
    has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block index
    has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the block index
    has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the block index
    has not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the block index
    has not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2048x512 := Rect.unit (s := S2048x512) ![0, 0] S2048x512.size inb_S2048x512_S2048x512_0_0
abbrev r4_1 : Rect S2048x1024 := Rect.unit (s := S2048x1024) ![0, 0] S2048x1024.size inb_S2048x1024_S2048x1024_0_0
abbrev r4_2 : Rect S512x1 := Rect.unit (s := S512x1) ![0, 0] S512x1.size inb_S512x1_S512x1_0_0
abbrev r4_3 : Rect S512x1024 := Rect.unit (s := S512x1024) ![0, 0] S512x1024.size inb_S512x1024_S512x1024_0_0

/-! ## What the body leaves in the output window's buffer -/

/-- Window 7's staging buffer after the body, from the input windows' blocks: its one store, of the payload at the
    seven loaded blocks (the two attention blocks, the two projected feature arrays, the two denominators and the
    relation features). -/
def out4_7 (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) : Vec F S512x1024 .f32 :=
  View.canon [⟨r4_3, k4_pay1 (View.ld x0 r4_0) (View.ld x2 r4_1) (View.ld x4 r4_2) (View.ld x1 r4_0) (View.ld x3 r4_1) (View.ld x5 r4_2) (View.ld x6 r4_3)⟩]

/-- The store is of the whole buffer, so it covers it. -/
theorem cover4_7 (p0 : Vec F S512x1024 .f32) (y : S512x1024.Idx) :
    ∃ pc ∈ ([⟨r4_3, p0⟩] : List (View.Piece (Elt F) S512x1024 .f32)), y ∈ pc.1.set :=
  View.cover_of_tiled [⟨r4_3, p0⟩] S512x1024.size (by rfl) y

/-! ## The body's triple -/

set_option maxHeartbeats 4000000 in
/-- The kernel body on whole staging memrefs, the inputs' at read contents `xW` and the output's at anything, runs to
    the continuation holding the inputs' as they were and the output's at `out4_7` of the inputs'. The body also
    loads the output's buffer before storing to it; the loaded value is not used. -/
theorem sound_kernel4 (c : Dev nD) (E : Set ℕ) (i : grid4.Coords) (arg1 : Memref sig .tc .vmem S2048x512 .bf16) (harg1 : arg1.IsWhole) (arg2 : Memref sig .tc .vmem S2048x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__rel_combine_kernel i arg1 harg1 arg2 harg2 arg3 harg3 arg4 harg4 arg5 harg5 arg6 harg6 arg7 harg7 arg8 harg8) K := by
  simp only [cc4__rel_combine_kernel_eq_skeleton]; unfold cc4__rel_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the untouched
    scoped rest and generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks, so `sound_kernel4` applies; the invariant and the
    core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KB.Reg5.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_M : Rect S1024x1024 := Rect.unit (s := S1024x1024) ![0, 0] S1024x1024.size inb_S1024x1024_S1024x1024_0_0
abbrev r5_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out5_5 (x0 : Vec F S1024x1024 .f32) (x1 : Vec F S1024x1024 .f32) (x2 : Vec F S1x1024 .f32) : Vec F S1024x1024 .bf16 :=
  View.canon [⟨r5_M, k5_pay2 (View.ld x0 r5_M) (View.ld x1 r5_M) (View.ld x2 r5_B)⟩]

/-- Window 6's staging buffer after the body: its one store, of the rounded `max (x · w₂ᵀ + b₂) 0`, over the whole buffer. -/
def out5_6 (x0 : Vec F S1024x1024 .f32) (x3 : Vec F S1024x1024 .f32) (x4 : Vec F S1x1024 .f32) : Vec F S1024x1024 .bf16 :=
  View.canon [⟨r5_M, k5_pay3 (View.ld x0 r5_M) (View.ld x3 r5_M) (View.ld x4 r5_B)⟩]

/-- A store's rectangle is the whole buffer, so it covers it. -/
theorem cover5_5 (p0 : Vec F S1024x1024 .bf16) (y : S1024x1024.Idx) :
    ∃ pc ∈ ([⟨r5_M, p0⟩] : List (View.Piece (Elt F) S1024x1024 .bf16)), y ∈ pc.1.set :=
  View.cover_of_tiled [⟨r5_M, p0⟩] S1024x1024.size (by rfl) y
theorem cover5_6 (p0 : Vec F S1024x1024 .bf16) (y : S1024x1024.Idx) :
    ∃ pc ∈ ([⟨r5_M, p0⟩] : List (View.Piece (Elt F) S1024x1024 .bf16)), y ∈ pc.1.set :=
  View.cover_of_tiled [⟨r5_M, p0⟩] S1024x1024.size (by rfl) y

/-! ## The body's triple -/

set_option maxHeartbeats 1000000 in
/-- The kernel body on whole staging memrefs, the inputs' at read contents `xW` and the outputs' at anything, runs to
    the continuation holding the inputs' as they were and each output's at `out5_W` of the inputs'. The body also
    loads each output buffer before storing to it; the loaded values are not used. -/
theorem sound_kernel5 (c : Dev nD) (E : Set ℕ) (i : grid5.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2) ∗ owns (c : Thread nD τ) arg7 fullShare (out5_6 x0 x3 x4)) -∗ K ⟨⟩))
      ⊢ wp frame (wpE (defs₀ (F := F)) Variants.none c none) E (cc5__fc2_kernel i arg1 harg1 arg2 harg2 arg3 harg3 arg4 harg4 arg5 harg5 arg6 harg6 arg7 harg7) K := by
  simp only [cc5__fc2_kernel_eq_skeleton]; unfold cc5__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and each output's at `out5_W` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t)
    | ⟨6, _⟩ => out5_6 (iblk5 V c 0 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) := by dsimp only [dat5]
theorem after5_6 (c : Dev nD) (t : Fin cfg5.N) : (dat5 V c).after 6 t = out5_6 (iblk5 V c 0 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.KB.Reg6.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: unfetched, the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_M : Rect S1024x1024 := Rect.unit (s := S1024x1024) ![0, 0] S1024x1024.size inb_S1024x1024_S1024x1024_0_0
abbrev r6_B : Rect S1x1024 := Rect.unit (s := S1x1024) ![0, 0] S1x1024.size inb_S1x1024_S1x1024_0_0

/-! ## What the body leaves in the output window's buffer -/

/-- Window 3's staging buffer after the body, from the input windows' blocks: its one store, of the rounded
    `max (x · wᵀ + b) 0`, over the whole buffer. -/
def out6_3 (x0 : Vec F S1024x1024 .f32) (x1 : Vec F S1024x1024 .f32) (x2 : Vec F S1x1024 .f32) : Vec F S1024x1024 .bf16 :=
  View.canon [⟨r6_M, k6_pay1 (View.ld x0 r6_M) (View.ld x1 r6_M) (View.ld x2 r6_B)⟩]

/-- The store's rectangle is the whole buffer, so it covers it. -/
theorem cover6_3 (p0 : Vec F S1024x1024 .bf16) (y : S1024x1024.Idx) :
    ∃ pc ∈ ([⟨r6_M, p0⟩] : List (View.Piece (Elt F) S1024x1024 .bf16)), y ∈ pc.1.set :=
  View.cover_of_tiled [⟨r6_M, p0⟩] S1024x1024.size (by rfl) y

/-! ## The body's triple -/

set_option maxHeartbeats 1000000 in
/-- The kernel body on whole staging memrefs, the inputs' at read contents `xW` and the output's at anything, runs to
    the continuation holding the inputs' as they were and the output's at `out6_3` of the inputs'. The body also
    loads the output buffer before storing to it; the loaded value is not used. -/
theorem sound_kernel6 (c : Dev nD) (E : Set ℕ) (i : grid6.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__fc_kernel i arg1 harg1 arg2 harg2 arg3 harg3 arg4 harg4) K := by
  simp only [cc6__fc_kernel_eq_skeleton]; unfold cc6__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at
    point `t` each input's buffer at its block and the output's at `out6_3` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.Reg7K.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import proofs.«152197_j87351044866369_2_alg».proof.Proof.KB.Reg2K
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (zero the accumulators, compute the self term), from the grid
    coordinates (the skeleton's scalar chain substituted). -/
abbrev cond7_1 (i : grid7.Coords) : Prop := (Scalar.cmpi .ne (Scalar.extui (Scalar.cmpi .eq (BitVec.ofNat 32 (i 1).val) 0#32)) 0#32) = 1#1

/-! ## The body's triple, case by case

The body on whole staging and scratch memrefs at known contents. Case A: the first point of a row (the accumulators
are zeroed and the self term computed, then the two products are added). Case B: a middle point (the two products are
added). Case C: the last point of a row (the two products are added, then the output block is computed and stored). -/

set_option maxHeartbeats 1000000 in
theorem sound_kernel7_A (c : Dev nD) (E : Set ℕ) (i : grid7.Coords) (hc1 : cond7_1 i) (hc2 : ¬ k7_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k7_pay4 x0 x2 k7_pay1) ∗ owns (c : Thread nD τ) arg14 fullShare (k7_pay5 x1 x3 k7_pay2) ∗ owns (c : Thread nD τ) arg15 fullShare (k7_pay3 x4 x5 x8)) -∗ K ⟨⟩))
      ⊢ wp frame (wpE (defs₀ (F := F)) Variants.none c none) E
          (cc7__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc7__obj_combine_kernel_eq_skeleton]; unfold cc7__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr
  swap; · iexact G2
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

set_option maxHeartbeats 1000000 in
theorem sound_kernel7_B (c : Dev nD) (E : Set ℕ) (i : grid7.Coords) (hc1 : ¬ cond7_1 i) (hc2 : ¬ k7_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k7_pay4 x0 x2 s0) ∗ owns (c : Thread nD τ) arg14 fullShare (k7_pay5 x1 x3 s1) ∗ owns (c : Thread nD τ) arg15 fullShare s2) -∗ K ⟨⟩))
      ⊢ wp frame (wpE (defs₀ (F := F)) Variants.none c none) E
          (cc7__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc7__obj_combine_kernel_eq_skeleton]; unfold cc7__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr; · ipureintro; rfl
  iexact G2

set_option maxHeartbeats 1000000 in
theorem sound_kernel7_C (c : Dev nD) (E : Set ℕ) (i : grid7.Coords) (hc1 : ¬ cond7_1 i) (hc2 : k7_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k7_pay4 x0 x2 s0) ∗ owns (c : Thread nD τ) arg14 fullShare (k7_pay5 x1 x3 s1) ∗ owns (c : Thread nD τ) arg15 fullShare s2
            ∗ owns (c : Thread nD τ) arg12 fullShare (k7_pay6 (k7_pay4 x0 x2 s0) x6 (k7_pay5 x1 x3 s1) x7 s2 x9)) -∗ K ⟨⟩))
      ⊢ wp frame (wpE (defs₀ (F := F)) Variants.none c none) E
          (cc7__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc7__obj_combine_kernel_eq_skeleton]; unfold cc7__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%d12, %f12, -, H12⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G2]
  · iexists _; isplitr; · ipureintro; rfl
    iexact G2
  iexists _; isplitr
  swap; · iexact H12
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

end Cert.Kernel.Hand

end
-- ==== Proof.KB.Reg7.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import proofs.«152197_j87351044866369_2_alg».proof.Proof.KB.Reg7K
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # REGION 7 of @main: custom_call 7, `cc7__obj_combine_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, fetched there or not, for any proof
    data whose array is `V`'s and whose body leaves the block in place: the windows are uncut and never idle. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## The closed forms of the branch conditions -/

/-- The first `scf.if` is taken at the first point of each row of the grid — decided over the grid. -/
theorem hcond7_1 : ∀ t : Fin cfg7.N, cond7_1 (grid7.coords t) ↔ t.val % 32 = 0 :=
  (by decide +kernel : ∀ t : Fin grid7.N, cond7_1 (grid7.coords t) ↔ t.val % 32 = 0)
/-- The second at the last point of each row. -/
theorem hcond7_2 : ∀ t : Fin cfg7.N, k7_cond2 (grid7.coords t) = 1#1 ↔ t.val % 32 = 31 :=
  (by decide +kernel : ∀ t : Fin grid7.N, k7_cond2 (grid7.coords t) = 1#1 ↔ t.val % 32 = 31)

/-! ## The scratch buffers from point to point -/

/-- The three scratch memrefs, as the pipeline passes them to the body. -/
abbrev sm7_0 : Memref sig .tc .vmem S512x1024 .f32 := Memref.whole cc7_scratch0
abbrev sm7_1 : Memref sig .tc .vmem S512x1024 .f32 := Memref.whole cc7_scratch1
abbrev sm7_2 : Memref sig .tc .vmem S512x1024 .f32 := Memref.whole cc7_scratch2

/-- The contents of the three scratch buffers: the two accumulators and the self term. -/
abbrev Scr7 (F : FTy → Type) [FloatOps F] := Vec F S512x1024 .f32 × Vec F S512x1024 .f32 × Vec F S512x1024 .f32

/-- What the first point of a row leaves in them: each accumulator at its product added to zero, the self term computed. -/
def stepA7 (c : Dev nD) (t : Fin cfg7.N) : Scr7 F :=
  (k7_pay4 (iblk7 V c 0 t) (iblk7 V c 2 t) k7_pay1, k7_pay5 (iblk7 V c 1 t) (iblk7 V c 3 t) k7_pay2,
    k7_pay3 (iblk7 V c 4 t) (iblk7 V c 5 t) (iblk7 V c 8 t))

/-- What a later point of a row leaves in them, over what the point before left: each accumulator with its product added, the self term kept. -/
def stepB7 (c : Dev nD) (t : Fin cfg7.N) (s : Scr7 F) : Scr7 F :=
  (k7_pay4 (iblk7 V c 0 t) (iblk7 V c 2 t) s.1, k7_pay5 (iblk7 V c 1 t) (iblk7 V c 3 t) s.2.1, s.2.2)

/-- THE ACCUMULATION. What the scratch buffers hold after the body at position `n`. -/
def scr7 (c : Dev nD) : (n : ℕ) → n < cfg7.N → Scr7 F
  | 0, hn => stepA7 V c ⟨0, hn⟩
  | n + 1, hn =>
    if h0 : (n + 1) % 32 = 0 then stepA7 V c ⟨n + 1, hn⟩
    else stepB7 V c ⟨n + 1, hn⟩ (scr7 c n (Nat.lt_of_succ_lt hn))

/-- `scr7` at the first point of a row. -/
theorem scr7_A (c : Dev nD) (t : Fin cfg7.N) (h0 : t.val % 32 = 0) : scr7 V c t.val t.isLt = stepA7 V c t := by
  obtain ⟨n, hn⟩ := t
  cases n with
  | zero => exact rfl
  | succ n => exact (dif_pos h0).trans rfl

/-- `scr7` at a later point of a row. -/
theorem scr7_B (c : Dev nD) (t : Fin cfg7.N) (h0 : ¬t.val % 32 = 0) :
    scr7 V c t.val t.isLt = stepB7 V c t (scr7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The scratch buffers before position `n`: at anything before the first point, else at what the point before left. -/
def scrAt7 (c : Dev nD) : (n : ℕ) → n ≤ cfg7.N → sProp 𝕄
  | 0, _ => iprop(∃ f0 f1 f2 : Vec F S512x1024 .f32, owns (c : Thread nD τ) sm7_0 fullShare f0 ∗ owns (c : Thread nD τ) sm7_1 fullShare f1 ∗ owns (c : Thread nD τ) sm7_2 fullShare f2)
  | n + 1, hn => iprop(owns (c : Thread nD τ) sm7_0 fullShare (scr7 V c n hn).1 ∗ owns (c : Thread nD τ) sm7_1 fullShare (scr7 V c n hn).2.1 ∗ owns (c : Thread nD τ) sm7_2 fullShare (scr7 V c n hn).2.2)

/-- At any position they are held at some contents. -/
theorem scrAt7_any (c : Dev nD) (n : ℕ) (hn : n ≤ cfg7.N) :
    scrAt7 V c n hn ⊢ iprop(∃ f0 f1 f2 : Vec F S512x1024 .f32, owns (c : Thread nD τ) sm7_0 fullShare f0 ∗ owns (c : Thread nD τ) sm7_1 fullShare f1 ∗ owns (c : Thread nD τ) sm7_2 fullShare f2) := by
  cases n with
  | zero => exact .rfl
  | succ n =>
    unfold scrAt7
    iintro ⟨H0, H1, H2⟩
    iexists _, _, _
    isplitl [H0]; · iexact H0
    isplitl [H1]; · iexact H1
    iexact H2

/-- After the first point they are held at what the point before left. -/
theorem scrAt7_pos (c : Dev nD) (t : Fin cfg7.N) (h0 : t.val ≠ 0) :
    scrAt7 V c t.val (Nat.le_of_lt t.isLt)
      = iprop(owns (c : Thread nD τ) sm7_0 fullShare (scr7 V c (t.val - 1) (Nat.lt_of_le_of_lt (Nat.sub_le _ _) t.isLt)).1
          ∗ owns (c : Thread nD τ) sm7_1 fullShare (scr7 V c (t.val - 1) (Nat.lt_of_le_of_lt (Nat.sub_le _ _) t.isLt)).2.1
          ∗ owns (c : Thread nD τ) sm7_2 fullShare (scr7 V c (t.val - 1) (Nat.lt_of_le_of_lt (Nat.sub_le _ _) t.isLt)).2.2) := by
  obtain ⟨n, hn⟩ := t
  cases n with
  | zero => exact absurd rfl h0
  | succ n => rfl

/-! ## The pipeline's proof data -/

/-- What the last point of a row stores in the output block, from the scratch buffers as that point leaves them. -/
def out7_10 (c : Dev nD) (t : Fin cfg7.N) : Vec F S512x1024 .f32 :=
  k7_pay6 (scr7 V c t.val t.isLt).1 (iblk7 V c 6 t) (scr7 V c t.val t.isLt).2.1 (iblk7 V c 7 t) (scr7 V c t.val t.isLt).2.2 (iblk7 V c 9 t)

/-- The invariant before position `n`: the three scratch buffers at what the points before left (`scrAt7`), the other
    scoped buffers at some contents each, the generator register at some state. -/
def Φ7 (c : Dev nD) (n : ℕ) (hn : n ≤ cfg7.N) : sProp 𝕄 :=
  iprop(scrAt7 V c n hn ∗ Pipeline.scopedRestBut (Ix := Unit) (Name := ℕ) (U := UR sig nD τ) (Lvl := ℕ) (Val := Elt F) spec7 c [cc7_scratch0, cc7_scratch1, cc7_scratch2] ∗ ∃ r, prngReg c r)

/-- The proof data of pipeline 7 on core `c`: the arrays as the region finds them (`V`); after the body at point `t`
    each input's buffer at its block and the output's at `out7_10` (consulted at the last point of a row only: at the
    others the window is idle and its buffer is left as found); the invariant `Φ7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7_10 V c t
  Φ t := Φ7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = out7_10 V c t := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d

/-- The invariant before and after a point. -/
theorem Φ7_castSucc (c : Dev nD) (t : Fin cfg7.N) : (dat7 V c).Φ t.castSucc = Φ7 V c t.val (Nat.le_of_lt t.isLt) := rfl
theorem Φ7_succ (c : Dev nD) (t : Fin cfg7.N) : (dat7 V c).Φ t.succ = Φ7 V c (t.val + 1) t.isLt := rfl

/-- ENTRY: the scoped rest split at the three scratch buffers, each at some contents, with the generator register. -/
theorem Φ7_in (c : Dev nD) : iprop((∃ r, prngReg c r) ∗ Pipeline.scopedRest (Ix := Unit) (Name := ℕ) (U := UR sig nD τ) (Lvl := ℕ) (Val := Elt F) spec7 c) ⊢ (dat7 V c).Φ 0 := by
  rw [scopedRest7_split, show (dat7 V c).Φ 0 = Φ7 V c 0 (Nat.zero_le _) from rfl]
  unfold Φ7 scrAt7
  iintro ⟨Hr, ⟨⟨%f0, H0⟩, ⟨%f1, H1⟩, ⟨%f2, H2⟩⟩, HR⟩
  isplitl [H0 H1 H2]
  · iexists f0, f1, f2
    rw [owns_whole, owns_whole, owns_whole]
    isplitl [H0]; · iexact H0
    isplitl [H1]; · iexact H1
    iexact H2
  isplitl [HR]; · iexact HR
  iexact Hr

/-- EXIT: the same back. -/
theorem Φ7_out (c : Dev nD) : (dat7 V c).Φ (Fin.last cfg7.N) ⊢ iprop((∃ r, prngReg c r) ∗ Pipeline.scopedRest (Ix := Unit) (Name := ℕ) (U := UR sig nD τ) (Lvl := ℕ) (Val := Elt F) spec7 c) := by
  rw [scopedRest7_split, show (dat7 V c).Φ (Fin.last cfg7.N) = Φ7 V c cfg7.N (Nat.le_refl _) from rfl]
  unfold Φ7
  iintro ⟨Hs, HR, Hr⟩
  ihave Hs' := scrAt7_any V c cfg7.N (Nat.le_refl _) $$ Hs
  icases Hs' with ⟨%f0, %f1, %f2, H0, H1, H2⟩
  ihave H0' := (Entails.of_eq (owns_whole (c : Thread nD τ) cc7_scratch0 fullShare f0)) $$ H0
  ihave H1' := (Entails.of_eq (owns_whole (c : Thread nD τ) cc7_scratch1 fullShare f1)) $$ H1
  ihave H2' := (Entails.of_eq (owns_whole (c : Thread nD τ) cc7_scratch2 fullShare f2)) $$ H2
  isplitl [Hr]; · iexact Hr
  isplitr [HR]
  · isplitl [H0']; · iexists f0; iexact H0'
    isplitl [H1']; · iexists f1; iexact H1'
    iexists f2; iexact H2'
  iexact HR

/-! ## The body obligation, at a generic point -/

/-- A window live at a point is left at what the body leaves. -/
theorem leavesExact_live7 {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns: the output window, idle off the last point of a row, as the library states it. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ (dat7 V c).leavesExact 10 t)

set_option maxHeartbeats 2000000 in
/-- The body at any point: the inputs' memrefs hold their blocks; the closed forms say which case the point is in;
    the scratch buffers hold what the point before left (anything, before a row's first point); so the case's triple
    applies; the rest of the invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9]
  rw [Φ7_castSucc, Φ7_succ, show (dat7 V c).owesAt () t.succ = (dat7 V c).owesAt () t.castSucc from rfl,
    after7_0, after7_1, after7_2, after7_3, after7_4, after7_5, after7_6, after7_7, after7_8, after7_9]
  unfold Φ7
  have hN : t.val < 128 := lt_of_lt_of_eq t.isLt (show cfg7.N = 128 from N_7)
  rw [show scrAt7 V c (t.val + 1) t.isLt = iprop(owns (c : Thread nD τ) sm7_0 fullShare (scr7 V c t.val t.isLt).1
      ∗ owns (c : Thread nD τ) sm7_1 fullShare (scr7 V c t.val t.isLt).2.1 ∗ owns (c : Thread nD τ) sm7_2 fullShare (scr7 V c t.val t.isLt).2.2) from rfl]
  by_cases h0 : t.val % 32 = 0
  · have hc1 : cond7_1 (grid7.coords t) := (hcond7_1 t).mpr h0
    have hc2 : ¬ k7_cond2 (grid7.coords t) = 1#1 := fun h => by have := (hcond7_2 t).mp h; omega
    have hidle : cfg7.idle 10 (cfg7.grid.coords t) = true := by
      show (!(k7_cond2 (grid7.coords t) == 1#1)) = true
      rw [Bool.not_eq_true', beq_eq_false_iff_ne]; exact hc2
    have hflush : (cfg7.win 10).flush t = false := Bool.eq_false_iff.mpr fun h => by have := (flush7_10 t).mp h; omega
    rw [Dat.leavesExact_idle _ 10 t hidle hflush, scr7_A V c t h0]
    dsimp only [stepA7]
    iintro ⟨⟨Hs, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    ihave Hs' := scrAt7_any V c t.val _ $$ Hs
    icases Hs' with ⟨%f0, %f1, %f2, S0, S1, S2⟩
    iapply (sound_kernel7_A c Set.univ (grid7.coords t) hc1 hc2 _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) f0 f1 f2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR Hr]
    · isplitl [S0 S1 S2]
      · isplitl [S0]; · iexact S0
        isplitl [S1]; · iexact S1
        iexact S2
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc1 : ¬ cond7_1 (grid7.coords t) := fun h => h0 ((hcond7_1 t).mp h)
    have ht0 : t.val ≠ 0 := fun h => h0 (by rw [h])
    rw [scrAt7_pos V c t ht0, scr7_B V c t h0]
    dsimp only [stepB7]
    by_cases h31 : t.val % 32 = 31
    · have hc2 : k7_cond2 (grid7.coords t) = 1#1 := (hcond7_2 t).mpr h31
      have hidle : cfg7.idle 10 (cfg7.grid.coords t) = false := by
        show (!(k7_cond2 (grid7.coords t) == 1#1)) = false
        rw [hc2]; rfl
      rw [leavesExact_live7 _ 10 t hidle, after7_10]
      unfold out7_10
      rw [scr7_B V c t h0]
      dsimp only [stepB7]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel7_C c Set.univ (grid7.coords t) hc1 hc2 _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [H10]; · iexists _; iexact H10
      iintro ⟨H0, H1, H2, H3, H4, H5, H6, H7, H8, H9, S0, S1, S2, H10⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc2 : ¬ k7_cond2 (grid7.coords t) = 1#1 := fun h => h31 ((hcond7_2 t).mp h)
      have hidle : cfg7.idle 10 (cfg7.grid.coords t) = true := by
        show (!(k7_cond2 (grid7.coords t) == 1#1)) = true
        rw [Bool.not_eq_true', beq_eq_false_iff_ne]; exact hc2
      have hflush : (cfg7.win 10).flush t = false := Bool.eq_false_iff.mpr fun h => h31 ((flush7_10 t).mp h)
      rw [Dat.leavesExact_idle _ 10 t hidle hflush]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel7_B c Set.univ (grid7.coords t) hc1 hc2 _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      iintro ⟨H0, H1, H2, H3, H4, H5, H6, H7, H8, H9, S0, S1, S2⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.Kernel.Hand

end
-- ==== Proof.KB.Reg8.lean ====
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: unfetched, the block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: unfetched, the block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_M : Rect S1024x1024 := Rect.unit (s := S1024x1024) ![0, 0] S1024x1024.size inb_S1024x1024_S1024x1024_0_0
abbrev r8_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out8_5 (x0 : Vec F S1024x1024 .f32) (x1 : Vec F S1024x1024 .f32) (x2 : Vec F S1x1024 .f32) : Vec F S1024x1024 .bf16 :=
  View.canon [⟨r8_M, k8_pay2 (View.ld x0 r8_M) (View.ld x1 r8_M) (View.ld x2 r8_B)⟩]

/-- Window 6's staging buffer after the body: its one store, of the rounded `max (x · w₂ᵀ + b₂) 0`, over the whole buffer. -/
def out8_6 (x0 : Vec F S1024x1024 .f32) (x3 : Vec F S1024x1024 .f32) (x4 : Vec F S1x1024 .f32) : Vec F S1024x1024 .bf16 :=
  View.canon [⟨r8_M, k8_pay3 (View.ld x0 r8_M) (View.ld x3 r8_M) (View.ld x4 r8_B)⟩]

/-- A store's rectangle is the whole buffer, so it covers it. -/
theorem cover8_5 (p0 : Vec F S1024x1024 .bf16) (y : S1024x1024.Idx) :
    ∃ pc ∈ ([⟨r8_M, p0⟩] : List (View.Piece (Elt F) S1024x1024 .bf16)), y ∈ pc.1.set :=
  View.cover_of_tiled [⟨r8_M, p0⟩] S1024x1024.size (by rfl) y
theorem cover8_6 (p0 : Vec F S1024x1024 .bf16) (y : S1024x1024.Idx) :
    ∃ pc ∈ ([⟨r8_M, p0⟩] : List (View.Piece (Elt F) S1024x1024 .bf16)), y ∈ pc.1.set :=
  View.cover_of_tiled [⟨r8_M, p0⟩] S1024x1024.size (by rfl) y

/-! ## The body's triple -/

set_option maxHeartbeats 1000000 in
/-- The kernel body on whole staging memrefs, the inputs' at read contents `xW` and the outputs' at anything, runs to
    the continuation holding the inputs' as they were and each output's at `out8_W` of the inputs'. The body also
    loads each output buffer before storing to it; the loaded values are not used. -/
theorem sound_kernel8 (c : Dev nD) (E : Set ℕ) (i : grid8.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2) ∗ owns (c : Thread nD τ) arg7 fullShare (out8_6 x0 x3 x4)) -∗ K ⟨⟩))
      ⊢ wp frame (wpE (defs₀ (F := F)) Variants.none c none) E (cc8__fc2_kernel i arg1 harg1 arg2 harg2 arg3 harg3 arg4 harg4 arg5 harg5 arg6 harg6 arg7 harg7) K := by
  simp only [cc8__fc2_kernel_eq_skeleton]; unfold cc8__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover8_5 _)
  iexists _; isplitr
  swap; · iexact H6
  ipureintro
  exact View.read_writes_eq_canon _ _ _ (cover8_6 _)

/-! ## The pipeline's proof data -/

/-- The proof data of pipeline 8 on core `c`: the arrays as the region finds them (`V`); after the body at
    point `t` each input's buffer at its block and each output's at `out8_W` of the input blocks; the invariant
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t)
    | ⟨6, _⟩ => out8_6 (iblk8 V c 0 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) := by dsimp only [dat8]
theorem after8_6 (c : Dev nD) (t : Fin cfg8.N) : (dat8 V c).after 6 t = out8_6 (iblk8 V c 0 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so the body's triple applies; the invariant and
    the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.KB.Reg9.lean ====
/- Region 9 of the kernel program, the relation-side combine (`cc9__rel_combine_kernel`, pipeline 9), at a
   PARAMETER `V` — the TensorCore's buffer contents when the region is entered: each window's block at a point
   (`iblk9`), what the body leaves in the output window's buffer (`out9_7`), the body's triple (`sound_kernel9`),
   the pipeline's proof data (`dat9`) and its body obligation (`body_obligation9`). Generic in the float model. -/
import proofs.«152197_j87351044866369_2_alg».proof.Proof.Gen.Kernel.Launch
import proofs.«152197_j87351044866369_2_alg».proof.Proof.Gen.Kernel.Skeleton
import proofs.«152197_j87351044866369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block index
    has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): unfetched, the block index
    has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): unfetched, the block index
    has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): unfetched, the block index
    has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s (`hA`) and whose body leaves the block in place (`hafter`): unfetched, the block index
    has not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for any proof
    data whose array is `V`'s (`hA`) and whose body leaves the block in place (`hafter`): unfetched, the block index
    has not moved; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not, for any proof
    data whose array is `V`'s (`hA`) and whose body leaves the block in place (`hafter`): unfetched, the block index
    has not moved; the window is uncut and never idle. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S2048x512 := Rect.unit (s := S2048x512) ![0, 0] S2048x512.size inb_S2048x512_S2048x512_0_0
abbrev r9_1 : Rect S2048x1024 := Rect.unit (s := S2048x1024) ![0, 0] S2048x1024.size inb_S2048x1024_S2048x1024_0_0
abbrev r9_2 : Rect S512x1 := Rect.unit (s := S512x1) ![0, 0] S512x1.size inb_S512x1_S512x1_0_0
abbrev r9_3 : Rect S512x1024 := Rect.unit (s := S512x1024) ![0, 0] S512x1024.size inb_S512x1024_S512x1024_0_0

/-! ## What the body leaves in the output window's buffer -/

/-- Window 7's staging buffer after the body, from the input windows' blocks: its one store, of the payload at the
    seven loaded blocks (the two attention blocks, the two projected feature arrays, the two denominators and the
    relation features). -/
def out9_7 (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) : Vec F S512x1024 .f32 :=
  View.canon [⟨r9_3, k9_pay1 (View.ld x0 r9_0) (View.ld x2 r9_1) (View.ld x4 r9_2) (View.ld x1 r9_0) (View.ld x3 r9_1) (View.ld x5 r9_2) (View.ld x6 r9_3)⟩]

/-- The store is of the whole buffer, so it covers it. -/
theorem cover9_7 (p0 : Vec F S512x1024 .f32) (y : S512x1024.Idx) :
    ∃ pc ∈ ([⟨r9_3, p0⟩] : List (View.Piece (Elt F) S512x1024 .f32)), y ∈ pc.1.set :=
  View.cover_of_tiled [⟨r9_3, p0⟩] S512x1024.size (by rfl) y

/-! ## The body's triple -/

set_option maxHeartbeats 4000000 in
/-- The kernel body on whole staging memrefs, the inputs' at read contents `xW` and the output's at anything, runs to
    the continuation holding the inputs' as they were and the output's at `out9_7` of the inputs'. The body also
    loads the output's buffer before storing to it; the loaded value is not used. -/
theorem sound_kernel9 (c : Dev nD) (E : Set ℕ) (i : grid9.Coords) (arg1 : Memref sig .tc .vmem S2048x512 .bf16) (harg1 : arg1.IsWhole) (arg2 : Memref sig .tc .vmem S2048x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__rel_combine_kernel i arg1 harg1 arg2 harg2 arg3 harg3 arg4 harg4 arg5 harg5 arg6 harg6 arg7 harg7 arg8 harg8) K := by
  simp only [cc9__rel_combine_kernel_eq_skeleton]; unfold cc9__rel_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The pipeline's proof data -/

/-- The proof data of pipeline 9 on core `c`: the arrays as the region finds them (`V`); after the body at point `t`
    each input's buffer at its block and the output's at `out9_7` of the input blocks; the invariant the untouched
    scoped rest and generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

set_option maxHeartbeats 1000000 in
/-- The body at any point: the inputs' memrefs hold their blocks, so `sound_kernel9` applies; the invariant and the
    core's obligations pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.KB.Seg.lean ====
/-
  A kernel region whose body keeps nothing between grid points, as a segment of the program's run.

  Between two items of the host program a core holds every unscoped buffer whole, at known contents, beside its
  random-number register and the record that it owes no transfer. A region of this kind is entered from such a state
  at contents `Vin` and left in one at contents `Vout`: its windows' arrays are split out of the unscoped buffers at
  the contents the proof data start from, the pipeline runs (the body obligation at every grid point), and the
  arrays are put back at what the write-backs leave. `Vout` agrees with `Vin` off the region's arrays, and holds at
  each array what the pipeline leaves there. The invariant between grid points is only the scoped buffers no window
  stages and the random-number register, untouched; the kernel has no semaphore of its own and owes nothing.
  One statement serves every such region: the pipeline index is a parameter.
-/
import proofs.«152197_j87351044866369_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline has a prefetched table. -/
abbrev adm : (p : Fin 10) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its
    record of transfers owed, at nothing. -/
abbrev R (c : Dev nD) : sProp 𝕄 := iprop((∃ r, prngReg c r) ∗ ∃ W, owes (c : Thread nD τ) (0 : CellTallies nD τ sig Unit) W)

/-- A family of proof data, one per pipeline and core. -/
abbrev PDats : Type := (p : Fin 10) → (c : Dev nD) → Dat τ (Elt F) Unit ℕ (UR sig nD τ) ℕ (Pipeline.pin (pcfgs (F := F)) adm p) c

/-- A valuation of the unscoped buffers read at the TensorCore's references. -/
abbrev rd (V : Dev nD → Valuation τ sig (Elt F)) : (c : Dev nD) → (b : Ref sig .tc) → Buf (Elt F) ((c : Thread nD τ).loc b) :=
  fun c b => V c b

set_option backward.isDefEq.respectTransparency.types false in
/-- The region of pipeline `p` as a segment, entered at `Vin` and left at `Vout`. -/
def regA (pdats : PDats (F := F)) (p : Fin 10) (launch : Pipeline.LaunchFacts (nD := nD) (τ := τ) cfgs p)
    (Vin Vout : Dev nD → Valuation τ sig (Elt F))
    (hA : ∀ c w, (pdats p c).A w = rd Vin c (Pipeline.arrRef (cfgs p).spec w))
    (hq : ∀ c w, (pdats p c).q w = fullShare)
    (howed : ∀ c t, (pdats p c).owed t = 0)
    (hrec : ∀ c t, (pdats p c).recorded t = Set.univ)
    (hΦin : ∀ c, iprop((∃ r, prngReg c r) ∗ Pipeline.scopedRest (cfgs p).spec c) ⊢ (pdats p c).Φ 0)
    (hΦout : ∀ c, (pdats p c).Φ (Fin.last (cfgs p).N) ⊢ iprop((∃ r, prngReg c r) ∗ Pipeline.scopedRest (cfgs p).spec c))
    (hbody : ∀ c, BodyObligation (pdats p c) (defs₀ (F := F)) Variants.none () Set.univ)
    (hF : ∀ c w, (pdats p c).arrAt w (cfgs p).N = rd Vout c (Pipeline.arrRef (cfgs p).spec w))
    (hrest : ∀ c, ∀ b, b ∉ Finset.univ.image (Pipeline.arrRef (cfgs p).spec) → rd Vout c b = rd Vin c b) :
    Pipeline.RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    rw [Pipeline.ownSems0_none]
    have hsplit := Pipeline.arrays_of_unscopedBufs (p := p) (pcfgs (F := F)) adm pdats launch.win launch.arr_whole c
      ((pdats p c).share_full (hq c)) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun _ _ => Or.inl (by rw [hrec c 0]; exact Set.mem_univ _)
      iexact HO
    isplitl [Hp]; · iexact Hp
    iexact Hrest
  hin c := by
    iintro ⟨Hp, -, Hr⟩
    iapply (hΦin c)
    isplitl [Hp]; · iexact Hp
    iexact Hr
  hout c := by
    rw [Pipeline.ownSems0_none]
    iintro H
    ihave H' := (hΦout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (rd Vin c) (rd Vout c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The invariant of a region that keeps nothing between points is entered from the scoped rest and the register. -/
theorem ΦA_in {gr W : ℕ} (win : Fin W → Pipeline.WinSpec sig gr) (c : Dev nD) :
    iprop((∃ r, prngReg c r) ∗ Pipeline.scopedRest win c) ⊢ (Pipeline.ΦA win c : sProp 𝕄) := by
  unfold Pipeline.ΦA
  iintro ⟨Hp, Hr⟩
  isplitl [Hr]; · iexact Hr
  iexact Hp

/-- and gives them back. -/
theorem ΦA_out {gr W : ℕ} (win : Fin W → Pipeline.WinSpec sig gr) (c : Dev nD) :
    (Pipeline.ΦA win c : sProp 𝕄) ⊢ iprop((∃ r, prngReg c r) ∗ Pipeline.scopedRest win c) := by
  unfold Pipeline.ΦA
  iintro ⟨Hr, Hp⟩
  isplitl [Hp]; · iexact Hp
  iexact Hr

end Cert.Kernel.Hand

end
-- ==== Proof.KB.Run.lean ====
/-
  The whole run of the program: sixteen items, six stretches of host operations and ten kernel regions, from the launch
  to the return.

  The contents of a core's unscoped buffers are followed through the items as a fold from the launch memory: a host
  stretch applies its operations; a region leaves each of its windows' arrays at what its pipeline's write-backs leave
  (an input array as entered) and every other buffer as entered. The regions' proof data are taken as a parameter —
  one per pipeline, a function of the contents the region is entered at — together with the facts the run needs of
  them; each region is then a segment between two consecutive boundaries, and the run theorem says: every weakly fair
  execution terminates, nothing faults, and every unscoped buffer ends at the last boundary's contents. The frame
  (no argument array changes) and the results' values are both read off that.
-/
import proofs.«152197_j87351044866369_2_alg».proof.Proof.KB.Seg
import proofs.«152197_j87351044866369_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄[" F "]" => MT nD τ sig Unit (Elt F) ℕ (UR sig nD τ) ℕ

/-- The regions' proof data: for pipeline `p` entered at buffer contents `V`, on core `c`; with what the run uses
    of them — the arrays are read off `V`, full shares, nothing owed, the body obligation, and the invariant entered
    from and returning the scoped rest and the random-number register. -/
structure RegData (F : FTy → Type) [FloatOps F] where
  D : (p : Fin 10) → ((c : Dev nD) → (b : Ref sig .tc) → Buf (Elt F) ((c : Thread nD τ).loc b)) → (c : Dev nD) →
    Dat τ (Elt F) Unit ℕ (UR sig nD τ) ℕ (cfgs p) c
  hA : ∀ p V c w, (D p V c).A w = V c (Pipeline.arrRef (cfgs p).spec w)
  hq : ∀ p V c w, (D p V c).q w = fullShare
  howed : ∀ p V c t, (D p V c).owed t = 0
  hrec : ∀ p V c t, (D p V c).recorded t = Set.univ
  hbody : ∀ p V c, BodyObligation (D p V c) (defs₀ (F := F)) Variants.none () Set.univ
  hΦin : ∀ p V c, (iprop((∃ r, prngReg c r) ∗ Pipeline.scopedRest (cfgs p).spec c) : sProp 𝕄[F]) ⊢ (D p V c).Φ 0
  hΦout : ∀ p V c, (D p V c).Φ (Fin.last (cfgs p).N) ⊢ (iprop((∃ r, prngReg c r) ∗ Pipeline.scopedRest (cfgs p).spec c) : sProp 𝕄[F])

variable {F : FTy → Type} [FloatOps F]

local notation "𝕄" => MT nD τ sig Unit (Elt F) ℕ (UR sig nD τ) ℕ

variable (𝒟 : RegData F) (m : (ℓ : Loc nD τ sig) → Buf (Elt F) ℓ) (ρ : Dev nD → PrngReg)

/-- The launch facts of every pipeline. -/
theorem launches : ∀ p : Fin 10, Pipeline.LaunchFacts (nD := nD) (τ := τ) cfgs p
  | ⟨0, _⟩ => launch0 | ⟨1, _⟩ => launch1 | ⟨2, _⟩ => launch2 | ⟨3, _⟩ => launch3 | ⟨4, _⟩ => launch4
  | ⟨5, _⟩ => launch5 | ⟨6, _⟩ => launch6 | ⟨7, _⟩ => launch7 | ⟨8, _⟩ => launch8 | ⟨9, _⟩ => launch9
  | ⟨_ + 10, h⟩ => absurd h (by omega)

/-! ## The buffers' contents at each boundary -/

/-- What region `p`, entered at `W`, leaves: its arrays at the pipeline's final contents, the rest as entered. -/
def stepR (p : Fin 10) (W : Dev nD → Valuation τ sig (Elt F)) : Dev nD → Valuation τ sig (Elt F) := fun c =>
  Pipeline.withArrays (cfgs p).spec c (W c) fun w => (𝒟.D p (rd W) c).arrAt w (cfgs p).N

theorem stepR_arr (p : Fin 10) (W : Dev nD → Valuation τ sig (Elt F)) (c : Dev nD) (w : Fin (cfgs p).W) :
    stepR 𝒟 p W c (Proc.devRef .tc (Pipeline.arrRef (cfgs p).spec w)) = (𝒟.D p (rd W) c).arrAt w (cfgs p).N := by
  unfold stepR; exact Pipeline.withArrays_arr (cfgs p).spec (launches p).win.arr_inj c _ _ w

theorem stepR_of_ne (p : Fin 10) (W : Dev nD → Valuation τ sig (Elt F)) (c : Dev nD) (b : Ref sig .tc)
    (hb : ∀ w, Pipeline.arrRef (cfgs p).spec w ≠ b) : stepR 𝒟 p W c (Proc.devRef .tc b) = W c (Proc.devRef .tc b) := by
  unfold stepR; exact Pipeline.withArrays_of_ne (cfgs p).spec c _ _ b hb

/-- A buffer that is no OUTPUT window's array of region `p` is left as entered: an input window's array ends at its
    entry contents, and any other buffer is bypassed. -/
theorem stepR_of_not_out (p : Fin 10) (W : Dev nD → Valuation τ sig (Elt F)) (c : Dev nD) (b : Ref sig .tc)
    (hb : ∀ w, ((cfgs p).win w).isOut = true → Pipeline.arrRef (cfgs p).spec w ≠ b) :
    stepR 𝒟 p W c (Proc.devRef .tc b) = W c (Proc.devRef .tc b) := by
  by_cases h : ∃ w, Pipeline.arrRef (cfgs p).spec w = b
  · obtain ⟨w, rfl⟩ := h
    have hin : ((cfgs p).win w).isOut = false := by
      cases e : ((cfgs p).win w).isOut with
      | false => rfl
      | true => exact absurd rfl (hb w e)
    rw [stepR_arr, (𝒟.D p (rd W) c).arrAt_in w hin, 𝒟.hA]
  · exact stepR_of_ne 𝒟 p W c b fun w e => h ⟨w, e⟩

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := stepR 𝒟 0 (W1 m)
abbrev W3 : Dev nD → Valuation τ sig (Elt F) := fun c => StableHlo.after hostOps1 (W2 𝒟 m c)
abbrev W4 : Dev nD → Valuation τ sig (Elt F) := stepR 𝒟 1 (W3 𝒟 m)
abbrev W5 : Dev nD → Valuation τ sig (Elt F) := stepR 𝒟 2 (W4 𝒟 m)
abbrev W6 : Dev nD → Valuation τ sig (Elt F) := fun c => StableHlo.after hostOps3 (W5 𝒟 m c)
abbrev W7 : Dev nD → Valuation τ sig (Elt F) := stepR 𝒟 3 (W6 𝒟 m)
abbrev W8 : Dev nD → Valuation τ sig (Elt F) := stepR 𝒟 4 (W7 𝒟 m)
abbrev W9 : Dev nD → Valuation τ sig (Elt F) := fun c => StableHlo.after hostOps5 (W8 𝒟 m c)
abbrev W10 : Dev nD → Valuation τ sig (Elt F) := stepR 𝒟 5 (W9 𝒟 m)
abbrev W11 : Dev nD → Valuation τ sig (Elt F) := fun c => StableHlo.after hostOps6 (W10 𝒟 m c)
abbrev W12 : Dev nD → Valuation τ sig (Elt F) := stepR 𝒟 6 (W11 𝒟 m)
abbrev W13 : Dev nD → Valuation τ sig (Elt F) := stepR 𝒟 7 (W12 𝒟 m)
abbrev W14 : Dev nD → Valuation τ sig (Elt F) := fun c => StableHlo.after hostOps8 (W13 𝒟 m c)
abbrev W15 : Dev nD → Valuation τ sig (Elt F) := stepR 𝒟 8 (W14 𝒟 m)
abbrev W16 : Dev nD → Valuation τ sig (Elt F) := stepR 𝒟 9 (W15 𝒟 m)

/-- The contents each region is entered at. -/
def Wentry : Fin 10 → Dev nD → Valuation τ sig (Elt F)
  | ⟨0, _⟩ => W1 m | ⟨1, _⟩ => W3 𝒟 m | ⟨2, _⟩ => W4 𝒟 m | ⟨3, _⟩ => W6 𝒟 m | ⟨4, _⟩ => W7 𝒟 m
  | ⟨5, _⟩ => W9 𝒟 m | ⟨6, _⟩ => W11 𝒟 m | ⟨7, _⟩ => W12 𝒟 m | ⟨8, _⟩ => W14 𝒟 m | ⟨9, _⟩ => W15 𝒟 m
  | ⟨_ + 10, h⟩ => absurd h (by omega)

/-! ## The proof data family and the regions as segments -/

/-- Every pipeline's proof data, at its region's entry contents. -/
def pdats : PDats (F := F) := fun p c => 𝒟.D p (rd (Wentry 𝒟 m p)) c

/-- Region `p` as a segment from its entry contents to what it leaves. -/
def regP (p : Fin 10) : Pipeline.RegionSeg (pcfgs (F := F)) adm (pdats 𝒟 m) () defs₀ 𝒱₀ L lv p :=
  regA (pdats 𝒟 m) p (launches p) (Wentry 𝒟 m p) (stepR 𝒟 p (Wentry 𝒟 m p))
    (fun c w => 𝒟.hA p _ c w) (fun c w => 𝒟.hq p _ c w) (fun c t => 𝒟.howed p _ c t) (fun c t => 𝒟.hrec p _ c t)
    (fun c => 𝒟.hΦin p _ c) (fun c => 𝒟.hΦout p _ c) (fun c => 𝒟.hbody p _ c)
    (fun c w => (stepR_arr 𝒟 p (Wentry 𝒟 m p) c w).symm)
    (fun c b hb => stepR_of_ne 𝒟 p (Wentry 𝒟 m p) c b fun w e => hb (Finset.mem_image.mpr ⟨w, Finset.mem_univ _, e⟩))

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's sixteen items in order. -/
abbrev segs : List (Pipeline.Seg (pcfgs (F := F)) adm (pdats 𝒟 m) () defs₀ 𝒱₀ L lv) :=
  [ .host (hseg hostOps0 hostOps0_sub hostOps0_fresh (W0 m)),
    .region (regP 𝒟 m 0),
    .host (hseg hostOps1 hostOps1_sub hostOps1_fresh (W2 𝒟 m)),
    .region (regP 𝒟 m 1),
    .region (regP 𝒟 m 2),
    .host (hseg hostOps3 hostOps3_sub hostOps3_fresh (W5 𝒟 m)),
    .region (regP 𝒟 m 3),
    .region (regP 𝒟 m 4),
    .host (hseg hostOps5 hostOps5_sub hostOps5_fresh (W8 𝒟 m)),
    .region (regP 𝒟 m 5),
    .host (hseg hostOps6 hostOps6_sub hostOps6_fresh (W10 𝒟 m)),
    .region (regP 𝒟 m 6),
    .region (regP 𝒟 m 7),
    .host (hseg hostOps8 hostOps8_sub hostOps8_fresh (W13 𝒟 m)),
    .region (regP 𝒟 m 8),
    .region (regP 𝒟 m 9) ]

/-- The program is the run of its items. -/
theorem main_run (c : Dev nD) : main (F := F) c = Pipeline.Seg.run (segs 𝒟 m) := (main_chain c).trans (by chain_rfl)

/-- An unscoped TensorCore reference is among those a boundary state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state a core is in at the launch: every unscoped buffer at the launch memory, the register, nothing owed. -/
abbrev T₀ (c : Dev nD) : sProp 𝕄 := iprop(StableHlo.held (c : Thread nD τ) (Pipeline.ucRefs τ sig) (W0 m c) ∗ R c)
/-- The last boundary state without the record of transfers owed. -/
abbrev Tₙ (c : Dev nD) : sProp 𝕄 := iprop(StableHlo.held (c : Thread nD τ) (Pipeline.ucRefs τ sig) (W16 𝒟 m c) ∗ ∃ r, prngReg c r)

/-- No pipeline is entered twice. -/
theorem segs_nodup : (Pipeline.Seg.pipes (segs 𝒟 m)).Nodup := by
  simp only [segs, Pipeline.Seg.pipes_host, Pipeline.Seg.pipes_region, Pipeline.Seg.pipes_nil]; decide

theorem regP_pre (p : Fin 10) (c : Dev nD) :
    (regP 𝒟 m p).pre c = iprop(StableHlo.held (c : Thread nD τ) (Pipeline.ucRefs τ sig) (Wentry 𝒟 m p c) ∗ R c) := rfl
theorem regP_post (p : Fin 10) (c : Dev nD) :
    (regP 𝒟 m p).post c = iprop(StableHlo.held (c : Thread nD τ) (Pipeline.ucRefs τ sig) (stepR 𝒟 p (Wentry 𝒟 m p) c) ∗ R c) := rfl

set_option maxHeartbeats 4000000 in
/-- Each item is entered from the state the one before it leaves: the boundaries' contents are the fold's. -/
theorem segs_chain : Pipeline.Seg.Chains (T₀ m) (segs 𝒟 m)
    (fun c => iprop(Tₙ 𝒟 m c ∗ ∃ W, owes (c : Thread nD τ) (0 : CellTallies nD τ sig Unit) W)) := by
  refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun c => ?_⟩
  show (regP 𝒟 m 9).post c ⊢ _
  rw [regP_post]
  iintro ⟨Hh, Hp, Ho⟩
  isplitl [Hh Hp]
  · isplitl [Hh]; · iexact Hh
    iexact Hp
  iexact Ho

theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_state : iprop((bigSep Finset.univ fun c : Dev nD => iprop(unscopedBufs c (fun b => m ((c : Thread nD τ).loc b)) ∗ unscopedSems0 c
      ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (T₀ m) : sProp 𝕄) := by
  refine Pipeline.initEach L lv fun c => ?_
  rw [show unscopedBufs c (fun b => m ((c : Thread nD τ).loc b)) = StableHlo.held (c : Thread nD τ) (Pipeline.ucRefs τ sig) (W0 m c)
    from Pipeline.unscopedBufs_held c (W0 m c)]
  iintro ⟨⟨Hh, -, HO, -, Hp, -⟩, -⟩
  imodintro
  isplitl [Hh]; · iexact Hh
  isplitl [Hp]; · iexists _; iexact Hp
  iexists ∅; iexact HO

theorem final_read (c : Dev nD) (s' : Phys nD τ sig (Elt F)) :
    iprop(Tₙ 𝒟 m c ∗ SI s') ⊢ (|={Set.univ}=> iprop(⌜∀ b ∈ Pipeline.ucRefs τ sig, s'.mem.mem (((c : Thread nD τ)).1, b) = W16 𝒟 m c b⌝ ∗ SI s') : sProp 𝕄) := by
  iintro ⟨⟨Hh, -⟩, HSI⟩
  unfold StableHlo.held
  imodintro
  iapply (pointsTo_read_all (Pipeline.ucRefs τ sig) (fun b => (((c : Thread nD τ)).1, b)) (W16 𝒟 m c) s')
  isplitl [Hh] <;> iassumption

set_option maxHeartbeats 4000000 in
set_option backward.isDefEq.respectTransparency.types false in
/-- THE RUN: from any memory with zero counters every weakly fair execution of the program on the TensorCores
    terminates, nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 𝒟 m c b) :=
  Pipeline.θ_run_regions_kit (pcfgs (F := F)) adm (pdats 𝒟 m) () cellOf_inj emb₁ defs₀ 𝒱₀ L lv m ρ main (segs 𝒟 m)
    (fun c Q => by rw [main_run 𝒟 m c])
    (segs_nodup 𝒟 m)
    (O₀ := 0) (hL := fun _ _ => rfl) (G := fun _ => iprop(emp))
    (u₀ := initOf (Pipeline.cells cfgs cellOf_inj) (Pipeline.launchToks cfgs cellOf_inj))
    (hu₀ := launch_ghost)
    (T₀ := T₀ m) (Tₙ := Tₙ 𝒟 m)
    (hch := segs_chain 𝒟 m)
    (hinit := launch_state m ρ)
    (QY := fun c s => ∀ b ∈ Pipeline.ucRefs τ sig, s.mem (((c : Thread nD τ)).1, b) = W16 𝒟 m c b)
    (hfin := fun c s' => final_read 𝒟 m c s')
    (hQ := fun s h c => h c)

end Cert.Kernel.Hand

end
-- ==== Proof.KB.Data.lean ====
/-
  The ten regions' proof data gathered as one family indexed by the pipeline, with the facts the run uses of each:
  the arrays read off the entry contents, full shares, nothing owed, the body obligation at every grid point, and the
  invariant between grid points entered from and returning the scoped rest and the random-number register. For the
  eight regions that keep nothing between points the invariant is just those two; the two object-side combine regions
  also carry their three accumulator buffers in it.
-/
import proofs.«152197_j87351044866369_2_alg».proof.Proof.KB.Reg0
import proofs.«152197_j87351044866369_2_alg».proof.Proof.KB.Reg1
import proofs.«152197_j87351044866369_2_alg».proof.Proof.KB.Reg2
import proofs.«152197_j87351044866369_2_alg».proof.Proof.KB.Reg3
import proofs.«152197_j87351044866369_2_alg».proof.Proof.KB.Reg4
import proofs.«152197_j87351044866369_2_alg».proof.Proof.KB.Reg5
import proofs.«152197_j87351044866369_2_alg».proof.Proof.KB.Reg6
import proofs.«152197_j87351044866369_2_alg».proof.Proof.KB.Reg7
import proofs.«152197_j87351044866369_2_alg».proof.Proof.KB.Reg8
import proofs.«152197_j87351044866369_2_alg».proof.Proof.KB.Reg9
import proofs.«152197_j87351044866369_2_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Pipeline `p`'s proof data at entry contents `V`. -/
def regD : (p : Fin 10) → ((c : Dev nD) → (b : Ref sig .tc) → Buf (Elt F) ((c : Thread nD τ).loc b)) → (c : Dev nD) →
    Dat τ (Elt F) Unit ℕ (UR sig nD τ) ℕ (cfgs p) c
  | ⟨0, _⟩ => fun V c => dat0 V c
  | ⟨1, _⟩ => fun V c => dat1 V c
  | ⟨2, _⟩ => fun V c => dat2 V c
  | ⟨3, _⟩ => fun V c => dat3 V c
  | ⟨4, _⟩ => fun V c => dat4 V c
  | ⟨5, _⟩ => fun V c => dat5 V c
  | ⟨6, _⟩ => fun V c => dat6 V c
  | ⟨7, _⟩ => fun V c => dat7 V c
  | ⟨8, _⟩ => fun V c => dat8 V c
  | ⟨9, _⟩ => fun V c => dat9 V c
  | ⟨_ + 10, h⟩ => absurd h (by omega)

/-- The family with its facts. -/
def regData : RegData F where
  D := regD
  hA := fun p => match p with
    | ⟨0, _⟩ => fun V c w => A_eq0 V c w
    | ⟨1, _⟩ => fun V c w => A_eq1 V c w
    | ⟨2, _⟩ => fun V c w => A_eq2 V c w
    | ⟨3, _⟩ => fun V c w => A_eq3 V c w
    | ⟨4, _⟩ => fun V c w => A_eq4 V c w
    | ⟨5, _⟩ => fun V c w => A_eq5 V c w
    | ⟨6, _⟩ => fun V c w => A_eq6 V c w
    | ⟨7, _⟩ => fun V c w => A_eq7 V c w
    | ⟨8, _⟩ => fun V c w => A_eq8 V c w
    | ⟨9, _⟩ => fun V c w => A_eq9 V c w
    | ⟨_ + 10, h⟩ => absurd h (by omega)
  hq := fun p => match p with
    | ⟨0, _⟩ => fun V c w => rfl
    | ⟨1, _⟩ => fun V c w => rfl
    | ⟨2, _⟩ => fun V c w => rfl
    | ⟨3, _⟩ => fun V c w => rfl
    | ⟨4, _⟩ => fun V c w => rfl
    | ⟨5, _⟩ => fun V c w => rfl
    | ⟨6, _⟩ => fun V c w => rfl
    | ⟨7, _⟩ => fun V c w => rfl
    | ⟨8, _⟩ => fun V c w => rfl
    | ⟨9, _⟩ => fun V c w => rfl
    | ⟨_ + 10, h⟩ => absurd h (by omega)
  howed := fun p => match p with
    | ⟨0, _⟩ => fun V c t => rfl
    | ⟨1, _⟩ => fun V c t => rfl
    | ⟨2, _⟩ => fun V c t => rfl
    | ⟨3, _⟩ => fun V c t => rfl
    | ⟨4, _⟩ => fun V c t => rfl
    | ⟨5, _⟩ => fun V c t => rfl
    | ⟨6, _⟩ => fun V c t => rfl
    | ⟨7, _⟩ => fun V c t => rfl
    | ⟨8, _⟩ => fun V c t => rfl
    | ⟨9, _⟩ => fun V c t => rfl
    | ⟨_ + 10, h⟩ => absurd h (by omega)
  hrec := fun p => match p with
    | ⟨0, _⟩ => fun V c t => rfl
    | ⟨1, _⟩ => fun V c t => rfl
    | ⟨2, _⟩ => fun V c t => rfl
    | ⟨3, _⟩ => fun V c t => rfl
    | ⟨4, _⟩ => fun V c t => rfl
    | ⟨5, _⟩ => fun V c t => rfl
    | ⟨6, _⟩ => fun V c t => rfl
    | ⟨7, _⟩ => fun V c t => rfl
    | ⟨8, _⟩ => fun V c t => rfl
    | ⟨9, _⟩ => fun V c t => rfl
    | ⟨_ + 10, h⟩ => absurd h (by omega)
  hbody := fun p => match p with
    | ⟨0, _⟩ => fun V c => body_obligation0 V c
    | ⟨1, _⟩ => fun V c => body_obligation1 V c
    | ⟨2, _⟩ => fun V c => body_obligation2 V c
    | ⟨3, _⟩ => fun V c => body_obligation3 V c
    | ⟨4, _⟩ => fun V c => body_obligation4 V c
    | ⟨5, _⟩ => fun V c => body_obligation5 V c
    | ⟨6, _⟩ => fun V c => body_obligation6 V c
    | ⟨7, _⟩ => fun V c => body_obligation7 V c
    | ⟨8, _⟩ => fun V c => body_obligation8 V c
    | ⟨9, _⟩ => fun V c => body_obligation9 V c
    | ⟨_ + 10, h⟩ => absurd h (by omega)
  hΦin := fun p => match p with
    | ⟨0, _⟩ => fun V c => ΦA_in spec0 c
    | ⟨1, _⟩ => fun V c => ΦA_in spec1 c
    | ⟨2, _⟩ => fun V c => Φ2_in V c
    | ⟨3, _⟩ => fun V c => ΦA_in spec3 c
    | ⟨4, _⟩ => fun V c => ΦA_in spec4 c
    | ⟨5, _⟩ => fun V c => ΦA_in spec5 c
    | ⟨6, _⟩ => fun V c => ΦA_in spec6 c
    | ⟨7, _⟩ => fun V c => Φ7_in V c
    | ⟨8, _⟩ => fun V c => ΦA_in spec8 c
    | ⟨9, _⟩ => fun V c => ΦA_in spec9 c
    | ⟨_ + 10, h⟩ => absurd h (by omega)
  hΦout := fun p => match p with
    | ⟨0, _⟩ => fun V c => ΦA_out spec0 c
    | ⟨1, _⟩ => fun V c => ΦA_out spec1 c
    | ⟨2, _⟩ => fun V c => Φ2_out V c
    | ⟨3, _⟩ => fun V c => ΦA_out spec3 c
    | ⟨4, _⟩ => fun V c => ΦA_out spec4 c
    | ⟨5, _⟩ => fun V c => ΦA_out spec5 c
    | ⟨6, _⟩ => fun V c => ΦA_out spec6 c
    | ⟨7, _⟩ => fun V c => Φ7_out V c
    | ⟨8, _⟩ => fun V c => ΦA_out spec8 c
    | ⟨9, _⟩ => fun V c => ΦA_out spec9 c
    | ⟨_ + 10, h⟩ => absurd h (by omega)

end Cert.Kernel.Hand

end
-- ==== Proof.KB.Back.lean ====
/-
  Walking a buffer back through the run. Each of the sixteen items leaves a buffer it does not write as it found it:
  a host stretch writes only its operations' results; a region writes only its output windows' arrays (an input
  window's array ends at its entry contents, any other buffer is bypassed). A buffer no item writes — every argument
  array — therefore holds at the end what the launch memory held.
-/
import proofs.«152197_j87351044866369_2_alg».proof.Proof.KB.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (𝒟 : RegData F) (m : (ℓ : Loc nD τ sig) → Buf (Elt F) ℓ)

theorem back1 (c : Dev nD) (b : Ref sig .tc) (h : b ∉ hostOps0_W) : W1 m c (Proc.devRef .tc b) = W0 m c (Proc.devRef .tc b) :=
  StableHlo.after_of_writes_sub hostOps0 _ hostOps0_writes h
theorem back2 (c : Dev nD) (b : Ref sig .tc) (h : ∀ w, ((cfgs 0).win w).isOut = true → Pipeline.arrRef (cfgs 0).spec w ≠ b) :
    W2 𝒟 m c (Proc.devRef .tc b) = W1 m c (Proc.devRef .tc b) :=
  stepR_of_not_out 𝒟 0 _ c b h
theorem back3 (c : Dev nD) (b : Ref sig .tc) (h : b ∉ hostOps1_W) : W3 𝒟 m c (Proc.devRef .tc b) = W2 𝒟 m c (Proc.devRef .tc b) :=
  StableHlo.after_of_writes_sub hostOps1 _ hostOps1_writes h
theorem back4 (c : Dev nD) (b : Ref sig .tc) (h : ∀ w, ((cfgs 1).win w).isOut = true → Pipeline.arrRef (cfgs 1).spec w ≠ b) :
    W4 𝒟 m c (Proc.devRef .tc b) = W3 𝒟 m c (Proc.devRef .tc b) :=
  stepR_of_not_out 𝒟 1 _ c b h
theorem back5 (c : Dev nD) (b : Ref sig .tc) (h : ∀ w, ((cfgs 2).win w).isOut = true → Pipeline.arrRef (cfgs 2).spec w ≠ b) :
    W5 𝒟 m c (Proc.devRef .tc b) = W4 𝒟 m c (Proc.devRef .tc b) :=
  stepR_of_not_out 𝒟 2 _ c b h
theorem back6 (c : Dev nD) (b : Ref sig .tc) (h : b ∉ hostOps3_W) : W6 𝒟 m c (Proc.devRef .tc b) = W5 𝒟 m c (Proc.devRef .tc b) :=
  StableHlo.after_of_writes_sub hostOps3 _ hostOps3_writes h
theorem back7 (c : Dev nD) (b : Ref sig .tc) (h : ∀ w, ((cfgs 3).win w).isOut = true → Pipeline.arrRef (cfgs 3).spec w ≠ b) :
    W7 𝒟 m c (Proc.devRef .tc b) = W6 𝒟 m c (Proc.devRef .tc b) :=
  stepR_of_not_out 𝒟 3 _ c b h
theorem back8 (c : Dev nD) (b : Ref sig .tc) (h : ∀ w, ((cfgs 4).win w).isOut = true → Pipeline.arrRef (cfgs 4).spec w ≠ b) :
    W8 𝒟 m c (Proc.devRef .tc b) = W7 𝒟 m c (Proc.devRef .tc b) :=
  stepR_of_not_out 𝒟 4 _ c b h
theorem back9 (c : Dev nD) (b : Ref sig .tc) (h : b ∉ hostOps5_W) : W9 𝒟 m c (Proc.devRef .tc b) = W8 𝒟 m c (Proc.devRef .tc b) :=
  StableHlo.after_of_writes_sub hostOps5 _ hostOps5_writes h
theorem back10 (c : Dev nD) (b : Ref sig .tc) (h : ∀ w, ((cfgs 5).win w).isOut = true → Pipeline.arrRef (cfgs 5).spec w ≠ b) :
    W10 𝒟 m c (Proc.devRef .tc b) = W9 𝒟 m c (Proc.devRef .tc b) :=
  stepR_of_not_out 𝒟 5 _ c b h
theorem back11 (c : Dev nD) (b : Ref sig .tc) (h : b ∉ hostOps6_W) : W11 𝒟 m c (Proc.devRef .tc b) = W10 𝒟 m c (Proc.devRef .tc b) :=
  StableHlo.after_of_writes_sub hostOps6 _ hostOps6_writes h
theorem back12 (c : Dev nD) (b : Ref sig .tc) (h : ∀ w, ((cfgs 6).win w).isOut = true → Pipeline.arrRef (cfgs 6).spec w ≠ b) :
    W12 𝒟 m c (Proc.devRef .tc b) = W11 𝒟 m c (Proc.devRef .tc b) :=
  stepR_of_not_out 𝒟 6 _ c b h
theorem back13 (c : Dev nD) (b : Ref sig .tc) (h : ∀ w, ((cfgs 7).win w).isOut = true → Pipeline.arrRef (cfgs 7).spec w ≠ b) :
    W13 𝒟 m c (Proc.devRef .tc b) = W12 𝒟 m c (Proc.devRef .tc b) :=
  stepR_of_not_out 𝒟 7 _ c b h
theorem back14 (c : Dev nD) (b : Ref sig .tc) (h : b ∉ hostOps8_W) : W14 𝒟 m c (Proc.devRef .tc b) = W13 𝒟 m c (Proc.devRef .tc b) :=
  StableHlo.after_of_writes_sub hostOps8 _ hostOps8_writes h
theorem back15 (c : Dev nD) (b : Ref sig .tc) (h : ∀ w, ((cfgs 8).win w).isOut = true → Pipeline.arrRef (cfgs 8).spec w ≠ b) :
    W15 𝒟 m c (Proc.devRef .tc b) = W14 𝒟 m c (Proc.devRef .tc b) :=
  stepR_of_not_out 𝒟 8 _ c b h
theorem back16 (c : Dev nD) (b : Ref sig .tc) (h : ∀ w, ((cfgs 9).win w).isOut = true → Pipeline.arrRef (cfgs 9).spec w ≠ b) :
    W16 𝒟 m c (Proc.devRef .tc b) = W15 𝒟 m c (Proc.devRef .tc b) :=
  stepR_of_not_out 𝒟 9 _ c b h

/-- A buffer no item writes ends at the launch memory's contents. -/
theorem kept (c : Dev nD) (b : Ref sig .tc)
    (h1 : b ∉ hostOps0_W)
    (h2 : ∀ w, ((cfgs 0).win w).isOut = true → Pipeline.arrRef (cfgs 0).spec w ≠ b)
    (h3 : b ∉ hostOps1_W)
    (h4 : ∀ w, ((cfgs 1).win w).isOut = true → Pipeline.arrRef (cfgs 1).spec w ≠ b)
    (h5 : ∀ w, ((cfgs 2).win w).isOut = true → Pipeline.arrRef (cfgs 2).spec w ≠ b)
    (h6 : b ∉ hostOps3_W)
    (h7 : ∀ w, ((cfgs 3).win w).isOut = true → Pipeline.arrRef (cfgs 3).spec w ≠ b)
    (h8 : ∀ w, ((cfgs 4).win w).isOut = true → Pipeline.arrRef (cfgs 4).spec w ≠ b)
    (h9 : b ∉ hostOps5_W)
    (h10 : ∀ w, ((cfgs 5).win w).isOut = true → Pipeline.arrRef (cfgs 5).spec w ≠ b)
    (h11 : b ∉ hostOps6_W)
    (h12 : ∀ w, ((cfgs 6).win w).isOut = true → Pipeline.arrRef (cfgs 6).spec w ≠ b)
    (h13 : ∀ w, ((cfgs 7).win w).isOut = true → Pipeline.arrRef (cfgs 7).spec w ≠ b)
    (h14 : b ∉ hostOps8_W)
    (h15 : ∀ w, ((cfgs 8).win w).isOut = true → Pipeline.arrRef (cfgs 8).spec w ≠ b)
    (h16 : ∀ w, ((cfgs 9).win w).isOut = true → Pipeline.arrRef (cfgs 9).spec w ≠ b) :
    W16 𝒟 m c (Proc.devRef .tc b) = m ((c : Thread nD τ).loc b) := by
  rw [back16 𝒟 m c b h16, back15 𝒟 m c b h15, back14 𝒟 m c b h14, back13 𝒟 m c b h13, back12 𝒟 m c b h12, back11 𝒟 m c b h11,
    back10 𝒟 m c b h10, back9 𝒟 m c b h9, back8 𝒟 m c b h8, back7 𝒟 m c b h7, back6 𝒟 m c b h6, back5 𝒟 m c b h5,
    back4 𝒟 m c b h4, back3 𝒟 m c b h3, back2 𝒟 m c b h2, back1 m c b h1]

end Cert.Kernel.Hand

end
-- ==== Proof.KB.Frames.lean ====
/-
  The frame: the program runs to the end without a fault and leaves every argument array as launched. No host
  operation writes an argument and no region has one as an output window's array, so each argument's buffer walks
  back through the sixteen items to the launch memory.
-/
import proofs.«152197_j87351044866369_2_alg».proof.Proof.KB.Data
import proofs.«152197_j87351044866369_2_alg».proof.Proof.KB.Back

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem kept_arg0 (c : Dev nD) : W16 (regData (F := F)) m c (Proc.devRef .tc main_arg0) = m ((c : Thread nD τ).loc main_arg0) :=
  kept regData m c main_arg0 (by decide) (by decide) (by decide) (by decide) (by decide) (by decide) (by decide) (by decide) (by decide) (by decide) (by decide) (by decide) (by decide) (by decide) (by decide) (by decide)
theorem kept_arg1 (c : Dev nD) : W16 (regData (F := F)) m c (Proc.devRef .tc main_arg1) = m ((c : Thread nD τ).loc main_arg1) :=
  kept regData m c main_arg1 (by decide) (by decide) (by decide) (by decide) (by decide) (by decide) (by decide) (by decide) (by decide) (by decide) (by decide) (by decide) (by decide) (by decide) (by decide) (by decide)
theorem kept_arg2 (c : Dev nD) : W16 (regData (F := F)) m c (Proc.devRef .tc main_arg2) = m ((c : Thread nD τ).loc main_arg2) :=
  kept regData m c main_arg2 (by decide) (by decide) (by decide) (by decide) (by decide) (by decide) (by decide) (by decide) (by decide) (by decide) (by decide) (by decide) (by decide) (by decide) (by decide) (by decide)
theorem kept_arg3 (c : Dev nD) : W16 (regData (F := F)) m c (Proc.devRef .tc main_arg3) = m ((c : Thread nD τ).loc main_arg3) :=
  kept regData m c main_arg3 (by decide) (by decide) (by decide) (by decide) (by decide) (by decide) (by decide) (by decide) (by decide) (by decide) (by decide) (by decide) (by decide) (by decide) (by decide) (by decide)
theorem kept_arg4 (c : Dev nD) : W16 (regData (F := F)) m c (Proc.devRef .tc main_arg4) = m ((c : Thread nD τ).loc main_arg4) :=
  kept regData m c main_arg4 (by decide) (by decide) (by decide) (by decide) (by decide) (by decide) (by decide) (by decide) (by decide) (by decide) (by decide) (by decide) (by decide) (by decide) (by decide) (by decide)
theorem kept_arg5 (c : Dev nD) : W16 (regData (F := F)) m c (Proc.devRef .tc main_arg5) = m ((c : Thread nD τ).loc main_arg5) :=
  kept regData m c main_arg5 (by decide) (by decide) (by decide) (by decide) (by decide) (by decide) (by decide) (by decide) (by decide) (by decide) (by decide) (by decide) (by decide) (by decide) (by decide) (by decide)
theorem kept_arg6 (c : Dev nD) : W16 (regData (F := F)) m c (Proc.devRef .tc main_arg6) = m ((c : Thread nD τ).loc main_arg6) :=
  kept regData m c main_arg6 (by decide) (by decide) (by decide) (by decide) (by decide) (by decide) (by decide) (by decide) (by decide) (by decide) (by decide) (by decide) (by decide) (by decide) (by decide) (by decide)
theorem kept_arg7 (c : Dev nD) : W16 (regData (F := F)) m c (Proc.devRef .tc main_arg7) = m ((c : Thread nD τ).loc main_arg7) :=
  kept regData m c main_arg7 (by decide) (by decide) (by decide) (by decide) (by decide) (by decide) (by decide) (by decide) (by decide) (by decide) (by decide) (by decide) (by decide) (by decide) (by decide) (by decide)
theorem kept_arg8 (c : Dev nD) : W16 (regData (F := F)) m c (Proc.devRef .tc main_arg8) = m ((c : Thread nD τ).loc main_arg8) :=
  kept regData m c main_arg8 (by decide) (by decide) (by decide) (by decide) (by decide) (by decide) (by decide) (by decide) (by decide) (by decide) (by decide) (by decide) (by decide) (by decide) (by decide) (by decide)
theorem kept_arg9 (c : Dev nD) : W16 (regData (F := F)) m c (Proc.devRef .tc main_arg9) = m ((c : Thread nD τ).loc main_arg9) :=
  kept regData m c main_arg9 (by decide) (by decide) (by decide) (by decide) (by decide) (by decide) (by decide) (by decide) (by decide) (by decide) (by decide) (by decide) (by decide) (by decide) (by decide) (by decide)
theorem kept_arg10 (c : Dev nD) : W16 (regData (F := F)) m c (Proc.devRef .tc main_arg10) = m ((c : Thread nD τ).loc main_arg10) :=
  kept regData m c main_arg10 (by decide) (by decide) (by decide) (by decide) (by decide) (by decide) (by decide) (by decide) (by decide) (by decide) (by decide) (by decide) (by decide) (by decide) (by decide) (by decide)
theorem kept_arg11 (c : Dev nD) : W16 (regData (F := F)) m c (Proc.devRef .tc main_arg11) = m ((c : Thread nD τ).loc main_arg11) :=
  kept regData m c main_arg11 (by decide) (by decide) (by decide) (by decide) (by decide) (by decide) (by decide) (by decide) (by decide) (by decide) (by decide) (by decide) (by decide) (by decide) (by decide) (by decide)
theorem kept_arg12 (c : Dev nD) : W16 (regData (F := F)) m c (Proc.devRef .tc main_arg12) = m ((c : Thread nD τ).loc main_arg12) :=
  kept regData m c main_arg12 (by decide) (by decide) (by decide) (by decide) (by decide) (by decide) (by decide) (by decide) (by decide) (by decide) (by decide) (by decide) (by decide) (by decide) (by decide) (by decide)
theorem kept_arg13 (c : Dev nD) : W16 (regData (F := F)) m c (Proc.devRef .tc main_arg13) = m ((c : Thread nD τ).loc main_arg13) :=
  kept regData m c main_arg13 (by decide) (by decide) (by decide) (by decide) (by decide) (by decide) (by decide) (by decide) (by decide) (by decide) (by decide) (by decide) (by decide) (by decide) (by decide) (by decide)
theorem kept_arg14 (c : Dev nD) : W16 (regData (F := F)) m c (Proc.devRef .tc main_arg14) = m ((c : Thread nD τ).loc main_arg14) :=
  kept regData m c main_arg14 (by decide) (by decide) (by decide) (by decide) (by decide) (by decide) (by decide) (by decide) (by decide) (by decide) (by decide) (by decide) (by decide) (by decide) (by decide) (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c),
     (h c _ (mem_uc main_arg4 (by decide))).trans (kept_arg4 m c),
     (h c _ (mem_uc main_arg5 (by decide))).trans (kept_arg5 m c),
     (h c _ (mem_uc main_arg6 (by decide))).trans (kept_arg6 m c),
     (h c _ (mem_uc main_arg7 (by decide))).trans (kept_arg7 m c),
     (h c _ (mem_uc main_arg8 (by decide))).trans (kept_arg8 m c),
     (h c _ (mem_uc main_arg9 (by decide))).trans (kept_arg9 m c),
     (h c _ (mem_uc main_arg10 (by decide))).trans (kept_arg10 m c),
     (h c _ (mem_uc main_arg11 (by decide))).trans (kept_arg11 m c),
     (h c _ (mem_uc main_arg12 (by decide))).trans (kept_arg12 m c),
     (h c _ (mem_uc main_arg13 (by decide))).trans (kept_arg13 m c),
     (h c _ (mem_uc main_arg14 (by decide))).trans (kept_arg14 m c)⟩)
    (run_all regData m ρ)

end Cert.Kernel.Hand

end
-- ==== Proof.KI.Reg0.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_M : Rect S1024x1024 := Rect.unit (s := S1024x1024) ![0, 0] S1024x1024.size inb_S1024x1024_S1024x1024_0_0
abbrev r0_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out0_5 (x0 : Vec F S1024x1024 .f32) (x1 : Vec F S1024x1024 .f32) (x2 : Vec F S1x1024 .f32) : Vec F S1024x1024 .bf16 :=
  View.canon [⟨r0_M, k0_pay2 (View.ld x0 r0_M) (View.ld x1 r0_M) (View.ld x2 r0_B)⟩]

/-- Window 6's staging buffer after the body: its one store, of the rounded `max (x · w₂ᵀ + b₂) 0`, over the whole buffer. -/
def out0_6 (x0 : Vec F S1024x1024 .f32) (x3 : Vec F S1024x1024 .f32) (x4 : Vec F S1x1024 .f32) : Vec F S1024x1024 .bf16 :=
  View.canon [⟨r0_M, k0_pay3 (View.ld x0 r0_M) (View.ld x3 r0_M) (View.ld x4 r0_B)⟩]

/-- A store's rectangle is the whole buffer, so it covers it. -/
theorem cover0_5 (p0 : Vec F S1024x1024 .bf16) (y : S1024x1024.Idx) :
    ∃ pc ∈ ([⟨r0_M, p0⟩] : List (View.Piece (Elt F) S1024x1024 .bf16)), y ∈ pc.1.set :=
  View.cover_of_tiled [⟨r0_M, p0⟩] S1024x1024.size (by rfl) y
theorem cover0_6 (p0 : Vec F S1024x1024 .bf16) (y : S1024x1024.Idx) :
    ∃ pc ∈ ([⟨r0_M, p0⟩] : List (View.Piece (Elt F) S1024x1024 .bf16)), y ∈ pc.1.set :=
  View.cover_of_tiled [⟨r0_M, p0⟩] S1024x1024.size (by rfl) y

/-! ## The body's triple -/

set_option maxHeartbeats 1000000 in
/-- The kernel body on whole staging memrefs, the inputs' at read contents `xW` and the outputs' at anything, runs to
    the continuation holding the inputs' as they were and each output's at `out0_W` of the inputs'. The body also
    loads each output buffer before storing to it; the loaded values are not used. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__fc2_kernel i arg1 harg1 arg2 harg2 arg3 harg3 arg4 harg4 arg5 harg5 arg6 harg6 arg7 harg7) K := by
  simp only [cc0__fc2_kernel_eq_skeleton]; unfold cc0__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_M : Rect S1024x1024 := Rect.unit (s := S1024x1024) ![0, 0] S1024x1024.size inb_S1024x1024_S1024x1024_0_0
abbrev r1_B : Rect S1x1024 := Rect.unit (s := S1x1024) ![0, 0] S1x1024.size inb_S1x1024_S1x1024_0_0

/-! ## What the body leaves in the output window's buffer -/

/-- Window 3's staging buffer after the body, from the input windows' blocks: its one store, of the rounded
    `max (x · wᵀ + b) 0`, over the whole buffer. -/
def out1_3 (x0 : Vec F S1024x1024 .f32) (x1 : Vec F S1024x1024 .f32) (x2 : Vec F S1x1024 .f32) : Vec F S1024x1024 .bf16 :=
  View.canon [⟨r1_M, k1_pay1 (View.ld x0 r1_M) (View.ld x1 r1_M) (View.ld x2 r1_B)⟩]

/-- The store's rectangle is the whole buffer, so it covers it. -/
theorem cover1_3 (p0 : Vec F S1024x1024 .bf16) (y : S1024x1024.Idx) :
    ∃ pc ∈ ([⟨r1_M, p0⟩] : List (View.Piece (Elt F) S1024x1024 .bf16)), y ∈ pc.1.set :=
  View.cover_of_tiled [⟨r1_M, p0⟩] S1024x1024.size (by rfl) y

/-! ## The body's triple -/

set_option maxHeartbeats 1000000 in
/-- The kernel body on whole staging memrefs, the inputs' at read contents `xW` and the output's at anything, runs to
    the continuation holding the inputs' as they were and the output's at `out1_3` of the inputs'. The body also
    loads the output buffer before storing to it; the loaded value is not used. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc_kernel i arg1 harg1 arg2 harg2 arg3 harg3 arg4 harg4) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2K.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of this body goes through the rectangle of the buffer's own sizes at zero offsets: such a load
reads the contents, such a store leaves its payload. -/

theorem hz2 : (![0, 0] : Fin 2 → ℕ) = fun _ => 0 := by funext a; fin_cases a <;> rfl

section Whole
variable {sig' : RefSig} {κ : Kind} {sp : Space} {S : Shape} {e : EltTy} {Val : EltTy → Type}

/-- A load through the whole-shape rectangle reads the contents. -/
theorem readAt_unit (v : View sig' κ sp S e) {off : Fin S.rank → Nat} (h : off = fun _ => 0)
    (inb : ∀ a, off a + S.size a ≤ S.size a) (f : v.ty.Contents Val) :
    v.readAt Val (Rect.unit off S.size inb).toLoadRect f = v.read Val f := by
  show View.ld (v.read Val f) (Rect.unit off S.size inb) = _
  exact View.ld_unit_zero h inb _

/-- A store through it, last, leaves its payload. -/
theorem read_writes_cons_unit [∀ e, Nonempty (Val e)] (v : View sig' κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load through it after a store through it reads the payload. -/
theorem readCov_cons_unit [∀ e, Nonempty (Val e)] (v : View sig' κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h inb]
end Whole

/-! ## The body's branch conditions -/

/-- The condition of the body's first `scf.if` (zero the accumulators, compute the self term), from the grid
    coordinates (the skeleton's scalar chain substituted). -/
abbrev cond2_1 (i : grid2.Coords) : Prop := (Scalar.cmpi .ne (Scalar.extui (Scalar.cmpi .eq (BitVec.ofNat 32 (i 1).val) 0#32)) 0#32) = 1#1

/-! ## The body's triple, case by case

The body on whole staging and scratch memrefs at known contents. Case A: the first point of a row (the accumulators
are zeroed and the self term computed, then the two products are added). Case B: a middle point (the two products are
added). Case C: the last point of a row (the two products are added, then the output block is computed and stored). -/

set_option maxHeartbeats 1000000 in
theorem sound_kernel2_A (c : Dev nD) (E : Set ℕ) (i : grid2.Coords) (hc1 : cond2_1 i) (hc2 : ¬ k2_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k2_pay4 x0 x2 k2_pay1) ∗ owns (c : Thread nD τ) arg14 fullShare (k2_pay5 x1 x3 k2_pay2) ∗ owns (c : Thread nD τ) arg15 fullShare (k2_pay3 x4 x5 x8)) -∗ K ⟨⟩))
      ⊢ wp frame (wpE (defs₀ (F := F)) Variants.none c none) E
          (cc2__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__obj_combine_kernel_eq_skeleton]; unfold cc2__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr
  swap; · iexact G2
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

set_option maxHeartbeats 1000000 in
theorem sound_kernel2_B (c : Dev nD) (E : Set ℕ) (i : grid2.Coords) (hc1 : ¬ cond2_1 i) (hc2 : ¬ k2_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k2_pay4 x0 x2 s0) ∗ owns (c : Thread nD τ) arg14 fullShare (k2_pay5 x1 x3 s1) ∗ owns (c : Thread nD τ) arg15 fullShare s2) -∗ K ⟨⟩))
      ⊢ wp frame (wpE (defs₀ (F := F)) Variants.none c none) E
          (cc2__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__obj_combine_kernel_eq_skeleton]; unfold cc2__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr; · ipureintro; rfl
  iexact G2

set_option maxHeartbeats 1000000 in
theorem sound_kernel2_C (c : Dev nD) (E : Set ℕ) (i : grid2.Coords) (hc1 : ¬ cond2_1 i) (hc2 : k2_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k2_pay4 x0 x2 s0) ∗ owns (c : Thread nD τ) arg14 fullShare (k2_pay5 x1 x3 s1) ∗ owns (c : Thread nD τ) arg15 fullShare s2
            ∗ owns (c : Thread nD τ) arg12 fullShare (k2_pay6 (k2_pay4 x0 x2 s0) x6 (k2_pay5 x1 x3 s1) x7 s2 x9)) -∗ K ⟨⟩))
      ⊢ wp frame (wpE (defs₀ (F := F)) Variants.none c none) E
          (cc2__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__obj_combine_kernel_eq_skeleton]; unfold cc2__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%d12, %f12, -, H12⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G2]
  · iexists _; isplitr; · ipureintro; rfl
    iexact G2
  iexists _; isplitr
  swap; · iexact H12
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

end Cert.KernelIdeal.Hand

end
-- ==== Proof.KI.Reg2.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import proofs.«152197_j87351044866369_2_alg».proof.Proof.KI.Reg2K
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # REGION 2 of @main: custom_call 2, `cc2__obj_combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for any proof
    data whose array is `V`'s and whose body leaves the block in place: the windows are uncut and never idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The closed forms of the branch conditions -/

/-- The first `scf.if` is taken at the first point of each row of the grid — decided over the grid. -/
theorem hcond2_1 : ∀ t : Fin cfg2.N, cond2_1 (grid2.coords t) ↔ t.val % 32 = 0 :=
  (by decide +kernel : ∀ t : Fin grid2.N, cond2_1 (grid2.coords t) ↔ t.val % 32 = 0)
/-- The second at the last point of each row. -/
theorem hcond2_2 : ∀ t : Fin cfg2.N, k2_cond2 (grid2.coords t) = 1#1 ↔ t.val % 32 = 31 :=
  (by decide +kernel : ∀ t : Fin grid2.N, k2_cond2 (grid2.coords t) = 1#1 ↔ t.val % 32 = 31)

/-! ## The scratch buffers from point to point -/

/-- The three scratch memrefs, as the pipeline passes them to the body. -/
abbrev sm2_0 : Memref sig .tc .vmem S512x1024 .f32 := Memref.whole cc2_scratch0
abbrev sm2_1 : Memref sig .tc .vmem S512x1024 .f32 := Memref.whole cc2_scratch1
abbrev sm2_2 : Memref sig .tc .vmem S512x1024 .f32 := Memref.whole cc2_scratch2

/-- The contents of the three scratch buffers: the two accumulators and the self term. -/
abbrev Scr (F : FTy → Type) [FloatOps F] := Vec F S512x1024 .f32 × Vec F S512x1024 .f32 × Vec F S512x1024 .f32

/-- What the first point of a row leaves in them: each accumulator at its product added to zero, the self term computed. -/
def stepA2 (c : Dev nD) (t : Fin cfg2.N) : Scr F :=
  (k2_pay4 (iblk2 V c 0 t) (iblk2 V c 2 t) k2_pay1, k2_pay5 (iblk2 V c 1 t) (iblk2 V c 3 t) k2_pay2,
    k2_pay3 (iblk2 V c 4 t) (iblk2 V c 5 t) (iblk2 V c 8 t))

/-- What a later point of a row leaves in them, over what the point before left: each accumulator with its product added, the self term kept. -/
def stepB2 (c : Dev nD) (t : Fin cfg2.N) (s : Scr F) : Scr F :=
  (k2_pay4 (iblk2 V c 0 t) (iblk2 V c 2 t) s.1, k2_pay5 (iblk2 V c 1 t) (iblk2 V c 3 t) s.2.1, s.2.2)

/-- THE ACCUMULATION. What the scratch buffers hold after the body at position `n`. -/
def scr2 (c : Dev nD) : (n : ℕ) → n < cfg2.N → Scr F
  | 0, hn => stepA2 V c ⟨0, hn⟩
  | n + 1, hn =>
    if h0 : (n + 1) % 32 = 0 then stepA2 V c ⟨n + 1, hn⟩
    else stepB2 V c ⟨n + 1, hn⟩ (scr2 c n (Nat.lt_of_succ_lt hn))

/-- `scr2` at the first point of a row. -/
theorem scr2_A (c : Dev nD) (t : Fin cfg2.N) (h0 : t.val % 32 = 0) : scr2 V c t.val t.isLt = stepA2 V c t := by
  obtain ⟨n, hn⟩ := t
  cases n with
  | zero => exact rfl
  | succ n => exact (dif_pos h0).trans rfl

/-- `scr2` at a later point of a row. -/
theorem scr2_B (c : Dev nD) (t : Fin cfg2.N) (h0 : ¬t.val % 32 = 0) :
    scr2 V c t.val t.isLt = stepB2 V c t (scr2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The scratch buffers before position `n`: at anything before the first point, else at what the point before left. -/
def scrAt2 (c : Dev nD) : (n : ℕ) → n ≤ cfg2.N → sProp 𝕄
  | 0, _ => iprop(∃ f0 f1 f2 : Vec F S512x1024 .f32, owns (c : Thread nD τ) sm2_0 fullShare f0 ∗ owns (c : Thread nD τ) sm2_1 fullShare f1 ∗ owns (c : Thread nD τ) sm2_2 fullShare f2)
  | n + 1, hn => iprop(owns (c : Thread nD τ) sm2_0 fullShare (scr2 V c n hn).1 ∗ owns (c : Thread nD τ) sm2_1 fullShare (scr2 V c n hn).2.1 ∗ owns (c : Thread nD τ) sm2_2 fullShare (scr2 V c n hn).2.2)

/-- At any position they are held at some contents. -/
theorem scrAt2_any (c : Dev nD) (n : ℕ) (hn : n ≤ cfg2.N) :
    scrAt2 V c n hn ⊢ iprop(∃ f0 f1 f2 : Vec F S512x1024 .f32, owns (c : Thread nD τ) sm2_0 fullShare f0 ∗ owns (c : Thread nD τ) sm2_1 fullShare f1 ∗ owns (c : Thread nD τ) sm2_2 fullShare f2) := by
  cases n with
  | zero => exact .rfl
  | succ n =>
    unfold scrAt2
    iintro ⟨H0, H1, H2⟩
    iexists _, _, _
    isplitl [H0]; · iexact H0
    isplitl [H1]; · iexact H1
    iexact H2

/-- After the first point they are held at what the point before left. -/
theorem scrAt2_pos (c : Dev nD) (t : Fin cfg2.N) (h0 : t.val ≠ 0) :
    scrAt2 V c t.val (Nat.le_of_lt t.isLt)
      = iprop(owns (c : Thread nD τ) sm2_0 fullShare (scr2 V c (t.val - 1) (Nat.lt_of_le_of_lt (Nat.sub_le _ _) t.isLt)).1
          ∗ owns (c : Thread nD τ) sm2_1 fullShare (scr2 V c (t.val - 1) (Nat.lt_of_le_of_lt (Nat.sub_le _ _) t.isLt)).2.1
          ∗ owns (c : Thread nD τ) sm2_2 fullShare (scr2 V c (t.val - 1) (Nat.lt_of_le_of_lt (Nat.sub_le _ _) t.isLt)).2.2) := by
  obtain ⟨n, hn⟩ := t
  cases n with
  | zero => exact absurd rfl h0
  | succ n => rfl

/-! ## The pipeline's proof data -/

/-- What the last point of a row stores in the output block, from the scratch buffers as that point leaves them. -/
def out2_10 (c : Dev nD) (t : Fin cfg2.N) : Vec F S512x1024 .f32 :=
  k2_pay6 (scr2 V c t.val t.isLt).1 (iblk2 V c 6 t) (scr2 V c t.val t.isLt).2.1 (iblk2 V c 7 t) (scr2 V c t.val t.isLt).2.2 (iblk2 V c 9 t)

/-- The invariant before position `n`: the three scratch buffers at what the points before left (`scrAt2`), the other
    scoped buffers at some contents each, the generator register at some state. -/
def Φ2 (c : Dev nD) (n : ℕ) (hn : n ≤ cfg2.N) : sProp 𝕄 :=
  iprop(scrAt2 V c n hn ∗ Pipeline.scopedRestBut (Ix := Unit) (Name := ℕ) (U := UR sig nD τ) (Lvl := ℕ) (Val := Elt F) spec2 c [cc2_scratch0, cc2_scratch1, cc2_scratch2] ∗ ∃ r, prngReg c r)

/-- The proof data of pipeline 2 on core `c`: the arrays as the region finds them (`V`); after the body at point `t`
    each input's buffer at its block and the output's at `out2_10` (consulted at the last point of a row only: at the
    others the window is idle and its buffer is left as found); the invariant `Φ2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 V c t
  Φ t := Φ2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- The invariant before and after a point. -/
theorem Φ2_castSucc (c : Dev nD) (t : Fin cfg2.N) : (dat2 V c).Φ t.castSucc = Φ2 V c t.val (Nat.le_of_lt t.isLt) := rfl
theorem Φ2_succ (c : Dev nD) (t : Fin cfg2.N) : (dat2 V c).Φ t.succ = Φ2 V c (t.val + 1) t.isLt := rfl

/-- ENTRY: the scoped rest split at the three scratch buffers, each at some contents, with the generator register. -/
theorem Φ2_in (c : Dev nD) : iprop((∃ r, prngReg c r) ∗ Pipeline.scopedRest (Ix := Unit) (Name := ℕ) (U := UR sig nD τ) (Lvl := ℕ) (Val := Elt F) spec2 c) ⊢ (dat2 V c).Φ 0 := by
  rw [scopedRest2_split, show (dat2 V c).Φ 0 = Φ2 V c 0 (Nat.zero_le _) from rfl]
  unfold Φ2 scrAt2
  iintro ⟨Hr, ⟨⟨%f0, H0⟩, ⟨%f1, H1⟩, ⟨%f2, H2⟩⟩, HR⟩
  isplitl [H0 H1 H2]
  · iexists f0, f1, f2
    rw [owns_whole, owns_whole, owns_whole]
    isplitl [H0]; · iexact H0
    isplitl [H1]; · iexact H1
    iexact H2
  isplitl [HR]; · iexact HR
  iexact Hr

/-- EXIT: the same back. -/
theorem Φ2_out (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [scopedRest2_split, show (dat2 V c).Φ (Fin.last cfg2.N) = Φ2 V c cfg2.N (Nat.le_refl _) from rfl]
  unfold Φ2
  iintro ⟨Hs, HR, Hr⟩
  ihave Hs' := scrAt2_any V c cfg2.N (Nat.le_refl _) $$ Hs
  icases Hs' with ⟨%f0, %f1, %f2, H0, H1, H2⟩
  ihave H0' := (Entails.of_eq (owns_whole (c : Thread nD τ) cc2_scratch0 fullShare f0)) $$ H0
  ihave H1' := (Entails.of_eq (owns_whole (c : Thread nD τ) cc2_scratch1 fullShare f1)) $$ H1
  ihave H2' := (Entails.of_eq (owns_whole (c : Thread nD τ) cc2_scratch2 fullShare f2)) $$ H2
  isplitl [Hr]; · iexact Hr
  isplitr [HR]
  · isplitl [H0']; · iexists f0; iexact H0'
    isplitl [H1']; · iexists f1; iexact H1'
    iexists f2; iexact H2'
  iexact HR

/-! ## The body obligation, at a generic point -/

/-- A window live at a point is left at what the body leaves. -/
theorem leavesExact_live {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns: the output window, idle off the last point of a row, as the library states it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ (dat2 V c).leavesExact 10 t)

set_option maxHeartbeats 2000000 in
/-- The body at any point: the inputs' memrefs hold their blocks; the closed forms say which case the point is in;
    the scratch buffers hold what the point before left (anything, before a row's first point); so the case's triple
    applies; the rest of the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [Φ2_castSucc, Φ2_succ, show (dat2 V c).owesAt () t.succ = (dat2 V c).owesAt () t.castSucc from rfl,
    after2_0, after2_1, after2_2, after2_3, after2_4, after2_5, after2_6, after2_7, after2_8, after2_9]
  unfold Φ2
  have hN : t.val < 128 := lt_of_lt_of_eq t.isLt (show cfg2.N = 128 from N_2)
  rw [show scrAt2 V c (t.val + 1) t.isLt = iprop(owns (c : Thread nD τ) sm2_0 fullShare (scr2 V c t.val t.isLt).1
      ∗ owns (c : Thread nD τ) sm2_1 fullShare (scr2 V c t.val t.isLt).2.1 ∗ owns (c : Thread nD τ) sm2_2 fullShare (scr2 V c t.val t.isLt).2.2) from rfl]
  by_cases h0 : t.val % 32 = 0
  · have hc1 : cond2_1 (grid2.coords t) := (hcond2_1 t).mpr h0
    have hc2 : ¬ k2_cond2 (grid2.coords t) = 1#1 := fun h => by have := (hcond2_2 t).mp h; omega
    have hidle : cfg2.idle 10 (cfg2.grid.coords t) = true := by
      show (!(k2_cond2 (grid2.coords t) == 1#1)) = true
      rw [Bool.not_eq_true', beq_eq_false_iff_ne]; exact hc2
    have hflush : (cfg2.win 10).flush t = false := Bool.eq_false_iff.mpr fun h => by have := (flush2_10 t).mp h; omega
    rw [Dat.leavesExact_idle _ 10 t hidle hflush, scr2_A V c t h0]
    dsimp only [stepA2]
    iintro ⟨⟨Hs, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    ihave Hs' := scrAt2_any V c t.val _ $$ Hs
    icases Hs' with ⟨%f0, %f1, %f2, S0, S1, S2⟩
    iapply (sound_kernel2_A c Set.univ (grid2.coords t) hc1 hc2 _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) f0 f1 f2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR Hr]
    · isplitl [S0 S1 S2]
      · isplitl [S0]; · iexact S0
        isplitl [S1]; · iexact S1
        iexact S2
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc1 : ¬ cond2_1 (grid2.coords t) := fun h => h0 ((hcond2_1 t).mp h)
    have ht0 : t.val ≠ 0 := fun h => h0 (by rw [h])
    rw [scrAt2_pos V c t ht0, scr2_B V c t h0]
    dsimp only [stepB2]
    by_cases h31 : t.val % 32 = 31
    · have hc2 : k2_cond2 (grid2.coords t) = 1#1 := (hcond2_2 t).mpr h31
      have hidle : cfg2.idle 10 (cfg2.grid.coords t) = false := by
        show (!(k2_cond2 (grid2.coords t) == 1#1)) = false
        rw [hc2]; rfl
      rw [leavesExact_live _ 10 t hidle, after2_10]
      unfold out2_10
      rw [scr2_B V c t h0]
      dsimp only [stepB2]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_C c Set.univ (grid2.coords t) hc1 hc2 _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [H10]; · iexists _; iexact H10
      iintro ⟨H0, H1, H2, H3, H4, H5, H6, H7, H8, H9, S0, S1, S2, H10⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc2 : ¬ k2_cond2 (grid2.coords t) = 1#1 := fun h => h31 ((hcond2_2 t).mp h)
      have hidle : cfg2.idle 10 (cfg2.grid.coords t) = true := by
        show (!(k2_cond2 (grid2.coords t) == 1#1)) = true
        rw [Bool.not_eq_true', beq_eq_false_iff_ne]; exact hc2
      have hflush : (cfg2.win 10).flush t = false := Bool.eq_false_iff.mpr fun h => h31 ((flush2_10 t).mp h)
      rw [Dat.leavesExact_idle _ 10 t hidle hflush]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel2_B c Set.univ (grid2.coords t) hc1 hc2 _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      iintro ⟨H0, H1, H2, H3, H4, H5, H6, H7, H8, H9, S0, S1, S2⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.Reg3.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_M : Rect S1024x1024 := Rect.unit (s := S1024x1024) ![0, 0] S1024x1024.size inb_S1024x1024_S1024x1024_0_0
abbrev r3_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out3_5 (x0 : Vec F S1024x1024 .f32) (x1 : Vec F S1024x1024 .f32) (x2 : Vec F S1x1024 .f32) : Vec F S1024x1024 .bf16 :=
  View.canon [⟨r3_M, k3_pay2 (View.ld x0 r3_M) (View.ld x1 r3_M) (View.ld x2 r3_B)⟩]

/-- Window 6's staging buffer after the body: its one store, of the rounded `max (x · w₂ᵀ + b₂) 0`, over the whole buffer. -/
def out3_6 (x0 : Vec F S1024x1024 .f32) (x3 : Vec F S1024x1024 .f32) (x4 : Vec F S1x1024 .f32) : Vec F S1024x1024 .bf16 :=
  View.canon [⟨r3_M, k3_pay3 (View.ld x0 r3_M) (View.ld x3 r3_M) (View.ld x4 r3_B)⟩]

/-- A store's rectangle is the whole buffer, so it covers it. -/
theorem cover3_5 (p0 : Vec F S1024x1024 .bf16) (y : S1024x1024.Idx) :
    ∃ pc ∈ ([⟨r3_M, p0⟩] : List (View.Piece (Elt F) S1024x1024 .bf16)), y ∈ pc.1.set :=
  View.cover_of_tiled [⟨r3_M, p0⟩] S1024x1024.size (by rfl) y
theorem cover3_6 (p0 : Vec F S1024x1024 .bf16) (y : S1024x1024.Idx) :
    ∃ pc ∈ ([⟨r3_M, p0⟩] : List (View.Piece (Elt F) S1024x1024 .bf16)), y ∈ pc.1.set :=
  View.cover_of_tiled [⟨r3_M, p0⟩] S1024x1024.size (by rfl) y

/-! ## The body's triple -/

set_option maxHeartbeats 1000000 in
/-- The kernel body on whole staging memrefs, the inputs' at read contents `xW` and the outputs' at anything, runs to
    the continuation holding the inputs' as they were and each output's at `out3_W` of the inputs'. The body also
    loads each output buffer before storing to it; the loaded values are not used. -/
theorem sound_kernel3 (c : Dev nD) (E : Set ℕ) (i : grid3.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2) ∗ owns (c : Thread nD τ) arg7 fullShare (out3_6 x0 x3 x4)) -∗ K ⟨⟩))
      ⊢ wp frame (wpE (defs₀ (F := F)) Variants.none c none) E (cc3__fc2_kernel i arg1 harg1 arg2 harg2 arg3 harg3 arg4 harg4 arg5 harg5 arg6 harg6 arg7 harg7) K := by
  simp only [cc3__fc2_kernel_eq_skeleton]; unfold cc3__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and each output's at `out3_W` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t)
    | ⟨6, _⟩ => out3_6 (iblk3 V c 0 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) := by dsimp only [dat3]
theorem after3_6 (c : Dev nD) (t : Fin cfg3.N) : (dat3 V c).after 6 t = out3_6 (iblk3 V c 0 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4.lean ====
/- Region 4 of the kernel program, the relation-side combine (`cc4__rel_combine_kernel`, pipeline 4), at a
   PARAMETER `V` — the TensorCore's buffer contents when the region is entered: each window's block at a point
   (`iblk4`), what the body leaves in the output window's buffer (`out4_7`), the body's triple (`sound_kernel4`),
   the pipeline's proof data (`dat4`) and its body obligation (`body_obligation4`). Generic in the float model. -/
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block index
    has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block index
    has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block index
    has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the block index
    has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the block index
    has not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the block index
    has not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2048x512 := Rect.unit (s := S2048x512) ![0, 0] S2048x512.size inb_S2048x512_S2048x512_0_0
abbrev r4_1 : Rect S2048x1024 := Rect.unit (s := S2048x1024) ![0, 0] S2048x1024.size inb_S2048x1024_S2048x1024_0_0
abbrev r4_2 : Rect S512x1 := Rect.unit (s := S512x1) ![0, 0] S512x1.size inb_S512x1_S512x1_0_0
abbrev r4_3 : Rect S512x1024 := Rect.unit (s := S512x1024) ![0, 0] S512x1024.size inb_S512x1024_S512x1024_0_0

/-! ## What the body leaves in the output window's buffer -/

/-- Window 7's staging buffer after the body, from the input windows' blocks: its one store, of the payload at the
    seven loaded blocks (the two attention blocks, the two projected feature arrays, the two denominators and the
    relation features). -/
def out4_7 (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) : Vec F S512x1024 .f32 :=
  View.canon [⟨r4_3, k4_pay1 (View.ld x0 r4_0) (View.ld x2 r4_1) (View.ld x4 r4_2) (View.ld x1 r4_0) (View.ld x3 r4_1) (View.ld x5 r4_2) (View.ld x6 r4_3)⟩]

/-- The store is of the whole buffer, so it covers it. -/
theorem cover4_7 (p0 : Vec F S512x1024 .f32) (y : S512x1024.Idx) :
    ∃ pc ∈ ([⟨r4_3, p0⟩] : List (View.Piece (Elt F) S512x1024 .f32)), y ∈ pc.1.set :=
  View.cover_of_tiled [⟨r4_3, p0⟩] S512x1024.size (by rfl) y

/-! ## The body's triple -/

set_option maxHeartbeats 4000000 in
/-- The kernel body on whole staging memrefs, the inputs' at read contents `xW` and the output's at anything, runs to
    the continuation holding the inputs' as they were and the output's at `out4_7` of the inputs'. The body also
    loads the output's buffer before storing to it; the loaded value is not used. -/
theorem sound_kernel4 (c : Dev nD) (E : Set ℕ) (i : grid4.Coords) (arg1 : Memref sig .tc .vmem S2048x512 .bf16) (harg1 : arg1.IsWhole) (arg2 : Memref sig .tc .vmem S2048x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__rel_combine_kernel i arg1 harg1 arg2 harg2 arg3 harg3 arg4 harg4 arg5 harg5 arg6 harg6 arg7 harg7 arg8 harg8) K := by
  simp only [cc4__rel_combine_kernel_eq_skeleton]; unfold cc4__rel_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them (`V`); after the body at point `t`
    each input's buffer at its block and the output's at `out4_7` of the input blocks; the invariant the untouched
    scoped rest and generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 1000000 in
/-- The body at any point: the inputs' memrefs hold their blocks, so `sound_kernel4` applies; the invariant and the
    core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg5.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_M : Rect S1024x1024 := Rect.unit (s := S1024x1024) ![0, 0] S1024x1024.size inb_S1024x1024_S1024x1024_0_0
abbrev r5_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out5_5 (x0 : Vec F S1024x1024 .f32) (x1 : Vec F S1024x1024 .f32) (x2 : Vec F S1x1024 .f32) : Vec F S1024x1024 .bf16 :=
  View.canon [⟨r5_M, k5_pay2 (View.ld x0 r5_M) (View.ld x1 r5_M) (View.ld x2 r5_B)⟩]

/-- Window 6's staging buffer after the body: its one store, of the rounded `max (x · w₂ᵀ + b₂) 0`, over the whole buffer. -/
def out5_6 (x0 : Vec F S1024x1024 .f32) (x3 : Vec F S1024x1024 .f32) (x4 : Vec F S1x1024 .f32) : Vec F S1024x1024 .bf16 :=
  View.canon [⟨r5_M, k5_pay3 (View.ld x0 r5_M) (View.ld x3 r5_M) (View.ld x4 r5_B)⟩]

/-- A store's rectangle is the whole buffer, so it covers it. -/
theorem cover5_5 (p0 : Vec F S1024x1024 .bf16) (y : S1024x1024.Idx) :
    ∃ pc ∈ ([⟨r5_M, p0⟩] : List (View.Piece (Elt F) S1024x1024 .bf16)), y ∈ pc.1.set :=
  View.cover_of_tiled [⟨r5_M, p0⟩] S1024x1024.size (by rfl) y
theorem cover5_6 (p0 : Vec F S1024x1024 .bf16) (y : S1024x1024.Idx) :
    ∃ pc ∈ ([⟨r5_M, p0⟩] : List (View.Piece (Elt F) S1024x1024 .bf16)), y ∈ pc.1.set :=
  View.cover_of_tiled [⟨r5_M, p0⟩] S1024x1024.size (by rfl) y

/-! ## The body's triple -/

set_option maxHeartbeats 1000000 in
/-- The kernel body on whole staging memrefs, the inputs' at read contents `xW` and the outputs' at anything, runs to
    the continuation holding the inputs' as they were and each output's at `out5_W` of the inputs'. The body also
    loads each output buffer before storing to it; the loaded values are not used. -/
theorem sound_kernel5 (c : Dev nD) (E : Set ℕ) (i : grid5.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2) ∗ owns (c : Thread nD τ) arg7 fullShare (out5_6 x0 x3 x4)) -∗ K ⟨⟩))
      ⊢ wp frame (wpE (defs₀ (F := F)) Variants.none c none) E (cc5__fc2_kernel i arg1 harg1 arg2 harg2 arg3 harg3 arg4 harg4 arg5 harg5 arg6 harg6 arg7 harg7) K := by
  simp only [cc5__fc2_kernel_eq_skeleton]; unfold cc5__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and each output's at `out5_W` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t)
    | ⟨6, _⟩ => out5_6 (iblk5 V c 0 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) := by dsimp only [dat5]
theorem after5_6 (c : Dev nD) (t : Fin cfg5.N) : (dat5 V c).after 6 t = out5_6 (iblk5 V c 0 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Reg6.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: unfetched, the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_M : Rect S1024x1024 := Rect.unit (s := S1024x1024) ![0, 0] S1024x1024.size inb_S1024x1024_S1024x1024_0_0
abbrev r6_B : Rect S1x1024 := Rect.unit (s := S1x1024) ![0, 0] S1x1024.size inb_S1x1024_S1x1024_0_0

/-! ## What the body leaves in the output window's buffer -/

/-- Window 3's staging buffer after the body, from the input windows' blocks: its one store, of the rounded
    `max (x · wᵀ + b) 0`, over the whole buffer. -/
def out6_3 (x0 : Vec F S1024x1024 .f32) (x1 : Vec F S1024x1024 .f32) (x2 : Vec F S1x1024 .f32) : Vec F S1024x1024 .bf16 :=
  View.canon [⟨r6_M, k6_pay1 (View.ld x0 r6_M) (View.ld x1 r6_M) (View.ld x2 r6_B)⟩]

/-- The store's rectangle is the whole buffer, so it covers it. -/
theorem cover6_3 (p0 : Vec F S1024x1024 .bf16) (y : S1024x1024.Idx) :
    ∃ pc ∈ ([⟨r6_M, p0⟩] : List (View.Piece (Elt F) S1024x1024 .bf16)), y ∈ pc.1.set :=
  View.cover_of_tiled [⟨r6_M, p0⟩] S1024x1024.size (by rfl) y

/-! ## The body's triple -/

set_option maxHeartbeats 1000000 in
/-- The kernel body on whole staging memrefs, the inputs' at read contents `xW` and the output's at anything, runs to
    the continuation holding the inputs' as they were and the output's at `out6_3` of the inputs'. The body also
    loads the output buffer before storing to it; the loaded value is not used. -/
theorem sound_kernel6 (c : Dev nD) (E : Set ℕ) (i : grid6.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__fc_kernel i arg1 harg1 arg2 harg2 arg3 harg3 arg4 harg4) K := by
  simp only [cc6__fc_kernel_eq_skeleton]; unfold cc6__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at
    point `t` each input's buffer at its block and the output's at `out6_3` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg7K.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import proofs.«152197_j87351044866369_2_alg».proof.Proof.KI.Reg2K
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (zero the accumulators, compute the self term), from the grid
    coordinates (the skeleton's scalar chain substituted). -/
abbrev cond7_1 (i : grid7.Coords) : Prop := (Scalar.cmpi .ne (Scalar.extui (Scalar.cmpi .eq (BitVec.ofNat 32 (i 1).val) 0#32)) 0#32) = 1#1

/-! ## The body's triple, case by case

The body on whole staging and scratch memrefs at known contents. Case A: the first point of a row (the accumulators
are zeroed and the self term computed, then the two products are added). Case B: a middle point (the two products are
added). Case C: the last point of a row (the two products are added, then the output block is computed and stored). -/

set_option maxHeartbeats 1000000 in
theorem sound_kernel7_A (c : Dev nD) (E : Set ℕ) (i : grid7.Coords) (hc1 : cond7_1 i) (hc2 : ¬ k7_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k7_pay4 x0 x2 k7_pay1) ∗ owns (c : Thread nD τ) arg14 fullShare (k7_pay5 x1 x3 k7_pay2) ∗ owns (c : Thread nD τ) arg15 fullShare (k7_pay3 x4 x5 x8)) -∗ K ⟨⟩))
      ⊢ wp frame (wpE (defs₀ (F := F)) Variants.none c none) E
          (cc7__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc7__obj_combine_kernel_eq_skeleton]; unfold cc7__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr
  swap; · iexact G2
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

set_option maxHeartbeats 1000000 in
theorem sound_kernel7_B (c : Dev nD) (E : Set ℕ) (i : grid7.Coords) (hc1 : ¬ cond7_1 i) (hc2 : ¬ k7_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k7_pay4 x0 x2 s0) ∗ owns (c : Thread nD τ) arg14 fullShare (k7_pay5 x1 x3 s1) ∗ owns (c : Thread nD τ) arg15 fullShare s2) -∗ K ⟨⟩))
      ⊢ wp frame (wpE (defs₀ (F := F)) Variants.none c none) E
          (cc7__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc7__obj_combine_kernel_eq_skeleton]; unfold cc7__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  iexists _; isplitr; · ipureintro; rfl
  iexact G2

set_option maxHeartbeats 1000000 in
theorem sound_kernel7_C (c : Dev nD) (E : Set ℕ) (i : grid7.Coords) (hc1 : ¬ cond7_1 i) (hc2 : k7_cond2 i = 1#1)
    (arg2 : Memref sig .tc .vmem S512x512 .bf16) (harg2 : arg2.IsWhole) (arg3 : Memref sig .tc .vmem S512x512 .bf16) (harg3 : arg3.IsWhole)
    (arg4 : Memref sig .tc .vmem S512x1024 .bf16) (harg4 : arg4.IsWhole) (arg5 : Memref sig .tc .vmem S512x1024 .bf16) (harg5 : arg5.IsWhole)
    (arg6 : Memref sig .tc .vmem S512x2048 .bf16) (harg6 : arg6.IsWhole) (arg7 : Memref sig .tc .vmem S2048x1024 .bf16) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1024 .f32) (harg11 : arg11.IsWhole)
    (arg12 : Memref sig .tc .vmem S512x1024 .f32) (harg12 : arg12.IsWhole) (arg13 : Memref sig .tc .vmem S512x1024 .f32) (harg13 : arg13.IsWhole)
    (arg14 : Memref sig .tc .vmem S512x1024 .f32) (harg14 : arg14.IsWhole) (arg15 : Memref sig .tc .vmem S512x1024 .f32) (harg15 : arg15.IsWhole)
    (x0 : Vec F S512x512 .bf16) (x1 : Vec F S512x512 .bf16) (x2 : Vec F S512x1024 .bf16) (x3 : Vec F S512x1024 .bf16)
    (x4 : Vec F S512x2048 .bf16) (x5 : Vec F S2048x1024 .bf16) (x6 : Vec F S512x1 .f32) (x7 : Vec F S512x1 .f32) (x8 : Vec F S512x1 .f32)
    (x9 : Vec F S512x1024 .f32) (s0 s1 s2 : Vec F S512x1024 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare s0 ∗ owns (c : Thread nD τ) arg14 fullShare s1 ∗ owns (c : Thread nD τ) arg15 fullShare s2 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg13 fullShare (k7_pay4 x0 x2 s0) ∗ owns (c : Thread nD τ) arg14 fullShare (k7_pay5 x1 x3 s1) ∗ owns (c : Thread nD τ) arg15 fullShare s2
            ∗ owns (c : Thread nD τ) arg12 fullShare (k7_pay6 (k7_pay4 x0 x2 s0) x6 (k7_pay5 x1 x3 s1) x7 s2 x9)) -∗ K ⟨⟩))
      ⊢ wp frame (wpE (defs₀ (F := F)) Variants.none c none) E
          (cc7__obj_combine_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc7__obj_combine_kernel_eq_skeleton]; unfold cc7__obj_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%d12, %f12, -, H12⟩, Hk⟩
  subst hf0 hf1 hf2 hf3 hf4 hf5 hf6 hf7 hf8 hf9 hg0 hg1 hg2
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [G0]
  · iexists _; isplitr
    swap; · iexact G0
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G1]
  · iexists _; isplitr
    swap; · iexact G1
    ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]
  isplitl [G2]
  · iexists _; isplitr; · ipureintro; rfl
    iexact G2
  iexists _; isplitr
  swap; · iexact H12
  ipureintro; sl_unfold_run_names; simp only [readAt_unit (S := S512x512) _ hz2, readAt_unit (S := S512x1024) _ hz2, readAt_unit (S := S512x2048) _ hz2, readAt_unit (S := S2048x1024) _ hz2, readAt_unit (S := S512x1) _ hz2, read_writes_cons_unit (S := S512x1024) _ _ hz2, readCov_cons_unit (S := S512x1024) _ hz2]

end Cert.KernelIdeal.Hand

end
-- ==== Proof.KI.Reg7.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import proofs.«152197_j87351044866369_2_alg».proof.Proof.KI.Reg7K
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! # REGION 7 of @main: custom_call 7, `cc7__obj_combine_kernel` (pipeline 7), at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point, fetched there or not, for any proof
    data whose array is `V`'s and whose body leaves the block in place: the windows are uncut and never idle. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## The closed forms of the branch conditions -/

/-- The first `scf.if` is taken at the first point of each row of the grid — decided over the grid. -/
theorem hcond7_1 : ∀ t : Fin cfg7.N, cond7_1 (grid7.coords t) ↔ t.val % 32 = 0 :=
  (by decide +kernel : ∀ t : Fin grid7.N, cond7_1 (grid7.coords t) ↔ t.val % 32 = 0)
/-- The second at the last point of each row. -/
theorem hcond7_2 : ∀ t : Fin cfg7.N, k7_cond2 (grid7.coords t) = 1#1 ↔ t.val % 32 = 31 :=
  (by decide +kernel : ∀ t : Fin grid7.N, k7_cond2 (grid7.coords t) = 1#1 ↔ t.val % 32 = 31)

/-! ## The scratch buffers from point to point -/

/-- The three scratch memrefs, as the pipeline passes them to the body. -/
abbrev sm7_0 : Memref sig .tc .vmem S512x1024 .f32 := Memref.whole cc7_scratch0
abbrev sm7_1 : Memref sig .tc .vmem S512x1024 .f32 := Memref.whole cc7_scratch1
abbrev sm7_2 : Memref sig .tc .vmem S512x1024 .f32 := Memref.whole cc7_scratch2

/-- The contents of the three scratch buffers: the two accumulators and the self term. -/
abbrev Scr7 (F : FTy → Type) [FloatOps F] := Vec F S512x1024 .f32 × Vec F S512x1024 .f32 × Vec F S512x1024 .f32

/-- What the first point of a row leaves in them: each accumulator at its product added to zero, the self term computed. -/
def stepA7 (c : Dev nD) (t : Fin cfg7.N) : Scr7 F :=
  (k7_pay4 (iblk7 V c 0 t) (iblk7 V c 2 t) k7_pay1, k7_pay5 (iblk7 V c 1 t) (iblk7 V c 3 t) k7_pay2,
    k7_pay3 (iblk7 V c 4 t) (iblk7 V c 5 t) (iblk7 V c 8 t))

/-- What a later point of a row leaves in them, over what the point before left: each accumulator with its product added, the self term kept. -/
def stepB7 (c : Dev nD) (t : Fin cfg7.N) (s : Scr7 F) : Scr7 F :=
  (k7_pay4 (iblk7 V c 0 t) (iblk7 V c 2 t) s.1, k7_pay5 (iblk7 V c 1 t) (iblk7 V c 3 t) s.2.1, s.2.2)

/-- THE ACCUMULATION. What the scratch buffers hold after the body at position `n`. -/
def scr7 (c : Dev nD) : (n : ℕ) → n < cfg7.N → Scr7 F
  | 0, hn => stepA7 V c ⟨0, hn⟩
  | n + 1, hn =>
    if h0 : (n + 1) % 32 = 0 then stepA7 V c ⟨n + 1, hn⟩
    else stepB7 V c ⟨n + 1, hn⟩ (scr7 c n (Nat.lt_of_succ_lt hn))

/-- `scr7` at the first point of a row. -/
theorem scr7_A (c : Dev nD) (t : Fin cfg7.N) (h0 : t.val % 32 = 0) : scr7 V c t.val t.isLt = stepA7 V c t := by
  obtain ⟨n, hn⟩ := t
  cases n with
  | zero => exact rfl
  | succ n => exact (dif_pos h0).trans rfl

/-- `scr7` at a later point of a row. -/
theorem scr7_B (c : Dev nD) (t : Fin cfg7.N) (h0 : ¬t.val % 32 = 0) :
    scr7 V c t.val t.isLt = stepB7 V c t (scr7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The scratch buffers before position `n`: at anything before the first point, else at what the point before left. -/
def scrAt7 (c : Dev nD) : (n : ℕ) → n ≤ cfg7.N → sProp 𝕄
  | 0, _ => iprop(∃ f0 f1 f2 : Vec F S512x1024 .f32, owns (c : Thread nD τ) sm7_0 fullShare f0 ∗ owns (c : Thread nD τ) sm7_1 fullShare f1 ∗ owns (c : Thread nD τ) sm7_2 fullShare f2)
  | n + 1, hn => iprop(owns (c : Thread nD τ) sm7_0 fullShare (scr7 V c n hn).1 ∗ owns (c : Thread nD τ) sm7_1 fullShare (scr7 V c n hn).2.1 ∗ owns (c : Thread nD τ) sm7_2 fullShare (scr7 V c n hn).2.2)

/-- At any position they are held at some contents. -/
theorem scrAt7_any (c : Dev nD) (n : ℕ) (hn : n ≤ cfg7.N) :
    scrAt7 V c n hn ⊢ iprop(∃ f0 f1 f2 : Vec F S512x1024 .f32, owns (c : Thread nD τ) sm7_0 fullShare f0 ∗ owns (c : Thread nD τ) sm7_1 fullShare f1 ∗ owns (c : Thread nD τ) sm7_2 fullShare f2) := by
  cases n with
  | zero => exact .rfl
  | succ n =>
    unfold scrAt7
    iintro ⟨H0, H1, H2⟩
    iexists _, _, _
    isplitl [H0]; · iexact H0
    isplitl [H1]; · iexact H1
    iexact H2

/-- After the first point they are held at what the point before left. -/
theorem scrAt7_pos (c : Dev nD) (t : Fin cfg7.N) (h0 : t.val ≠ 0) :
    scrAt7 V c t.val (Nat.le_of_lt t.isLt)
      = iprop(owns (c : Thread nD τ) sm7_0 fullShare (scr7 V c (t.val - 1) (Nat.lt_of_le_of_lt (Nat.sub_le _ _) t.isLt)).1
          ∗ owns (c : Thread nD τ) sm7_1 fullShare (scr7 V c (t.val - 1) (Nat.lt_of_le_of_lt (Nat.sub_le _ _) t.isLt)).2.1
          ∗ owns (c : Thread nD τ) sm7_2 fullShare (scr7 V c (t.val - 1) (Nat.lt_of_le_of_lt (Nat.sub_le _ _) t.isLt)).2.2) := by
  obtain ⟨n, hn⟩ := t
  cases n with
  | zero => exact absurd rfl h0
  | succ n => rfl

/-! ## The pipeline's proof data -/

/-- What the last point of a row stores in the output block, from the scratch buffers as that point leaves them. -/
def out7_10 (c : Dev nD) (t : Fin cfg7.N) : Vec F S512x1024 .f32 :=
  k7_pay6 (scr7 V c t.val t.isLt).1 (iblk7 V c 6 t) (scr7 V c t.val t.isLt).2.1 (iblk7 V c 7 t) (scr7 V c t.val t.isLt).2.2 (iblk7 V c 9 t)

/-- The invariant before position `n`: the three scratch buffers at what the points before left (`scrAt7`), the other
    scoped buffers at some contents each, the generator register at some state. -/
def Φ7 (c : Dev nD) (n : ℕ) (hn : n ≤ cfg7.N) : sProp 𝕄 :=
  iprop(scrAt7 V c n hn ∗ Pipeline.scopedRestBut (Ix := Unit) (Name := ℕ) (U := UR sig nD τ) (Lvl := ℕ) (Val := Elt F) spec7 c [cc7_scratch0, cc7_scratch1, cc7_scratch2] ∗ ∃ r, prngReg c r)

/-- The proof data of pipeline 7 on core `c`: the arrays as the region finds them (`V`); after the body at point `t`
    each input's buffer at its block and the output's at `out7_10` (consulted at the last point of a row only: at the
    others the window is idle and its buffer is left as found); the invariant `Φ7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7_10 V c t
  Φ t := Φ7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = out7_10 V c t := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d

/-- The invariant before and after a point. -/
theorem Φ7_castSucc (c : Dev nD) (t : Fin cfg7.N) : (dat7 V c).Φ t.castSucc = Φ7 V c t.val (Nat.le_of_lt t.isLt) := rfl
theorem Φ7_succ (c : Dev nD) (t : Fin cfg7.N) : (dat7 V c).Φ t.succ = Φ7 V c (t.val + 1) t.isLt := rfl

/-- ENTRY: the scoped rest split at the three scratch buffers, each at some contents, with the generator register. -/
theorem Φ7_in (c : Dev nD) : iprop((∃ r, prngReg c r) ∗ Pipeline.scopedRest (Ix := Unit) (Name := ℕ) (U := UR sig nD τ) (Lvl := ℕ) (Val := Elt F) spec7 c) ⊢ (dat7 V c).Φ 0 := by
  rw [scopedRest7_split, show (dat7 V c).Φ 0 = Φ7 V c 0 (Nat.zero_le _) from rfl]
  unfold Φ7 scrAt7
  iintro ⟨Hr, ⟨⟨%f0, H0⟩, ⟨%f1, H1⟩, ⟨%f2, H2⟩⟩, HR⟩
  isplitl [H0 H1 H2]
  · iexists f0, f1, f2
    rw [owns_whole, owns_whole, owns_whole]
    isplitl [H0]; · iexact H0
    isplitl [H1]; · iexact H1
    iexact H2
  isplitl [HR]; · iexact HR
  iexact Hr

/-- EXIT: the same back. -/
theorem Φ7_out (c : Dev nD) : (dat7 V c).Φ (Fin.last cfg7.N) ⊢ iprop((∃ r, prngReg c r) ∗ Pipeline.scopedRest (Ix := Unit) (Name := ℕ) (U := UR sig nD τ) (Lvl := ℕ) (Val := Elt F) spec7 c) := by
  rw [scopedRest7_split, show (dat7 V c).Φ (Fin.last cfg7.N) = Φ7 V c cfg7.N (Nat.le_refl _) from rfl]
  unfold Φ7
  iintro ⟨Hs, HR, Hr⟩
  ihave Hs' := scrAt7_any V c cfg7.N (Nat.le_refl _) $$ Hs
  icases Hs' with ⟨%f0, %f1, %f2, H0, H1, H2⟩
  ihave H0' := (Entails.of_eq (owns_whole (c : Thread nD τ) cc7_scratch0 fullShare f0)) $$ H0
  ihave H1' := (Entails.of_eq (owns_whole (c : Thread nD τ) cc7_scratch1 fullShare f1)) $$ H1
  ihave H2' := (Entails.of_eq (owns_whole (c : Thread nD τ) cc7_scratch2 fullShare f2)) $$ H2
  isplitl [Hr]; · iexact Hr
  isplitr [HR]
  · isplitl [H0']; · iexists f0; iexact H0'
    isplitl [H1']; · iexists f1; iexact H1'
    iexists f2; iexact H2'
  iexact HR

/-! ## The body obligation, at a generic point -/

/-- A window live at a point is left at what the body leaves. -/
theorem leavesExact_live7 {cfg : Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns: the output window, idle off the last point of a row, as the library states it. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ (dat7 V c).leavesExact 10 t)

set_option maxHeartbeats 2000000 in
/-- The body at any point: the inputs' memrefs hold their blocks; the closed forms say which case the point is in;
    the scratch buffers hold what the point before left (anything, before a row's first point); so the case's triple
    applies; the rest of the invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9]
  rw [Φ7_castSucc, Φ7_succ, show (dat7 V c).owesAt () t.succ = (dat7 V c).owesAt () t.castSucc from rfl,
    after7_0, after7_1, after7_2, after7_3, after7_4, after7_5, after7_6, after7_7, after7_8, after7_9]
  unfold Φ7
  have hN : t.val < 128 := lt_of_lt_of_eq t.isLt (show cfg7.N = 128 from N_7)
  rw [show scrAt7 V c (t.val + 1) t.isLt = iprop(owns (c : Thread nD τ) sm7_0 fullShare (scr7 V c t.val t.isLt).1
      ∗ owns (c : Thread nD τ) sm7_1 fullShare (scr7 V c t.val t.isLt).2.1 ∗ owns (c : Thread nD τ) sm7_2 fullShare (scr7 V c t.val t.isLt).2.2) from rfl]
  by_cases h0 : t.val % 32 = 0
  · have hc1 : cond7_1 (grid7.coords t) := (hcond7_1 t).mpr h0
    have hc2 : ¬ k7_cond2 (grid7.coords t) = 1#1 := fun h => by have := (hcond7_2 t).mp h; omega
    have hidle : cfg7.idle 10 (cfg7.grid.coords t) = true := by
      show (!(k7_cond2 (grid7.coords t) == 1#1)) = true
      rw [Bool.not_eq_true', beq_eq_false_iff_ne]; exact hc2
    have hflush : (cfg7.win 10).flush t = false := Bool.eq_false_iff.mpr fun h => by have := (flush7_10 t).mp h; omega
    rw [Dat.leavesExact_idle _ 10 t hidle hflush, scr7_A V c t h0]
    dsimp only [stepA7]
    iintro ⟨⟨Hs, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    ihave Hs' := scrAt7_any V c t.val _ $$ Hs
    icases Hs' with ⟨%f0, %f1, %f2, S0, S1, S2⟩
    iapply (sound_kernel7_A c Set.univ (grid7.coords t) hc1 hc2 _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) f0 f1 f2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 HR Hr]
    · isplitl [S0 S1 S2]
      · isplitl [S0]; · iexact S0
        isplitl [S1]; · iexact S1
        iexact S2
      isplitl [HR]; · iexact HR
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc1 : ¬ cond7_1 (grid7.coords t) := fun h => h0 ((hcond7_1 t).mp h)
    have ht0 : t.val ≠ 0 := fun h => h0 (by rw [h])
    rw [scrAt7_pos V c t ht0, scr7_B V c t h0]
    dsimp only [stepB7]
    by_cases h31 : t.val % 32 = 31
    · have hc2 : k7_cond2 (grid7.coords t) = 1#1 := (hcond7_2 t).mpr h31
      have hidle : cfg7.idle 10 (cfg7.grid.coords t) = false := by
        show (!(k7_cond2 (grid7.coords t) == 1#1)) = false
        rw [hc2]; rfl
      rw [leavesExact_live7 _ 10 t hidle, after7_10]
      unfold out7_10
      rw [scr7_B V c t h0]
      dsimp only [stepB7]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel7_C c Set.univ (grid7.coords t) hc1 hc2 _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [H10]; · iexists _; iexact H10
      iintro ⟨H0, H1, H2, H3, H4, H5, H6, H7, H8, H9, S0, S1, S2, H10⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc2 : ¬ k7_cond2 (grid7.coords t) = 1#1 := fun h => h31 ((hcond7_2 t).mp h)
      have hidle : cfg7.idle 10 (cfg7.grid.coords t) = true := by
        show (!(k7_cond2 (grid7.coords t) == 1#1)) = true
        rw [Bool.not_eq_true', beq_eq_false_iff_ne]; exact hc2
      have hflush : (cfg7.win 10).flush t = false := Bool.eq_false_iff.mpr fun h => h31 ((flush7_10 t).mp h)
      rw [Dat.leavesExact_idle _ 10 t hidle hflush]
      iintro ⟨⟨⟨S0, S1, S2⟩, HR, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (sound_kernel7_B c Set.univ (grid7.coords t) hc1 hc2 _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      iintro ⟨H0, H1, H2, H3, H4, H5, H6, H7, H8, H9, S0, S1, S2⟩
      isplitl [S0 S1 S2 HR Hr]
      · isplitl [S0 S1 S2]
        · isplitl [S0]; · iexact S0
          isplitl [S1]; · iexact S1
          iexact S2
        isplitl [HR]; · iexact HR
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.KernelIdeal.Hand

end
-- ==== Proof.KI.Reg8.lean ====
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the body half of its frame

The region's kernel reads three (or five) input windows whole — a block of source rows, a weight matrix and a
bias row — and overwrites each output window whole with one store. So what the body leaves in an output
buffer is a closed function of the input blocks at the grid point, and what it finds in an input buffer is that
window's block at the point whether or not the pipeline fetched it there (the weights and biases have a constant
block index and are fetched once). Everything is stated at a parameter `V`, the buffer contents when the region
is entered, and for any float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: unfetched, the block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: unfetched, the block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: unfetched, the block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_M : Rect S1024x1024 := Rect.unit (s := S1024x1024) ![0, 0] S1024x1024.size inb_S1024x1024_S1024x1024_0_0
abbrev r8_B : Rect S1x1024 := Rect.unit (s := S1x1024) ![0, 0] S1x1024.size inb_S1x1024_S1x1024_0_0

/-! ## What the body leaves in each output window's buffer -/

/-- Window 5's staging buffer after the body, from the input windows' blocks: its one store, of the rounded
    `max (x · w₁ᵀ + b₁) 0`, over the whole buffer. -/
def out8_5 (x0 : Vec F S1024x1024 .f32) (x1 : Vec F S1024x1024 .f32) (x2 : Vec F S1x1024 .f32) : Vec F S1024x1024 .bf16 :=
  View.canon [⟨r8_M, k8_pay2 (View.ld x0 r8_M) (View.ld x1 r8_M) (View.ld x2 r8_B)⟩]

/-- Window 6's staging buffer after the body: its one store, of the rounded `max (x · w₂ᵀ + b₂) 0`, over the whole buffer. -/
def out8_6 (x0 : Vec F S1024x1024 .f32) (x3 : Vec F S1024x1024 .f32) (x4 : Vec F S1x1024 .f32) : Vec F S1024x1024 .bf16 :=
  View.canon [⟨r8_M, k8_pay3 (View.ld x0 r8_M) (View.ld x3 r8_M) (View.ld x4 r8_B)⟩]

/-- A store's rectangle is the whole buffer, so it covers it. -/
theorem cover8_5 (p0 : Vec F S1024x1024 .bf16) (y : S1024x1024.Idx) :
    ∃ pc ∈ ([⟨r8_M, p0⟩] : List (View.Piece (Elt F) S1024x1024 .bf16)), y ∈ pc.1.set :=
  View.cover_of_tiled [⟨r8_M, p0⟩] S1024x1024.size (by rfl) y
theorem cover8_6 (p0 : Vec F S1024x1024 .bf16) (y : S1024x1024.Idx) :
    ∃ pc ∈ ([⟨r8_M, p0⟩] : List (View.Piece (Elt F) S1024x1024 .bf16)), y ∈ pc.1.set :=
  View.cover_of_tiled [⟨r8_M, p0⟩] S1024x1024.size (by rfl) y

/-! ## The body's triple -/

set_option maxHeartbeats 1000000 in
/-- The kernel body on whole staging memrefs, the inputs' at read contents `xW` and the outputs' at anything, runs to
    the continuation holding the inputs' as they were and each output's at `out8_W` of the inputs'. The body also
    loads each output buffer before storing to it; the loaded values are not used. -/
theorem sound_kernel8 (c : Dev nD) (E : Set ℕ) (i : grid8.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole)
    (x0 : Vec F S1024x1024 .f32) (x1 : Vec F S1024x1024 .f32) (x2 : Vec F S1x1024 .f32) (x3 : Vec F S1024x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2) ∗ owns (c : Thread nD τ) arg7 fullShare (out8_6 x0 x3 x4)) -∗ K ⟨⟩))
      ⊢ wp frame (wpE (defs₀ (F := F)) Variants.none c none) E (cc8__fc2_kernel i arg1 harg1 arg2 harg2 arg3 harg3 arg4 harg4 arg5 harg5 arg6 harg6 arg7 harg7) K := by
  simp only [cc8__fc2_kernel_eq_skeleton]; unfold cc8__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover8_5 _)
  iexists _; isplitr
  swap; · iexact H6
  ipureintro
  exact View.read_writes_eq_canon _ _ _ (cover8_6 _)

/-! ## The pipeline's proof data -/

/-- The proof data of pipeline 8 on core `c`: the arrays as the region finds them (`V`); after the body at
    point `t` each input's buffer at its block and each output's at `out8_W` of the input blocks; the invariant
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t)
    | ⟨6, _⟩ => out8_6 (iblk8 V c 0 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) := by dsimp only [dat8]
theorem after8_6 (c : Dev nD) (t : Fin cfg8.N) : (dat8 V c).after 6 t = out8_6 (iblk8 V c 0 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so the body's triple applies; the invariant and
    the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg9.lean ====
/- Region 9 of the kernel program, the relation-side combine (`cc9__rel_combine_kernel`, pipeline 9), at a
   PARAMETER `V` — the TensorCore's buffer contents when the region is entered: each window's block at a point
   (`iblk9`), what the body leaves in the output window's buffer (`out9_7`), the body's triple (`sound_kernel9`),
   the pipeline's proof data (`dat9`) and its body obligation (`body_obligation9`). Generic in the float model. -/
import proofs.«152197_j87351044866369_2_alg».proof.Proof.Gen.KernelIdeal.Launch
import proofs.«152197_j87351044866369_2_alg».proof.Proof.Gen.KernelIdeal.Skeleton
import proofs.«152197_j87351044866369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s (`hA`) and whose body leaves the block in place (`hafter`): unfetched, the block index
    has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s (`hA`) and whose body leaves the block in place (`hafter`): unfetched, the block index
    has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s (`hA`) and whose body leaves the block in place (`hafter`): unfetched, the block index
    has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof
    data whose array is `V`'s (`hA`) and whose body leaves the block in place (`hafter`): unfetched, the block index
    has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof
    data whose array is `V`'s (`hA`) and whose body leaves the block in place (`hafter`): unfetched, the block index
    has not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not, for any proof
    data whose array is `V`'s (`hA`) and whose body leaves the block in place (`hafter`): unfetched, the block index
    has not moved; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not, for any proof
    data whose array is `V`'s (`hA`) and whose body leaves the block in place (`hafter`): unfetched, the block index
    has not moved; the window is uncut and never idle. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S2048x512 := Rect.unit (s := S2048x512) ![0, 0] S2048x512.size inb_S2048x512_S2048x512_0_0
abbrev r9_1 : Rect S2048x1024 := Rect.unit (s := S2048x1024) ![0, 0] S2048x1024.size inb_S2048x1024_S2048x1024_0_0
abbrev r9_2 : Rect S512x1 := Rect.unit (s := S512x1) ![0, 0] S512x1.size inb_S512x1_S512x1_0_0
abbrev r9_3 : Rect S512x1024 := Rect.unit (s := S512x1024) ![0, 0] S512x1024.size inb_S512x1024_S512x1024_0_0

/-! ## What the body leaves in the output window's buffer -/

/-- Window 7's staging buffer after the body, from the input windows' blocks: its one store, of the payload at the
    seven loaded blocks (the two attention blocks, the two projected feature arrays, the two denominators and the
    relation features). -/
def out9_7 (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) : Vec F S512x1024 .f32 :=
  View.canon [⟨r9_3, k9_pay1 (View.ld x0 r9_0) (View.ld x2 r9_1) (View.ld x4 r9_2) (View.ld x1 r9_0) (View.ld x3 r9_1) (View.ld x5 r9_2) (View.ld x6 r9_3)⟩]

/-- The store is of the whole buffer, so it covers it. -/
theorem cover9_7 (p0 : Vec F S512x1024 .f32) (y : S512x1024.Idx) :
    ∃ pc ∈ ([⟨r9_3, p0⟩] : List (View.Piece (Elt F) S512x1024 .f32)), y ∈ pc.1.set :=
  View.cover_of_tiled [⟨r9_3, p0⟩] S512x1024.size (by rfl) y

/-! ## The body's triple -/

set_option maxHeartbeats 4000000 in
/-- The kernel body on whole staging memrefs, the inputs' at read contents `xW` and the output's at anything, runs to
    the continuation holding the inputs' as they were and the output's at `out9_7` of the inputs'. The body also
    loads the output's buffer before storing to it; the loaded value is not used. -/
theorem sound_kernel9 (c : Dev nD) (E : Set ℕ) (i : grid9.Coords) (arg1 : Memref sig .tc .vmem S2048x512 .bf16) (harg1 : arg1.IsWhole) (arg2 : Memref sig .tc .vmem S2048x512 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S2048x512 .bf16) (x1 : Vec F S2048x512 .bf16) (x2 : Vec F S2048x1024 .bf16) (x3 : Vec F S2048x1024 .bf16) (x4 : Vec F S512x1 .f32) (x5 : Vec F S512x1 .f32) (x6 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__rel_combine_kernel i arg1 harg1 arg2 harg2 arg3 harg3 arg4 harg4 arg5 harg5 arg6 harg6 arg7 harg7 arg8 harg8) K := by
  simp only [cc9__rel_combine_kernel_eq_skeleton]; unfold cc9__rel_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-! ## The pipeline's proof data -/

/-- The proof data of pipeline 9 on core `c`: the arrays as the region finds them (`V`); after the body at point `t`
    each input's buffer at its block and the output's at `out9_7` of the input blocks; the invariant the untouched
    scoped rest and generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

set_option maxHeartbeats 1000000 in
/-- The body at any point: the inputs' memrefs hold their blocks, so `sound_kernel9` applies; the invariant and the
    core's obligations pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.Seg.lean ====
/-
  A kernel region whose body keeps nothing between grid points, as a segment of the program's run.

  Between two items of the host program a core holds every unscoped buffer whole, at known contents, beside its
  random-number register and the record that it owes no transfer. A region of this kind is entered from such a state
  at contents `Vin` and left in one at contents `Vout`: its windows' arrays are split out of the unscoped buffers at
  the contents the proof data start from, the pipeline runs (the body obligation at every grid point), and the
  arrays are put back at what the write-backs leave. `Vout` agrees with `Vin` off the region's arrays, and holds at
  each array what the pipeline leaves there. The invariant between grid points is only the scoped buffers no window
  stages and the random-number register, untouched; the kernel has no semaphore of its own and owes nothing.
  One statement serves every such region: the pipeline index is a parameter.
-/
import proofs.«152197_j87351044866369_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No pipeline has a prefetched table. -/
abbrev adm : (p : Fin 10) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state and its
    record of transfers owed, at nothing. -/
abbrev R (c : Dev nD) : sProp 𝕄 := iprop((∃ r, prngReg c r) ∗ ∃ W, owes (c : Thread nD τ) (0 : CellTallies nD τ sig Unit) W)

/-- A family of proof data, one per pipeline and core. -/
abbrev PDats : Type := (p : Fin 10) → (c : Dev nD) → Dat τ (Elt F) Unit ℕ (UR sig nD τ) ℕ (Pipeline.pin (pcfgs (F := F)) adm p) c

/-- A valuation of the unscoped buffers read at the TensorCore's references. -/
abbrev rd (V : Dev nD → Valuation τ sig (Elt F)) : (c : Dev nD) → (b : Ref sig .tc) → Buf (Elt F) ((c : Thread nD τ).loc b) :=
  fun c b => V c b

set_option backward.isDefEq.respectTransparency.types false in
/-- The region of pipeline `p` as a segment, entered at `Vin` and left at `Vout`. -/
def regA (pdats : PDats (F := F)) (p : Fin 10) (launch : Pipeline.LaunchFacts (nD := nD) (τ := τ) cfgs p)
    (Vin Vout : Dev nD → Valuation τ sig (Elt F))
    (hA : ∀ c w, (pdats p c).A w = rd Vin c (Pipeline.arrRef (cfgs p).spec w))
    (hq : ∀ c w, (pdats p c).q w = fullShare)
    (howed : ∀ c t, (pdats p c).owed t = 0)
    (hrec : ∀ c t, (pdats p c).recorded t = Set.univ)
    (hΦin : ∀ c, iprop((∃ r, prngReg c r) ∗ Pipeline.scopedRest (cfgs p).spec c) ⊢ (pdats p c).Φ 0)
    (hΦout : ∀ c, (pdats p c).Φ (Fin.last (cfgs p).N) ⊢ iprop((∃ r, prngReg c r) ∗ Pipeline.scopedRest (cfgs p).spec c))
    (hbody : ∀ c, BodyObligation (pdats p c) (defs₀ (F := F)) Variants.none () Set.univ)
    (hF : ∀ c w, (pdats p c).arrAt w (cfgs p).N = rd Vout c (Pipeline.arrRef (cfgs p).spec w))
    (hrest : ∀ c, ∀ b, b ∉ Finset.univ.image (Pipeline.arrRef (cfgs p).spec) → rd Vout c b = rd Vin c b) :
    Pipeline.RegionSeg (pcfgs (F := F)) adm pdats () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    rw [Pipeline.ownSems0_none]
    have hsplit := Pipeline.arrays_of_unscopedBufs (p := p) (pcfgs (F := F)) adm pdats launch.win launch.arr_whole c
      ((pdats p c).share_full (hq c)) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun _ _ => Or.inl (by rw [hrec c 0]; exact Set.mem_univ _)
      iexact HO
    isplitl [Hp]; · iexact Hp
    iexact Hrest
  hin c := by
    iintro ⟨Hp, -, Hr⟩
    iapply (hΦin c)
    isplitl [Hp]; · iexact Hp
    iexact Hr
  hout c := by
    rw [Pipeline.ownSems0_none]
    iintro H
    ihave H' := (hΦout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (rd Vin c) (rd Vout c) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- The invariant of a region that keeps nothing between points is entered from the scoped rest and the register. -/
theorem ΦA_in {gr W : ℕ} (win : Fin W → Pipeline.WinSpec sig gr) (c : Dev nD) :
    iprop((∃ r, prngReg c r) ∗ Pipeline.scopedRest win c) ⊢ (Pipeline.ΦA win c : sProp 𝕄) := by
  unfold Pipeline.ΦA
  iintro ⟨Hp, Hr⟩
  isplitl [Hr]; · iexact Hr
  iexact Hp

/-- and gives them back. -/
theorem ΦA_out {gr W : ℕ} (win : Fin W → Pipeline.WinSpec sig gr) (c : Dev nD) :
    (Pipeline.ΦA win c : sProp 𝕄) ⊢ iprop((∃ r, prngReg c r) ∗ Pipeline.scopedRest win c) := by
  unfold Pipeline.ΦA
  iintro ⟨Hr, Hp⟩
  isplitl [Hp]; · iexact Hp
  iexact Hr

end Cert.KernelIdeal.Hand

end
-- ==== Proof.KI.Run.lean ====
/-
  The whole run of the program: sixteen items, six stretches of host operations and ten kernel regions, from the launch
  to the return.

  The contents of a core's unscoped buffers are followed through the items as a fold from the launch memory: a host
  stretch applies its operations; a region leaves each of its windows' arrays at what its pipeline's write-backs leave
  (an input array as entered) and every other buffer as entered. The regions' proof data are taken as a parameter —
  one per pipeline, a function of the contents the region is entered at — together with the facts the run needs of
  them; each region is then a segment between two consecutive boundaries, and the run theorem says: every weakly fair
  execution terminates, nothing faults, and every unscoped buffer ends at the last boundary's contents. The frame
  (no argument array changes) and the results' values are both read off that.
-/
import proofs.«152197_j87351044866369_2_alg».proof.Proof.KI.Seg
import proofs.«152197_j87351044866369_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄[" F "]" => MT nD τ sig Unit (Elt F) ℕ (UR sig nD τ) ℕ

/-- The regions' proof data: for pipeline `p` entered at buffer contents `V`, on core `c`; with what the run uses
    of them — the arrays are read off `V`, full shares, nothing owed, the body obligation, and the invariant entered
    from and returning the scoped rest and the random-number register. -/
structure RegData (F : FTy → Type) [FloatOps F] where
  D : (p : Fin 10) → ((c : Dev nD) → (b : Ref sig .tc) → Buf (Elt F) ((c : Thread nD τ).loc b)) → (c : Dev nD) →
    Dat τ (Elt F) Unit ℕ (UR sig nD τ) ℕ (cfgs p) c
  hA : ∀ p V c w, (D p V c).A w = V c (Pipeline.arrRef (cfgs p).spec w)
  hq : ∀ p V c w, (D p V c).q w = fullShare
  howed : ∀ p V c t, (D p V c).owed t = 0
  hrec : ∀ p V c t, (D p V c).recorded t = Set.univ
  hbody : ∀ p V c, BodyObligation (D p V c) (defs₀ (F := F)) Variants.none () Set.univ
  hΦin : ∀ p V c, (iprop((∃ r, prngReg c r) ∗ Pipeline.scopedRest (cfgs p).spec c) : sProp 𝕄[F]) ⊢ (D p V c).Φ 0
  hΦout : ∀ p V c, (D p V c).Φ (Fin.last (cfgs p).N) ⊢ (iprop((∃ r, prngReg c r) ∗ Pipeline.scopedRest (cfgs p).spec c) : sProp 𝕄[F])

variable {F : FTy → Type} [FloatOps F]

local notation "𝕄" => MT nD τ sig Unit (Elt F) ℕ (UR sig nD τ) ℕ

variable (𝒟 : RegData F) (m : (ℓ : Loc nD τ sig) → Buf (Elt F) ℓ) (ρ : Dev nD → PrngReg)

/-- The launch facts of every pipeline. -/
theorem launches : ∀ p : Fin 10, Pipeline.LaunchFacts (nD := nD) (τ := τ) cfgs p
  | ⟨0, _⟩ => launch0 | ⟨1, _⟩ => launch1 | ⟨2, _⟩ => launch2 | ⟨3, _⟩ => launch3 | ⟨4, _⟩ => launch4
  | ⟨5, _⟩ => launch5 | ⟨6, _⟩ => launch6 | ⟨7, _⟩ => launch7 | ⟨8, _⟩ => launch8 | ⟨9, _⟩ => launch9
  | ⟨_ + 10, h⟩ => absurd h (by omega)

/-! ## The buffers' contents at each boundary -/

/-- What region `p`, entered at `W`, leaves: its arrays at the pipeline's final contents, the rest as entered. -/
def stepR (p : Fin 10) (W : Dev nD → Valuation τ sig (Elt F)) : Dev nD → Valuation τ sig (Elt F) := fun c =>
  Pipeline.withArrays (cfgs p).spec c (W c) fun w => (𝒟.D p (rd W) c).arrAt w (cfgs p).N

theorem stepR_arr (p : Fin 10) (W : Dev nD → Valuation τ sig (Elt F)) (c : Dev nD) (w : Fin (cfgs p).W) :
    stepR 𝒟 p W c (Proc.devRef .tc (Pipeline.arrRef (cfgs p).spec w)) = (𝒟.D p (rd W) c).arrAt w (cfgs p).N := by
  unfold stepR; exact Pipeline.withArrays_arr (cfgs p).spec (launches p).win.arr_inj c _ _ w

theorem stepR_of_ne (p : Fin 10) (W : Dev nD → Valuation τ sig (Elt F)) (c : Dev nD) (b : Ref sig .tc)
    (hb : ∀ w, Pipeline.arrRef (cfgs p).spec w ≠ b) : stepR 𝒟 p W c (Proc.devRef .tc b) = W c (Proc.devRef .tc b) := by
  unfold stepR; exact Pipeline.withArrays_of_ne (cfgs p).spec c _ _ b hb

/-- A buffer that is no OUTPUT window's array of region `p` is left as entered: an input window's array ends at its
    entry contents, and any other buffer is bypassed. -/
theorem stepR_of_not_out (p : Fin 10) (W : Dev nD → Valuation τ sig (Elt F)) (c : Dev nD) (b : Ref sig .tc)
    (hb : ∀ w, ((cfgs p).win w).isOut = true → Pipeline.arrRef (cfgs p).spec w ≠ b) :
    stepR 𝒟 p W c (Proc.devRef .tc b) = W c (Proc.devRef .tc b) := by
  by_cases h : ∃ w, Pipeline.arrRef (cfgs p).spec w = b
  · obtain ⟨w, rfl⟩ := h
    have hin : ((cfgs p).win w).isOut = false := by
      cases e : ((cfgs p).win w).isOut with
      | false => rfl
      | true => exact absurd rfl (hb w e)
    rw [stepR_arr, (𝒟.D p (rd W) c).arrAt_in w hin, 𝒟.hA]
  · exact stepR_of_ne 𝒟 p W c b fun w e => h ⟨w, e⟩

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := stepR 𝒟 0 (W1 m)
abbrev W3 : Dev nD → Valuation τ sig (Elt F) := fun c => StableHlo.after hostOps1 (W2 𝒟 m c)
abbrev W4 : Dev nD → Valuation τ sig (Elt F) := stepR 𝒟 1 (W3 𝒟 m)
abbrev W5 : Dev nD → Valuation τ sig (Elt F) := stepR 𝒟 2 (W4 𝒟 m)
abbrev W6 : Dev nD → Valuation τ sig (Elt F) := fun c => StableHlo.after hostOps3 (W5 𝒟 m c)
abbrev W7 : Dev nD → Valuation τ sig (Elt F) := stepR 𝒟 3 (W6 𝒟 m)
abbrev W8 : Dev nD → Valuation τ sig (Elt F) := stepR 𝒟 4 (W7 𝒟 m)
abbrev W9 : Dev nD → Valuation τ sig (Elt F) := fun c => StableHlo.after hostOps5 (W8 𝒟 m c)
abbrev W10 : Dev nD → Valuation τ sig (Elt F) := stepR 𝒟 5 (W9 𝒟 m)
abbrev W11 : Dev nD → Valuation τ sig (Elt F) := fun c => StableHlo.after hostOps6 (W10 𝒟 m c)
abbrev W12 : Dev nD → Valuation τ sig (Elt F) := stepR 𝒟 6 (W11 𝒟 m)
abbrev W13 : Dev nD → Valuation τ sig (Elt F) := stepR 𝒟 7 (W12 𝒟 m)
abbrev W14 : Dev nD → Valuation τ sig (Elt F) := fun c => StableHlo.after hostOps8 (W13 𝒟 m c)
abbrev W15 : Dev nD → Valuation τ sig (Elt F) := stepR 𝒟 8 (W14 𝒟 m)
abbrev W16 : Dev nD → Valuation τ sig (Elt F) := stepR 𝒟 9 (W15 𝒟 m)

/-- The contents each region is entered at. -/
def Wentry : Fin 10 → Dev nD → Valuation τ sig (Elt F)
  | ⟨0, _⟩ => W1 m | ⟨1, _⟩ => W3 𝒟 m | ⟨2, _⟩ => W4 𝒟 m | ⟨3, _⟩ => W6 𝒟 m | ⟨4, _⟩ => W7 𝒟 m
  | ⟨5, _⟩ => W9 𝒟 m | ⟨6, _⟩ => W11 𝒟 m | ⟨7, _⟩ => W12 𝒟 m | ⟨8, _⟩ => W14 𝒟 m | ⟨9, _⟩ => W15 𝒟 m
  | ⟨_ + 10, h⟩ => absurd h (by omega)

/-! ## The proof data family and the regions as segments -/

/-- Every pipeline's proof data, at its region's entry contents. -/
def pdats : PDats (F := F) := fun p c => 𝒟.D p (rd (Wentry 𝒟 m p)) c

/-- Region `p` as a segment from its entry contents to what it leaves. -/
def regP (p : Fin 10) : Pipeline.RegionSeg (pcfgs (F := F)) adm (pdats 𝒟 m) () defs₀ 𝒱₀ L lv p :=
  regA (pdats 𝒟 m) p (launches p) (Wentry 𝒟 m p) (stepR 𝒟 p (Wentry 𝒟 m p))
    (fun c w => 𝒟.hA p _ c w) (fun c w => 𝒟.hq p _ c w) (fun c t => 𝒟.howed p _ c t) (fun c t => 𝒟.hrec p _ c t)
    (fun c => 𝒟.hΦin p _ c) (fun c => 𝒟.hΦout p _ c) (fun c => 𝒟.hbody p _ c)
    (fun c w => (stepR_arr 𝒟 p (Wentry 𝒟 m p) c w).symm)
    (fun c b hb => stepR_of_ne 𝒟 p (Wentry 𝒟 m p) c b fun w e => hb (Finset.mem_image.mpr ⟨w, Finset.mem_univ _, e⟩))

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's sixteen items in order. -/
abbrev segs : List (Pipeline.Seg (pcfgs (F := F)) adm (pdats 𝒟 m) () defs₀ 𝒱₀ L lv) :=
  [ .host (hseg hostOps0 hostOps0_sub hostOps0_fresh (W0 m)),
    .region (regP 𝒟 m 0),
    .host (hseg hostOps1 hostOps1_sub hostOps1_fresh (W2 𝒟 m)),
    .region (regP 𝒟 m 1),
    .region (regP 𝒟 m 2),
    .host (hseg hostOps3 hostOps3_sub hostOps3_fresh (W5 𝒟 m)),
    .region (regP 𝒟 m 3),
    .region (regP 𝒟 m 4),
    .host (hseg hostOps5 hostOps5_sub hostOps5_fresh (W8 𝒟 m)),
    .region (regP 𝒟 m 5),
    .host (hseg hostOps6 hostOps6_sub hostOps6_fresh (W10 𝒟 m)),
    .region (regP 𝒟 m 6),
    .region (regP 𝒟 m 7),
    .host (hseg hostOps8 hostOps8_sub hostOps8_fresh (W13 𝒟 m)),
    .region (regP 𝒟 m 8),
    .region (regP 𝒟 m 9) ]

/-- The program is the run of its items. -/
theorem main_run (c : Dev nD) : main (F := F) c = Pipeline.Seg.run (segs 𝒟 m) := (main_chain c).trans (by chain_rfl)

/-- An unscoped TensorCore reference is among those a boundary state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state a core is in at the launch: every unscoped buffer at the launch memory, the register, nothing owed. -/
abbrev T₀ (c : Dev nD) : sProp 𝕄 := iprop(StableHlo.held (c : Thread nD τ) (Pipeline.ucRefs τ sig) (W0 m c) ∗ R c)
/-- The last boundary state without the record of transfers owed. -/
abbrev Tₙ (c : Dev nD) : sProp 𝕄 := iprop(StableHlo.held (c : Thread nD τ) (Pipeline.ucRefs τ sig) (W16 𝒟 m c) ∗ ∃ r, prngReg c r)

/-- No pipeline is entered twice. -/
theorem segs_nodup : (Pipeline.Seg.pipes (segs 𝒟 m)).Nodup := by
  simp only [segs, Pipeline.Seg.pipes_host, Pipeline.Seg.pipes_region, Pipeline.Seg.pipes_nil]; decide

theorem regP_pre (p : Fin 10) (c : Dev nD) :
    (regP 𝒟 m p).pre c = iprop(StableHlo.held (c : Thread nD τ) (Pipeline.ucRefs τ sig) (Wentry 𝒟 m p c) ∗ R c) := rfl
theorem regP_post (p : Fin 10) (c : Dev nD) :
    (regP 𝒟 m p).post c = iprop(StableHlo.held (c : Thread nD τ) (Pipeline.ucRefs τ sig) (stepR 𝒟 p (Wentry 𝒟 m p) c) ∗ R c) := rfl

set_option maxHeartbeats 4000000 in
/-- Each item is entered from the state the one before it leaves: the boundaries' contents are the fold's. -/
theorem segs_chain : Pipeline.Seg.Chains (T₀ m) (segs 𝒟 m)
    (fun c => iprop(Tₙ 𝒟 m c ∗ ∃ W, owes (c : Thread nD τ) (0 : CellTallies nD τ sig Unit) W)) := by
  refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun c => ?_⟩
  show (regP 𝒟 m 9).post c ⊢ _
  rw [regP_post]
  iintro ⟨Hh, Hp, Ho⟩
  isplitl [Hh Hp]
  · isplitl [Hh]; · iexact Hh
    iexact Hp
  iexact Ho

theorem launch_ghost : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_state : iprop((bigSep Finset.univ fun c : Dev nD => iprop(unscopedBufs c (fun b => m ((c : Thread nD τ).loc b)) ∗ unscopedSems0 c
      ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (T₀ m) : sProp 𝕄) := by
  refine Pipeline.initEach L lv fun c => ?_
  rw [show unscopedBufs c (fun b => m ((c : Thread nD τ).loc b)) = StableHlo.held (c : Thread nD τ) (Pipeline.ucRefs τ sig) (W0 m c)
    from Pipeline.unscopedBufs_held c (W0 m c)]
  iintro ⟨⟨Hh, -, HO, -, Hp, -⟩, -⟩
  imodintro
  isplitl [Hh]; · iexact Hh
  isplitl [Hp]; · iexists _; iexact Hp
  iexists ∅; iexact HO

theorem final_read (c : Dev nD) (s' : Phys nD τ sig (Elt F)) :
    iprop(Tₙ 𝒟 m c ∗ SI s') ⊢ (|={Set.univ}=> iprop(⌜∀ b ∈ Pipeline.ucRefs τ sig, s'.mem.mem (((c : Thread nD τ)).1, b) = W16 𝒟 m c b⌝ ∗ SI s') : sProp 𝕄) := by
  iintro ⟨⟨Hh, -⟩, HSI⟩
  unfold StableHlo.held
  imodintro
  iapply (pointsTo_read_all (Pipeline.ucRefs τ sig) (fun b => (((c : Thread nD τ)).1, b)) (W16 𝒟 m c) s')
  isplitl [Hh] <;> iassumption

set_option maxHeartbeats 4000000 in
set_option backward.isDefEq.respectTransparency.types false in
/-- THE RUN: from any memory with zero counters every weakly fair execution of the program on the TensorCores
    terminates, nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 𝒟 m c b) :=
  Pipeline.θ_run_regions_kit (pcfgs (F := F)) adm (pdats 𝒟 m) () cellOf_inj emb₁ defs₀ 𝒱₀ L lv m ρ main (segs 𝒟 m)
    (fun c Q => by rw [main_run 𝒟 m c])
    (segs_nodup 𝒟 m)
    (O₀ := 0) (hL := fun _ _ => rfl) (G := fun _ => iprop(emp))
    (u₀ := initOf (Pipeline.cells cfgs cellOf_inj) (Pipeline.launchToks cfgs cellOf_inj))
    (hu₀ := launch_ghost)
    (T₀ := T₀ m) (Tₙ := Tₙ 𝒟 m)
    (hch := segs_chain 𝒟 m)
    (hinit := launch_state m ρ)
    (QY := fun c s => ∀ b ∈ Pipeline.ucRefs τ sig, s.mem (((c : Thread nD τ)).1, b) = W16 𝒟 m c b)
    (hfin := fun c s' => final_read 𝒟 m c s')
    (hQ := fun s h c => h c)

end Cert.KernelIdeal.Hand

end
-- ==== Proof.KI.Data.lean ====
/-
  The ten regions' proof data gathered as one family indexed by the pipeline, with the facts the run uses of each:
  the arrays read off the entry contents, full shares, nothing owed, the body obligation at every grid point, and the
  invariant between grid points entered from and returning the scoped rest and the random-number register. For the
  eight regions that keep nothing between points the invariant is just those two; the two object-side combine regions
  also carry their three accumulator buffers in it.
-/
import proofs.«152197_j87351044866369_2_alg».proof.Proof.KI.Reg0
import proofs.«152197_j87351044866369_2_alg».proof.Proof.KI.Reg1
import proofs.«152197_j87351044866369_2_alg».proof.Proof.KI.Reg2
import proofs.«152197_j87351044866369_2_alg».proof.Proof.KI.Reg3
import proofs.«152197_j87351044866369_2_alg».proof.Proof.KI.Reg4
import proofs.«152197_j87351044866369_2_alg».proof.Proof.KI.Reg5
import proofs.«152197_j87351044866369_2_alg».proof.Proof.KI.Reg6
import proofs.«152197_j87351044866369_2_alg».proof.Proof.KI.Reg7
import proofs.«152197_j87351044866369_2_alg».proof.Proof.KI.Reg8
import proofs.«152197_j87351044866369_2_alg».proof.Proof.KI.Reg9
import proofs.«152197_j87351044866369_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Pipeline `p`'s proof data at entry contents `V`. -/
def regD : (p : Fin 10) → ((c : Dev nD) → (b : Ref sig .tc) → Buf (Elt F) ((c : Thread nD τ).loc b)) → (c : Dev nD) →
    Dat τ (Elt F) Unit ℕ (UR sig nD τ) ℕ (cfgs p) c
  | ⟨0, _⟩ => fun V c => dat0 V c
  | ⟨1, _⟩ => fun V c => dat1 V c
  | ⟨2, _⟩ => fun V c => dat2 V c
  | ⟨3, _⟩ => fun V c => dat3 V c
  | ⟨4, _⟩ => fun V c => dat4 V c
  | ⟨5, _⟩ => fun V c => dat5 V c
  | ⟨6, _⟩ => fun V c => dat6 V c
  | ⟨7, _⟩ => fun V c => dat7 V c
  | ⟨8, _⟩ => fun V c => dat8 V c
  | ⟨9, _⟩ => fun V c => dat9 V c
  | ⟨_ + 10, h⟩ => absurd h (by omega)

/-- The family with its facts. -/
def regData : RegData F where
  D := regD
  hA := fun p => match p with
    | ⟨0, _⟩ => fun V c w => A_eq0 V c w
    | ⟨1, _⟩ => fun V c w => A_eq1 V c w
    | ⟨2, _⟩ => fun V c w => A_eq2 V c w
    | ⟨3, _⟩ => fun V c w => A_eq3 V c w
    | ⟨4, _⟩ => fun V c w => A_eq4 V c w
    | ⟨5, _⟩ => fun V c w => A_eq5 V c w
    | ⟨6, _⟩ => fun V c w => A_eq6 V c w
    | ⟨7, _⟩ => fun V c w => A_eq7 V c w
    | ⟨8, _⟩ => fun V c w => A_eq8 V c w
    | ⟨9, _⟩ => fun V c w => A_eq9 V c w
    | ⟨_ + 10, h⟩ => absurd h (by omega)
  hq := fun p => match p with
    | ⟨0, _⟩ => fun V c w => rfl
    | ⟨1, _⟩ => fun V c w => rfl
    | ⟨2, _⟩ => fun V c w => rfl
    | ⟨3, _⟩ => fun V c w => rfl
    | ⟨4, _⟩ => fun V c w => rfl
    | ⟨5, _⟩ => fun V c w => rfl
    | ⟨6, _⟩ => fun V c w => rfl
    | ⟨7, _⟩ => fun V c w => rfl
    | ⟨8, _⟩ => fun V c w => rfl
    | ⟨9, _⟩ => fun V c w => rfl
    | ⟨_ + 10, h⟩ => absurd h (by omega)
  howed := fun p => match p with
    | ⟨0, _⟩ => fun V c t => rfl
    | ⟨1, _⟩ => fun V c t => rfl
    | ⟨2, _⟩ => fun V c t => rfl
    | ⟨3, _⟩ => fun V c t => rfl
    | ⟨4, _⟩ => fun V c t => rfl
    | ⟨5, _⟩ => fun V c t => rfl
    | ⟨6, _⟩ => fun V c t => rfl
    | ⟨7, _⟩ => fun V c t => rfl
    | ⟨8, _⟩ => fun V c t => rfl
    | ⟨9, _⟩ => fun V c t => rfl
    | ⟨_ + 10, h⟩ => absurd h (by omega)
  hrec := fun p => match p with
    | ⟨0, _⟩ => fun V c t => rfl
    | ⟨1, _⟩ => fun V c t => rfl
    | ⟨2, _⟩ => fun V c t => rfl
    | ⟨3, _⟩ => fun V c t => rfl
    | ⟨4, _⟩ => fun V c t => rfl
    | ⟨5, _⟩ => fun V c t => rfl
    | ⟨6, _⟩ => fun V c t => rfl
    | ⟨7, _⟩ => fun V c t => rfl
    | ⟨8, _⟩ => fun V c t => rfl
    | ⟨9, _⟩ => fun V c t => rfl
    | ⟨_ + 10, h⟩ => absurd h (by omega)
  hbody := fun p => match p with
    | ⟨0, _⟩ => fun V c => body_obligation0 V c
    | ⟨1, _⟩ => fun V c => body_obligation1 V c
    | ⟨2, _⟩ => fun V c => body_obligation2 V c
    | ⟨3, _⟩ => fun V c => body_obligation3 V c
    | ⟨4, _⟩ => fun V c => body_obligation4 V c
    | ⟨5, _⟩ => fun V c => body_obligation5 V c
    | ⟨6, _⟩ => fun V c => body_obligation6 V c
    | ⟨7, _⟩ => fun V c => body_obligation7 V c
    | ⟨8, _⟩ => fun V c => body_obligation8 V c
    | ⟨9, _⟩ => fun V c => body_obligation9 V c
    | ⟨_ + 10, h⟩ => absurd h (by omega)
  hΦin := fun p => match p with
    | ⟨0, _⟩ => fun V c => ΦA_in spec0 c
    | ⟨1, _⟩ => fun V c => ΦA_in spec1 c
    | ⟨2, _⟩ => fun V c => Φ2_in V c
    | ⟨3, _⟩ => fun V c => ΦA_in spec3 c
    | ⟨4, _⟩ => fun V c => ΦA_in spec4 c
    | ⟨5, _⟩ => fun V c => ΦA_in spec5 c
    | ⟨6, _⟩ => fun V c => ΦA_in spec6 c
    | ⟨7, _⟩ => fun V c => Φ7_in V c
    | ⟨8, _⟩ => fun V c => ΦA_in spec8 c
    | ⟨9, _⟩ => fun V c => ΦA_in spec9 c
    | ⟨_ + 10, h⟩ => absurd h (by omega)
  hΦout := fun p => match p with
    | ⟨0, _⟩ => fun V c => ΦA_out spec0 c
    | ⟨1, _⟩ => fun V c => ΦA_out spec1 c
    | ⟨2, _⟩ => fun V c => Φ2_out V c
    | ⟨3, _⟩ => fun V c => ΦA_out spec3 c
    | ⟨4, _⟩ => fun V c => ΦA_out spec4 c
    | ⟨5, _⟩ => fun V c => ΦA_out spec5 c
    | ⟨6, _⟩ => fun V c => ΦA_out spec6 c
    | ⟨7, _⟩ => fun V c => Φ7_out V c
    | ⟨8, _⟩ => fun V c => ΦA_out spec8 c
    | ⟨9, _⟩ => fun V c => ΦA_out spec9 c
    | ⟨_ + 10, h⟩ => absurd h (by omega)

end Cert.KernelIdeal.Hand

end
-- ==== Proof.KI.Back.lean ====
/-
  Walking a buffer back through the run. Each of the sixteen items leaves a buffer it does not write as it found it:
  a host stretch writes only its operations' results; a region writes only its output windows' arrays (an input
  window's array ends at its entry contents, any other buffer is bypassed). A buffer no item writes — every argument
  array — therefore holds at the end what the launch memory held.
-/
import proofs.«152197_j87351044866369_2_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (𝒟 : RegData F) (m : (ℓ : Loc nD τ sig) → Buf (Elt F) ℓ)

theorem back1 (c : Dev nD) (b : Ref sig .tc) (h : b ∉ hostOps0_W) : W1 m c (Proc.devRef .tc b) = W0 m c (Proc.devRef .tc b) :=
  StableHlo.after_of_writes_sub hostOps0 _ hostOps0_writes h
theorem back2 (c : Dev nD) (b : Ref sig .tc) (h : ∀ w, ((cfgs 0).win w).isOut = true → Pipeline.arrRef (cfgs 0).spec w ≠ b) :
    W2 𝒟 m c (Proc.devRef .tc b) = W1 m c (Proc.devRef .tc b) :=
  stepR_of_not_out 𝒟 0 _ c b h
theorem back3 (c : Dev nD) (b : Ref sig .tc) (h : b ∉ hostOps1_W) : W3 𝒟 m c (Proc.devRef .tc b) = W2 𝒟 m c (Proc.devRef .tc b) :=
  StableHlo.after_of_writes_sub hostOps1 _ hostOps1_writes h
theorem back4 (c : Dev nD) (b : Ref sig .tc) (h : ∀ w, ((cfgs 1).win w).isOut = true → Pipeline.arrRef (cfgs 1).spec w ≠ b) :
    W4 𝒟 m c (Proc.devRef .tc b) = W3 𝒟 m c (Proc.devRef .tc b) :=
  stepR_of_not_out 𝒟 1 _ c b h
theorem back5 (c : Dev nD) (b : Ref sig .tc) (h : ∀ w, ((cfgs 2).win w).isOut = true → Pipeline.arrRef (cfgs 2).spec w ≠ b) :
    W5 𝒟 m c (Proc.devRef .tc b) = W4 𝒟 m c (Proc.devRef .tc b) :=
  stepR_of_not_out 𝒟 2 _ c b h
theorem back6 (c : Dev nD) (b : Ref sig .tc) (h : b ∉ hostOps3_W) : W6 𝒟 m c (Proc.devRef .tc b) = W5 𝒟 m c (Proc.devRef .tc b) :=
  StableHlo.after_of_writes_sub hostOps3 _ hostOps3_writes h
theorem back7 (c : Dev nD) (b : Ref sig .tc) (h : ∀ w, ((cfgs 3).win w).isOut = true → Pipeline.arrRef (cfgs 3).spec w ≠ b) :
    W7 𝒟 m c (Proc.devRef .tc b) = W6 𝒟 m c (Proc.devRef .tc b) :=
  stepR_of_not_out 𝒟 3 _ c b h
theorem back8 (c : Dev nD) (b : Ref sig .tc) (h : ∀ w, ((cfgs 4).win w).isOut = true → Pipeline.arrRef (cfgs 4).spec w ≠ b) :
    W8 𝒟 m c (Proc.devRef .tc b) = W7 𝒟 m c (Proc.devRef .tc b) :=
  stepR_of_not_out 𝒟 4 _ c b h
theorem back9 (c : Dev nD) (b : Ref sig .tc) (h : b ∉ hostOps5_W) : W9 𝒟 m c (Proc.devRef .tc b) = W8 𝒟 m c (Proc.devRef .tc b) :=
  StableHlo.after_of_writes_sub hostOps5 _ hostOps5_writes h
theorem back10 (c : Dev nD) (b : Ref sig .tc) (h : ∀ w, ((cfgs 5).win w).isOut = true → Pipeline.arrRef (cfgs 5).spec w ≠ b) :
    W10 𝒟 m c (Proc.devRef .tc b) = W9 𝒟 m c (Proc.devRef .tc b) :=
  stepR_of_not_out 𝒟 5 _ c b h
theorem back11 (c : Dev nD) (b : Ref sig .tc) (h : b ∉ hostOps6_W) : W11 𝒟 m c (Proc.devRef .tc b) = W10 𝒟 m c (Proc.devRef .tc b) :=
  StableHlo.after_of_writes_sub hostOps6 _ hostOps6_writes h
theorem back12 (c : Dev nD) (b : Ref sig .tc) (h : ∀ w, ((cfgs 6).win w).isOut = true → Pipeline.arrRef (cfgs 6).spec w ≠ b) :
    W12 𝒟 m c (Proc.devRef .tc b) = W11 𝒟 m c (Proc.devRef .tc b) :=
  stepR_of_not_out 𝒟 6 _ c b h
theorem back13 (c : Dev nD) (b : Ref sig .tc) (h : ∀ w, ((cfgs 7).win w).isOut = true → Pipeline.arrRef (cfgs 7).spec w ≠ b) :
    W13 𝒟 m c (Proc.devRef .tc b) = W12 𝒟 m c (Proc.devRef .tc b) :=
  stepR_of_not_out 𝒟 7 _ c b h
theorem back14 (c : Dev nD) (b : Ref sig .tc) (h : b ∉ hostOps8_W) : W14 𝒟 m c (Proc.devRef .tc b) = W13 𝒟 m c (Proc.devRef .tc b) :=
  StableHlo.after_of_writes_sub hostOps8 _ hostOps8_writes h
theorem back15 (c : Dev nD) (b : Ref sig .tc) (h : ∀ w, ((cfgs 8).win w).isOut = true → Pipeline.arrRef (cfgs 8).spec w ≠ b) :
    W15 𝒟 m c (Proc.devRef .tc b) = W14 𝒟 m c (Proc.devRef .tc b) :=
  stepR_of_not_out 𝒟 8 _ c b h
theorem back16 (c : Dev nD) (b : Ref sig .tc) (h : ∀ w, ((cfgs 9).win w).isOut = true → Pipeline.arrRef (cfgs 9).spec w ≠ b) :
    W16 𝒟 m c (Proc.devRef .tc b) = W15 𝒟 m c (Proc.devRef .tc b) :=
  stepR_of_not_out 𝒟 9 _ c b h

/-- A buffer no item writes ends at the launch memory's contents. -/
theorem kept (c : Dev nD) (b : Ref sig .tc)
    (h1 : b ∉ hostOps0_W)
    (h2 : ∀ w, ((cfgs 0).win w).isOut = true → Pipeline.arrRef (cfgs 0).spec w ≠ b)
    (h3 : b ∉ hostOps1_W)
    (h4 : ∀ w, ((cfgs 1).win w).isOut = true → Pipeline.arrRef (cfgs 1).spec w ≠ b)
    (h5 : ∀ w, ((cfgs 2).win w).isOut = true → Pipeline.arrRef (cfgs 2).spec w ≠ b)
    (h6 : b ∉ hostOps3_W)
    (h7 : ∀ w, ((cfgs 3).win w).isOut = true → Pipeline.arrRef (cfgs 3).spec w ≠ b)
    (h8 : ∀ w, ((cfgs 4).win w).isOut = true → Pipeline.arrRef (cfgs 4).spec w ≠ b)
    (h9 : b ∉ hostOps5_W)
    (h10 : ∀ w, ((cfgs 5).win w).isOut = true → Pipeline.arrRef (cfgs 5).spec w ≠ b)
    (h11 : b ∉ hostOps6_W)
    (h12 : ∀ w, ((cfgs 6).win w).isOut = true → Pipeline.arrRef (cfgs 6).spec w ≠ b)
    (h13 : ∀ w, ((cfgs 7).win w).isOut = true → Pipeline.arrRef (cfgs 7).spec w ≠ b)
    (h14 : b ∉ hostOps8_W)
    (h15 : ∀ w, ((cfgs 8).win w).isOut = true → Pipeline.arrRef (cfgs 8).spec w ≠ b)
    (h16 : ∀ w, ((cfgs 9).win w).isOut = true → Pipeline.arrRef (cfgs 9).spec w ≠ b) :
    W16 𝒟 m c (Proc.devRef .tc b) = m ((c : Thread nD τ).loc b) := by
  rw [back16 𝒟 m c b h16, back15 𝒟 m c b h15, back14 𝒟 m c b h14, back13 𝒟 m c b h13, back12 𝒟 m c b h12, back11 𝒟 m c b h11,
    back10 𝒟 m c b h10, back9 𝒟 m c b h9, back8 𝒟 m c b h8, back7 𝒟 m c b h7, back6 𝒟 m c b h6, back5 𝒟 m c b h5,
    back4 𝒟 m c b h4, back3 𝒟 m c b h3, back2 𝒟 m c b h2, back1 m c b h1]

end Cert.KernelIdeal.Hand

end
-- ==== Proof.KI.Frames.lean ====
/-
  The frame: the program runs to the end without a fault and leaves every argument array as launched. No host
  operation writes an argument and no region has one as an output window's array, so each argument's buffer walks
  back through the sixteen items to the launch memory.
-/
import proofs.«152197_j87351044866369_2_alg».proof.Proof.KI.Data
import proofs.«152197_j87351044866369_2_alg».proof.Proof.KI.Back

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem kept_arg0 (c : Dev nD) : W16 (regData (F := F)) m c (Proc.devRef .tc main_arg0) = m ((c : Thread nD τ).loc main_arg0) :=
  kept regData m c main_arg0 (by decide) (by decide) (by decide) (by decide) (by decide) (by decide) (by decide) (by decide) (by decide) (by decide) (by decide) (by decide) (by decide) (by decide) (by decide) (by decide)
theorem kept_arg1 (c : Dev nD) : W16 (regData (F := F)) m c (Proc.devRef .tc main_arg1) = m ((c : Thread nD τ).loc main_arg1) :=
  kept regData m c main_arg1 (by decide) (by decide) (by decide) (by decide) (by decide) (by decide) (by decide) (by decide) (by decide) (by decide) (by decide) (by decide) (by decide) (by decide) (by decide) (by decide)
theorem kept_arg2 (c : Dev nD) : W16 (regData (F := F)) m c (Proc.devRef .tc main_arg2) = m ((c : Thread nD τ).loc main_arg2) :=
  kept regData m c main_arg2 (by decide) (by decide) (by decide) (by decide) (by decide) (by decide) (by decide) (by decide) (by decide) (by decide) (by decide) (by decide) (by decide) (by decide) (by decide) (by decide)
theorem kept_arg3 (c : Dev nD) : W16 (regData (F := F)) m c (Proc.devRef .tc main_arg3) = m ((c : Thread nD τ).loc main_arg3) :=
  kept regData m c main_arg3 (by decide) (by decide) (by decide) (by decide) (by decide) (by decide) (by decide) (by decide) (by decide) (by decide) (by decide) (by decide) (by decide) (by decide) (by decide) (by decide)
theorem kept_arg4 (c : Dev nD) : W16 (regData (F := F)) m c (Proc.devRef .tc main_arg4) = m ((c : Thread nD τ).loc main_arg4) :=
  kept regData m c main_arg4 (by decide) (by decide) (by decide) (by decide) (by decide) (by decide) (by decide) (by decide) (by decide) (by decide) (by decide) (by decide) (by decide) (by decide) (by decide) (by decide)
theorem kept_arg5 (c : Dev nD) : W16 (regData (F := F)) m c (Proc.devRef .tc main_arg5) = m ((c : Thread nD τ).loc main_arg5) :=
  kept regData m c main_arg5 (by decide) (by decide) (by decide) (by decide) (by decide) (by decide) (by decide) (by decide) (by decide) (by decide) (by decide) (by decide) (by decide) (by decide) (by decide) (by decide)
theorem kept_arg6 (c : Dev nD) : W16 (regData (F := F)) m c (Proc.devRef .tc main_arg6) = m ((c : Thread nD τ).loc main_arg6) :=
  kept regData m c main_arg6 (by decide) (by decide) (by decide) (by decide) (by decide) (by decide) (by decide) (by decide) (by decide) (by decide) (by decide) (by decide) (by decide) (by decide) (by decide) (by decide)
theorem kept_arg7 (c : Dev nD) : W16 (regData (F := F)) m c (Proc.devRef .tc main_arg7) = m ((c : Thread nD τ).loc main_arg7) :=
  kept regData m c main_arg7 (by decide) (by decide) (by decide) (by decide) (by decide) (by decide) (by decide) (by decide) (by decide) (by decide) (by decide) (by decide) (by decide) (by decide) (by decide) (by decide)
theorem kept_arg8 (c : Dev nD) : W16 (regData (F := F)) m c (Proc.devRef .tc main_arg8) = m ((c : Thread nD τ).loc main_arg8) :=
  kept regData m c main_arg8 (by decide) (by decide) (by decide) (by decide) (by decide) (by decide) (by decide) (by decide) (by decide) (by decide) (by decide) (by decide) (by decide) (by decide) (by decide) (by decide)
theorem kept_arg9 (c : Dev nD) : W16 (regData (F := F)) m c (Proc.devRef .tc main_arg9) = m ((c : Thread nD τ).loc main_arg9) :=
  kept regData m c main_arg9 (by decide) (by decide) (by decide) (by decide) (by decide) (by decide) (by decide) (by decide) (by decide) (by decide) (by decide) (by decide) (by decide) (by decide) (by decide) (by decide)
theorem kept_arg10 (c : Dev nD) : W16 (regData (F := F)) m c (Proc.devRef .tc main_arg10) = m ((c : Thread nD τ).loc main_arg10) :=
  kept regData m c main_arg10 (by decide) (by decide) (by decide) (by decide) (by decide) (by decide) (by decide) (by decide) (by decide) (by decide) (by decide) (by decide) (by decide) (by decide) (by decide) (by decide)
theorem kept_arg11 (c : Dev nD) : W16 (regData (F := F)) m c (Proc.devRef .tc main_arg11) = m ((c : Thread nD τ).loc main_arg11) :=
  kept regData m c main_arg11 (by decide) (by decide) (by decide) (by decide) (by decide) (by decide) (by decide) (by decide) (by decide) (by decide) (by decide) (by decide) (by decide) (by decide) (by decide) (by decide)
theorem kept_arg12 (c : Dev nD) : W16 (regData (F := F)) m c (Proc.devRef .tc main_arg12) = m ((c : Thread nD τ).loc main_arg12) :=
  kept regData m c main_arg12 (by decide) (by decide) (by decide) (by decide) (by decide) (by decide) (by decide) (by decide) (by decide) (by decide) (by decide) (by decide) (by decide) (by decide) (by decide) (by decide)
theorem kept_arg13 (c : Dev nD) : W16 (regData (F := F)) m c (Proc.devRef .tc main_arg13) = m ((c : Thread nD τ).loc main_arg13) :=
  kept regData m c main_arg13 (by decide) (by decide) (by decide) (by decide) (by decide) (by decide) (by decide) (by decide) (by decide) (by decide) (by decide) (by decide) (by decide) (by decide) (by decide) (by decide)
theorem kept_arg14 (c : Dev nD) : W16 (regData (F := F)) m c (Proc.devRef .tc main_arg14) = m ((c : Thread nD τ).loc main_arg14) :=
  kept regData m c main_arg14 (by decide) (by decide) (by decide) (by decide) (by decide) (by decide) (by decide) (by decide) (by decide) (by decide) (by decide) (by decide) (by decide) (by decide) (by decide) (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c),
     (h c _ (mem_uc main_arg4 (by decide))).trans (kept_arg4 m c),
     (h c _ (mem_uc main_arg5 (by decide))).trans (kept_arg5 m c),
     (h c _ (mem_uc main_arg6 (by decide))).trans (kept_arg6 m c),
     (h c _ (mem_uc main_arg7 (by decide))).trans (kept_arg7 m c),
     (h c _ (mem_uc main_arg8 (by decide))).trans (kept_arg8 m c),
     (h c _ (mem_uc main_arg9 (by decide))).trans (kept_arg9 m c),
     (h c _ (mem_uc main_arg10 (by decide))).trans (kept_arg10 m c),
     (h c _ (mem_uc main_arg11 (by decide))).trans (kept_arg11 m c),
     (h c _ (mem_uc main_arg12 (by decide))).trans (kept_arg12 m c),
     (h c _ (mem_uc main_arg13 (by decide))).trans (kept_arg13 m c),
     (h c _ (mem_uc main_arg14 (by decide))).trans (kept_arg14 m c)⟩)
    (run_all regData m ρ)

end Cert.KernelIdeal.Hand

end
-- ==== Proof.Spec.lean ====
/-
  The specification: what both programs compute, as extended-real functions of the argument arrays, coordinate by
  coordinate. Two rounds of message passing on a bipartite graph of 2048 object nodes and 16384 relation nodes with
  1024 features each. One round, from node features `xo` (objects) and `xr` (relations):

  * a projection is `fc x W b = max (x · Wᵀ + b) 0`, row by row;
  * a collection gathers projected source rows by attention weights and averages them,
    `collect a f = (a · f) / (rowsum a + ε)`, the denominator a row sum of the weights plus the literal `ε`;
  * the objects are updated by the mean of three collections (from the relations through the subject weights, from the
    relations through the object weights, from the objects through the self weights), added to `xo`;
  * the relations are updated by the mean of two collections from the OLD object features through the transposed
    subject and object weights, added to `xr`.

  Every sum is a finite sum in the extended reals, which is commutative and associative there, so the order and
  grouping in which a program accumulates it do not matter; nothing here distributes a product over a sum.
-/
import Idealize.ShloMosaic.PureOps.Ideal
import Idealize.ShloMosaic.Lib.ValueIdx

noncomputable section

open scoped BigOperators

namespace Cert.Spec

open Idealize.ShloMosaic Idealize.ShloMosaic.ValueIdx

/-- The literal added to every attention row sum (the float32 nearest `1e-7`, the same word in both programs). -/
def eps : EReal := Ideal.ofBits .f32 0x33D6BF95#32
/-- The literal `2.0`. -/
def two : EReal := Ideal.ofBits .f32 0x40000000#32
/-- The literal `3.0`. -/
def three : EReal := Ideal.ofBits .f32 0x40400000#32

/-- A projection: row `p` of `x` against row `d` of `W`, plus the bias, clamped below at zero. -/
def fc {n : ℕ} (x : Fin n → Fin 1024 → EReal) (W : Fin 1024 → Fin 1024 → EReal) (b : Fin 1024 → EReal)
    (p : Fin n) (d : Fin 1024) : EReal :=
  max ((∑ k : Fin 1024, x p k * W d k) + b d) 0

/-- A collection: the attention-weighted sum of the source rows over the attention row's sum plus `ε`. -/
def collect {t s : ℕ} (a : Fin t → Fin s → EReal) (f : Fin s → Fin 1024 → EReal) (p : Fin t) (d : Fin 1024) : EReal :=
  Ideal.div (∑ k : Fin s, a p k * f k d) ((∑ k : Fin s, a p k) + eps)

/-- The arguments, by coordinates: object and relation features, the three attention matrices, five weight matrices
    and five biases (relation→object as subject / as object, object→relation as subject / as object, object→object). -/
structure Args where
  xo : Fin 2048 → Fin 1024 → EReal
  xr : Fin 16384 → Fin 1024 → EReal
  aSub : Fin 2048 → Fin 16384 → EReal
  aObj : Fin 2048 → Fin 16384 → EReal
  aSelf : Fin 2048 → Fin 2048 → EReal
  wRS : Fin 1024 → Fin 1024 → EReal
  bRS : Fin 1024 → EReal
  wRO : Fin 1024 → Fin 1024 → EReal
  bRO : Fin 1024 → EReal
  wOS : Fin 1024 → Fin 1024 → EReal
  bOS : Fin 1024 → EReal
  wOO : Fin 1024 → Fin 1024 → EReal
  bOO : Fin 1024 → EReal
  wSelf : Fin 1024 → Fin 1024 → EReal
  bSelf : Fin 1024 → EReal

/-- One round's new object features from the features `xo`, `xr`. -/
def objStep (A : Args) (xo : Fin 2048 → Fin 1024 → EReal) (xr : Fin 16384 → Fin 1024 → EReal)
    (p : Fin 2048) (d : Fin 1024) : EReal :=
  xo p d + Ideal.div
    ((collect A.aSub (fc xr A.wRS A.bRS) p d + collect A.aObj (fc xr A.wRO A.bRO) p d)
      + collect A.aSelf (fc xo A.wSelf A.bSelf) p d) three

/-- One round's new relation features from the features `xo`, `xr`: the attention matrices are read transposed. -/
def relStep (A : Args) (xo : Fin 2048 → Fin 1024 → EReal) (xr : Fin 16384 → Fin 1024 → EReal)
    (r : Fin 16384) (d : Fin 1024) : EReal :=
  xr r d + Ideal.div
    (collect (fun r t => A.aSub t r) (fc xo A.wOS A.bOS) r d + collect (fun r t => A.aObj t r) (fc xo A.wOO A.bOO) r d) two

/-- The object features after the first round. -/
def obj1 (A : Args) : Fin 2048 → Fin 1024 → EReal := objStep A A.xo A.xr
/-- The relation features after the first round. -/
def rel1 (A : Args) : Fin 16384 → Fin 1024 → EReal := relStep A A.xo A.xr
/-- The first result: the object features after the second round. -/
def obj2 (A : Args) : Fin 2048 → Fin 1024 → EReal := objStep A (obj1 A) (rel1 A)
/-- The second result: the relation features after the second round. -/
def rel2 (A : Args) : Fin 16384 → Fin 1024 → EReal := relStep A (obj1 A) (rel1 A)

/-- An array of shape `[a, b]` from its coordinate function. -/
def arr2 {a b : ℕ} (f : Fin a → Fin b → EReal) : (⟨2, ![a, b]⟩ : Shape).Idx → EReal :=
  fun i => f ⟨(i 0).val, (i 0).isLt⟩ ⟨(i 1).val, (i 1).isLt⟩

theorem arr2_ix2 {a b : ℕ} (f : Fin a → Fin b → EReal) (p : Fin a) (q : Fin b) : arr2 f (ix2 p q) = f p q := rfl

/-- The coordinate function of an array of shape `[a, b]`. -/
def co2 {a b : ℕ} (x : (⟨2, ![a, b]⟩ : Shape).Idx → EReal) : Fin a → Fin b → EReal := fun p q => x (ix2 p q)
/-- The coordinate function of an array of shape `[n]`. -/
def co1 {n : ℕ} (x : (⟨1, ![n]⟩ : Shape).Idx → EReal) : Fin n → EReal := fun p => x (ix1 p)

theorem arr2_co2 {a b : ℕ} (x : (⟨2, ![a, b]⟩ : Shape).Idx → EReal) : arr2 (co2 x) = x := by
  funext i; conv_rhs => rw [eq_ix2 i]
  rfl

/-- The arguments by coordinates, from the fifteen argument arrays in the programs' order. -/
def args (x0 : (⟨2, ![2048, 1024]⟩ : Shape).Idx → EReal) (x1 : (⟨2, ![16384, 1024]⟩ : Shape).Idx → EReal)
    (x2 x3 : (⟨2, ![2048, 16384]⟩ : Shape).Idx → EReal) (x4 : (⟨2, ![2048, 2048]⟩ : Shape).Idx → EReal)
    (x5 : (⟨2, ![1024, 1024]⟩ : Shape).Idx → EReal) (x6 : (⟨1, ![1024]⟩ : Shape).Idx → EReal)
    (x7 : (⟨2, ![1024, 1024]⟩ : Shape).Idx → EReal) (x8 : (⟨1, ![1024]⟩ : Shape).Idx → EReal)
    (x9 : (⟨2, ![1024, 1024]⟩ : Shape).Idx → EReal) (x10 : (⟨1, ![1024]⟩ : Shape).Idx → EReal)
    (x11 : (⟨2, ![1024, 1024]⟩ : Shape).Idx → EReal) (x12 : (⟨1, ![1024]⟩ : Shape).Idx → EReal)
    (x13 : (⟨2, ![1024, 1024]⟩ : Shape).Idx → EReal) (x14 : (⟨1, ![1024]⟩ : Shape).Idx → EReal) : Args where
  xo := co2 x0
  xr := co2 x1
  aSub := co2 x2
  aObj := co2 x3
  aSelf := co2 x4
  wRS := co2 x5
  bRS := co1 x6
  wRO := co2 x7
  bRO := co1 x8
  wOS := co2 x9
  bOS := co1 x10
  wOO := co2 x11
  bOO := co1 x12
  wSelf := co2 x13
  bSelf := co1 x14

end Cert.Spec

end
-- ==== Proof.KI.HostVals.lean ====
/-
  What the host operations around the regions compute, at the exact instance, coordinate by coordinate.

  Before the first region the host computes the five denominators — for each of the three attention matrices the sum of
  every row plus the literal `ε`, and for the subject and object matrices also the sum of every column plus `ε`, laid
  out as columns — and changes the three matrices' float format, which at the exact instance changes nothing. Between
  regions it only re-lays a bias vector of 1024 entries as one row.
-/
import proofs.«152197_j87351044866369_2_alg».proof.Proof.Gen.KernelIdeal.Launch
import proofs.«152197_j87351044866369_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Idealize.ShloMosaic Idealize.ShloMosaic.TcCoe Idealize.SL.Sem
open Idealize.ShloMosaic.StableHlo Idealize.ShloMosaic.ValueIdx
open scoped BigOperators

/-! ## The operations at coordinates -/

theorem zero_word (i : S_.Idx) : (constant (F := Ideal) S_ .f32 0x00000000#32) i = 0 := Ideal.ofBits_zero_f32

theorem rowsum_wide (x : (⟨S2048x16384, .f32⟩ : BufTy).Contents (Elt Ideal)) (p : Fin 2048) :
    Host.reduceAdd (F := Ideal) x (constant (F := Ideal) S_ .f32 0x00000000#32) reducesTo_S2048x16384_S2048_d1 h_S_ (ix1 p)
      = ∑ s : Fin 16384, x (ix2 p s) := by
  simp only [Host.reduceAdd, Ideal.hostReduceAdd_def]
  rw [Ideal.hostReduceAdd_single reducesTo_S2048x16384_S2048_d1 (by decide), zero_word, zero_add]
  refine Finset.sum_congr rfl fun k _ => ?_
  exact congrArg x (funext fun a => Fin.ext (by match a with | ⟨0, _⟩ => rfl | ⟨1, _⟩ => rfl))

theorem rowsum_square (x : (⟨S2048x2048, .f32⟩ : BufTy).Contents (Elt Ideal)) (p : Fin 2048) :
    Host.reduceAdd (F := Ideal) x (constant (F := Ideal) S_ .f32 0x00000000#32) reducesTo_S2048x2048_S2048_d1 h_S_ (ix1 p)
      = ∑ s : Fin 2048, x (ix2 p s) := by
  simp only [Host.reduceAdd, Ideal.hostReduceAdd_def]
  rw [Ideal.hostReduceAdd_single reducesTo_S2048x2048_S2048_d1 (by decide), zero_word, zero_add]
  refine Finset.sum_congr rfl fun k _ => ?_
  exact congrArg x (funext fun a => Fin.ext (by match a with | ⟨0, _⟩ => rfl | ⟨1, _⟩ => rfl))

theorem colsum_wide (x : (⟨S2048x16384, .f32⟩ : BufTy).Contents (Elt Ideal)) (r : Fin 16384) :
    Host.reduceAdd (F := Ideal) x (constant (F := Ideal) S_ .f32 0x00000000#32) reducesTo_S2048x16384_S16384_d0 h_S_ (ix1 r)
      = ∑ t : Fin 2048, x (ix2 t r) := by
  simp only [Host.reduceAdd, Ideal.hostReduceAdd_def]
  rw [Ideal.hostReduceAdd_single reducesTo_S2048x16384_S16384_d0 (by decide), zero_word, zero_add]
  refine Finset.sum_congr rfl fun k _ => ?_
  exact congrArg x (funext fun a => Fin.ext (by match a with | ⟨0, _⟩ => rfl | ⟨1, _⟩ => rfl))

theorem as_column (y : (⟨S2048, .f32⟩ : BufTy).Contents (Elt Ideal)) (p : Fin 2048) :
    broadcastInDim S2048x1 ![0] bcast_S2048_S2048x1_0 y (ix2 p 0) = y (ix1 p) :=
  broadcastInDim_apply _ bcast_S2048_S2048x1_0 y (ix2 p 0) (ix1 p) (fun a => match a with
    | ⟨0, _⟩ => by show p.val = if (2048 : Nat) = 1 then 0 else p.val; rw [if_neg (by decide)])

theorem eps_column (p : Fin 2048) :
    broadcastInDim S2048x1 ![] bcast_S_S2048x1 (constant (F := Ideal) S_ .f32 0x33D6BF95#32) (ix2 p 0) = Cert.Spec.eps :=
  broadcastInDim_apply _ bcast_S_S2048x1 _ (ix2 p 0) (fun a => a.elim0) (fun a => a.elim0)

theorem eps_long_column (r : Fin 16384) :
    broadcastInDim S16384x1 ![] bcast_S_S16384x1 (constant (F := Ideal) S_ .f32 0x33D6BF95#32) (ix2 r 0) = Cert.Spec.eps :=
  broadcastInDim_apply _ bcast_S_S16384x1 _ (ix2 r 0) (fun a => a.elim0) (fun a => a.elim0)

theorem row_as_column (y : (⟨S16384, .f32⟩ : BufTy).Contents (Elt Ideal)) (r : Fin 16384) :
    transpose S16384x1 [1, 0] (broadcastInDim S1x16384 ![1] bcast_S16384_S1x16384_1 y) transposes_S1x16384_S16384x1_1_0 (ix2 r 0) = y (ix1 r) := by
  rw [transpose_apply [1, 0] _ transposes_S1x16384_S16384x1_1_0 (ix2 r 0) (ix2 0 r) (fun b => match b with
    | ⟨0, _⟩ => rfl
    | ⟨1, _⟩ => rfl)]
  exact broadcastInDim_apply _ bcast_S16384_S1x16384_1 y (ix2 0 r) (ix1 r) (fun a => match a with
    | ⟨0, _⟩ => by show r.val = if (16384 : Nat) = 1 then 0 else r.val; rw [if_neg (by decide)])

theorem as_row (x : (⟨S1024, .f32⟩ : BufTy).Contents (Elt Ideal)) (d : Fin 1024) :
    shapeCast S1x1024 x shapeCasts_S1024_S1x1024 (ix2 0 d) = x (ix1 d) :=
  shapeCast_apply x shapeCasts_S1024_S1x1024 (ix2 0 d) (ix1 d) (by
    rw [Shape.rowMajor_val_one, Shape.rowMajor_val_two]; show d.val = 0 * 1024 + d.val; omega)

/-! ## The buffers the first host stretch writes, from any contents `W` of the buffers before it -/

variable (W : Valuation τ sig (Elt Ideal))

theorem denom_sub (p : Fin 2048) :
    (StableHlo.after (hostOps0 (F := Ideal)) W (Proc.devRef .tc main_v3) : S2048x1.Idx → EReal) (ix2 p 0)
      = (∑ s : Fin 16384, Cert.Spec.co2 (a := 2048) (b := 16384) (W (Proc.devRef .tc main_arg2)) p s) + Cert.Spec.eps := by
  have e : (StableHlo.after (hostOps0 (F := Ideal)) W (Proc.devRef .tc main_v3) : S2048x1.Idx → EReal)
      = addf (broadcastInDim S2048x1 ![0] bcast_S2048_S2048x1_0 (Host.reduceAdd (F := Ideal) (W (Proc.devRef .tc main_arg2)) (constant (F := Ideal) S_ .f32 0x00000000#32) reducesTo_S2048x16384_S2048_d1 h_S_))
          (broadcastInDim S2048x1 ![] bcast_S_S2048x1 (constant (F := Ideal) S_ .f32 0x33D6BF95#32)) := by after_results
  rw [e, addf_apply, as_column, eps_column, rowsum_wide]; rfl

theorem denom_obj (p : Fin 2048) :
    (StableHlo.after (hostOps0 (F := Ideal)) W (Proc.devRef .tc main_v7) : S2048x1.Idx → EReal) (ix2 p 0)
      = (∑ s : Fin 16384, Cert.Spec.co2 (a := 2048) (b := 16384) (W (Proc.devRef .tc main_arg3)) p s) + Cert.Spec.eps := by
  have e : (StableHlo.after (hostOps0 (F := Ideal)) W (Proc.devRef .tc main_v7) : S2048x1.Idx → EReal)
      = addf (broadcastInDim S2048x1 ![0] bcast_S2048_S2048x1_0 (Host.reduceAdd (F := Ideal) (W (Proc.devRef .tc main_arg3)) (constant (F := Ideal) S_ .f32 0x00000000#32) reducesTo_S2048x16384_S2048_d1 h_S_))
          (broadcastInDim S2048x1 ![] bcast_S_S2048x1 (constant (F := Ideal) S_ .f32 0x33D6BF95#32)) := by after_results
  rw [e, addf_apply, as_column, eps_column, rowsum_wide]; rfl

theorem denom_self (p : Fin 2048) :
    (StableHlo.after (hostOps0 (F := Ideal)) W (Proc.devRef .tc main_v11) : S2048x1.Idx → EReal) (ix2 p 0)
      = (∑ s : Fin 2048, Cert.Spec.co2 (a := 2048) (b := 2048) (W (Proc.devRef .tc main_arg4)) p s) + Cert.Spec.eps := by
  have e : (StableHlo.after (hostOps0 (F := Ideal)) W (Proc.devRef .tc main_v11) : S2048x1.Idx → EReal)
      = addf (broadcastInDim S2048x1 ![0] bcast_S2048_S2048x1_0 (Host.reduceAdd (F := Ideal) (W (Proc.devRef .tc main_arg4)) (constant (F := Ideal) S_ .f32 0x00000000#32) reducesTo_S2048x2048_S2048_d1 h_S_))
          (broadcastInDim S2048x1 ![] bcast_S_S2048x1 (constant (F := Ideal) S_ .f32 0x33D6BF95#32)) := by after_results
  rw [e, addf_apply, as_column, eps_column, rowsum_square]; rfl

theorem denom_rel_sub (r : Fin 16384) :
    (StableHlo.after (hostOps0 (F := Ideal)) W (Proc.devRef .tc main_v16) : S16384x1.Idx → EReal) (ix2 r 0)
      = (∑ t : Fin 2048, Cert.Spec.co2 (a := 2048) (b := 16384) (W (Proc.devRef .tc main_arg2)) t r) + Cert.Spec.eps := by
  have e : (StableHlo.after (hostOps0 (F := Ideal)) W (Proc.devRef .tc main_v16) : S16384x1.Idx → EReal)
      = addf (transpose S16384x1 [1, 0] (broadcastInDim S1x16384 ![1] bcast_S16384_S1x16384_1 (Host.reduceAdd (F := Ideal) (W (Proc.devRef .tc main_arg2)) (constant (F := Ideal) S_ .f32 0x00000000#32) reducesTo_S2048x16384_S16384_d0 h_S_)) transposes_S1x16384_S16384x1_1_0)
          (broadcastInDim S16384x1 ![] bcast_S_S16384x1 (constant (F := Ideal) S_ .f32 0x33D6BF95#32)) := by after_results
  rw [e, addf_apply, row_as_column, eps_long_column, colsum_wide]; rfl

theorem denom_rel_obj (r : Fin 16384) :
    (StableHlo.after (hostOps0 (F := Ideal)) W (Proc.devRef .tc main_v21) : S16384x1.Idx → EReal) (ix2 r 0)
      = (∑ t : Fin 2048, Cert.Spec.co2 (a := 2048) (b := 16384) (W (Proc.devRef .tc main_arg3)) t r) + Cert.Spec.eps := by
  have e : (StableHlo.after (hostOps0 (F := Ideal)) W (Proc.devRef .tc main_v21) : S16384x1.Idx → EReal)
      = addf (transpose S16384x1 [1, 0] (broadcastInDim S1x16384 ![1] bcast_S16384_S1x16384_1 (Host.reduceAdd (F := Ideal) (W (Proc.devRef .tc main_arg3)) (constant (F := Ideal) S_ .f32 0x00000000#32) reducesTo_S2048x16384_S16384_d0 h_S_)) transposes_S1x16384_S16384x1_1_0)
          (broadcastInDim S16384x1 ![] bcast_S_S16384x1 (constant (F := Ideal) S_ .f32 0x33D6BF95#32)) := by after_results
  rw [e, addf_apply, row_as_column, eps_long_column, colsum_wide]; rfl

/-- The attention matrices in the narrower float format are the matrices: a change of format is the identity. -/
theorem attn_sub_narrow : (StableHlo.after (hostOps0 (F := Ideal)) W (Proc.devRef .tc main_v22) : S2048x16384.Idx → EReal) = W (Proc.devRef .tc main_arg2) := by
  have e : (StableHlo.after (hostOps0 (F := Ideal)) W (Proc.devRef .tc main_v22) : S2048x16384.Idx → EReal)
      = truncf (F := Ideal) .bf16 (show FVec Ideal S2048x16384 .f32 from W (Proc.devRef .tc main_arg2)) bitsLt_bf16_f32 := by after_results
  rw [e]; rfl
theorem attn_obj_narrow : (StableHlo.after (hostOps0 (F := Ideal)) W (Proc.devRef .tc main_v23) : S2048x16384.Idx → EReal) = W (Proc.devRef .tc main_arg3) := by
  have e : (StableHlo.after (hostOps0 (F := Ideal)) W (Proc.devRef .tc main_v23) : S2048x16384.Idx → EReal)
      = truncf (F := Ideal) .bf16 (show FVec Ideal S2048x16384 .f32 from W (Proc.devRef .tc main_arg3)) bitsLt_bf16_f32 := by after_results
  rw [e]; rfl
theorem attn_self_narrow : (StableHlo.after (hostOps0 (F := Ideal)) W (Proc.devRef .tc main_v24) : S2048x2048.Idx → EReal) = W (Proc.devRef .tc main_arg4) := by
  have e : (StableHlo.after (hostOps0 (F := Ideal)) W (Proc.devRef .tc main_v24) : S2048x2048.Idx → EReal)
      = truncf (F := Ideal) .bf16 (show FVec Ideal S2048x2048 .f32 from W (Proc.devRef .tc main_arg4)) bitsLt_bf16_f32 := by after_results
  rw [e]; rfl

/-! ## The bias rows -/

theorem bias_row_25 (d : Fin 1024) :
    (StableHlo.after (hostOps0 (F := Ideal)) W (Proc.devRef .tc main_v25) : S1x1024.Idx → EReal) (ix2 0 d) = Cert.Spec.co1 (n := 1024) (W (Proc.devRef .tc main_arg6)) d := by
  have e : (StableHlo.after (hostOps0 (F := Ideal)) W (Proc.devRef .tc main_v25) : S1x1024.Idx → EReal)
      = shapeCast S1x1024 (W (Proc.devRef .tc main_arg6)) shapeCasts_S1024_S1x1024 := by after_results; rfl
  rw [e, as_row]; rfl
theorem bias_row_26 (d : Fin 1024) :
    (StableHlo.after (hostOps0 (F := Ideal)) W (Proc.devRef .tc main_v26) : S1x1024.Idx → EReal) (ix2 0 d) = Cert.Spec.co1 (n := 1024) (W (Proc.devRef .tc main_arg8)) d := by
  have e : (StableHlo.after (hostOps0 (F := Ideal)) W (Proc.devRef .tc main_v26) : S1x1024.Idx → EReal)
      = shapeCast S1x1024 (W (Proc.devRef .tc main_arg8)) shapeCasts_S1024_S1x1024 := by after_results; rfl
  rw [e, as_row]; rfl
theorem bias_row_28 (d : Fin 1024) :
    (StableHlo.after (hostOps1 (F := Ideal)) W (Proc.devRef .tc main_v28) : S1x1024.Idx → EReal) (ix2 0 d) = Cert.Spec.co1 (n := 1024) (W (Proc.devRef .tc main_arg14)) d := by
  have e : (StableHlo.after (hostOps1 (F := Ideal)) W (Proc.devRef .tc main_v28) : S1x1024.Idx → EReal)
      = shapeCast S1x1024 (W (Proc.devRef .tc main_arg14)) shapeCasts_S1024_S1x1024 := by after_results; rfl
  rw [e, as_row]; rfl
theorem bias_row_31 (d : Fin 1024) :
    (StableHlo.after (hostOps3 (F := Ideal)) W (Proc.devRef .tc main_v31) : S1x1024.Idx → EReal) (ix2 0 d) = Cert.Spec.co1 (n := 1024) (W (Proc.devRef .tc main_arg10)) d := by
  have e : (StableHlo.after (hostOps3 (F := Ideal)) W (Proc.devRef .tc main_v31) : S1x1024.Idx → EReal)
      = shapeCast S1x1024 (W (Proc.devRef .tc main_arg10)) shapeCasts_S1024_S1x1024 := by after_results; rfl
  rw [e, as_row]; rfl
theorem bias_row_32 (d : Fin 1024) :
    (StableHlo.after (hostOps3 (F := Ideal)) W (Proc.devRef .tc main_v32) : S1x1024.Idx → EReal) (ix2 0 d) = Cert.Spec.co1 (n := 1024) (W (Proc.devRef .tc main_arg12)) d := by
  have e : (StableHlo.after (hostOps3 (F := Ideal)) W (Proc.devRef .tc main_v32) : S1x1024.Idx → EReal)
      = shapeCast S1x1024 (W (Proc.devRef .tc main_arg12)) shapeCasts_S1024_S1x1024 := by after_results; rfl
  rw [e, as_row]; rfl
theorem bias_row_35 (d : Fin 1024) :
    (StableHlo.after (hostOps5 (F := Ideal)) W (Proc.devRef .tc main_v35) : S1x1024.Idx → EReal) (ix2 0 d) = Cert.Spec.co1 (n := 1024) (W (Proc.devRef .tc main_arg6)) d := by
  have e : (StableHlo.after (hostOps5 (F := Ideal)) W (Proc.devRef .tc main_v35) : S1x1024.Idx → EReal)
      = shapeCast S1x1024 (W (Proc.devRef .tc main_arg6)) shapeCasts_S1024_S1x1024 := by after_results; rfl
  rw [e, as_row]; rfl
theorem bias_row_36 (d : Fin 1024) :
    (StableHlo.after (hostOps5 (F := Ideal)) W (Proc.devRef .tc main_v36) : S1x1024.Idx → EReal) (ix2 0 d) = Cert.Spec.co1 (n := 1024) (W (Proc.devRef .tc main_arg8)) d := by
  have e : (StableHlo.after (hostOps5 (F := Ideal)) W (Proc.devRef .tc main_v36) : S1x1024.Idx → EReal)
      = shapeCast S1x1024 (W (Proc.devRef .tc main_arg8)) shapeCasts_S1024_S1x1024 := by after_results; rfl
  rw [e, as_row]; rfl
theorem bias_row_38 (d : Fin 1024) :
    (StableHlo.after (hostOps6 (F := Ideal)) W (Proc.devRef .tc main_v38) : S1x1024.Idx → EReal) (ix2 0 d) = Cert.Spec.co1 (n := 1024) (W (Proc.devRef .tc main_arg14)) d := by
  have e : (StableHlo.after (hostOps6 (F := Ideal)) W (Proc.devRef .tc main_v38) : S1x1024.Idx → EReal)
      = shapeCast S1x1024 (W (Proc.devRef .tc main_arg14)) shapeCasts_S1024_S1x1024 := by after_results; rfl
  rw [e, as_row]; rfl
theorem bias_row_41 (d : Fin 1024) :
    (StableHlo.after (hostOps8 (F := Ideal)) W (Proc.devRef .tc main_v41) : S1x1024.Idx → EReal) (ix2 0 d) = Cert.Spec.co1 (n := 1024) (W (Proc.devRef .tc main_arg10)) d := by
  have e : (StableHlo.after (hostOps8 (F := Ideal)) W (Proc.devRef .tc main_v41) : S1x1024.Idx → EReal)
      = shapeCast S1x1024 (W (Proc.devRef .tc main_arg10)) shapeCasts_S1024_S1x1024 := by after_results; rfl
  rw [e, as_row]; rfl
theorem bias_row_42 (d : Fin 1024) :
    (StableHlo.after (hostOps8 (F := Ideal)) W (Proc.devRef .tc main_v42) : S1x1024.Idx → EReal) (ix2 0 d) = Cert.Spec.co1 (n := 1024) (W (Proc.devRef .tc main_arg12)) d := by
  have e : (StableHlo.after (hostOps8 (F := Ideal)) W (Proc.devRef .tc main_v42) : S1x1024.Idx → EReal)
      = shapeCast S1x1024 (W (Proc.devRef .tc main_arg12)) shapeCasts_S1024_S1x1024 := by after_results; rfl
  rw [e, as_row]; rfl

end Cert.KernelIdeal.HandVal

end
-- ==== Proof.KI.FcPay.lean ====
import proofs.«152197_j87351044866369_2_alg».proof.Proof.Gen.KernelIdeal.Skeleton
import Idealize.ShloMosaic.Lib.Pipeline.Value
import Idealize.ShloMosaic.Lib.ValueIdx
import Idealize.ShloMosaic.PureOps.Ideal.Laws

/-! # The projection kernels' payloads at the ideal values

Every projection kernel stores `max (x · wᵀ + b) 0` of a block `x` of 1024 source rows, a weight matrix `w`
and a bias row `b`: at the ideal values the format changes are the identity and the matrix product is a
finite sum over the 1024 features, so the stored block at row `p`, column `q` is
`max ((∑ k, x p k * w q k) + b 0 q) 0`. -/

noncomputable section

open scoped BigOperators

namespace Cert.KernelIdeal.HandVal

open Cert.KernelIdeal Cert.KernelIdeal.Gen
open Idealize.ShloMosaic Idealize.ShloMosaic.ValueIdx

/-- The projection of a block of 1024 rows: row `j 0` of `x` against row `j 1` of `w`, plus the bias, clamped below at zero. -/
def fcBlk (x w : S1024x1024.Idx → EReal) (b : S1x1024.Idx → EReal) : S1024x1024.Idx → EReal :=
  fun j => max ((∑ k : Fin 1024, x (ix2 (j 0) k) * w (ix2 (j 1) k)) + b (ix2 0 (j 1))) 0

/-- The dimension numbers of `x · wᵀ`: both operands contract their second axis. -/
abbrev dotT : DotDims S1024x1024 S1024x1024 S1024x1024 := dot_S1024x1024_S1024x1024_S1024x1024_1_1_0_0_n_n

/-- The left operand's row at output index `j` is `j`'s row: the one axis the left operand does not contract. -/
theorem dotT_lhs_0 (j : S1024x1024.Idx) (q : dotT.contr.Idx) : (dotT.lhsIdx j q 0).val = (j 0).val := by
  unfold DotDims.lhsIdx
  rw [dif_neg (show ¬(0 : Fin S1024x1024.rank) ∈ dotT.lhsBatch by decide), dif_pos (show (0 : Fin S1024x1024.rank) ∈ dotT.lhsNonContracting by decide)]
  rfl
/-- Its column is the contraction index. -/
theorem dotT_lhs_1 (j : S1024x1024.Idx) (q : dotT.contr.Idx) : (dotT.lhsIdx j q 1).val = (q ⟨0, by decide⟩).val :=
  dotT.lhsIdx_val_of_single rfl j q
/-- The right operand's row at output index `j` is `j`'s column: the right operand is read transposed. -/
theorem dotT_rhs_0 (j : S1024x1024.Idx) (q : dotT.contr.Idx) : (dotT.rhsIdx j q 0).val = (j 1).val := by
  unfold DotDims.rhsIdx
  rw [dif_neg (show ¬(0 : Fin S1024x1024.rank) ∈ dotT.rhsBatch by decide), dif_pos (show (0 : Fin S1024x1024.rank) ∈ dotT.rhsNonContracting by decide)]
  rfl
/-- Its column is the contraction index. -/
theorem dotT_rhs_1 (j : S1024x1024.Idx) (q : dotT.contr.Idx) : (dotT.rhsIdx j q 1).val = (q ⟨0, by decide⟩).val :=
  dotT.rhsIdx_val_of_single rfl j q

/-- The matrix product `x · wᵀ` into the zero accumulator, at an index: the sum over the one contracted axis. -/
theorem matmulT_apply (x w : FVec Ideal S1024x1024 .bf16) (p q : Fin 1024) :
    FloatOps.matmul dotT none x w (constant (F := Ideal) S1024x1024 .f32 0x00000000#32) (ix2 p q)
      = ∑ k : Fin 1024, x (ix2 p k) * w (ix2 q k) := by
  rw [Ideal.matmul_constant_zero_apply, ← Equiv.sum_comp (contrEquiv1 dotT 1024 rfl rfl).symm]
  refine Finset.sum_congr rfl fun k _ => ?_
  have hk := contrEquiv1_symm_val dotT 1024 rfl rfl k
  have el : dotT.lhsIdx (ix2 p q) ((contrEquiv1 dotT 1024 rfl rfl).symm k) = ix2 p k := funext fun a => Fin.ext (by
    match a with
    | ⟨0, _⟩ => exact dotT_lhs_0 _ _
    | ⟨1, _⟩ => exact (dotT_lhs_1 _ _).trans hk)
  have er : dotT.rhsIdx (ix2 p q) ((contrEquiv1 dotT 1024 rfl rfl).symm k) = ix2 q k := funext fun a => Fin.ext (by
    match a with
    | ⟨0, _⟩ => exact dotT_rhs_0 _ _
    | ⟨1, _⟩ => exact (dotT_rhs_1 _ _).trans hk)
  rw [el, er]

/-- The bias row broadcast over the 1024 rows, at an index: the bias at the column. -/
theorem biasRow_apply (b : S1x1024.Idx → EReal) (p q : Fin 1024) :
    broadcastTo S1024x1024 (shapeCast S1x1024 b shapeCasts_S1x1024_S1x1024) broadcasts_S1x1024_S1024x1024 (ix2 p q) = b (ix2 0 q) := by
  rw [shapeCast_self]
  exact broadcastTo_apply b broadcasts_S1x1024_S1024x1024 (ix2 p q) (ix2 0 q) (fun a => by
    match a with
    | ⟨0, _⟩ => rfl
    | ⟨1, _⟩ => rfl)

/-- The stored block of a projection, from its three loaded blocks. -/
theorem fc_pay_eq (x w : Vec Ideal S1024x1024 .f32) (b : Vec Ideal S1x1024 .f32) :
    (truncf .bf16 (maximumf (addf (matmul dotT none (truncf .bf16 x bitsLt_bf16_f32) (truncf .bf16 w bitsLt_bf16_f32) (constant S1024x1024 .f32 0x00000000#32))
      (broadcastTo S1024x1024 (shapeCast S1x1024 b shapeCasts_S1x1024_S1x1024) broadcasts_S1x1024_S1024x1024))
      (broadcast S1024x1024 (Scalar.ofBits .f32 0x00000000#32))) bitsLt_bf16_f32 : FVec Ideal S1024x1024 .bf16) = fcBlk x w b := by
  funext j
  obtain ⟨p, q, rfl⟩ : ∃ (p : Fin 1024) (q : Fin 1024), j = ix2 p q := ⟨j 0, j 1, eq_ix2 j⟩
  rw [truncf_apply, maximumf_apply, addf_apply, broadcast_apply]
  simp only [matmul]
  rw [matmulT_apply, biasRow_apply]
  simp only [truncf_apply]
  show max _ (Ideal.ofBits .f32 0x00000000#32) = _
  rw [Ideal.ofBits_zero_f32]
  rfl

/-- The same when the source block first passes through a shape cast to its own shape (the identity). -/
theorem fc_pay_eq' (x w : Vec Ideal S1024x1024 .f32) (b : Vec Ideal S1x1024 .f32) :
    (truncf .bf16 (maximumf (addf (matmul dotT none (truncf .bf16 (shapeCast S1024x1024 x shapeCasts_S1024x1024_S1024x1024) bitsLt_bf16_f32) (truncf .bf16 w bitsLt_bf16_f32) (constant S1024x1024 .f32 0x00000000#32))
      (broadcastTo S1024x1024 (shapeCast S1x1024 b shapeCasts_S1x1024_S1x1024) broadcasts_S1x1024_S1024x1024))
      (broadcast S1024x1024 (Scalar.ofBits .f32 0x00000000#32))) bitsLt_bf16_f32 : FVec Ideal S1024x1024 .bf16) = fcBlk x w b := by
  rw [shapeCast_self x shapeCasts_S1024x1024_S1024x1024]
  exact fc_pay_eq x w b

theorem k1_pay1_eq (x w : Vec Ideal S1024x1024 .f32) (b : Vec Ideal S1x1024 .f32) : k1_pay1 (F := Ideal) x w b = fcBlk x w b := fc_pay_eq x w b
theorem k6_pay1_eq (x w : Vec Ideal S1024x1024 .f32) (b : Vec Ideal S1x1024 .f32) : k6_pay1 (F := Ideal) x w b = fcBlk x w b := fc_pay_eq' x w b
theorem k0_pay2_eq (x w : Vec Ideal S1024x1024 .f32) (b : Vec Ideal S1x1024 .f32) : k0_pay2 (F := Ideal) x w b = fcBlk x w b := fc_pay_eq x w b
theorem k0_pay3_eq (x w : Vec Ideal S1024x1024 .f32) (b : Vec Ideal S1x1024 .f32) : k0_pay3 (F := Ideal) x w b = fcBlk x w b := fc_pay_eq x w b
theorem k3_pay2_eq (x w : Vec Ideal S1024x1024 .f32) (b : Vec Ideal S1x1024 .f32) : k3_pay2 (F := Ideal) x w b = fcBlk x w b := fc_pay_eq x w b
theorem k3_pay3_eq (x w : Vec Ideal S1024x1024 .f32) (b : Vec Ideal S1x1024 .f32) : k3_pay3 (F := Ideal) x w b = fcBlk x w b := fc_pay_eq x w b
theorem k5_pay2_eq (x w : Vec Ideal S1024x1024 .f32) (b : Vec Ideal S1x1024 .f32) : k5_pay2 (F := Ideal) x w b = fcBlk x w b := fc_pay_eq' x w b
theorem k5_pay3_eq (x w : Vec Ideal S1024x1024 .f32) (b : Vec Ideal S1x1024 .f32) : k5_pay3 (F := Ideal) x w b = fcBlk x w b := fc_pay_eq' x w b
theorem k8_pay2_eq (x w : Vec Ideal S1024x1024 .f32) (b : Vec Ideal S1x1024 .f32) : k8_pay2 (F := Ideal) x w b = fcBlk x w b := fc_pay_eq' x w b
theorem k8_pay3_eq (x w : Vec Ideal S1024x1024 .f32) (b : Vec Ideal S1x1024 .f32) : k8_pay3 (F := Ideal) x w b = fcBlk x w b := fc_pay_eq' x w b

end Cert.KernelIdeal.HandVal
-- ==== Proof.KI.Val1.lean ====
import proofs.«152197_j87351044866369_2_alg».proof.Proof.KI.Reg1
import proofs.«152197_j87351044866369_2_alg».proof.Proof.KI.FcPay
import proofs.«152197_j87351044866369_2_alg».proof.Proof.Spec
import Idealize.ShloMosaic.Lib.Pipeline.Value

/-! # Region 1 at the ideal values: the projected array

The region writes block `t` of its output from block `t` of the source rows, the whole weight matrix and the bias
row. Each write-back is block `t` of ONE function of the region's three input arrays — the projection
`max (X · Wᵀ + b) 0` row by row — and the two blocks tile the 2048 rows, so after the region the output array is
that function. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The projection of the source array `X` by the weights `W` and the bias row `B`, as an array. -/
def G1 (X : S2048x1024.Idx → EReal) (W : S1024x1024.Idx → EReal) (B : S1x1024.Idx → EReal) : S2048x1024.Idx → EReal :=
  Spec.arr2 (Spec.fc (Spec.co2 X) (Spec.co2 W) (fun d => B (ix2 0 d)))

/-- The printed index maps over the grid: the source and output blocks are the point's, the weights' and the bias's
    block is the one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of the projection: the projection of block `t` of the source rows by the whole weight matrix and bias row
    is block `t` (of window 3) of the projection of the whole source array. -/
theorem blk1_3_eq (X : S2048x1024.Idx → EReal) (W : S1024x1024.Idx → EReal) (B : S1x1024.Idx → EReal) (t : Fin cfg1.N) :
    (cfg1.win 3).cut (grid1.coords t) (fcBlk (((cfg1.win 0).blk t).view.read (Elt Ideal) X)
        (((cfg1.win 1).blk t).view.read (Elt Ideal) W) (((cfg1.win 2).blk t).view.read (Elt Ideal) B))
      = ((cfg1.win 3).blk t).view.read (Elt Ideal) (G1 X W B) := by
  obtain ⟨e00, e01, e10, e11, e20, e21, e30, e31⟩ := idx_facts1 t
  funext j
  show max ((∑ k : Fin 1024, X (((cfg1.win 0).blk t).view.emb (ix2 (j 0) k)) * W (((cfg1.win 1).blk t).view.emb (ix2 (j 1) k)))
      + B (((cfg1.win 2).blk t).view.emb (ix2 0 (j 1)))) 0
    = max ((∑ k : Fin 1024, X (ix2 ⟨((((cfg1.win 3).blk t).view.emb j) 0).val, ((((cfg1.win 3).blk t).view.emb j) 0).isLt⟩ k)
        * W (ix2 ⟨((((cfg1.win 3).blk t).view.emb j) 1).val, ((((cfg1.win 3).blk t).view.emb j) 1).isLt⟩ k))
      + B (ix2 0 ⟨((((cfg1.win 3).blk t).view.emb j) 1).val, ((((cfg1.win 3).blk t).view.emb j) 1).isLt⟩)) 0
  have hj0 : (j 0).val < 1024 := (j 0).isLt
  have hj1 : (j 1).val < 1024 := (j 1).isLt
  have h0 : ∀ k : Fin 1024, ((cfg1.win 0).blk t).view.emb (ix2 (j 0) k)
      = ix2 ⟨((((cfg1.win 3).blk t).view.emb j) 0).val, ((((cfg1.win 3).blk t).view.emb j) 0).isLt⟩ k := fun k => by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * k.val = k.val; omega
  have h1 : ∀ k : Fin 1024, ((cfg1.win 1).blk t).view.emb (ix2 (j 1) k)
      = ix2 ⟨((((cfg1.win 3).blk t).view.emb j) 1).val, ((((cfg1.win 3).blk t).view.emb j) 1).isLt⟩ k := fun k => by
    funext a; apply Fin.ext
    match a with
    | ⟨0, _⟩ => show win1_1.index t (0 : Fin 2) * 1024 + 1 * (j 1).val = win1_3.index t (1 : Fin 2) * 1024 + 1 * (j 1).val; omega
    | ⟨1, _⟩ => show win1_1.index t (1 : Fin 2) * 1024 + 1 * k.val = k.val; omega
  have h2 : ((cfg1.win 2).blk t).view.emb (ix2 0 (j 1))
      = ix2 0 ⟨((((cfg1.win 3).blk t).view.emb j) 1).val, ((((cfg1.win 3).blk t).view.emb j) 1).isLt⟩ := by
    funext a; apply Fin.ext
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega
  have hS : (∑ k : Fin 1024, X (((cfg1.win 0).blk t).view.emb (ix2 (j 0) k)) * W (((cfg1.win 1).blk t).view.emb (ix2 (j 1) k)))
      = ∑ k : Fin 1024, X (ix2 ⟨((((cfg1.win 3).blk t).view.emb j) 0).val, ((((cfg1.win 3).blk t).view.emb j) 0).isLt⟩ k)
        * W (ix2 ⟨((((cfg1.win 3).blk t).view.emb j) 1).val, ((((cfg1.win 3).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 3 is block `t` of the projection of the arrays as the region finds them. -/
theorem flushed1_3_eq (c : Dev nD) (t : Fin cfg1.N) :
    (dat1 V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S1024x1024) hz1, View.ld_unit_zero (S := S1x1024) hz1]
  rw [k1_pay1_eq]
  exact blk1_3_eq (V c (Pipeline.arrRef spec1 0)) (V c (Pipeline.arrRef spec1 1)) (V c (Pipeline.arrRef spec1 2)) t

/-- An index of the output array is in point `t`'s block iff each coordinate is in the block's range on its axis. -/
theorem mem_blk1_3 (t : Fin cfg1.N) (i : S2048x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v29).slice (win1_3.rect t)).set ↔ _
  rw [View.set_slice_whole, Rect.mem_set_unit]
  exact Iff.rfl

/-- The two blocks tile the array: row `r` is in the block of point `r / 1024`. -/
theorem covered1_3 (i : S2048x1024.Idx) :
    ∃ t : Fin cfg1.N, (cfg1.win 3).flush t = true ∧ i ∈ ((cfg1.win 3).blk t).view.set := by
  have hi0 : (i 0).val < 2048 := (i 0).isLt
  have hi1 : (i 1).val < 1024 := (i 1).isLt
  have hN : cfg1.N = 2 := N_1
  let t : Fin cfg1.N := ⟨(i 0).val / 1024, by omega⟩
  obtain ⟨e00, e01, e10, e11, e20, e21, e30, e31⟩ := idx_facts1 t
  have ht : t.val = (i 0).val / 1024 := rfl
  refine ⟨t, flush1_3 t, ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE OUTPUT ARRAY after the region: the projection of the region's input arrays. -/
theorem val1 (c : Dev nD) : (dat1 (F := Ideal) V c).arrAt 3 cfg1.N
    = G1 (V c (Pipeline.arrRef spec1 0)) (V c (Pipeline.arrRef spec1 1)) (V c (Pipeline.arrRef spec1 2)) :=
  (dat1 V c).arrAt_eq_of_cover 3 _ (fun t _ => flushed1_3_eq V c t) (covered1_3)

end Cert.KernelIdeal.HandVal
-- ==== Proof.KI.ChainBase.lean ====
/-
  Reading the kernel program's buffers as the specification's functions, one region at a time.

  After the item that writes it, a buffer holds a function of the argument arrays: a projection of the object or the
  relation features, or the features after a round. Each link of the chain reads one region's output array: the run
  leaves there what the region's pipeline leaves (its value, a function of the region's input arrays), and each input
  array is walked back through the items that do not write it to the item that did, whose link says what it holds.
  The bias rows and the denominators are the host's. The arguments are named once, by coordinates.
-/
import proofs.«152197_j87351044866369_2_alg».proof.Proof.KI.Run
import proofs.«152197_j87351044866369_2_alg».proof.Proof.KI.Back
import proofs.«152197_j87351044866369_2_alg».proof.Proof.KI.HostVals
import proofs.«152197_j87351044866369_2_alg».proof.Proof.KI.Val1

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem co2_arr2 {a b : ℕ} (f : Fin a → Fin b → EReal) : Cert.Spec.co2 (Cert.Spec.arr2 f) = f := by
  funext p d; rfl

variable (𝒟 : RegData Ideal) (m : (ℓ : Loc nD τ sig) → Buf (Elt Ideal) ℓ) (c : Dev nD)

/-- The arguments by coordinates. -/
abbrev A : Cert.Spec.Args := Cert.Spec.args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- After region 1 the buffer `main_v29` holds the projection of the object features by the self weights. -/
theorem F29 (h1 : ∀ V c, 𝒟.D 1 V c = dat1 V c) :
    Cert.Spec.co2 (a := 2048) (b := 1024) (W4 𝒟 m c (Proc.devRef .tc main_v29))
      = Cert.Spec.fc (A m c).xo (A m c).wSelf (A m c).bSelf := by
  have e : W4 𝒟 m c (Proc.devRef .tc main_v29) = (dat1 (F := Ideal) (rd (W3 𝒟 m)) c).arrAt 3 cfg1.N := by
    rw [← h1]; exact stepR_arr 𝒟 1 (W3 𝒟 m) c 3
  have hx : Cert.Spec.co2 (a := 2048) (b := 1024) (rd (W3 𝒟 m) c (Pipeline.arrRef spec1 0)) = (A m c).xo := by
    show Cert.Spec.co2 (a := 2048) (b := 1024) (W3 𝒟 m c (Proc.devRef .tc main_arg0)) = _
    rw [back3 𝒟 m c main_arg0 (by decide), back2 𝒟 m c main_arg0 (by decide), back1 m c main_arg0 (by decide)]
    rfl
  have hw : Cert.Spec.co2 (a := 1024) (b := 1024) (rd (W3 𝒟 m) c (Pipeline.arrRef spec1 1)) = (A m c).wSelf := by
    show Cert.Spec.co2 (a := 1024) (b := 1024) (W3 𝒟 m c (Proc.devRef .tc main_arg13)) = _
    rw [back3 𝒟 m c main_arg13 (by decide), back2 𝒟 m c main_arg13 (by decide), back1 m c main_arg13 (by decide)]
    rfl
  have hb : (fun d : Fin 1024 => (rd (W3 𝒟 m) c (Pipeline.arrRef spec1 2) : S1x1024.Idx → EReal) (ix2 0 d)) = (A m c).bSelf := by
    funext d
    show (StableHlo.after (hostOps1 (F := Ideal)) (W2 𝒟 m c) (Proc.devRef .tc main_v28) : S1x1024.Idx → EReal) (ix2 0 d) = _
    rw [bias_row_28 (W2 𝒟 m c) d, back2 𝒟 m c main_arg14 (by decide), back1 m c main_arg14 (by decide)]
    rfl
  rw [e, val1]
  unfold G1
  rw [co2_arr2, hx, hw, hb]

end Cert.KernelIdeal.HandVal

end
-- ==== Proof.KI.Val3.lean ====
import proofs.«152197_j87351044866369_2_alg».proof.Proof.KI.Reg3
import proofs.«152197_j87351044866369_2_alg».proof.Proof.KI.FcPay
import proofs.«152197_j87351044866369_2_alg».proof.Proof.Spec
import Idealize.ShloMosaic.Lib.Pipeline.Value

/-! # Region 3 at the ideal values: the two projected arrays

The region writes block `t` of each of its two outputs from block `t` of the source rows, one whole weight matrix and
one bias row. Each write-back is block `t` of ONE function of the region's input arrays — the projection
`max (X · Wᵀ + b) 0` row by row — and the 2 blocks tile the 2048 rows, so after the region each output array is
that function of the source and of its own weights and bias. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The projection of the source array `X` by the weights `W` and the bias row `B`, as an array. -/
def G3 (X : S2048x1024.Idx → EReal) (W : S1024x1024.Idx → EReal) (B : S1x1024.Idx → EReal) : S2048x1024.Idx → EReal :=
  Spec.arr2 (Spec.fc (Spec.co2 X) (Spec.co2 W) (fun d => B (ix2 0 d)))

/-- The printed index maps over the grid: the source and output blocks are the point's, each weight matrix's and
    bias's block is its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Block `t` of the projection: the projection of block `t` of the source rows by the whole weight matrix and bias row
    is block `t` (of window 5) of the projection of the whole source array. -/
theorem blk3_5_eq (X : S2048x1024.Idx → EReal) (W : S1024x1024.Idx → EReal) (B : S1x1024.Idx → EReal) (t : Fin cfg3.N) :
    (cfg3.win 5).cut (grid3.coords t) (fcBlk (((cfg3.win 0).blk t).view.read (Elt Ideal) X)
        (((cfg3.win 1).blk t).view.read (Elt Ideal) W) (((cfg3.win 2).blk t).view.read (Elt Ideal) B))
      = ((cfg3.win 5).blk t).view.read (Elt Ideal) (G3 X W B) := by
  obtain ⟨e00, e01, e10, e11, e20, e21, e30, e31, e40, e41, e50, e51, e60, e61⟩ := idx_facts3 t
  funext j
  show max ((∑ k : Fin 1024, X (((cfg3.win 0).blk t).view.emb (ix2 (j 0) k)) * W (((cfg3.win 1).blk t).view.emb (ix2 (j 1) k)))
      + B (((cfg3.win 2).blk t).view.emb (ix2 0 (j 1)))) 0
    = max ((∑ k : Fin 1024, X (ix2 ⟨((((cfg3.win 5).blk t).view.emb j) 0).val, ((((cfg3.win 5).blk t).view.emb j) 0).isLt⟩ k)
        * W (ix2 ⟨((((cfg3.win 5).blk t).view.emb j) 1).val, ((((cfg3.win 5).blk t).view.emb j) 1).isLt⟩ k))
      + B (ix2 0 ⟨((((cfg3.win 5).blk t).view.emb j) 1).val, ((((cfg3.win 5).blk t).view.emb j) 1).isLt⟩)) 0
  have hj0 : (j 0).val < 1024 := (j 0).isLt
  have hj1 : (j 1).val < 1024 := (j 1).isLt
  have h0 : ∀ k : Fin 1024, ((cfg3.win 0).blk t).view.emb (ix2 (j 0) k)
      = ix2 ⟨((((cfg3.win 5).blk t).view.emb j) 0).val, ((((cfg3.win 5).blk t).view.emb j) 0).isLt⟩ k := fun k => by
    funext a; apply Fin.ext
    match a with
    | ⟨0, _⟩ => show win3_0.index t (0 : Fin 2) * 1024 + 1 * (j 0).val = win3_5.index t (0 : Fin 2) * 1024 + 1 * (j 0).val; omega
    | ⟨1, _⟩ => show win3_0.index t (1 : Fin 2) * 1024 + 1 * k.val = k.val; omega
  have h1 : ∀ k : Fin 1024, ((cfg3.win 1).blk t).view.emb (ix2 (j 1) k)
      = ix2 ⟨((((cfg3.win 5).blk t).view.emb j) 1).val, ((((cfg3.win 5).blk t).view.emb j) 1).isLt⟩ k := fun k => by
    funext a; apply Fin.ext
    match a with
    | ⟨0, _⟩ => show win3_1.index t (0 : Fin 2) * 1024 + 1 * (j 1).val = win3_5.index t (1 : Fin 2) * 1024 + 1 * (j 1).val; omega
    | ⟨1, _⟩ => show win3_1.index t (1 : Fin 2) * 1024 + 1 * k.val = k.val; omega
  have h2 : ((cfg3.win 2).blk t).view.emb (ix2 0 (j 1))
      = ix2 0 ⟨((((cfg3.win 5).blk t).view.emb j) 1).val, ((((cfg3.win 5).blk t).view.emb j) 1).isLt⟩ := by
    funext a; apply Fin.ext
    match a with
    | ⟨0, _⟩ => show win3_2.index t (0 : Fin 2) * 1 + 1 * 0 = 0; omega
    | ⟨1, _⟩ => show win3_2.index t (1 : Fin 2) * 1024 + 1 * (j 1).val = win3_5.index t (1 : Fin 2) * 1024 + 1 * (j 1).val; omega
  have hS : (∑ k : Fin 1024, X (((cfg3.win 0).blk t).view.emb (ix2 (j 0) k)) * W (((cfg3.win 1).blk t).view.emb (ix2 (j 1) k)))
      = ∑ k : Fin 1024, X (ix2 ⟨((((cfg3.win 5).blk t).view.emb j) 0).val, ((((cfg3.win 5).blk t).view.emb j) 0).isLt⟩ k)
        * W (ix2 ⟨((((cfg3.win 5).blk t).view.emb j) 1).val, ((((cfg3.win 5).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 5 is block `t` of the projection of the arrays as the region finds them. -/
theorem flushed3_5_eq (c : Dev nD) (t : Fin cfg3.N) :
    (dat3 V c).flushed 5 t = ((cfg3.win 5).blk t).view.read (Elt Ideal)
      (G3 (V c (Pipeline.arrRef spec3 0)) (V c (Pipeline.arrRef spec3 1)) (V c (Pipeline.arrRef spec3 2))) := by
  show (cfg3.win 5).cut (grid3.coords t) ((dat3 V c).after 5 t) = _
  rw [after3_5]
  unfold out3_5
  rw [View.canon_unit_zero hz3]
  simp only [View.ld_unit_zero (S := S1024x1024) hz3, View.ld_unit_zero (S := S1x1024) hz3]
  rw [k3_pay2_eq]
  exact blk3_5_eq (V c (Pipeline.arrRef spec3 0)) (V c (Pipeline.arrRef spec3 1)) (V c (Pipeline.arrRef spec3 2)) t

/-- An index of window 5's array is in point `t`'s block iff each coordinate is in the block's range on its axis. -/
theorem mem_blk3_5 (t : Fin cfg3.N) (i : S2048x1024.Idx) :
    i ∈ ((cfg3.win 5).blk t).view.set ↔ ∀ a : Fin 2, win3_5.index t a * S1024x1024.size a ≤ (i a).val ∧ (i a).val < win3_5.index t a * S1024x1024.size a + S1024x1024.size a := by
  show i ∈ ((View.whole main_v33_0).slice (win3_5.rect t)).set ↔ _
  rw [View.set_slice_whole, Rect.mem_set_unit]
  exact Iff.rfl

/-- The 2 blocks tile the array: row `r` is in the block of point `r / 1024`. -/
theorem covered3_5 (i : S2048x1024.Idx) :
    ∃ t : Fin cfg3.N, (cfg3.win 5).flush t = true ∧ i ∈ ((cfg3.win 5).blk t).view.set := by
  have hi0 : (i 0).val < 2048 := (i 0).isLt
  have hi1 : (i 1).val < 1024 := (i 1).isLt
  have hN : cfg3.N = 2 := N_3
  let t : Fin cfg3.N := ⟨(i 0).val / 1024, by omega⟩
  obtain ⟨e00, e01, e10, e11, e20, e21, e30, e31, e40, e41, e50, e51, e60, e61⟩ := idx_facts3 t
  have ht : t.val = (i 0).val / 1024 := rfl
  refine ⟨t, flush3_5 t, ?_⟩
  rw [mem_blk3_5]
  intro a
  match a with
  | ⟨0, _⟩ => show win3_5.index t (0 : Fin 2) * 1024 ≤ (i 0).val ∧ (i 0).val < win3_5.index t (0 : Fin 2) * 1024 + 1024; omega
  | ⟨1, _⟩ => show win3_5.index t (1 : Fin 2) * 1024 ≤ (i 1).val ∧ (i 1).val < win3_5.index t (1 : Fin 2) * 1024 + 1024; omega

/-- OUTPUT ARRAY 5 after the region: the projection of the region's input arrays by its weights and bias. -/
theorem val3_5 (c : Dev nD) : (dat3 (F := Ideal) V c).arrAt 5 cfg3.N
    = G3 (V c (Pipeline.arrRef spec3 0)) (V c (Pipeline.arrRef spec3 1)) (V c (Pipeline.arrRef spec3 2)) :=
  (dat3 V c).arrAt_eq_of_cover 5 _ (fun t _ => flushed3_5_eq V c t) (covered3_5)

/-- Block `t` of the projection: the projection of block `t` of the source rows by the whole weight matrix and bias row
    is block `t` (of window 6) of the projection of the whole source array. -/
theorem blk3_6_eq (X : S2048x1024.Idx → EReal) (W : S1024x1024.Idx → EReal) (B : S1x1024.Idx → EReal) (t : Fin cfg3.N) :
    (cfg3.win 6).cut (grid3.coords t) (fcBlk (((cfg3.win 0).blk t).view.read (Elt Ideal) X)
        (((cfg3.win 3).blk t).view.read (Elt Ideal) W) (((cfg3.win 4).blk t).view.read (Elt Ideal) B))
      = ((cfg3.win 6).blk t).view.read (Elt Ideal) (G3 X W B) := by
  obtain ⟨e00, e01, e10, e11, e20, e21, e30, e31, e40, e41, e50, e51, e60, e61⟩ := idx_facts3 t
  funext j
  show max ((∑ k : Fin 1024, X (((cfg3.win 0).blk t).view.emb (ix2 (j 0) k)) * W (((cfg3.win 3).blk t).view.emb (ix2 (j 1) k)))
      + B (((cfg3.win 4).blk t).view.emb (ix2 0 (j 1)))) 0
    = max ((∑ k : Fin 1024, X (ix2 ⟨((((cfg3.win 6).blk t).view.emb j) 0).val, ((((cfg3.win 6).blk t).view.emb j) 0).isLt⟩ k)
        * W (ix2 ⟨((((cfg3.win 6).blk t).view.emb j) 1).val, ((((cfg3.win 6).blk t).view.emb j) 1).isLt⟩ k))
      + B (ix2 0 ⟨((((cfg3.win 6).blk t).view.emb j) 1).val, ((((cfg3.win 6).blk t).view.emb j) 1).isLt⟩)) 0
  have hj0 : (j 0).val < 1024 := (j 0).isLt
  have hj1 : (j 1).val < 1024 := (j 1).isLt
  have h0 : ∀ k : Fin 1024, ((cfg3.win 0).blk t).view.emb (ix2 (j 0) k)
      = ix2 ⟨((((cfg3.win 6).blk t).view.emb j) 0).val, ((((cfg3.win 6).blk t).view.emb j) 0).isLt⟩ k := fun k => by
    funext a; apply Fin.ext
    match a with
    | ⟨0, _⟩ => show win3_0.index t (0 : Fin 2) * 1024 + 1 * (j 0).val = win3_6.index t (0 : Fin 2) * 1024 + 1 * (j 0).val; omega
    | ⟨1, _⟩ => show win3_0.index t (1 : Fin 2) * 1024 + 1 * k.val = k.val; omega
  have h1 : ∀ k : Fin 1024, ((cfg3.win 3).blk t).view.emb (ix2 (j 1) k)
      = ix2 ⟨((((cfg3.win 6).blk t).view.emb j) 1).val, ((((cfg3.win 6).blk t).view.emb j) 1).isLt⟩ k := fun k => by
    funext a; apply Fin.ext
    match a with
    | ⟨0, _⟩ => show win3_3.index t (0 : Fin 2) * 1024 + 1 * (j 1).val = win3_6.index t (1 : Fin 2) * 1024 + 1 * (j 1).val; omega
    | ⟨1, _⟩ => show win3_3.index t (1 : Fin 2) * 1024 + 1 * k.val = k.val; omega
  have h2 : ((cfg3.win 4).blk t).view.emb (ix2 0 (j 1))
      = ix2 0 ⟨((((cfg3.win 6).blk t).view.emb j) 1).val, ((((cfg3.win 6).blk t).view.emb j) 1).isLt⟩ := by
    funext a; apply Fin.ext
    match a with
    | ⟨0, _⟩ => show win3_4.index t (0 : Fin 2) * 1 + 1 * 0 = 0; omega
    | ⟨1, _⟩ => show win3_4.index t (1 : Fin 2) * 1024 + 1 * (j 1).val = win3_6.index t (1 : Fin 2) * 1024 + 1 * (j 1).val; omega
  have hS : (∑ k : Fin 1024, X (((cfg3.win 0).blk t).view.emb (ix2 (j 0) k)) * W (((cfg3.win 3).blk t).view.emb (ix2 (j 1) k)))
      = ∑ k : Fin 1024, X (ix2 ⟨((((cfg3.win 6).blk t).view.emb j) 0).val, ((((cfg3.win 6).blk t).view.emb j) 0).isLt⟩ k)
        * W (ix2 ⟨((((cfg3.win 6).blk t).view.emb j) 1).val, ((((cfg3.win 6).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 6 is block `t` of the projection of the arrays as the region finds them. -/
theorem flushed3_6_eq (c : Dev nD) (t : Fin cfg3.N) :
    (dat3 V c).flushed 6 t = ((cfg3.win 6).blk t).view.read (Elt Ideal)
      (G3 (V c (Pipeline.arrRef spec3 0)) (V c (Pipeline.arrRef spec3 3)) (V c (Pipeline.arrRef spec3 4))) := by
  show (cfg3.win 6).cut (grid3.coords t) ((dat3 V c).after 6 t) = _
  rw [after3_6]
  unfold out3_6
  rw [View.canon_unit_zero hz3]
  simp only [View.ld_unit_zero (S := S1024x1024) hz3, View.ld_unit_zero (S := S1x1024) hz3]
  rw [k3_pay3_eq]
  exact blk3_6_eq (V c (Pipeline.arrRef spec3 0)) (V c (Pipeline.arrRef spec3 3)) (V c (Pipeline.arrRef spec3 4)) t

/-- An index of window 6's array is in point `t`'s block iff each coordinate is in the block's range on its axis. -/
theorem mem_blk3_6 (t : Fin cfg3.N) (i : S2048x1024.Idx) :
    i ∈ ((cfg3.win 6).blk t).view.set ↔ ∀ a : Fin 2, win3_6.index t a * S1024x1024.size a ≤ (i a).val ∧ (i a).val < win3_6.index t a * S1024x1024.size a + S1024x1024.size a := by
  show i ∈ ((View.whole main_v33_1).slice (win3_6.rect t)).set ↔ _
  rw [View.set_slice_whole, Rect.mem_set_unit]
  exact Iff.rfl

/-- The 2 blocks tile the array: row `r` is in the block of point `r / 1024`. -/
theorem covered3_6 (i : S2048x1024.Idx) :
    ∃ t : Fin cfg3.N, (cfg3.win 6).flush t = true ∧ i ∈ ((cfg3.win 6).blk t).view.set := by
  have hi0 : (i 0).val < 2048 := (i 0).isLt
  have hi1 : (i 1).val < 1024 := (i 1).isLt
  have hN : cfg3.N = 2 := N_3
  let t : Fin cfg3.N := ⟨(i 0).val / 1024, by omega⟩
  obtain ⟨e00, e01, e10, e11, e20, e21, e30, e31, e40, e41, e50, e51, e60, e61⟩ := idx_facts3 t
  have ht : t.val = (i 0).val / 1024 := rfl
  refine ⟨t, flush3_6 t, ?_⟩
  rw [mem_blk3_6]
  intro a
  match a with
  | ⟨0, _⟩ => show win3_6.index t (0 : Fin 2) * 1024 ≤ (i 0).val ∧ (i 0).val < win3_6.index t (0 : Fin 2) * 1024 + 1024; omega
  | ⟨1, _⟩ => show win3_6.index t (1 : Fin 2) * 1024 ≤ (i 1).val ∧ (i 1).val < win3_6.index t (1 : Fin 2) * 1024 + 1024; omega

/-- OUTPUT ARRAY 6 after the region: the projection of the region's input arrays by its weights and bias. -/
theorem val3_6 (c : Dev nD) : (dat3 (F := Ideal) V c).arrAt 6 cfg3.N
    = G3 (V c (Pipeline.arrRef spec3 0)) (V c (Pipeline.arrRef spec3 3)) (V c (Pipeline.arrRef spec3 4)) :=
  (dat3 V c).arrAt_eq_of_cover 6 _ (fun t _ => flushed3_6_eq V c t) (covered3_6)

end Cert.KernelIdeal.HandVal
-- ==== Proof.KI.Val4.lean ====
/- The value of region 4 (the relation-side combine) at the extended reals: the output array after the region, as one
   function of the arrays its windows read at the region's entry. Row `r` of the output is the relation features' row
   plus half the sum of two quotients, each an attention column `r` against the projected object features over that
   relation's denominator. -/
import proofs.«152197_j87351044866369_2_alg».proof.Proof.KI.Reg4
import proofs.«152197_j87351044866369_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The transposed-left matrix product at an index -/

/-- The left operand's contracted axis is its first: there the operand index is the contraction position. -/
theorem lhs4_0 (i : S512x1024.Idx) (q : dot_S2048x512_S2048x1024_S512x1024_0_0_1_1_n_n.contr.Idx) :
    (dot_S2048x512_S2048x1024_S512x1024_0_0_1_1_n_n.lhsIdx i q 0).val = (q ⟨0, by decide⟩).val :=
  dot_S2048x512_S2048x1024_S512x1024_0_0_1_1_n_n.lhsIdx_val_of_single rfl i q
/-- Its second axis is the result's first. -/
theorem lhs4_1 (i : S512x1024.Idx) (q : dot_S2048x512_S2048x1024_S512x1024_0_0_1_1_n_n.contr.Idx) :
    (dot_S2048x512_S2048x1024_S512x1024_0_0_1_1_n_n.lhsIdx i q 1).val = (i 0).val := by
  unfold DotDims.lhsIdx
  rw [dif_neg (show ¬(1 : Fin S2048x512.rank) ∈ dot_S2048x512_S2048x1024_S512x1024_0_0_1_1_n_n.lhsBatch by decide), dif_pos (show (1 : Fin S2048x512.rank) ∈ dot_S2048x512_S2048x1024_S512x1024_0_0_1_1_n_n.lhsNonContracting by decide)]
  rfl
/-- The right operand's contracted axis is its first. -/
theorem rhs4_0 (i : S512x1024.Idx) (q : dot_S2048x512_S2048x1024_S512x1024_0_0_1_1_n_n.contr.Idx) :
    (dot_S2048x512_S2048x1024_S512x1024_0_0_1_1_n_n.rhsIdx i q 0).val = (q ⟨0, by decide⟩).val :=
  dot_S2048x512_S2048x1024_S512x1024_0_0_1_1_n_n.rhsIdx_val_of_single rfl i q
/-- Its second axis is the result's second. -/
theorem rhs4_1 (i : S512x1024.Idx) (q : dot_S2048x512_S2048x1024_S512x1024_0_0_1_1_n_n.contr.Idx) :
    (dot_S2048x512_S2048x1024_S512x1024_0_0_1_1_n_n.rhsIdx i q 1).val = (i 1).val := by
  unfold DotDims.rhsIdx
  rw [dif_neg (show ¬(1 : Fin S2048x1024.rank) ∈ dot_S2048x512_S2048x1024_S512x1024_0_0_1_1_n_n.rhsBatch by decide), dif_pos (show (1 : Fin S2048x1024.rank) ∈ dot_S2048x512_S2048x1024_S512x1024_0_0_1_1_n_n.rhsNonContracting by decide)]
  rfl

/-- The product contracted over the first axis of both operands, accumulated into zero, at `(p, q)`: the sum over
    the 2048 rows of the left operand's column `p` against the right operand's column `q`. -/
theorem matmulT4_apply (a : FVec Ideal S2048x512 .bf16) (b : FVec Ideal S2048x1024 .bf16) (p : Fin 512) (q : Fin 1024) :
    matmul dot_S2048x512_S2048x1024_S512x1024_0_0_1_1_n_n none a b (constant (F := Ideal) S512x1024 .f32 0x00000000#32) (ix2 p q)
      = ∑ k : Fin 2048, a (ix2 k p) * b (ix2 k q) := by
  simp only [matmul]
  rw [Ideal.matmul_constant_zero_apply, ← Equiv.sum_comp (ValueIdx.contrEquiv1 dot_S2048x512_S2048x1024_S512x1024_0_0_1_1_n_n 2048 rfl rfl).symm]
  refine Finset.sum_congr rfl fun k _ => ?_
  have hk := ValueIdx.contrEquiv1_symm_val dot_S2048x512_S2048x1024_S512x1024_0_0_1_1_n_n 2048 rfl rfl k
  have el : dot_S2048x512_S2048x1024_S512x1024_0_0_1_1_n_n.lhsIdx (ix2 p q) ((ValueIdx.contrEquiv1 dot_S2048x512_S2048x1024_S512x1024_0_0_1_1_n_n 2048 rfl rfl).symm k) = ix2 k p := funext fun a => Fin.ext (by
    match a with
    | ⟨0, _⟩ => exact (lhs4_0 _ _).trans hk
    | ⟨1, _⟩ => exact lhs4_1 _ _)
  have er : dot_S2048x512_S2048x1024_S512x1024_0_0_1_1_n_n.rhsIdx (ix2 p q) ((ValueIdx.contrEquiv1 dot_S2048x512_S2048x1024_S512x1024_0_0_1_1_n_n 2048 rfl rfl).symm k) = ix2 k q := funext fun a => Fin.ext (by
    match a with
    | ⟨0, _⟩ => exact (rhs4_0 _ _).trans hk
    | ⟨1, _⟩ => exact rhs4_1 _ _)
  rw [el, er]

/-! ## The payload at an index -/

/-- A denominator column laid along every feature column, at `(p, q)`, is the column's entry at row `p`. -/
theorem bcol4_apply (x : FVec Ideal S512x1 .f32) (p : Fin 512) (q : Fin 1024) :
    broadcastTo S512x1024 x broadcasts_S512x1_S512x1024 (ix2 p q) = x (ix2 p 0) :=
  broadcastTo_apply x broadcasts_S512x1_S512x1024 (ix2 p q) (ix2 p 0) (fun a => by
    match a with
    | ⟨0, _⟩ => rfl
    | ⟨1, _⟩ => rfl)

/-- The body's stored value at `(p, q)` from its seven loaded blocks. -/
theorem pay4_apply (x0 x1 : Vec Ideal S2048x512 .bf16) (x2 x3 : Vec Ideal S2048x1024 .bf16) (x4 x5 : Vec Ideal S512x1 .f32)
    (x6 : Vec Ideal S512x1024 .f32) (p : Fin 512) (q : Fin 1024) :
    k4_pay1 (F := Ideal) x0 x2 x4 x1 x3 x5 x6 (ix2 p q)
      = x6 (ix2 p q) + Ideal.div (Ideal.div (∑ k : Fin 2048, x0 (ix2 k p) * x2 (ix2 k q)) (x4 (ix2 p 0))
          + Ideal.div (∑ k : Fin 2048, x1 (ix2 k p) * x3 (ix2 k q)) (x5 (ix2 p 0))) Spec.two := by
  unfold k4_pay1
  simp only [shapeCast_self]
  rw [addf_apply, divf_apply, addf_apply, divf_apply, divf_apply, broadcast_apply, matmulT4_apply, matmulT4_apply,
    bcol4_apply, bcol4_apply]
  rfl

/-! ## From the blocks to the array -/

-- the buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-- The printed index maps, decided over the grid: the attention windows take all rows and the output's block of
    columns; the projected features are taken whole; the denominators and the relation features move with the
    output's block of rows; the output's blocks are the 32 blocks of 512 rows. -/
theorem idx_facts4 : ∀ t : Fin cfg4.N,
    win4_0.index t (0 : Fin 2) = 0 ∧ win4_0.index t (1 : Fin 2) = win4_7.index t (0 : Fin 2)
    ∧ win4_1.index t (0 : Fin 2) = 0 ∧ win4_1.index t (1 : Fin 2) = win4_7.index t (0 : Fin 2)
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = win4_7.index t (0 : Fin 2) ∧ win4_4.index t (1 : Fin 2) = 0
    ∧ win4_5.index t (0 : Fin 2) = win4_7.index t (0 : Fin 2) ∧ win4_5.index t (1 : Fin 2) = 0
    ∧ win4_6.index t (0 : Fin 2) = win4_7.index t (0 : Fin 2) ∧ win4_6.index t (1 : Fin 2) = 0
    ∧ win4_7.index t (0 : Fin 2) ≤ 31 ∧ win4_7.index t (1 : Fin 2) = 0 :=
  (by decide +kernel : ∀ t : Fin grid4.N, _)

/-- Every block of rows is some point's. -/
theorem idx_onto4 : ∀ (q0 : Fin 32), ∃ t : Fin cfg4.N, win4_7.index t = ![q0.val, 0] :=
  (by decide +kernel : ∀ (q0 : Fin 32), ∃ t : Fin grid4.N, win4_7.index t = ![q0.val, 0])

/-- The array row that row `p` of point `t`'s output block is. -/
def row4 (t : Fin cfg4.N) (p : Fin 512) : Fin 16384 :=
  ⟨win4_7.index t (0 : Fin 2) * 512 + p.val, by
    have h := (idx_facts4 t).2.2.2.2.2.2.2.2.2.2.2.2.2.2.1
    have hp := p.isLt
    omega⟩

/-! ### Each window's block, read where the output's block says -/

theorem read4_0 (c : Dev nD) (t : Fin cfg4.N) (k : Fin 2048) (p : Fin 512) :
    iblk4 V c 0 t (ix2 k p) = Spec.co2 (a := 2048) (b := 16384) (V c (Pipeline.arrRef spec4 0)) k (row4 t p) := by
  obtain ⟨e00, e01, e10, e11, e20, e21, e30, e31, e40, e41, e50, e51, e60, e61, e7b, e71⟩ := idx_facts4 t
  show V c main_v22 (((cfg4.win 0).blk t).view.emb (ix2 k p)) = V c main_v22 (ix2 k (row4 t p))
  refine congrArg _ (funext fun a => Fin.ext ?_)
  match a with
  | ⟨0, _⟩ => show win4_0.index t (0 : Fin 2) * 2048 + 1 * (k : Fin 2048).val = k.val; omega
  | ⟨1, _⟩ => show win4_0.index t (1 : Fin 2) * 512 + 1 * (p : Fin 512).val = win4_7.index t (0 : Fin 2) * 512 + p.val; omega

theorem read4_1 (c : Dev nD) (t : Fin cfg4.N) (k : Fin 2048) (p : Fin 512) :
    iblk4 V c 1 t (ix2 k p) = Spec.co2 (a := 2048) (b := 16384) (V c (Pipeline.arrRef spec4 1)) k (row4 t p) := by
  obtain ⟨e00, e01, e10, e11, e20, e21, e30, e31, e40, e41, e50, e51, e60, e61, e7b, e71⟩ := idx_facts4 t
  show V c main_v23 (((cfg4.win 1).blk t).view.emb (ix2 k p)) = V c main_v23 (ix2 k (row4 t p))
  refine congrArg _ (funext fun a => Fin.ext ?_)
  match a with
  | ⟨0, _⟩ => show win4_1.index t (0 : Fin 2) * 2048 + 1 * (k : Fin 2048).val = k.val; omega
  | ⟨1, _⟩ => show win4_1.index t (1 : Fin 2) * 512 + 1 * (p : Fin 512).val = win4_7.index t (0 : Fin 2) * 512 + p.val; omega

theorem read4_2 (c : Dev nD) (t : Fin cfg4.N) (k : Fin 2048) (q : Fin 1024) :
    iblk4 V c 2 t (ix2 k q) = Spec.co2 (a := 2048) (b := 1024) (V c (Pipeline.arrRef spec4 2)) k q := by
  obtain ⟨e00, e01, e10, e11, e20, e21, e30, e31, e40, e41, e50, e51, e60, e61, e7b, e71⟩ := idx_facts4 t
  show V c main_v33_0 (((cfg4.win 2).blk t).view.emb (ix2 k q)) = V c main_v33_0 (ix2 k q)
  refine congrArg _ (funext fun a => Fin.ext ?_)
  match a with
  | ⟨0, _⟩ => show win4_2.index t (0 : Fin 2) * 2048 + 1 * (k : Fin 2048).val = k.val; omega
  | ⟨1, _⟩ => show win4_2.index t (1 : Fin 2) * 1024 + 1 * (q : Fin 1024).val = q.val; omega

theorem read4_3 (c : Dev nD) (t : Fin cfg4.N) (k : Fin 2048) (q : Fin 1024) :
    iblk4 V c 3 t (ix2 k q) = Spec.co2 (a := 2048) (b := 1024) (V c (Pipeline.arrRef spec4 3)) k q := by
  obtain ⟨e00, e01, e10, e11, e20, e21, e30, e31, e40, e41, e50, e51, e60, e61, e7b, e71⟩ := idx_facts4 t
  show V c main_v33_1 (((cfg4.win 3).blk t).view.emb (ix2 k q)) = V c main_v33_1 (ix2 k q)
  refine congrArg _ (funext fun a => Fin.ext ?_)
  match a with
  | ⟨0, _⟩ => show win4_3.index t (0 : Fin 2) * 2048 + 1 * (k : Fin 2048).val = k.val; omega
  | ⟨1, _⟩ => show win4_3.index t (1 : Fin 2) * 1024 + 1 * (q : Fin 1024).val = q.val; omega

theorem read4_4 (c : Dev nD) (t : Fin cfg4.N) (p : Fin 512) :
    iblk4 V c 4 t (ix2 p (0 : Fin 1)) = Spec.co2 (a := 16384) (b := 1) (V c (Pipeline.arrRef spec4 4)) (row4 t p) 0 := by
  obtain ⟨e00, e01, e10, e11, e20, e21, e30, e31, e40, e41, e50, e51, e60, e61, e7b, e71⟩ := idx_facts4 t
  show V c main_v16 (((cfg4.win 4).blk t).view.emb (ix2 p (0 : Fin 1))) = V c main_v16 (ix2 (row4 t p) (0 : Fin 1))
  refine congrArg _ (funext fun a => Fin.ext ?_)
  match a with
  | ⟨0, _⟩ => show win4_4.index t (0 : Fin 2) * 512 + 1 * (p : Fin 512).val = win4_7.index t (0 : Fin 2) * 512 + p.val; omega
  | ⟨1, _⟩ => show win4_4.index t (1 : Fin 2) * 1 + 1 * ((0 : Fin 1) : Fin 1).val = (0 : Fin 1).val; omega

theorem read4_5 (c : Dev nD) (t : Fin cfg4.N) (p : Fin 512) :
    iblk4 V c 5 t (ix2 p (0 : Fin 1)) = Spec.co2 (a := 16384) (b := 1) (V c (Pipeline.arrRef spec4 5)) (row4 t p) 0 := by
  obtain ⟨e00, e01, e10, e11, e20, e21, e30, e31, e40, e41, e50, e51, e60, e61, e7b, e71⟩ := idx_facts4 t
  show V c main_v21 (((cfg4.win 5).blk t).view.emb (ix2 p (0 : Fin 1))) = V c main_v21 (ix2 (row4 t p) (0 : Fin 1))
  refine congrArg _ (funext fun a => Fin.ext ?_)
  match a with
  | ⟨0, _⟩ => show win4_5.index t (0 : Fin 2) * 512 + 1 * (p : Fin 512).val = win4_7.index t (0 : Fin 2) * 512 + p.val; omega
  | ⟨1, _⟩ => show win4_5.index t (1 : Fin 2) * 1 + 1 * ((0 : Fin 1) : Fin 1).val = (0 : Fin 1).val; omega

theorem read4_6 (c : Dev nD) (t : Fin cfg4.N) (p : Fin 512) (q : Fin 1024) :
    iblk4 V c 6 t (ix2 p q) = Spec.co2 (a := 16384) (b := 1024) (V c (Pipeline.arrRef spec4 6)) (row4 t p) q := by
  obtain ⟨e00, e01, e10, e11, e20, e21, e30, e31, e40, e41, e50, e51, e60, e61, e7b, e71⟩ := idx_facts4 t
  show V c main_arg1 (((cfg4.win 6).blk t).view.emb (ix2 p q)) = V c main_arg1 (ix2 (row4 t p) q)
  refine congrArg _ (funext fun a => Fin.ext ?_)
  match a with
  | ⟨0, _⟩ => show win4_6.index t (0 : Fin 2) * 512 + 1 * (p : Fin 512).val = win4_7.index t (0 : Fin 2) * 512 + p.val; omega
  | ⟨1, _⟩ => show win4_6.index t (1 : Fin 2) * 1024 + 1 * (q : Fin 1024).val = q.val; omega

/-- Where entry `(p, q)` of point `t`'s output block sits in the array. -/
theorem emb4_7 (t : Fin cfg4.N) (p : Fin 512) (q : Fin 1024) :
    ((cfg4.win 7).blk t).view.emb (ix2 p q) = ix2 (row4 t p) q := by
  obtain ⟨e00, e01, e10, e11, e20, e21, e30, e31, e40, e41, e50, e51, e60, e61, e7b, e71⟩ := idx_facts4 t
  refine funext fun a => Fin.ext ?_
  match a with
  | ⟨0, _⟩ => show win4_7.index t (0 : Fin 2) * 512 + 1 * p.val = win4_7.index t (0 : Fin 2) * 512 + p.val; omega
  | ⟨1, _⟩ => show win4_7.index t (1 : Fin 2) * 1024 + 1 * q.val = q.val; omega

/-- What the output array ends holding: row `r`, feature `d`. -/
def G4 (c : Dev nD) : S16384x1024.Idx → EReal :=
  Spec.arr2 (fun (r : Fin 16384) (d : Fin 1024) =>
      Spec.co2 (a := 16384) (b := 1024) (V c (Pipeline.arrRef spec4 6)) r d
        + Ideal.div (Ideal.div (∑ t : Fin 2048, Spec.co2 (a := 2048) (b := 16384) (V c (Pipeline.arrRef spec4 0)) t r * Spec.co2 (a := 2048) (b := 1024) (V c (Pipeline.arrRef spec4 2)) t d) (Spec.co2 (a := 16384) (b := 1) (V c (Pipeline.arrRef spec4 4)) r 0)
            + Ideal.div (∑ t : Fin 2048, Spec.co2 (a := 2048) (b := 16384) (V c (Pipeline.arrRef spec4 1)) t r * Spec.co2 (a := 2048) (b := 1024) (V c (Pipeline.arrRef spec4 3)) t d) (Spec.co2 (a := 16384) (b := 1) (V c (Pipeline.arrRef spec4 5)) r 0)) Spec.two)

/-- What point `t` writes back is block `t` of `G4`. -/
theorem flushed4_7_eq (c : Dev nD) (t : Fin cfg4.N) :
    (dat4 (F := Ideal) V c).flushed 7 t = ((cfg4.win 7).blk t).view.read (Elt Ideal) (G4 V c) := by
  show (cfg4.win 7).cut (grid4.coords t) ((dat4 V c).after 7 t) = _
  rw [after4_7]
  unfold out4_7
  rw [View.canon_unit_zero hz4]
  simp only [View.ld_unit_zero (S := S2048x512) hz4, View.ld_unit_zero (S := S2048x1024) hz4, View.ld_unit_zero (S := S512x1) hz4, View.ld_unit_zero (S := S512x1024) hz4]
  funext j
  obtain ⟨p, q, rfl⟩ : ∃ (p : Fin 512) (q : Fin 1024), j = ix2 p q := ⟨j 0, j 1, eq_ix2 j⟩
  show k4_pay1 (F := Ideal) (iblk4 V c 0 t) (iblk4 V c 2 t) (iblk4 V c 4 t) (iblk4 V c 1 t) (iblk4 V c 3 t) (iblk4 V c 5 t) (iblk4 V c 6 t) (ix2 p q)
    = G4 V c (((cfg4.win 7).blk t).view.emb (ix2 p q))
  rw [pay4_apply, emb4_7, read4_6, read4_4, read4_5]
  simp only [read4_0, read4_1, read4_2, read4_3]
  rfl

/-- An index of the array is in point `t`'s block iff each coordinate is in the block's range on its axis. -/
theorem mem_blk4_7 (t : Fin cfg4.N) (i : S16384x1024.Idx) :
    i ∈ ((cfg4.win 7).blk t).view.set ↔ ∀ a : Fin 2, win4_7.index t a * S512x1024.size a ≤ (i a).val ∧ (i a).val < win4_7.index t a * S512x1024.size a + S512x1024.size a := by
  show i ∈ ((View.whole main_v34).slice (win4_7.rect t)).set ↔ _
  rw [View.set_slice_whole, Rect.mem_set_unit]
  exact Iff.rfl

/-- Every index of the array is in some point's block: row `r` is in the block of point `r / 512`. -/
theorem covered4_7 (i : S16384x1024.Idx) :
    ∃ t : Fin cfg4.N, (cfg4.win 7).flush t = true ∧ i ∈ ((cfg4.win 7).blk t).view.set := by
  have hi0 : (i 0).val < 16384 := (i 0).isLt
  have hi1 : (i 1).val < 1024 := (i 1).isLt
  obtain ⟨t, ht⟩ := idx_onto4 ⟨(i 0).val / 512, by omega⟩
  have q0 : win4_7.index t (0 : Fin 2) = (i 0).val / 512 := congrFun ht 0
  have q1 : win4_7.index t (1 : Fin 2) = 0 := congrFun ht 1
  refine ⟨t, flush4_7 t, ?_⟩
  rw [mem_blk4_7]
  intro a
  match a with
  | ⟨0, _⟩ => show win4_7.index t (0 : Fin 2) * 512 ≤ (i 0).val ∧ (i 0).val < win4_7.index t (0 : Fin 2) * 512 + 512; omega
  | ⟨1, _⟩ => show win4_7.index t (1 : Fin 2) * 1024 ≤ (i 1).val ∧ (i 1).val < win4_7.index t (1 : Fin 2) * 1024 + 1024; omega

/-- THE OUTPUT ARRAY after the region: the relation features plus half the sum of the two collections, from the arrays
    the region's windows read at its entry. -/
theorem val4 (c : Dev nD) :
    (dat4 (F := Ideal) V c).arrAt 7 cfg4.N = Spec.arr2 (fun (r : Fin 16384) (d : Fin 1024) =>
      Spec.co2 (a := 16384) (b := 1024) (V c (Pipeline.arrRef spec4 6)) r d
        + Ideal.div (Ideal.div (∑ t : Fin 2048, Spec.co2 (a := 2048) (b := 16384) (V c (Pipeline.arrRef spec4 0)) t r * Spec.co2 (a := 2048) (b := 1024) (V c (Pipeline.arrRef spec4 2)) t d) (Spec.co2 (a := 16384) (b := 1) (V c (Pipeline.arrRef spec4 4)) r 0)
            + Ideal.div (∑ t : Fin 2048, Spec.co2 (a := 2048) (b := 16384) (V c (Pipeline.arrRef spec4 1)) t r * Spec.co2 (a := 2048) (b := 1024) (V c (Pipeline.arrRef spec4 3)) t d) (Spec.co2 (a := 16384) (b := 1) (V c (Pipeline.arrRef spec4 5)) r 0)) Spec.two) :=
  (dat4 V c).arrAt_eq_of_cover 7 (G4 V c) (fun t _ => flushed4_7_eq V c t) (covered4_7)

end Cert.KernelIdeal.HandVal
-- ==== Proof.KI.Chain1.lean ====
/-
  Links of the chain that reads the kernel program's buffers as the specification's functions: the relation side
  of the first round. The two projections of the object features for the relations and the relation features after
  the round. Each link reads one region's output
  array as the region's value at the arrays it was entered with, and walks each of those back through the items that
  leave it alone to the item that wrote it, or to the launch memory.
-/
import proofs.«152197_j87351044866369_2_alg».proof.Proof.KI.ChainBase
import proofs.«152197_j87351044866369_2_alg».proof.Proof.KI.Val3
import proofs.«152197_j87351044866369_2_alg».proof.Proof.KI.Val4

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 3 the buffer `main_v33_0` holds the projection of the object features by the object-to-relation subject weights. -/
theorem F33_0 (h3 : ∀ V c, 𝒟.D 3 V c = dat3 V c) :
    Cert.Spec.co2 (a := 2048) (b := 1024) (W7 𝒟 m c (Proc.devRef .tc main_v33_0))
      = Cert.Spec.fc (A m c).xo (A m c).wOS (A m c).bOS := by
  have e : W7 𝒟 m c (Proc.devRef .tc main_v33_0) = (dat3 (F := Ideal) (rd (W6 𝒟 m)) c).arrAt 5 cfg3.N := by
    rw [← h3]; exact stepR_arr 𝒟 3 (W6 𝒟 m) c 5
  have hx : Cert.Spec.co2 (a := 2048) (b := 1024) (rd (W6 𝒟 m) c (Pipeline.arrRef spec3 0)) = (A m c).xo := by
    show Cert.Spec.co2 (a := 2048) (b := 1024) (W6 𝒟 m c (Proc.devRef .tc main_arg0)) = _
    rw [back6 𝒟 m c main_arg0 (by decide), back5 𝒟 m c main_arg0 (by decide), back4 𝒟 m c main_arg0 (by decide), back3 𝒟 m c main_arg0 (by decide), back2 𝒟 m c main_arg0 (by decide), back1 m c main_arg0 (by decide)]
    rfl
  have hw : Cert.Spec.co2 (a := 1024) (b := 1024) (rd (W6 𝒟 m) c (Pipeline.arrRef spec3 1)) = (A m c).wOS := by
    show Cert.Spec.co2 (a := 1024) (b := 1024) (W6 𝒟 m c (Proc.devRef .tc main_arg9)) = _
    rw [back6 𝒟 m c main_arg9 (by decide), back5 𝒟 m c main_arg9 (by decide), back4 𝒟 m c main_arg9 (by decide), back3 𝒟 m c main_arg9 (by decide), back2 𝒟 m c main_arg9 (by decide), back1 m c main_arg9 (by decide)]
    rfl
  have hb : (fun d : Fin 1024 => (rd (W6 𝒟 m) c (Pipeline.arrRef spec3 2) : S1x1024.Idx → EReal) (ix2 0 d)) = (A m c).bOS := by
    funext d
    show (StableHlo.after (hostOps3 (F := Ideal)) (W5 𝒟 m c) (Proc.devRef .tc main_v31) : S1x1024.Idx → EReal) (ix2 0 d) = _
    rw [bias_row_31 (W5 𝒟 m c) d, back5 𝒟 m c main_arg10 (by decide), back4 𝒟 m c main_arg10 (by decide), back3 𝒟 m c main_arg10 (by decide), back2 𝒟 m c main_arg10 (by decide), back1 m c main_arg10 (by decide)]
    rfl
  rw [e, val3_5]
  unfold G3
  rw [co2_arr2, hx, hw, hb]

/-- After region 3 the buffer `main_v33_1` holds the projection of the object features by the object-to-relation object weights. -/
theorem F33_1 (h3 : ∀ V c, 𝒟.D 3 V c = dat3 V c) :
    Cert.Spec.co2 (a := 2048) (b := 1024) (W7 𝒟 m c (Proc.devRef .tc main_v33_1))
      = Cert.Spec.fc (A m c).xo (A m c).wOO (A m c).bOO := by
  have e : W7 𝒟 m c (Proc.devRef .tc main_v33_1) = (dat3 (F := Ideal) (rd (W6 𝒟 m)) c).arrAt 6 cfg3.N := by
    rw [← h3]; exact stepR_arr 𝒟 3 (W6 𝒟 m) c 6
  have hx : Cert.Spec.co2 (a := 2048) (b := 1024) (rd (W6 𝒟 m) c (Pipeline.arrRef spec3 0)) = (A m c).xo := by
    show Cert.Spec.co2 (a := 2048) (b := 1024) (W6 𝒟 m c (Proc.devRef .tc main_arg0)) = _
    rw [back6 𝒟 m c main_arg0 (by decide), back5 𝒟 m c main_arg0 (by decide), back4 𝒟 m c main_arg0 (by decide), back3 𝒟 m c main_arg0 (by decide), back2 𝒟 m c main_arg0 (by decide), back1 m c main_arg0 (by decide)]
    rfl
  have hw : Cert.Spec.co2 (a := 1024) (b := 1024) (rd (W6 𝒟 m) c (Pipeline.arrRef spec3 3)) = (A m c).wOO := by
    show Cert.Spec.co2 (a := 1024) (b := 1024) (W6 𝒟 m c (Proc.devRef .tc main_arg11)) = _
    rw [back6 𝒟 m c main_arg11 (by decide), back5 𝒟 m c main_arg11 (by decide), back4 𝒟 m c main_arg11 (by decide), back3 𝒟 m c main_arg11 (by decide), back2 𝒟 m c main_arg11 (by decide), back1 m c main_arg11 (by decide)]
    rfl
  have hb : (fun d : Fin 1024 => (rd (W6 𝒟 m) c (Pipeline.arrRef spec3 4) : S1x1024.Idx → EReal) (ix2 0 d)) = (A m c).bOO := by
    funext d
    show (StableHlo.after (hostOps3 (F := Ideal)) (W5 𝒟 m c) (Proc.devRef .tc main_v32) : S1x1024.Idx → EReal) (ix2 0 d) = _
    rw [bias_row_32 (W5 𝒟 m c) d, back5 𝒟 m c main_arg12 (by decide), back4 𝒟 m c main_arg12 (by decide), back3 𝒟 m c main_arg12 (by decide), back2 𝒟 m c main_arg12 (by decide), back1 m c main_arg12 (by decide)]
    rfl
  rw [e, val3_6]
  unfold G3
  rw [co2_arr2, hx, hw, hb]

/-- After region 4 the buffer `main_v34` holds the relation features after the first round, given what the two
    buffers region 3 wrote hold. -/
theorem F34_of (h4 : ∀ V c, 𝒟.D 4 V c = dat4 V c)
    (hS : Cert.Spec.co2 (a := 2048) (b := 1024) (W7 𝒟 m c (Proc.devRef .tc main_v33_0)) = Cert.Spec.fc (A m c).xo (A m c).wOS (A m c).bOS)
    (hO : Cert.Spec.co2 (a := 2048) (b := 1024) (W7 𝒟 m c (Proc.devRef .tc main_v33_1)) = Cert.Spec.fc (A m c).xo (A m c).wOO (A m c).bOO) :
    Cert.Spec.co2 (a := 16384) (b := 1024) (W8 𝒟 m c (Proc.devRef .tc main_v34)) = Cert.Spec.rel1 (A m c) := by
  have e : W8 𝒟 m c (Proc.devRef .tc main_v34) = (dat4 (F := Ideal) (rd (W7 𝒟 m)) c).arrAt 7 cfg4.N := by
    rw [← h4]; exact stepR_arr 𝒟 4 (W7 𝒟 m) c 7
  have hxr : Cert.Spec.co2 (a := 16384) (b := 1024) (rd (W7 𝒟 m) c (Pipeline.arrRef spec4 6)) = (A m c).xr := by
    show Cert.Spec.co2 (a := 16384) (b := 1024) (W7 𝒟 m c (Proc.devRef .tc main_arg1)) = _
    rw [back7 𝒟 m c main_arg1 (by decide), back6 𝒟 m c main_arg1 (by decide), back5 𝒟 m c main_arg1 (by decide), back4 𝒟 m c main_arg1 (by decide), back3 𝒟 m c main_arg1 (by decide), back2 𝒟 m c main_arg1 (by decide), back1 m c main_arg1 (by decide)]
    rfl
  have ha0 : Cert.Spec.co2 (a := 2048) (b := 16384) (rd (W7 𝒟 m) c (Pipeline.arrRef spec4 0)) = (A m c).aSub := by
    show Cert.Spec.co2 (a := 2048) (b := 16384) (W7 𝒟 m c (Proc.devRef .tc main_v22)) = _
    rw [back7 𝒟 m c main_v22 (by decide), back6 𝒟 m c main_v22 (by decide), back5 𝒟 m c main_v22 (by decide), back4 𝒟 m c main_v22 (by decide), back3 𝒟 m c main_v22 (by decide), back2 𝒟 m c main_v22 (by decide)]
    show Cert.Spec.co2 (a := 2048) (b := 16384) (StableHlo.after (hostOps0 (F := Ideal)) (W0 m c) (Proc.devRef .tc main_v22) : S2048x16384.Idx → EReal) = _
    rw [attn_sub_narrow]
    rfl
  have ha1 : Cert.Spec.co2 (a := 2048) (b := 16384) (rd (W7 𝒟 m) c (Pipeline.arrRef spec4 1)) = (A m c).aObj := by
    show Cert.Spec.co2 (a := 2048) (b := 16384) (W7 𝒟 m c (Proc.devRef .tc main_v23)) = _
    rw [back7 𝒟 m c main_v23 (by decide), back6 𝒟 m c main_v23 (by decide), back5 𝒟 m c main_v23 (by decide), back4 𝒟 m c main_v23 (by decide), back3 𝒟 m c main_v23 (by decide), back2 𝒟 m c main_v23 (by decide)]
    show Cert.Spec.co2 (a := 2048) (b := 16384) (StableHlo.after (hostOps0 (F := Ideal)) (W0 m c) (Proc.devRef .tc main_v23) : S2048x16384.Idx → EReal) = _
    rw [attn_obj_narrow]
    rfl
  have hf2 : Cert.Spec.co2 (a := 2048) (b := 1024) (rd (W7 𝒟 m) c (Pipeline.arrRef spec4 2)) = Cert.Spec.fc (A m c).xo (A m c).wOS (A m c).bOS := hS
  have hf3 : Cert.Spec.co2 (a := 2048) (b := 1024) (rd (W7 𝒟 m) c (Pipeline.arrRef spec4 3)) = Cert.Spec.fc (A m c).xo (A m c).wOO (A m c).bOO := hO
  have hd4 : ∀ r : Fin 16384, Cert.Spec.co2 (a := 16384) (b := 1) (rd (W7 𝒟 m) c (Pipeline.arrRef spec4 4)) r 0
      = (∑ t : Fin 2048, (A m c).aSub t r) + Cert.Spec.eps := by
    intro r
    show (W7 𝒟 m c (Proc.devRef .tc main_v16) : S16384x1.Idx → EReal) (ix2 r 0) = _
    rw [back7 𝒟 m c main_v16 (by decide), back6 𝒟 m c main_v16 (by decide), back5 𝒟 m c main_v16 (by decide), back4 𝒟 m c main_v16 (by decide), back3 𝒟 m c main_v16 (by decide), back2 𝒟 m c main_v16 (by decide)]
    show (StableHlo.after (hostOps0 (F := Ideal)) (W0 m c) (Proc.devRef .tc main_v16) : S16384x1.Idx → EReal) (ix2 r 0) = _
    rw [denom_rel_sub]
    rfl
  have hd5 : ∀ r : Fin 16384, Cert.Spec.co2 (a := 16384) (b := 1) (rd (W7 𝒟 m) c (Pipeline.arrRef spec4 5)) r 0
      = (∑ t : Fin 2048, (A m c).aObj t r) + Cert.Spec.eps := by
    intro r
    show (W7 𝒟 m c (Proc.devRef .tc main_v21) : S16384x1.Idx → EReal) (ix2 r 0) = _
    rw [back7 𝒟 m c main_v21 (by decide), back6 𝒟 m c main_v21 (by decide), back5 𝒟 m c main_v21 (by decide), back4 𝒟 m c main_v21 (by decide), back3 𝒟 m c main_v21 (by decide), back2 𝒟 m c main_v21 (by decide)]
    show (StableHlo.after (hostOps0 (F := Ideal)) (W0 m c) (Proc.devRef .tc main_v21) : S16384x1.Idx → EReal) (ix2 r 0) = _
    rw [denom_rel_obj]
    rfl
  rw [e, val4, co2_arr2]
  funext r d
  rw [hxr, ha0, ha1, hf2, hf3, hd4 r, hd5 r]
  rfl

/-- After region 4 the buffer `main_v34` holds the relation features after the first round. -/
theorem F34 (h3 : ∀ V c, 𝒟.D 3 V c = dat3 V c) (h4 : ∀ V c, 𝒟.D 4 V c = dat4 V c) :
    Cert.Spec.co2 (a := 16384) (b := 1024) (W8 𝒟 m c (Proc.devRef .tc main_v34)) = Cert.Spec.rel1 (A m c) :=
  F34_of 𝒟 m c h4 (F33_0 𝒟 m c h3) (F33_1 𝒟 m c h3)

end Cert.KernelIdeal.HandVal

end
-- ==== Proof.KI.Val0.lean ====
import proofs.«152197_j87351044866369_2_alg».proof.Proof.KI.Reg0
import proofs.«152197_j87351044866369_2_alg».proof.Proof.KI.FcPay
import proofs.«152197_j87351044866369_2_alg».proof.Proof.Spec
import Idealize.ShloMosaic.Lib.Pipeline.Value

/-! # Region 0 at the ideal values: the two projected arrays

The region writes block `t` of each of its two outputs from block `t` of the source rows, one whole weight matrix and
one bias row. Each write-back is block `t` of ONE function of the region's input arrays — the projection
`max (X · Wᵀ + b) 0` row by row — and the 16 blocks tile the 16384 rows, so after the region each output array is
that function of the source and of its own weights and bias. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The projection of the source array `X` by the weights `W` and the bias row `B`, as an array. -/
def G0 (X : S16384x1024.Idx → EReal) (W : S1024x1024.Idx → EReal) (B : S1x1024.Idx → EReal) : S16384x1024.Idx → EReal :=
  Spec.arr2 (Spec.fc (Spec.co2 X) (Spec.co2 W) (fun d => B (ix2 0 d)))

/-- The printed index maps over the grid: the source and output blocks are the point's, each weight matrix's and
    bias's block is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block `t` of the projection: the projection of block `t` of the source rows by the whole weight matrix and bias row
    is block `t` (of window 5) of the projection of the whole source array. -/
theorem blk0_5_eq (X : S16384x1024.Idx → EReal) (W : S1024x1024.Idx → EReal) (B : S1x1024.Idx → EReal) (t : Fin cfg0.N) :
    (cfg0.win 5).cut (grid0.coords t) (fcBlk (((cfg0.win 0).blk t).view.read (Elt Ideal) X)
        (((cfg0.win 1).blk t).view.read (Elt Ideal) W) (((cfg0.win 2).blk t).view.read (Elt Ideal) B))
      = ((cfg0.win 5).blk t).view.read (Elt Ideal) (G0 X W B) := by
  obtain ⟨e00, e01, e10, e11, e20, e21, e30, e31, e40, e41, e50, e51, e60, e61⟩ := idx_facts0 t
  funext j
  show max ((∑ k : Fin 1024, X (((cfg0.win 0).blk t).view.emb (ix2 (j 0) k)) * W (((cfg0.win 1).blk t).view.emb (ix2 (j 1) k)))
      + B (((cfg0.win 2).blk t).view.emb (ix2 0 (j 1)))) 0
    = max ((∑ k : Fin 1024, X (ix2 ⟨((((cfg0.win 5).blk t).view.emb j) 0).val, ((((cfg0.win 5).blk t).view.emb j) 0).isLt⟩ k)
        * W (ix2 ⟨((((cfg0.win 5).blk t).view.emb j) 1).val, ((((cfg0.win 5).blk t).view.emb j) 1).isLt⟩ k))
      + B (ix2 0 ⟨((((cfg0.win 5).blk t).view.emb j) 1).val, ((((cfg0.win 5).blk t).view.emb j) 1).isLt⟩)) 0
  have hj0 : (j 0).val < 1024 := (j 0).isLt
  have hj1 : (j 1).val < 1024 := (j 1).isLt
  have h0 : ∀ k : Fin 1024, ((cfg0.win 0).blk t).view.emb (ix2 (j 0) k)
      = ix2 ⟨((((cfg0.win 5).blk t).view.emb j) 0).val, ((((cfg0.win 5).blk t).view.emb j) 0).isLt⟩ k := fun k => by
    funext a; apply Fin.ext
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 1024 + 1 * k.val = k.val; omega
  have h1 : ∀ k : Fin 1024, ((cfg0.win 1).blk t).view.emb (ix2 (j 1) k)
      = ix2 ⟨((((cfg0.win 5).blk t).view.emb j) 1).val, ((((cfg0.win 5).blk t).view.emb j) 1).isLt⟩ k := fun k => by
    funext a; apply Fin.ext
    match a with
    | ⟨0, _⟩ => show win0_1.index t (0 : Fin 2) * 1024 + 1 * (j 1).val = win0_5.index t (1 : Fin 2) * 1024 + 1 * (j 1).val; omega
    | ⟨1, _⟩ => show win0_1.index t (1 : Fin 2) * 1024 + 1 * k.val = k.val; omega
  have h2 : ((cfg0.win 2).blk t).view.emb (ix2 0 (j 1))
      = ix2 0 ⟨((((cfg0.win 5).blk t).view.emb j) 1).val, ((((cfg0.win 5).blk t).view.emb j) 1).isLt⟩ := by
    funext a; apply Fin.ext
    match a with
    | ⟨0, _⟩ => show win0_2.index t (0 : Fin 2) * 1 + 1 * 0 = 0; omega
    | ⟨1, _⟩ => show win0_2.index t (1 : Fin 2) * 1024 + 1 * (j 1).val = win0_5.index t (1 : Fin 2) * 1024 + 1 * (j 1).val; omega
  have hS : (∑ k : Fin 1024, X (((cfg0.win 0).blk t).view.emb (ix2 (j 0) k)) * W (((cfg0.win 1).blk t).view.emb (ix2 (j 1) k)))
      = ∑ k : Fin 1024, X (ix2 ⟨((((cfg0.win 5).blk t).view.emb j) 0).val, ((((cfg0.win 5).blk t).view.emb j) 0).isLt⟩ k)
        * W (ix2 ⟨((((cfg0.win 5).blk t).view.emb j) 1).val, ((((cfg0.win 5).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 5 is block `t` of the projection of the arrays as the region finds them. -/
theorem flushed0_5_eq (c : Dev nD) (t : Fin cfg0.N) :
    (dat0 V c).flushed 5 t = ((cfg0.win 5).blk t).view.read (Elt Ideal)
      (G0 (V c (Pipeline.arrRef spec0 0)) (V c (Pipeline.arrRef spec0 1)) (V c (Pipeline.arrRef spec0 2))) := by
  show (cfg0.win 5).cut (grid0.coords t) ((dat0 V c).after 5 t) = _
  rw [after0_5]
  unfold out0_5
  rw [View.canon_unit_zero hz0]
  simp only [View.ld_unit_zero (S := S1024x1024) hz0, View.ld_unit_zero (S := S1x1024) hz0]
  rw [k0_pay2_eq]
  exact blk0_5_eq (V c (Pipeline.arrRef spec0 0)) (V c (Pipeline.arrRef spec0 1)) (V c (Pipeline.arrRef spec0 2)) t

/-- An index of window 5's array is in point `t`'s block iff each coordinate is in the block's range on its axis. -/
theorem mem_blk0_5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v27_0).slice (win0_5.rect t)).set ↔ _
  rw [View.set_slice_whole, Rect.mem_set_unit]
  exact Iff.rfl

/-- The 16 blocks tile the array: row `r` is in the block of point `r / 1024`. -/
theorem covered0_5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 16 := N_0
  let t : Fin cfg0.N := ⟨(i 0).val / 1024, by omega⟩
  obtain ⟨e00, e01, e10, e11, e20, e21, e30, e31, e40, e41, e50, e51, e60, e61⟩ := idx_facts0 t
  have ht : t.val = (i 0).val / 1024 := rfl
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- OUTPUT ARRAY 5 after the region: the projection of the region's input arrays by its weights and bias. -/
theorem val0_5 (c : Dev nD) : (dat0 (F := Ideal) V c).arrAt 5 cfg0.N
    = G0 (V c (Pipeline.arrRef spec0 0)) (V c (Pipeline.arrRef spec0 1)) (V c (Pipeline.arrRef spec0 2)) :=
  (dat0 V c).arrAt_eq_of_cover 5 _ (fun t _ => flushed0_5_eq V c t) (covered0_5)

/-- Block `t` of the projection: the projection of block `t` of the source rows by the whole weight matrix and bias row
    is block `t` (of window 6) of the projection of the whole source array. -/
theorem blk0_6_eq (X : S16384x1024.Idx → EReal) (W : S1024x1024.Idx → EReal) (B : S1x1024.Idx → EReal) (t : Fin cfg0.N) :
    (cfg0.win 6).cut (grid0.coords t) (fcBlk (((cfg0.win 0).blk t).view.read (Elt Ideal) X)
        (((cfg0.win 3).blk t).view.read (Elt Ideal) W) (((cfg0.win 4).blk t).view.read (Elt Ideal) B))
      = ((cfg0.win 6).blk t).view.read (Elt Ideal) (G0 X W B) := by
  obtain ⟨e00, e01, e10, e11, e20, e21, e30, e31, e40, e41, e50, e51, e60, e61⟩ := idx_facts0 t
  funext j
  show max ((∑ k : Fin 1024, X (((cfg0.win 0).blk t).view.emb (ix2 (j 0) k)) * W (((cfg0.win 3).blk t).view.emb (ix2 (j 1) k)))
      + B (((cfg0.win 4).blk t).view.emb (ix2 0 (j 1)))) 0
    = max ((∑ k : Fin 1024, X (ix2 ⟨((((cfg0.win 6).blk t).view.emb j) 0).val, ((((cfg0.win 6).blk t).view.emb j) 0).isLt⟩ k)
        * W (ix2 ⟨((((cfg0.win 6).blk t).view.emb j) 1).val, ((((cfg0.win 6).blk t).view.emb j) 1).isLt⟩ k))
      + B (ix2 0 ⟨((((cfg0.win 6).blk t).view.emb j) 1).val, ((((cfg0.win 6).blk t).view.emb j) 1).isLt⟩)) 0
  have hj0 : (j 0).val < 1024 := (j 0).isLt
  have hj1 : (j 1).val < 1024 := (j 1).isLt
  have h0 : ∀ k : Fin 1024, ((cfg0.win 0).blk t).view.emb (ix2 (j 0) k)
      = ix2 ⟨((((cfg0.win 6).blk t).view.emb j) 0).val, ((((cfg0.win 6).blk t).view.emb j) 0).isLt⟩ k := fun k => by
    funext a; apply Fin.ext
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 1024 + 1 * k.val = k.val; omega
  have h1 : ∀ k : Fin 1024, ((cfg0.win 3).blk t).view.emb (ix2 (j 1) k)
      = ix2 ⟨((((cfg0.win 6).blk t).view.emb j) 1).val, ((((cfg0.win 6).blk t).view.emb j) 1).isLt⟩ k := fun k => by
    funext a; apply Fin.ext
    match a with
    | ⟨0, _⟩ => show win0_3.index t (0 : Fin 2) * 1024 + 1 * (j 1).val = win0_6.index t (1 : Fin 2) * 1024 + 1 * (j 1).val; omega
    | ⟨1, _⟩ => show win0_3.index t (1 : Fin 2) * 1024 + 1 * k.val = k.val; omega
  have h2 : ((cfg0.win 4).blk t).view.emb (ix2 0 (j 1))
      = ix2 0 ⟨((((cfg0.win 6).blk t).view.emb j) 1).val, ((((cfg0.win 6).blk t).view.emb j) 1).isLt⟩ := by
    funext a; apply Fin.ext
    match a with
    | ⟨0, _⟩ => show win0_4.index t (0 : Fin 2) * 1 + 1 * 0 = 0; omega
    | ⟨1, _⟩ => show win0_4.index t (1 : Fin 2) * 1024 + 1 * (j 1).val = win0_6.index t (1 : Fin 2) * 1024 + 1 * (j 1).val; omega
  have hS : (∑ k : Fin 1024, X (((cfg0.win 0).blk t).view.emb (ix2 (j 0) k)) * W (((cfg0.win 3).blk t).view.emb (ix2 (j 1) k)))
      = ∑ k : Fin 1024, X (ix2 ⟨((((cfg0.win 6).blk t).view.emb j) 0).val, ((((cfg0.win 6).blk t).view.emb j) 0).isLt⟩ k)
        * W (ix2 ⟨((((cfg0.win 6).blk t).view.emb j) 1).val, ((((cfg0.win 6).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 6 is block `t` of the projection of the arrays as the region finds them. -/
theorem flushed0_6_eq (c : Dev nD) (t : Fin cfg0.N) :
    (dat0 V c).flushed 6 t = ((cfg0.win 6).blk t).view.read (Elt Ideal)
      (G0 (V c (Pipeline.arrRef spec0 0)) (V c (Pipeline.arrRef spec0 3)) (V c (Pipeline.arrRef spec0 4))) := by
  show (cfg0.win 6).cut (grid0.coords t) ((dat0 V c).after 6 t) = _
  rw [after0_6]
  unfold out0_6
  rw [View.canon_unit_zero hz0]
  simp only [View.ld_unit_zero (S := S1024x1024) hz0, View.ld_unit_zero (S := S1x1024) hz0]
  rw [k0_pay3_eq]
  exact blk0_6_eq (V c (Pipeline.arrRef spec0 0)) (V c (Pipeline.arrRef spec0 3)) (V c (Pipeline.arrRef spec0 4)) t

/-- An index of window 6's array is in point `t`'s block iff each coordinate is in the block's range on its axis. -/
theorem mem_blk0_6 (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v27_1).slice (win0_6.rect t)).set ↔ _
  rw [View.set_slice_whole, Rect.mem_set_unit]
  exact Iff.rfl

/-- The 16 blocks tile the array: row `r` is in the block of point `r / 1024`. -/
theorem covered0_6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 16 := N_0
  let t : Fin cfg0.N := ⟨(i 0).val / 1024, by omega⟩
  obtain ⟨e00, e01, e10, e11, e20, e21, e30, e31, e40, e41, e50, e51, e60, e61⟩ := idx_facts0 t
  have ht : t.val = (i 0).val / 1024 := rfl
  refine ⟨t, flush0_6 t, ?_⟩
  rw [mem_blk0_6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- OUTPUT ARRAY 6 after the region: the projection of the region's input arrays by its weights and bias. -/
theorem val0_6 (c : Dev nD) : (dat0 (F := Ideal) V c).arrAt 6 cfg0.N
    = G0 (V c (Pipeline.arrRef spec0 0)) (V c (Pipeline.arrRef spec0 3)) (V c (Pipeline.arrRef spec0 4)) :=
  (dat0 V c).arrAt_eq_of_cover 6 _ (fun t _ => flushed0_6_eq V c t) (covered0_6)

end Cert.KernelIdeal.HandVal
-- ==== Proof.KI.ValLib.lean ====
import proofs.«152197_j87351044866369_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The two matrix products and the column broadcast at an index; a block added to a running sum -/

theorem mm512_apply_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mm512_apply_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
/-- The product of a [512, 512] block and a [512, 1024] block into the zero accumulator, at an index: the sum over the contraction. -/
theorem mm512_apply (x : FVec Ideal S512x512 .bf16) (y : FVec Ideal S512x1024 .bf16) (r : Fin 512) (d : Fin 1024) :
    (matmul (F := Ideal) dot_S512x512_S512x1024_S512x1024_1_0_0_1_n_n none x y (constant (F := Ideal) S512x1024 .f32 0x00000000#32) (ix2 r d) : EReal)
      = ∑ k : Fin 512, (x (ix2 r k) : EReal) * (y (ix2 k d) : EReal) := by
  refine (Ideal.matmul_constant_zero_apply dot_S512x512_S512x1024_S512x1024_1_0_0_1_n_n none x y (ix2 r d)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r d) ((ValueIdx.contrEquiv1 dot_S512x512_S512x1024_S512x1024_1_0_0_1_n_n 512 rfl rfl).symm k) = ix2 r k := funext fun a => Fin.ext (by
    match a with
    | ⟨0, _⟩ => exact mm512_apply_lhs0 _ _
    | ⟨1, _⟩ => exact (dot_S512x512_S512x1024_S512x1024_1_0_0_1_n_n.lhsIdx_val_of_single rfl _ _).trans hk)
  have er : dot_S512x512_S512x1024_S512x1024_1_0_0_1_n_n.rhsIdx (ix2 r d) ((ValueIdx.contrEquiv1 dot_S512x512_S512x1024_S512x1024_1_0_0_1_n_n 512 rfl rfl).symm k) = ix2 k d := funext fun a => Fin.ext (by
    match a with
    | ⟨0, _⟩ => exact (dot_S512x512_S512x1024_S512x1024_1_0_0_1_n_n.rhsIdx_val_of_single rfl _ _).trans hk
    | ⟨1, _⟩ => exact mm512_apply_rhs1 _ _)
  rw [el, er]

theorem mm2048_apply_lhs0 (i : S512x1024.Idx) (q : dot_S512x2048_S2048x1024_S512x1024_1_0_0_1_n_n.contr.Idx) : (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem mm2048_apply_rhs1 (i : S512x1024.Idx) (q : dot_S512x2048_S2048x1024_S512x1024_1_0_0_1_n_n.contr.Idx) : (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
/-- The product of a [512, 2048] block and a [2048, 1024] block into the zero accumulator, at an index: the sum over the contraction. -/
theorem mm2048_apply (x : FVec Ideal S512x2048 .bf16) (y : FVec Ideal S2048x1024 .bf16) (r : Fin 512) (d : Fin 1024) :
    (matmul (F := Ideal) dot_S512x2048_S2048x1024_S512x1024_1_0_0_1_n_n none x y (constant (F := Ideal) S512x1024 .f32 0x00000000#32) (ix2 r d) : EReal)
      = ∑ k : Fin 2048, (x (ix2 r k) : EReal) * (y (ix2 k d) : EReal) := by
  refine (Ideal.matmul_constant_zero_apply dot_S512x2048_S2048x1024_S512x1024_1_0_0_1_n_n none x y (ix2 r d)).trans ?_
  rw [← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r d) ((ValueIdx.contrEquiv1 dot_S512x2048_S2048x1024_S512x1024_1_0_0_1_n_n 2048 rfl rfl).symm k) = ix2 r k := funext fun a => Fin.ext (by
    match a with
    | ⟨0, _⟩ => exact mm2048_apply_lhs0 _ _
    | ⟨1, _⟩ => exact (dot_S512x2048_S2048x1024_S512x1024_1_0_0_1_n_n.lhsIdx_val_of_single rfl _ _).trans hk)
  have er : dot_S512x2048_S2048x1024_S512x1024_1_0_0_1_n_n.rhsIdx (ix2 r d) ((ValueIdx.contrEquiv1 dot_S512x2048_S2048x1024_S512x1024_1_0_0_1_n_n 2048 rfl rfl).symm k) = ix2 k d := funext fun a => Fin.ext (by
    match a with
    | ⟨0, _⟩ => exact (dot_S512x2048_S2048x1024_S512x1024_1_0_0_1_n_n.rhsIdx_val_of_single rfl _ _).trans hk
    | ⟨1, _⟩ => exact mm2048_apply_rhs1 _ _)
  rw [el, er]

/-- A column broadcast to the block's width reads the column's entry of the row. -/
theorem bcol_apply (v : Vec Ideal S512x1 .f32) (r : Fin 512) (d : Fin 1024) :
    broadcastTo S512x1024 v broadcasts_S512x1_S512x1024 (ix2 r d) = v (ix2 r 0) :=
  broadcastTo_apply v broadcasts_S512x1_S512x1024 (ix2 r d) (ix2 r 0) (fun a => by
    match a with
    | ⟨0, _⟩ => rfl
    | ⟨1, _⟩ => rfl)

/-- A block of 512 terms added to the stretches before it. -/
theorem step_sum (f : ℕ → EReal) (j : ℕ) (prev : EReal) (hprev : prev = ∑ s ∈ Finset.range (j * 512), f s) :
    prev + ∑ k ∈ Finset.range 512, f (j * 512 + k) = ∑ s ∈ Finset.range ((j + 1) * 512), f s := by
  rw [Nat.succ_mul, Finset.sum_range_add, hprev]

end Cert.KernelIdeal.HandVal

end
-- ==== Proof.KI.Val2.lean ====
import proofs.«152197_j87351044866369_2_alg».proof.Proof.KI.Reg2
import proofs.«152197_j87351044866369_2_alg».proof.Proof.Spec
import proofs.«152197_j87351044866369_2_alg».proof.Proof.KI.ValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
/-! ## The payloads at an index -/

theorem k2_pay1_apply (r : Fin 512) (d : Fin 1024) : (k2_pay1 (F := Ideal) (ix2 r d) : EReal) = 0 := by
  unfold k2_pay1
  simp only [shapeCast_self]
  exact Ideal.ofBits_zero_f32

theorem k2_pay2_apply (r : Fin 512) (d : Fin 1024) : (k2_pay2 (F := Ideal) (ix2 r d) : EReal) = 0 := by
  unfold k2_pay2
  simp only [shapeCast_self]
  exact Ideal.ofBits_zero_f32

theorem k2_pay4_apply (x0 : Vec Ideal S512x512 .bf16) (x2 : Vec Ideal S512x1024 .bf16) (s : Vec Ideal S512x1024 .f32) (r : Fin 512) (d : Fin 1024) :
    (k2_pay4 (F := Ideal) x0 x2 s (ix2 r d) : EReal) = (s (ix2 r d) : EReal) + ∑ k : Fin 512, (x0 (ix2 r k) : EReal) * (x2 (ix2 k d) : EReal) := by
  unfold k2_pay4
  simp only [shapeCast_self]
  exact congrArg ((s (ix2 r d) : EReal) + ·) (mm512_apply x0 x2 r d)

theorem k2_pay5_apply (x1 : Vec Ideal S512x512 .bf16) (x3 : Vec Ideal S512x1024 .bf16) (s : Vec Ideal S512x1024 .f32) (r : Fin 512) (d : Fin 1024) :
    (k2_pay5 (F := Ideal) x1 x3 s (ix2 r d) : EReal) = (s (ix2 r d) : EReal) + ∑ k : Fin 512, (x1 (ix2 r k) : EReal) * (x3 (ix2 k d) : EReal) := by
  unfold k2_pay5
  simp only [shapeCast_self]
  exact congrArg ((s (ix2 r d) : EReal) + ·) (mm512_apply x1 x3 r d)

theorem k2_pay3_apply (x4 : Vec Ideal S512x2048 .bf16) (x5 : Vec Ideal S2048x1024 .bf16) (x8 : Vec Ideal S512x1 .f32) (r : Fin 512) (d : Fin 1024) :
    (k2_pay3 (F := Ideal) x4 x5 x8 (ix2 r d) : EReal) = Ideal.div (∑ k : Fin 2048, (x4 (ix2 r k) : EReal) * (x5 (ix2 k d) : EReal)) (x8 (ix2 r 0) : EReal) := by
  unfold k2_pay3
  simp only [shapeCast_self]
  exact congrArg₂ Ideal.div (mm2048_apply x4 x5 r d) (bcol_apply x8 r d)

theorem k2_pay6_apply (v26 : Vec Ideal S512x1024 .f32) (v27 : Vec Ideal S512x1 .f32) (v31 : Vec Ideal S512x1024 .f32) (v32 : Vec Ideal S512x1 .f32)
    (v37 v41 : Vec Ideal S512x1024 .f32) (r : Fin 512) (d : Fin 1024) :
    (k2_pay6 (F := Ideal) v26 v27 v31 v32 v37 v41 (ix2 r d) : EReal)
      = (v41 (ix2 r d) : EReal) + Ideal.div ((Ideal.div (v26 (ix2 r d) : EReal) (v27 (ix2 r 0) : EReal) + Ideal.div (v31 (ix2 r d) : EReal) (v32 (ix2 r 0) : EReal)) + (v37 (ix2 r d) : EReal)) Spec.three := by
  unfold k2_pay6
  simp only [shapeCast_self]
  exact congrArg ((v41 (ix2 r d) : EReal) + ·) (congrArg (fun x => Ideal.div x Spec.three)
    (congrArg (· + (v37 (ix2 r d) : EReal)) (congrArg₂ (· + ·) (congrArg (Ideal.div (v26 (ix2 r d) : EReal)) (bcol_apply v27 r d))
      (congrArg (Ideal.div (v31 (ix2 r d) : EReal)) (bcol_apply v32 r d)))))

section Value
variable (V : (c : Dev nD) → (b : Ref sig .tc) → Buf (Elt Ideal) ((c : Thread nD τ).loc b))

/-! ## The region's input arrays -/

abbrev in2_0 (c : Dev nD) : S2048x16384.Idx → EReal := V c (Pipeline.arrRef spec2 0)
abbrev in2_1 (c : Dev nD) : S2048x16384.Idx → EReal := V c (Pipeline.arrRef spec2 1)
abbrev in2_2 (c : Dev nD) : S16384x1024.Idx → EReal := V c (Pipeline.arrRef spec2 2)
abbrev in2_3 (c : Dev nD) : S16384x1024.Idx → EReal := V c (Pipeline.arrRef spec2 3)
abbrev in2_4 (c : Dev nD) : S2048x2048.Idx → EReal := V c (Pipeline.arrRef spec2 4)
abbrev in2_5 (c : Dev nD) : S2048x1024.Idx → EReal := V c (Pipeline.arrRef spec2 5)
abbrev in2_6 (c : Dev nD) : S2048x1.Idx → EReal := V c (Pipeline.arrRef spec2 6)
abbrev in2_7 (c : Dev nD) : S2048x1.Idx → EReal := V c (Pipeline.arrRef spec2 7)
abbrev in2_8 (c : Dev nD) : S2048x1.Idx → EReal := V c (Pipeline.arrRef spec2 8)
abbrev in2_9 (c : Dev nD) : S2048x1024.Idx → EReal := V c (Pipeline.arrRef spec2 9)

theorem lt128_2 (t : Fin cfg2.N) : t.val < 128 := lt_of_lt_of_eq t.isLt (show cfg2.N = 128 from N_2)

/-- The printed index maps over the grid `(i, j)`, `t = 32 i + j` — decided over the grid. -/
theorem idx_facts2 : ∀ t : Fin cfg2.N, win2_0.index t (0 : Fin 2) = t.val / 32 ∧ win2_0.index t (1 : Fin 2) = t.val % 32
    ∧ win2_1.index t (0 : Fin 2) = t.val / 32 ∧ win2_1.index t (1 : Fin 2) = t.val % 32
    ∧ win2_2.index t (0 : Fin 2) = t.val % 32 ∧ win2_2.index t (1 : Fin 2) = 0
    ∧ win2_3.index t (0 : Fin 2) = t.val % 32 ∧ win2_3.index t (1 : Fin 2) = 0
    ∧ win2_4.index t (0 : Fin 2) = t.val / 32 ∧ win2_4.index t (1 : Fin 2) = 0
    ∧ win2_5.index t (0 : Fin 2) = 0 ∧ win2_5.index t (1 : Fin 2) = 0
    ∧ win2_6.index t (0 : Fin 2) = t.val / 32 ∧ win2_6.index t (1 : Fin 2) = 0
    ∧ win2_7.index t (0 : Fin 2) = t.val / 32 ∧ win2_7.index t (1 : Fin 2) = 0
    ∧ win2_8.index t (0 : Fin 2) = t.val / 32 ∧ win2_8.index t (1 : Fin 2) = 0
    ∧ win2_9.index t (0 : Fin 2) = t.val / 32 ∧ win2_9.index t (1 : Fin 2) = 0
    ∧ win2_10.index t (0 : Fin 2) = t.val / 32 ∧ win2_10.index t (1 : Fin 2) = 0 :=
  (by decide +kernel : ∀ t : Fin grid2.N, _)

/-! ## Each window's block read where its rectangle says -/

/-- Window 0's block at point `t` read at a block coordinate is its array at the matching array coordinate. -/
theorem iblk2_0_at (c : Dev nD) (t : Fin cfg2.N) (a : Fin 512) (b : Fin 512) (p : Fin 2048) (q : Fin 16384)
    (hp : p.val = (t.val / 32) * 512 + a.val) (hq : q.val = (t.val % 32) * 512 + b.val) :
    (iblk2 (F := Ideal) V c 0 t (ix2 a b) : EReal) = in2_0 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 0) (((cfg2.win 0).blk t).view.emb (ix2 a b)) = V c (Pipeline.arrRef spec2 0) (ix2 p q)
  refine congrArg _ (funext fun ax => Fin.ext ?_)
  match ax with
  | ⟨0, _⟩ => show win2_0.index t (0 : Fin 2) * 512 + 1 * a.val = p.val; rw [e0_0, hp]; omega
  | ⟨1, _⟩ => show win2_0.index t (1 : Fin 2) * 512 + 1 * b.val = q.val; rw [e0_1, hq]; omega

/-- Window 1's block at point `t` read at a block coordinate is its array at the matching array coordinate. -/
theorem iblk2_1_at (c : Dev nD) (t : Fin cfg2.N) (a : Fin 512) (b : Fin 512) (p : Fin 2048) (q : Fin 16384)
    (hp : p.val = (t.val / 32) * 512 + a.val) (hq : q.val = (t.val % 32) * 512 + b.val) :
    (iblk2 (F := Ideal) V c 1 t (ix2 a b) : EReal) = in2_1 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 1) (((cfg2.win 1).blk t).view.emb (ix2 a b)) = V c (Pipeline.arrRef spec2 1) (ix2 p q)
  refine congrArg _ (funext fun ax => Fin.ext ?_)
  match ax with
  | ⟨0, _⟩ => show win2_1.index t (0 : Fin 2) * 512 + 1 * a.val = p.val; rw [e1_0, hp]; omega
  | ⟨1, _⟩ => show win2_1.index t (1 : Fin 2) * 512 + 1 * b.val = q.val; rw [e1_1, hq]; omega

/-- Window 2's block at point `t` read at a block coordinate is its array at the matching array coordinate. -/
theorem iblk2_2_at (c : Dev nD) (t : Fin cfg2.N) (a : Fin 512) (b : Fin 1024) (p : Fin 16384) (q : Fin 1024)
    (hp : p.val = (t.val % 32) * 512 + a.val) (hq : q.val = (0) * 1024 + b.val) :
    (iblk2 (F := Ideal) V c 2 t (ix2 a b) : EReal) = in2_2 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 2) (((cfg2.win 2).blk t).view.emb (ix2 a b)) = V c (Pipeline.arrRef spec2 2) (ix2 p q)
  refine congrArg _ (funext fun ax => Fin.ext ?_)
  match ax with
  | ⟨0, _⟩ => show win2_2.index t (0 : Fin 2) * 512 + 1 * a.val = p.val; rw [e2_0, hp]; omega
  | ⟨1, _⟩ => show win2_2.index t (1 : Fin 2) * 1024 + 1 * b.val = q.val; rw [e2_1, hq]; omega

/-- Window 3's block at point `t` read at a block coordinate is its array at the matching array coordinate. -/
theorem iblk2_3_at (c : Dev nD) (t : Fin cfg2.N) (a : Fin 512) (b : Fin 1024) (p : Fin 16384) (q : Fin 1024)
    (hp : p.val = (t.val % 32) * 512 + a.val) (hq : q.val = (0) * 1024 + b.val) :
    (iblk2 (F := Ideal) V c 3 t (ix2 a b) : EReal) = in2_3 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 3) (((cfg2.win 3).blk t).view.emb (ix2 a b)) = V c (Pipeline.arrRef spec2 3) (ix2 p q)
  refine congrArg _ (funext fun ax => Fin.ext ?_)
  match ax with
  | ⟨0, _⟩ => show win2_3.index t (0 : Fin 2) * 512 + 1 * a.val = p.val; rw [e3_0, hp]; omega
  | ⟨1, _⟩ => show win2_3.index t (1 : Fin 2) * 1024 + 1 * b.val = q.val; rw [e3_1, hq]; omega

/-- Window 4's block at point `t` read at a block coordinate is its array at the matching array coordinate. -/
theorem iblk2_4_at (c : Dev nD) (t : Fin cfg2.N) (a : Fin 512) (b : Fin 2048) (p : Fin 2048) (q : Fin 2048)
    (hp : p.val = (t.val / 32) * 512 + a.val) (hq : q.val = (0) * 2048 + b.val) :
    (iblk2 (F := Ideal) V c 4 t (ix2 a b) : EReal) = in2_4 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 4) (((cfg2.win 4).blk t).view.emb (ix2 a b)) = V c (Pipeline.arrRef spec2 4) (ix2 p q)
  refine congrArg _ (funext fun ax => Fin.ext ?_)
  match ax with
  | ⟨0, _⟩ => show win2_4.index t (0 : Fin 2) * 512 + 1 * a.val = p.val; rw [e4_0, hp]; omega
  | ⟨1, _⟩ => show win2_4.index t (1 : Fin 2) * 2048 + 1 * b.val = q.val; rw [e4_1, hq]; omega

/-- Window 5's block at point `t` read at a block coordinate is its array at the matching array coordinate. -/
theorem iblk2_5_at (c : Dev nD) (t : Fin cfg2.N) (a : Fin 2048) (b : Fin 1024) (p : Fin 2048) (q : Fin 1024)
    (hp : p.val = (0) * 2048 + a.val) (hq : q.val = (0) * 1024 + b.val) :
    (iblk2 (F := Ideal) V c 5 t (ix2 a b) : EReal) = in2_5 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 5) (((cfg2.win 5).blk t).view.emb (ix2 a b)) = V c (Pipeline.arrRef spec2 5) (ix2 p q)
  refine congrArg _ (funext fun ax => Fin.ext ?_)
  match ax with
  | ⟨0, _⟩ => show win2_5.index t (0 : Fin 2) * 2048 + 1 * a.val = p.val; rw [e5_0, hp]; omega
  | ⟨1, _⟩ => show win2_5.index t (1 : Fin 2) * 1024 + 1 * b.val = q.val; rw [e5_1, hq]; omega

/-- Window 6's block at point `t` read at a block coordinate is its array at the matching array coordinate. -/
theorem iblk2_6_at (c : Dev nD) (t : Fin cfg2.N) (a : Fin 512) (b : Fin 1) (p : Fin 2048) (q : Fin 1)
    (hp : p.val = (t.val / 32) * 512 + a.val) (hq : q.val = (0) * 1 + b.val) :
    (iblk2 (F := Ideal) V c 6 t (ix2 a b) : EReal) = in2_6 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 6) (((cfg2.win 6).blk t).view.emb (ix2 a b)) = V c (Pipeline.arrRef spec2 6) (ix2 p q)
  refine congrArg _ (funext fun ax => Fin.ext ?_)
  match ax with
  | ⟨0, _⟩ => show win2_6.index t (0 : Fin 2) * 512 + 1 * a.val = p.val; rw [e6_0, hp]; omega
  | ⟨1, _⟩ => show win2_6.index t (1 : Fin 2) * 1 + 1 * b.val = q.val; rw [e6_1, hq]; omega

/-- Window 7's block at point `t` read at a block coordinate is its array at the matching array coordinate. -/
theorem iblk2_7_at (c : Dev nD) (t : Fin cfg2.N) (a : Fin 512) (b : Fin 1) (p : Fin 2048) (q : Fin 1)
    (hp : p.val = (t.val / 32) * 512 + a.val) (hq : q.val = (0) * 1 + b.val) :
    (iblk2 (F := Ideal) V c 7 t (ix2 a b) : EReal) = in2_7 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 7) (((cfg2.win 7).blk t).view.emb (ix2 a b)) = V c (Pipeline.arrRef spec2 7) (ix2 p q)
  refine congrArg _ (funext fun ax => Fin.ext ?_)
  match ax with
  | ⟨0, _⟩ => show win2_7.index t (0 : Fin 2) * 512 + 1 * a.val = p.val; rw [e7_0, hp]; omega
  | ⟨1, _⟩ => show win2_7.index t (1 : Fin 2) * 1 + 1 * b.val = q.val; rw [e7_1, hq]; omega

/-- Window 8's block at point `t` read at a block coordinate is its array at the matching array coordinate. -/
theorem iblk2_8_at (c : Dev nD) (t : Fin cfg2.N) (a : Fin 512) (b : Fin 1) (p : Fin 2048) (q : Fin 1)
    (hp : p.val = (t.val / 32) * 512 + a.val) (hq : q.val = (0) * 1 + b.val) :
    (iblk2 (F := Ideal) V c 8 t (ix2 a b) : EReal) = in2_8 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 8) (((cfg2.win 8).blk t).view.emb (ix2 a b)) = V c (Pipeline.arrRef spec2 8) (ix2 p q)
  refine congrArg _ (funext fun ax => Fin.ext ?_)
  match ax with
  | ⟨0, _⟩ => show win2_8.index t (0 : Fin 2) * 512 + 1 * a.val = p.val; rw [e8_0, hp]; omega
  | ⟨1, _⟩ => show win2_8.index t (1 : Fin 2) * 1 + 1 * b.val = q.val; rw [e8_1, hq]; omega

/-- Window 9's block at point `t` read at a block coordinate is its array at the matching array coordinate. -/
theorem iblk2_9_at (c : Dev nD) (t : Fin cfg2.N) (a : Fin 512) (b : Fin 1024) (p : Fin 2048) (q : Fin 1024)
    (hp : p.val = (t.val / 32) * 512 + a.val) (hq : q.val = (0) * 1024 + b.val) :
    (iblk2 (F := Ideal) V c 9 t (ix2 a b) : EReal) = in2_9 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  show V c (Pipeline.arrRef spec2 9) (((cfg2.win 9).blk t).view.emb (ix2 a b)) = V c (Pipeline.arrRef spec2 9) (ix2 p q)
  refine congrArg _ (funext fun ax => Fin.ext ?_)
  match ax with
  | ⟨0, _⟩ => show win2_9.index t (0 : Fin 2) * 512 + 1 * a.val = p.val; rw [e9_0, hp]; omega
  | ⟨1, _⟩ => show win2_9.index t (1 : Fin 2) * 1024 + 1 * b.val = q.val; rw [e9_1, hq]; omega

/-! ## The accumulation -/

/-- The summand of the collection through window 0 at source index `s` (zero past the source axis). -/
def term2_0 (c : Dev nD) (p : Fin 2048) (d : Fin 1024) (s : ℕ) : EReal :=
  if h : s < 16384 then Spec.co2 (in2_0 V c) p ⟨s, h⟩ * Spec.co2 (in2_2 V c) ⟨s, h⟩ d else 0

/-- A block's product is its stretch of the collection's sum: the blocks' entries are the arrays' at the stretch's sources. -/
theorem blk_sum2_0 (c : Dev nD) (x : Vec Ideal S512x512 .bf16) (y : Vec Ideal S512x1024 .bf16) (j : ℕ) (hj : j < 32) (p : Fin 2048) (r : Fin 512) (d : Fin 1024)
    (hx : ∀ (k : Fin 512) (hs : j * 512 + k.val < 16384), (x (ix2 r k) : EReal) = in2_0 V c (ix2 p ⟨j * 512 + k.val, hs⟩))
    (hy : ∀ (k : Fin 512) (hs : j * 512 + k.val < 16384), (y (ix2 k d) : EReal) = in2_2 V c (ix2 ⟨j * 512 + k.val, hs⟩ d)) :
    ∑ k : Fin 512, (x (ix2 r k) : EReal) * (y (ix2 k d) : EReal)
      = ∑ k ∈ Finset.range 512, term2_0 V c p d (j * 512 + k) := by
  rw [← Fin.sum_univ_eq_sum_range (fun k => term2_0 V c p d (j * 512 + k)) 512]
  refine Finset.sum_congr rfl fun k _ => ?_
  have hk := k.isLt
  have hs : j * 512 + k.val < 16384 := by omega
  rw [hx k hs, hy k hs]
  show _ = term2_0 V c p d (j * 512 + k.val)
  unfold term2_0
  rw [dif_pos hs]
  rfl

/-- Point `t = 32 i + j`'s blocks of windows 0 and 2, for object row `p = 512 i + r`, are the arrays at the stretch's sources. -/
theorem hx2_0 (c : Dev nD) (t : Fin cfg2.N) (i j : ℕ) (hi : t.val / 32 = i) (hj : t.val % 32 = j) (p : Fin 2048) (r : Fin 512)
    (hp : p.val = i * 512 + r.val) (k : Fin 512) (hs : j * 512 + k.val < 16384) :
    (iblk2 (F := Ideal) V c 0 t (ix2 r k) : EReal) = in2_0 V c (ix2 p ⟨j * 512 + k.val, hs⟩) :=
  iblk2_0_at V c t r k p ⟨j * 512 + k.val, hs⟩ (by rw [hi]; exact hp) (by rw [hj])
theorem hy2_2 (c : Dev nD) (t : Fin cfg2.N) (j : ℕ) (hj : t.val % 32 = j) (d : Fin 1024) (k : Fin 512) (hs : j * 512 + k.val < 16384) :
    (iblk2 (F := Ideal) V c 2 t (ix2 k d) : EReal) = in2_2 V c (ix2 ⟨j * 512 + k.val, hs⟩ d) :=
  iblk2_2_at V c t k d ⟨j * 512 + k.val, hs⟩ d (by rw [hj]) (by omega)

/-- The whole collection's sum, by the source index. -/
theorem term2_0_total (c : Dev nD) (p : Fin 2048) (d : Fin 1024) :
    ∑ s ∈ Finset.range 16384, term2_0 V c p d s = ∑ s : Fin 16384, Spec.co2 (in2_0 V c) p s * Spec.co2 (in2_2 V c) s d := by
  rw [← Fin.sum_univ_eq_sum_range (fun s => term2_0 V c p d s) 16384]
  refine Finset.sum_congr rfl fun s _ => ?_
  show term2_0 V c p d s.val = _
  unfold term2_0
  rw [dif_pos s.isLt]

/-- The summand of the collection through window 1 at source index `s` (zero past the source axis). -/
def term2_1 (c : Dev nD) (p : Fin 2048) (d : Fin 1024) (s : ℕ) : EReal :=
  if h : s < 16384 then Spec.co2 (in2_1 V c) p ⟨s, h⟩ * Spec.co2 (in2_3 V c) ⟨s, h⟩ d else 0

/-- A block's product is its stretch of the collection's sum: the blocks' entries are the arrays' at the stretch's sources. -/
theorem blk_sum2_1 (c : Dev nD) (x : Vec Ideal S512x512 .bf16) (y : Vec Ideal S512x1024 .bf16) (j : ℕ) (hj : j < 32) (p : Fin 2048) (r : Fin 512) (d : Fin 1024)
    (hx : ∀ (k : Fin 512) (hs : j * 512 + k.val < 16384), (x (ix2 r k) : EReal) = in2_1 V c (ix2 p ⟨j * 512 + k.val, hs⟩))
    (hy : ∀ (k : Fin 512) (hs : j * 512 + k.val < 16384), (y (ix2 k d) : EReal) = in2_3 V c (ix2 ⟨j * 512 + k.val, hs⟩ d)) :
    ∑ k : Fin 512, (x (ix2 r k) : EReal) * (y (ix2 k d) : EReal)
      = ∑ k ∈ Finset.range 512, term2_1 V c p d (j * 512 + k) := by
  rw [← Fin.sum_univ_eq_sum_range (fun k => term2_1 V c p d (j * 512 + k)) 512]
  refine Finset.sum_congr rfl fun k _ => ?_
  have hk := k.isLt
  have hs : j * 512 + k.val < 16384 := by omega
  rw [hx k hs, hy k hs]
  show _ = term2_1 V c p d (j * 512 + k.val)
  unfold term2_1
  rw [dif_pos hs]
  rfl

/-- Point `t = 32 i + j`'s blocks of windows 1 and 3, for object row `p = 512 i + r`, are the arrays at the stretch's sources. -/
theorem hx2_1 (c : Dev nD) (t : Fin cfg2.N) (i j : ℕ) (hi : t.val / 32 = i) (hj : t.val % 32 = j) (p : Fin 2048) (r : Fin 512)
    (hp : p.val = i * 512 + r.val) (k : Fin 512) (hs : j * 512 + k.val < 16384) :
    (iblk2 (F := Ideal) V c 1 t (ix2 r k) : EReal) = in2_1 V c (ix2 p ⟨j * 512 + k.val, hs⟩) :=
  iblk2_1_at V c t r k p ⟨j * 512 + k.val, hs⟩ (by rw [hi]; exact hp) (by rw [hj])
theorem hy2_3 (c : Dev nD) (t : Fin cfg2.N) (j : ℕ) (hj : t.val % 32 = j) (d : Fin 1024) (k : Fin 512) (hs : j * 512 + k.val < 16384) :
    (iblk2 (F := Ideal) V c 3 t (ix2 k d) : EReal) = in2_3 V c (ix2 ⟨j * 512 + k.val, hs⟩ d) :=
  iblk2_3_at V c t k d ⟨j * 512 + k.val, hs⟩ d (by rw [hj]) (by omega)

/-- The whole collection's sum, by the source index. -/
theorem term2_1_total (c : Dev nD) (p : Fin 2048) (d : Fin 1024) :
    ∑ s ∈ Finset.range 16384, term2_1 V c p d s = ∑ s : Fin 16384, Spec.co2 (in2_1 V c) p s * Spec.co2 (in2_3 V c) s d := by
  rw [← Fin.sum_univ_eq_sum_range (fun s => term2_1 V c p d s) 16384]
  refine Finset.sum_congr rfl fun s _ => ?_
  show term2_1 V c p d s.val = _
  unfold term2_1
  rw [dif_pos s.isLt]

/-- The self term of object row `p`. -/
def self2 (c : Dev nD) (p : Fin 2048) (d : Fin 1024) : EReal :=
  Ideal.div (∑ k : Fin 2048, Spec.co2 (in2_4 V c) p k * Spec.co2 (in2_5 V c) k d) (Spec.co2 (in2_8 V c) p 0)

/-- What the scratch buffers hold after the point `t = 32 i + j`, at row `r` of the block (object row `p = 512 i + r`): the
    two collections' sums over the first `512 (j + 1)` sources, and the row's self term. -/
def ScrInv2 (c : Dev nD) (s : Scr Ideal) (i j : ℕ) : Prop :=
  ∀ (p : Fin 2048) (r : Fin 512) (_ : p.val = i * 512 + r.val) (d : Fin 1024),
    (s.1 (ix2 r d) : EReal) = ∑ x ∈ Finset.range ((j + 1) * 512), term2_0 V c p d x
    ∧ (s.2.1 (ix2 r d) : EReal) = ∑ x ∈ Finset.range ((j + 1) * 512), term2_1 V c p d x
    ∧ (s.2.2 (ix2 r d) : EReal) = self2 V c p d

/-- The first point of a row. -/
theorem stepA2_inv (c : Dev nD) (t : Fin cfg2.N) (i : ℕ) (hi : t.val / 32 = i) (hj : t.val % 32 = 0) :
    ScrInv2 V c (stepA2 (F := Ideal) V c t) i 0 := by
  intro p r hp d
  refine ⟨?_, ?_, ?_⟩
  · show (k2_pay4 (F := Ideal) (iblk2 V c 0 t) (iblk2 V c 2 t) (k2_pay1 (F := Ideal)) (ix2 r d) : EReal) = _
    refine (k2_pay4_apply (iblk2 V c 0 t) (iblk2 V c 2 t) (k2_pay1 (F := Ideal)) r d).trans ?_
    rw [k2_pay1_apply, blk_sum2_0 V c (iblk2 (F := Ideal) V c 0 t) (iblk2 (F := Ideal) V c 2 t) 0 (by have := lt128_2 t; omega) p r d (hx2_0 V c t i 0 hi hj p r hp) (hy2_2 V c t 0 hj d)]
    exact step_sum (term2_0 V c p d) 0 0 (by rw [Nat.zero_mul, Finset.range_zero, Finset.sum_empty])
  · show (k2_pay5 (F := Ideal) (iblk2 V c 1 t) (iblk2 V c 3 t) (k2_pay2 (F := Ideal)) (ix2 r d) : EReal) = _
    refine (k2_pay5_apply (iblk2 V c 1 t) (iblk2 V c 3 t) (k2_pay2 (F := Ideal)) r d).trans ?_
    rw [k2_pay2_apply, blk_sum2_1 V c (iblk2 (F := Ideal) V c 1 t) (iblk2 (F := Ideal) V c 3 t) 0 (by have := lt128_2 t; omega) p r d (hx2_1 V c t i 0 hi hj p r hp) (hy2_3 V c t 0 hj d)]
    exact step_sum (term2_1 V c p d) 0 0 (by rw [Nat.zero_mul, Finset.range_zero, Finset.sum_empty])
  · show (k2_pay3 (F := Ideal) (iblk2 V c 4 t) (iblk2 V c 5 t) (iblk2 V c 8 t) (ix2 r d) : EReal) = _
    refine (k2_pay3_apply (iblk2 V c 4 t) (iblk2 V c 5 t) (iblk2 V c 8 t) r d).trans ?_
    unfold self2
    rw [iblk2_8_at V c t r 0 p 0 (by rw [hi]; exact hp) (by rfl)]
    refine congrArg (fun x => Ideal.div x _) (Finset.sum_congr rfl fun k _ => ?_)
    rw [iblk2_4_at V c t r k p k (by rw [hi]; exact hp) (by omega), iblk2_5_at V c t k d k d (by omega) (by omega)]
    rfl

/-- A later point of a row, over what the point before left. -/
theorem stepB2_inv (c : Dev nD) (t : Fin cfg2.N) (i j : ℕ) (hi : t.val / 32 = i) (hj : t.val % 32 = j + 1) (s : Scr Ideal)
    (hs : ScrInv2 V c s i j) : ScrInv2 V c (stepB2 (F := Ideal) V c t s) i (j + 1) := by
  intro p r hp d
  obtain ⟨h0, h1, h2⟩ := hs p r hp d
  refine ⟨?_, ?_, h2⟩
  · show (k2_pay4 (F := Ideal) (iblk2 V c 0 t) (iblk2 V c 2 t) s.1 (ix2 r d) : EReal) = _
    refine (k2_pay4_apply (iblk2 V c 0 t) (iblk2 V c 2 t) s.1 r d).trans ?_
    rw [blk_sum2_0 V c (iblk2 (F := Ideal) V c 0 t) (iblk2 (F := Ideal) V c 2 t) (j + 1) (by have := lt128_2 t; omega) p r d (hx2_0 V c t i (j + 1) hi hj p r hp) (hy2_2 V c t (j + 1) hj d)]
    exact step_sum (term2_0 V c p d) (j + 1) _ h0
  · show (k2_pay5 (F := Ideal) (iblk2 V c 1 t) (iblk2 V c 3 t) s.2.1 (ix2 r d) : EReal) = _
    refine (k2_pay5_apply (iblk2 V c 1 t) (iblk2 V c 3 t) s.2.1 r d).trans ?_
    rw [blk_sum2_1 V c (iblk2 (F := Ideal) V c 1 t) (iblk2 (F := Ideal) V c 3 t) (j + 1) (by have := lt128_2 t; omega) p r d (hx2_1 V c t i (j + 1) hi hj p r hp) (hy2_3 V c t (j + 1) hj d)]
    exact step_sum (term2_1 V c p d) (j + 1) _ h1

/-- THE INVARIANT of the accumulation, by induction on the point. -/
theorem scr2_inv (c : Dev nD) : ∀ (n : ℕ) (hn : n < cfg2.N), ScrInv2 V c (scr2 (F := Ideal) V c n hn) (n / 32) (n % 32)
  | 0, hn => stepA2_inv V c ⟨0, hn⟩ 0 (Nat.zero_div 32) (Nat.zero_mod 32)
  | n + 1, hn => by
    by_cases h0 : (n + 1) % 32 = 0
    · have e : scr2 (F := Ideal) V c (n + 1) hn = stepA2 V c ⟨n + 1, hn⟩ := dif_pos h0
      rw [e, h0]
      exact stepA2_inv V c ⟨n + 1, hn⟩ ((n + 1) / 32) rfl h0
    · have e : scr2 (F := Ideal) V c (n + 1) hn = stepB2 V c ⟨n + 1, hn⟩ (scr2 V c n (Nat.lt_of_succ_lt hn)) := dif_neg h0
      have hd : (n + 1) / 32 = n / 32 := by omega
      have hm : (n + 1) % 32 = n % 32 + 1 := by omega
      rw [e, hd, hm]
      exact stepB2_inv V c ⟨n + 1, hn⟩ (n / 32) (n % 32) hd hm _ (scr2_inv c n (Nat.lt_of_succ_lt hn))

/-! ## From blocks to the array -/

/-- What the region leaves in its output array: the object rows' update from the region's input arrays. -/
def G2 (c : Dev nD) : S2048x1024.Idx → EReal :=
  Spec.arr2 (fun p d => Spec.co2 (in2_9 V c) p d + Ideal.div
    ((Ideal.div (∑ s : Fin 16384, Spec.co2 (in2_0 V c) p s * Spec.co2 (in2_2 V c) s d) (Spec.co2 (in2_6 V c) p 0)
        + Ideal.div (∑ s : Fin 16384, Spec.co2 (in2_1 V c) p s * Spec.co2 (in2_3 V c) s d) (Spec.co2 (in2_7 V c) p 0))
      + Ideal.div (∑ s : Fin 2048, Spec.co2 (in2_4 V c) p s * Spec.co2 (in2_5 V c) s d) (Spec.co2 (in2_8 V c) p 0)) Spec.three)

/-- WHAT A ROW'S LAST POINT WRITES BACK is its block of `G2`. -/
theorem flushed2_eq (c : Dev nD) (t : Fin cfg2.N) (hf : (cfg2.win 10).flush t = true) :
    (dat2 (F := Ideal) V c).flushed 10 t = ((cfg2.win 10).blk t).view.read (Elt Ideal) (G2 V c) := by
  have h31 : t.val % 32 = 31 := (flush2_10 t).mp hf
  have ht := lt128_2 t
  show (cfg2.win 10).cut (grid2.coords t) ((dat2 (F := Ideal) V c).after 10 t) = _
  rw [after2_10]
  funext y
  obtain ⟨r, d, rfl⟩ : ∃ (r : Fin 512) (d : Fin 1024), y = ix2 r d := ⟨y 0, y 1, eq_ix2 y⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  have hr := r.isLt
  have hpl : (t.val / 32) * 512 + r.val < 2048 := by omega
  have eR : ((cfg2.win 10).blk t).view.read (Elt Ideal) (G2 V c) (ix2 r d) = G2 V c (ix2 (⟨(t.val / 32) * 512 + r.val, hpl⟩ : Fin 2048) d) := by
    show G2 V c (((cfg2.win 10).blk t).view.emb (ix2 r d)) = G2 V c (ix2 (⟨(t.val / 32) * 512 + r.val, hpl⟩ : Fin 2048) d)
    refine congrArg _ (funext fun ax => Fin.ext ?_)
    match ax with
    | ⟨0, _⟩ => show win2_10.index t (0 : Fin 2) * 512 + 1 * r.val = (t.val / 32) * 512 + r.val; rw [e10_0]; omega
    | ⟨1, _⟩ => show win2_10.index t (1 : Fin 2) * 1024 + 1 * d.val = d.val; rw [e10_1]; omega
  rw [eR]
  show (out2_10 (F := Ideal) V c t (ix2 r d) : EReal) = _
  unfold out2_10
  refine (k2_pay6_apply (scr2 (F := Ideal) V c t.val t.isLt).1 (iblk2 V c 6 t) (scr2 (F := Ideal) V c t.val t.isLt).2.1 (iblk2 V c 7 t)
    (scr2 (F := Ideal) V c t.val t.isLt).2.2 (iblk2 V c 9 t) r d).trans ?_
  obtain ⟨h0, h1, h2⟩ := scr2_inv V c t.val t.isLt (⟨(t.val / 32) * 512 + r.val, hpl⟩ : Fin 2048) r rfl d
  have h0' : ((scr2 (F := Ideal) V c t.val t.isLt).1 (ix2 r d) : EReal) = ∑ x ∈ Finset.range 16384, term2_0 V c (⟨(t.val / 32) * 512 + r.val, hpl⟩ : Fin 2048) d x := by
    rw [h0, h31]
  have h1' : ((scr2 (F := Ideal) V c t.val t.isLt).2.1 (ix2 r d) : EReal) = ∑ x ∈ Finset.range 16384, term2_1 V c (⟨(t.val / 32) * 512 + r.val, hpl⟩ : Fin 2048) d x := by
    rw [h1, h31]
  rw [h0', h1', h2, term2_0_total, term2_1_total,
    iblk2_6_at V c t r 0 (⟨(t.val / 32) * 512 + r.val, hpl⟩ : Fin 2048) 0 rfl (by rfl),
    iblk2_7_at V c t r 0 (⟨(t.val / 32) * 512 + r.val, hpl⟩ : Fin 2048) 0 rfl (by rfl),
    iblk2_9_at V c t r d (⟨(t.val / 32) * 512 + r.val, hpl⟩ : Fin 2048) d rfl (by omega)]
  rfl

/-- An index of the output array is in point `t`'s block iff each coordinate is in the block's range on its axis. -/
theorem mem_blk2_10 (t : Fin cfg2.N) (i : S2048x1024.Idx) :
    i ∈ ((cfg2.win 10).blk t).view.set ↔ ∀ a : Fin 2, win2_10.index t a * S512x1024.size a ≤ (i a).val ∧ (i a).val < win2_10.index t a * S512x1024.size a + S512x1024.size a := by
  show i ∈ ((View.whole main_v30).slice (win2_10.rect t)).set ↔ _
  rw [View.set_slice_whole, Rect.mem_set_unit]
  exact Iff.rfl

/-- Every index of the output array is in the block some row's last point writes back. -/
theorem cover2_10 (i : S2048x1024.Idx) : ∃ t : Fin cfg2.N, (cfg2.win 10).flush t = true ∧ i ∈ ((cfg2.win 10).blk t).view.set := by
  have hi0 : (i 0).val < 2048 := (i 0).isLt
  have hi1 : (i 1).val < 1024 := (i 1).isLt
  have hlt : 32 * ((i 0).val / 512) + 31 < 128 := by omega
  obtain ⟨t, htv⟩ : ∃ t : Fin cfg2.N, t.val = 32 * ((i 0).val / 512) + 31 := ⟨⟨_, lt_of_lt_of_eq hlt N_2.symm⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts2 t
  refine ⟨t, (flush2_10 t).mpr (by rw [htv]; omega), ?_⟩
  rw [mem_blk2_10]
  intro a
  match a with
  | ⟨0, _⟩ => show win2_10.index t (0 : Fin 2) * 512 ≤ (i 0).val ∧ (i 0).val < win2_10.index t (0 : Fin 2) * 512 + 512; rw [e10_0, htv]; omega
  | ⟨1, _⟩ => show win2_10.index t (1 : Fin 2) * 1024 ≤ (i 1).val ∧ (i 1).val < win2_10.index t (1 : Fin 2) * 1024 + 1024; rw [e10_1]; omega

/-- THE OUTPUT ARRAY after the region: `G2` of the region's input arrays. -/
theorem val2 (c : Dev nD) : (dat2 (F := Ideal) V c).arrAt 10 cfg2.N = G2 V c :=
  (dat2 (F := Ideal) V c).arrAt_eq_of_cover 10 (G2 V c) (fun t hf => flushed2_eq V c t hf) cover2_10

end Value

end Cert.KernelIdeal.HandVal

end
-- ==== Proof.KI.Chain1o.lean ====
/-
  Links of the chain that reads the kernel program's buffers as the specification's functions: the object side of
  the first round. The two projections of the relation features and the object features after the round. Each link reads one region's output
  array as the region's value at the arrays it was entered with, and walks each of those back through the items that
  leave it alone to the item that wrote it, or to the launch memory.
-/
import proofs.«152197_j87351044866369_2_alg».proof.Proof.KI.ChainBase
import proofs.«152197_j87351044866369_2_alg».proof.Proof.KI.Val0
import proofs.«152197_j87351044866369_2_alg».proof.Proof.KI.Val2

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 0 the buffer `main_v27_0` holds the projection of the relation features by the relation-to-object subject weights. -/
theorem F27_0 (h0 : ∀ V c, 𝒟.D 0 V c = dat0 V c) :
    Cert.Spec.co2 (a := 16384) (b := 1024) (W2 𝒟 m c (Proc.devRef .tc main_v27_0))
      = Cert.Spec.fc (A m c).xr (A m c).wRS (A m c).bRS := by
  have e : W2 𝒟 m c (Proc.devRef .tc main_v27_0) = (dat0 (F := Ideal) (rd (W1 m)) c).arrAt 5 cfg0.N := by
    rw [← h0]; exact stepR_arr 𝒟 0 (W1 m) c 5
  have hx : Cert.Spec.co2 (a := 16384) (b := 1024) (rd (W1 m) c (Pipeline.arrRef spec0 0)) = (A m c).xr := by
    show Cert.Spec.co2 (a := 16384) (b := 1024) (W1 m c (Proc.devRef .tc main_arg1)) = _
    rw [back1 m c main_arg1 (by decide)]
    rfl
  have hw : Cert.Spec.co2 (a := 1024) (b := 1024) (rd (W1 m) c (Pipeline.arrRef spec0 1)) = (A m c).wRS := by
    show Cert.Spec.co2 (a := 1024) (b := 1024) (W1 m c (Proc.devRef .tc main_arg5)) = _
    rw [back1 m c main_arg5 (by decide)]
    rfl
  have hb : (fun d : Fin 1024 => (rd (W1 m) c (Pipeline.arrRef spec0 2) : S1x1024.Idx → EReal) (ix2 0 d)) = (A m c).bRS := by
    funext d
    show (StableHlo.after (hostOps0 (F := Ideal)) (W0 m c) (Proc.devRef .tc main_v25) : S1x1024.Idx → EReal) (ix2 0 d) = _
    rw [bias_row_25 (W0 m c) d]
    rfl
  rw [e, val0_5]
  unfold G0
  rw [co2_arr2, hx, hw, hb]

/-- After region 0 the buffer `main_v27_1` holds the projection of the relation features by the relation-to-object object weights. -/
theorem F27_1 (h0 : ∀ V c, 𝒟.D 0 V c = dat0 V c) :
    Cert.Spec.co2 (a := 16384) (b := 1024) (W2 𝒟 m c (Proc.devRef .tc main_v27_1))
      = Cert.Spec.fc (A m c).xr (A m c).wRO (A m c).bRO := by
  have e : W2 𝒟 m c (Proc.devRef .tc main_v27_1) = (dat0 (F := Ideal) (rd (W1 m)) c).arrAt 6 cfg0.N := by
    rw [← h0]; exact stepR_arr 𝒟 0 (W1 m) c 6
  have hx : Cert.Spec.co2 (a := 16384) (b := 1024) (rd (W1 m) c (Pipeline.arrRef spec0 0)) = (A m c).xr := by
    show Cert.Spec.co2 (a := 16384) (b := 1024) (W1 m c (Proc.devRef .tc main_arg1)) = _
    rw [back1 m c main_arg1 (by decide)]
    rfl
  have hw : Cert.Spec.co2 (a := 1024) (b := 1024) (rd (W1 m) c (Pipeline.arrRef spec0 3)) = (A m c).wRO := by
    show Cert.Spec.co2 (a := 1024) (b := 1024) (W1 m c (Proc.devRef .tc main_arg7)) = _
    rw [back1 m c main_arg7 (by decide)]
    rfl
  have hb : (fun d : Fin 1024 => (rd (W1 m) c (Pipeline.arrRef spec0 4) : S1x1024.Idx → EReal) (ix2 0 d)) = (A m c).bRO := by
    funext d
    show (StableHlo.after (hostOps0 (F := Ideal)) (W0 m c) (Proc.devRef .tc main_v26) : S1x1024.Idx → EReal) (ix2 0 d) = _
    rw [bias_row_26 (W0 m c) d]
    rfl
  rw [e, val0_6]
  unfold G0
  rw [co2_arr2, hx, hw, hb]

/-- After region 2 the buffer `main_v30` holds the object features after the first round, given what the buffers
    regions 0 and 1 wrote hold. -/
theorem F30_of (h2 : ∀ V c, 𝒟.D 2 V c = dat2 V c)
    (hS : Cert.Spec.co2 (a := 16384) (b := 1024) (W2 𝒟 m c (Proc.devRef .tc main_v27_0)) = Cert.Spec.fc (A m c).xr (A m c).wRS (A m c).bRS)
    (hO : Cert.Spec.co2 (a := 16384) (b := 1024) (W2 𝒟 m c (Proc.devRef .tc main_v27_1)) = Cert.Spec.fc (A m c).xr (A m c).wRO (A m c).bRO)
    (hF : Cert.Spec.co2 (a := 2048) (b := 1024) (W4 𝒟 m c (Proc.devRef .tc main_v29)) = Cert.Spec.fc (A m c).xo (A m c).wSelf (A m c).bSelf) :
    Cert.Spec.co2 (a := 2048) (b := 1024) (W5 𝒟 m c (Proc.devRef .tc main_v30)) = Cert.Spec.obj1 (A m c) := by
  have e : W5 𝒟 m c (Proc.devRef .tc main_v30) = (dat2 (F := Ideal) (rd (W4 𝒟 m)) c).arrAt 10 cfg2.N := by
    rw [← h2]; exact stepR_arr 𝒟 2 (W4 𝒟 m) c 10
  have hxo : Cert.Spec.co2 (in2_9 (rd (W4 𝒟 m)) c) = (A m c).xo := by
    show Cert.Spec.co2 (a := 2048) (b := 1024) (W4 𝒟 m c (Proc.devRef .tc main_arg0)) = _
    rw [back4 𝒟 m c main_arg0 (by decide), back3 𝒟 m c main_arg0 (by decide), back2 𝒟 m c main_arg0 (by decide), back1 m c main_arg0 (by decide)]
    rfl
  have ha0 : Cert.Spec.co2 (in2_0 (rd (W4 𝒟 m)) c) = (A m c).aSub := by
    show Cert.Spec.co2 (a := 2048) (b := 16384) (W4 𝒟 m c (Proc.devRef .tc main_v22)) = _
    rw [back4 𝒟 m c main_v22 (by decide), back3 𝒟 m c main_v22 (by decide), back2 𝒟 m c main_v22 (by decide)]
    show Cert.Spec.co2 (a := 2048) (b := 16384) (StableHlo.after (hostOps0 (F := Ideal)) (W0 m c) (Proc.devRef .tc main_v22) : S2048x16384.Idx → EReal) = _
    rw [attn_sub_narrow]
    rfl
  have ha1 : Cert.Spec.co2 (in2_1 (rd (W4 𝒟 m)) c) = (A m c).aObj := by
    show Cert.Spec.co2 (a := 2048) (b := 16384) (W4 𝒟 m c (Proc.devRef .tc main_v23)) = _
    rw [back4 𝒟 m c main_v23 (by decide), back3 𝒟 m c main_v23 (by decide), back2 𝒟 m c main_v23 (by decide)]
    show Cert.Spec.co2 (a := 2048) (b := 16384) (StableHlo.after (hostOps0 (F := Ideal)) (W0 m c) (Proc.devRef .tc main_v23) : S2048x16384.Idx → EReal) = _
    rw [attn_obj_narrow]
    rfl
  have ha4 : Cert.Spec.co2 (in2_4 (rd (W4 𝒟 m)) c) = (A m c).aSelf := by
    show Cert.Spec.co2 (a := 2048) (b := 2048) (W4 𝒟 m c (Proc.devRef .tc main_v24)) = _
    rw [back4 𝒟 m c main_v24 (by decide), back3 𝒟 m c main_v24 (by decide), back2 𝒟 m c main_v24 (by decide)]
    show Cert.Spec.co2 (a := 2048) (b := 2048) (StableHlo.after (hostOps0 (F := Ideal)) (W0 m c) (Proc.devRef .tc main_v24) : S2048x2048.Idx → EReal) = _
    rw [attn_self_narrow]
    rfl
  have hf2 : Cert.Spec.co2 (in2_2 (rd (W4 𝒟 m)) c) = Cert.Spec.fc (A m c).xr (A m c).wRS (A m c).bRS := by
    show Cert.Spec.co2 (a := 16384) (b := 1024) (W4 𝒟 m c (Proc.devRef .tc main_v27_0)) = _
    rw [back4 𝒟 m c main_v27_0 (by decide), back3 𝒟 m c main_v27_0 (by decide)]
    exact hS
  have hf3 : Cert.Spec.co2 (in2_3 (rd (W4 𝒟 m)) c) = Cert.Spec.fc (A m c).xr (A m c).wRO (A m c).bRO := by
    show Cert.Spec.co2 (a := 16384) (b := 1024) (W4 𝒟 m c (Proc.devRef .tc main_v27_1)) = _
    rw [back4 𝒟 m c main_v27_1 (by decide), back3 𝒟 m c main_v27_1 (by decide)]
    exact hO
  have hf5 : Cert.Spec.co2 (in2_5 (rd (W4 𝒟 m)) c) = Cert.Spec.fc (A m c).xo (A m c).wSelf (A m c).bSelf := hF
  have hd6 : ∀ p : Fin 2048, Cert.Spec.co2 (in2_6 (rd (W4 𝒟 m)) c) p 0 = (∑ s : Fin 16384, (A m c).aSub p s) + Cert.Spec.eps := by
    intro p
    show (W4 𝒟 m c (Proc.devRef .tc main_v3) : S2048x1.Idx → EReal) (ix2 p 0) = _
    rw [back4 𝒟 m c main_v3 (by decide), back3 𝒟 m c main_v3 (by decide), back2 𝒟 m c main_v3 (by decide)]
    show (StableHlo.after (hostOps0 (F := Ideal)) (W0 m c) (Proc.devRef .tc main_v3) : S2048x1.Idx → EReal) (ix2 p 0) = _
    rw [denom_sub]
    rfl
  have hd7 : ∀ p : Fin 2048, Cert.Spec.co2 (in2_7 (rd (W4 𝒟 m)) c) p 0 = (∑ s : Fin 16384, (A m c).aObj p s) + Cert.Spec.eps := by
    intro p
    show (W4 𝒟 m c (Proc.devRef .tc main_v7) : S2048x1.Idx → EReal) (ix2 p 0) = _
    rw [back4 𝒟 m c main_v7 (by decide), back3 𝒟 m c main_v7 (by decide), back2 𝒟 m c main_v7 (by decide)]
    show (StableHlo.after (hostOps0 (F := Ideal)) (W0 m c) (Proc.devRef .tc main_v7) : S2048x1.Idx → EReal) (ix2 p 0) = _
    rw [denom_obj]
    rfl
  have hd8 : ∀ p : Fin 2048, Cert.Spec.co2 (in2_8 (rd (W4 𝒟 m)) c) p 0 = (∑ s : Fin 2048, (A m c).aSelf p s) + Cert.Spec.eps := by
    intro p
    show (W4 𝒟 m c (Proc.devRef .tc main_v11) : S2048x1.Idx → EReal) (ix2 p 0) = _
    rw [back4 𝒟 m c main_v11 (by decide), back3 𝒟 m c main_v11 (by decide), back2 𝒟 m c main_v11 (by decide)]
    show (StableHlo.after (hostOps0 (F := Ideal)) (W0 m c) (Proc.devRef .tc main_v11) : S2048x1.Idx → EReal) (ix2 p 0) = _
    rw [denom_self]
    rfl
  rw [e, val2]
  unfold G2
  rw [co2_arr2]
  funext p d
  rw [hxo, ha0, ha1, ha4, hf2, hf3, hf5, hd6 p, hd7 p, hd8 p]
  rfl

/-- After region 2 the buffer `main_v30` holds the object features after the first round. -/
theorem F30 (h0 : ∀ V c, 𝒟.D 0 V c = dat0 V c) (h1 : ∀ V c, 𝒟.D 1 V c = dat1 V c) (h2 : ∀ V c, 𝒟.D 2 V c = dat2 V c) :
    Cert.Spec.co2 (a := 2048) (b := 1024) (W5 𝒟 m c (Proc.devRef .tc main_v30)) = Cert.Spec.obj1 (A m c) :=
  F30_of 𝒟 m c h2 (F27_0 𝒟 m c h0) (F27_1 𝒟 m c h0) (F29 𝒟 m c h1)

end Cert.KernelIdeal.HandVal

end
-- ==== Proof.KI.Val6.lean ====
import proofs.«152197_j87351044866369_2_alg».proof.Proof.KI.Reg6
import proofs.«152197_j87351044866369_2_alg».proof.Proof.KI.FcPay
import proofs.«152197_j87351044866369_2_alg».proof.Proof.Spec
import Idealize.ShloMosaic.Lib.Pipeline.Value

/-! # Region 6 at the ideal values: the projected array

The region writes block `t` of its output from block `t` of the source rows, the whole weight matrix and the bias
row. Each write-back is block `t` of ONE function of the region's three input arrays — the projection
`max (X · Wᵀ + b) 0` row by row — and the two blocks tile the 2048 rows, so after the region the output array is
that function. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The projection of the source array `X` by the weights `W` and the bias row `B`, as an array. -/
def G6 (X : S2048x1024.Idx → EReal) (W : S1024x1024.Idx → EReal) (B : S1x1024.Idx → EReal) : S2048x1024.Idx → EReal :=
  Spec.arr2 (Spec.fc (Spec.co2 X) (Spec.co2 W) (fun d => B (ix2 0 d)))

/-- The printed index maps over the grid: the source and output blocks are the point's, the weights' and the bias's
    block is the one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Block `t` of the projection: the projection of block `t` of the source rows by the whole weight matrix and bias row
    is block `t` (of window 3) of the projection of the whole source array. -/
theorem blk6_3_eq (X : S2048x1024.Idx → EReal) (W : S1024x1024.Idx → EReal) (B : S1x1024.Idx → EReal) (t : Fin cfg6.N) :
    (cfg6.win 3).cut (grid6.coords t) (fcBlk (((cfg6.win 0).blk t).view.read (Elt Ideal) X)
        (((cfg6.win 1).blk t).view.read (Elt Ideal) W) (((cfg6.win 2).blk t).view.read (Elt Ideal) B))
      = ((cfg6.win 3).blk t).view.read (Elt Ideal) (G6 X W B) := by
  obtain ⟨e00, e01, e10, e11, e20, e21, e30, e31⟩ := idx_facts6 t
  funext j
  show max ((∑ k : Fin 1024, X (((cfg6.win 0).blk t).view.emb (ix2 (j 0) k)) * W (((cfg6.win 1).blk t).view.emb (ix2 (j 1) k)))
      + B (((cfg6.win 2).blk t).view.emb (ix2 0 (j 1)))) 0
    = max ((∑ k : Fin 1024, X (ix2 ⟨((((cfg6.win 3).blk t).view.emb j) 0).val, ((((cfg6.win 3).blk t).view.emb j) 0).isLt⟩ k)
        * W (ix2 ⟨((((cfg6.win 3).blk t).view.emb j) 1).val, ((((cfg6.win 3).blk t).view.emb j) 1).isLt⟩ k))
      + B (ix2 0 ⟨((((cfg6.win 3).blk t).view.emb j) 1).val, ((((cfg6.win 3).blk t).view.emb j) 1).isLt⟩)) 0
  have hj0 : (j 0).val < 1024 := (j 0).isLt
  have hj1 : (j 1).val < 1024 := (j 1).isLt
  have h0 : ∀ k : Fin 1024, ((cfg6.win 0).blk t).view.emb (ix2 (j 0) k)
      = ix2 ⟨((((cfg6.win 3).blk t).view.emb j) 0).val, ((((cfg6.win 3).blk t).view.emb j) 0).isLt⟩ k := fun k => by
    funext a; apply Fin.ext
    match a with
    | ⟨0, _⟩ => show win6_0.index t (0 : Fin 2) * 1024 + 1 * (j 0).val = win6_3.index t (0 : Fin 2) * 1024 + 1 * (j 0).val; omega
    | ⟨1, _⟩ => show win6_0.index t (1 : Fin 2) * 1024 + 1 * k.val = k.val; omega
  have h1 : ∀ k : Fin 1024, ((cfg6.win 1).blk t).view.emb (ix2 (j 1) k)
      = ix2 ⟨((((cfg6.win 3).blk t).view.emb j) 1).val, ((((cfg6.win 3).blk t).view.emb j) 1).isLt⟩ k := fun k => by
    funext a; apply Fin.ext
    match a with
    | ⟨0, _⟩ => show win6_1.index t (0 : Fin 2) * 1024 + 1 * (j 1).val = win6_3.index t (1 : Fin 2) * 1024 + 1 * (j 1).val; omega
    | ⟨1, _⟩ => show win6_1.index t (1 : Fin 2) * 1024 + 1 * k.val = k.val; omega
  have h2 : ((cfg6.win 2).blk t).view.emb (ix2 0 (j 1))
      = ix2 0 ⟨((((cfg6.win 3).blk t).view.emb j) 1).val, ((((cfg6.win 3).blk t).view.emb j) 1).isLt⟩ := by
    funext a; apply Fin.ext
    match a with
    | ⟨0, _⟩ => show win6_2.index t (0 : Fin 2) * 1 + 1 * 0 = 0; omega
    | ⟨1, _⟩ => show win6_2.index t (1 : Fin 2) * 1024 + 1 * (j 1).val = win6_3.index t (1 : Fin 2) * 1024 + 1 * (j 1).val; omega
  have hS : (∑ k : Fin 1024, X (((cfg6.win 0).blk t).view.emb (ix2 (j 0) k)) * W (((cfg6.win 1).blk t).view.emb (ix2 (j 1) k)))
      = ∑ k : Fin 1024, X (ix2 ⟨((((cfg6.win 3).blk t).view.emb j) 0).val, ((((cfg6.win 3).blk t).view.emb j) 0).isLt⟩ k)
        * W (ix2 ⟨((((cfg6.win 3).blk t).view.emb j) 1).val, ((((cfg6.win 3).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 3 is block `t` of the projection of the arrays as the region finds them. -/
theorem flushed6_3_eq (c : Dev nD) (t : Fin cfg6.N) :
    (dat6 V c).flushed 3 t = ((cfg6.win 3).blk t).view.read (Elt Ideal)
      (G6 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S1024x1024) hz6, View.ld_unit_zero (S := S1x1024) hz6]
  rw [k6_pay1_eq]
  exact blk6_3_eq (V c (Pipeline.arrRef spec6 0)) (V c (Pipeline.arrRef spec6 1)) (V c (Pipeline.arrRef spec6 2)) t

/-- An index of the output array is in point `t`'s block iff each coordinate is in the block's range on its axis. -/
theorem mem_blk6_3 (t : Fin cfg6.N) (i : S2048x1024.Idx) :
    i ∈ ((cfg6.win 3).blk t).view.set ↔ ∀ a : Fin 2, win6_3.index t a * S1024x1024.size a ≤ (i a).val ∧ (i a).val < win6_3.index t a * S1024x1024.size a + S1024x1024.size a := by
  show i ∈ ((View.whole main_v39).slice (win6_3.rect t)).set ↔ _
  rw [View.set_slice_whole, Rect.mem_set_unit]
  exact Iff.rfl

/-- The two blocks tile the array: row `r` is in the block of point `r / 1024`. -/
theorem covered6_3 (i : S2048x1024.Idx) :
    ∃ t : Fin cfg6.N, (cfg6.win 3).flush t = true ∧ i ∈ ((cfg6.win 3).blk t).view.set := by
  have hi0 : (i 0).val < 2048 := (i 0).isLt
  have hi1 : (i 1).val < 1024 := (i 1).isLt
  have hN : cfg6.N = 2 := N_6
  let t : Fin cfg6.N := ⟨(i 0).val / 1024, by omega⟩
  obtain ⟨e00, e01, e10, e11, e20, e21, e30, e31⟩ := idx_facts6 t
  have ht : t.val = (i 0).val / 1024 := rfl
  refine ⟨t, flush6_3 t, ?_⟩
  rw [mem_blk6_3]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 1024 ≤ (i 1).val ∧ (i 1).val < win6_3.index t (1 : Fin 2) * 1024 + 1024; omega

/-- THE OUTPUT ARRAY after the region: the projection of the region's input arrays. -/
theorem val6 (c : Dev nD) : (dat6 (F := Ideal) V c).arrAt 3 cfg6.N
    = G6 (V c (Pipeline.arrRef spec6 0)) (V c (Pipeline.arrRef spec6 1)) (V c (Pipeline.arrRef spec6 2)) :=
  (dat6 V c).arrAt_eq_of_cover 3 _ (fun t _ => flushed6_3_eq V c t) (covered6_3)

end Cert.KernelIdeal.HandVal
-- ==== Proof.KI.Val9.lean ====
/- The value of region 9 (the relation-side combine) at the extended reals: the output array after the region, as one
   function of the arrays its windows read at the region's entry. Row `r` of the output is the relation features' row
   plus half the sum of two quotients, each an attention column `r` against the projected object features over that
   relation's denominator. -/
import proofs.«152197_j87351044866369_2_alg».proof.Proof.KI.Reg9
import proofs.«152197_j87351044866369_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The transposed-left matrix product at an index -/

/-- The left operand's contracted axis is its first: there the operand index is the contraction position. -/
theorem lhs9_0 (i : S512x1024.Idx) (q : dot_S2048x512_S2048x1024_S512x1024_0_0_1_1_n_n.contr.Idx) :
    (dot_S2048x512_S2048x1024_S512x1024_0_0_1_1_n_n.lhsIdx i q 0).val = (q ⟨0, by decide⟩).val :=
  dot_S2048x512_S2048x1024_S512x1024_0_0_1_1_n_n.lhsIdx_val_of_single rfl i q
/-- Its second axis is the result's first. -/
theorem lhs9_1 (i : S512x1024.Idx) (q : dot_S2048x512_S2048x1024_S512x1024_0_0_1_1_n_n.contr.Idx) :
    (dot_S2048x512_S2048x1024_S512x1024_0_0_1_1_n_n.lhsIdx i q 1).val = (i 0).val := by
  unfold DotDims.lhsIdx
  rw [dif_neg (show ¬(1 : Fin S2048x512.rank) ∈ dot_S2048x512_S2048x1024_S512x1024_0_0_1_1_n_n.lhsBatch by decide), dif_pos (show (1 : Fin S2048x512.rank) ∈ dot_S2048x512_S2048x1024_S512x1024_0_0_1_1_n_n.lhsNonContracting by decide)]
  rfl
/-- The right operand's contracted axis is its first. -/
theorem rhs9_0 (i : S512x1024.Idx) (q : dot_S2048x512_S2048x1024_S512x1024_0_0_1_1_n_n.contr.Idx) :
    (dot_S2048x512_S2048x1024_S512x1024_0_0_1_1_n_n.rhsIdx i q 0).val = (q ⟨0, by decide⟩).val :=
  dot_S2048x512_S2048x1024_S512x1024_0_0_1_1_n_n.rhsIdx_val_of_single rfl i q
/-- Its second axis is the result's second. -/
theorem rhs9_1 (i : S512x1024.Idx) (q : dot_S2048x512_S2048x1024_S512x1024_0_0_1_1_n_n.contr.Idx) :
    (dot_S2048x512_S2048x1024_S512x1024_0_0_1_1_n_n.rhsIdx i q 1).val = (i 1).val := by
  unfold DotDims.rhsIdx
  rw [dif_neg (show ¬(1 : Fin S2048x1024.rank) ∈ dot_S2048x512_S2048x1024_S512x1024_0_0_1_1_n_n.rhsBatch by decide), dif_pos (show (1 : Fin S2048x1024.rank) ∈ dot_S2048x512_S2048x1024_S512x1024_0_0_1_1_n_n.rhsNonContracting by decide)]
  rfl

/-- The product contracted over the first axis of both operands, accumulated into zero, at `(p, q)`: the sum over
    the 2048 rows of the left operand's column `p` against the right operand's column `q`. -/
theorem matmulT9_apply (a : FVec Ideal S2048x512 .bf16) (b : FVec Ideal S2048x1024 .bf16) (p : Fin 512) (q : Fin 1024) :
    matmul dot_S2048x512_S2048x1024_S512x1024_0_0_1_1_n_n none a b (constant (F := Ideal) S512x1024 .f32 0x00000000#32) (ix2 p q)
      = ∑ k : Fin 2048, a (ix2 k p) * b (ix2 k q) := by
  simp only [matmul]
  rw [Ideal.matmul_constant_zero_apply, ← Equiv.sum_comp (ValueIdx.contrEquiv1 dot_S2048x512_S2048x1024_S512x1024_0_0_1_1_n_n 2048 rfl rfl).symm]
  refine Finset.sum_congr rfl fun k _ => ?_
  have hk := ValueIdx.contrEquiv1_symm_val dot_S2048x512_S2048x1024_S512x1024_0_0_1_1_n_n 2048 rfl rfl k
  have el : dot_S2048x512_S2048x1024_S512x1024_0_0_1_1_n_n.lhsIdx (ix2 p q) ((ValueIdx.contrEquiv1 dot_S2048x512_S2048x1024_S512x1024_0_0_1_1_n_n 2048 rfl rfl).symm k) = ix2 k p := funext fun a => Fin.ext (by
    match a with
    | ⟨0, _⟩ => exact (lhs9_0 _ _).trans hk
    | ⟨1, _⟩ => exact lhs9_1 _ _)
  have er : dot_S2048x512_S2048x1024_S512x1024_0_0_1_1_n_n.rhsIdx (ix2 p q) ((ValueIdx.contrEquiv1 dot_S2048x512_S2048x1024_S512x1024_0_0_1_1_n_n 2048 rfl rfl).symm k) = ix2 k q := funext fun a => Fin.ext (by
    match a with
    | ⟨0, _⟩ => exact (rhs9_0 _ _).trans hk
    | ⟨1, _⟩ => exact rhs9_1 _ _)
  rw [el, er]

/-! ## The payload at an index -/

/-- A denominator column laid along every feature column, at `(p, q)`, is the column's entry at row `p`. -/
theorem bcol9_apply (x : FVec Ideal S512x1 .f32) (p : Fin 512) (q : Fin 1024) :
    broadcastTo S512x1024 x broadcasts_S512x1_S512x1024 (ix2 p q) = x (ix2 p 0) :=
  broadcastTo_apply x broadcasts_S512x1_S512x1024 (ix2 p q) (ix2 p 0) (fun a => by
    match a with
    | ⟨0, _⟩ => rfl
    | ⟨1, _⟩ => rfl)

/-- The body's stored value at `(p, q)` from its seven loaded blocks. -/
theorem pay9_apply (x0 x1 : Vec Ideal S2048x512 .bf16) (x2 x3 : Vec Ideal S2048x1024 .bf16) (x4 x5 : Vec Ideal S512x1 .f32)
    (x6 : Vec Ideal S512x1024 .f32) (p : Fin 512) (q : Fin 1024) :
    k9_pay1 (F := Ideal) x0 x2 x4 x1 x3 x5 x6 (ix2 p q)
      = x6 (ix2 p q) + Ideal.div (Ideal.div (∑ k : Fin 2048, x0 (ix2 k p) * x2 (ix2 k q)) (x4 (ix2 p 0))
          + Ideal.div (∑ k : Fin 2048, x1 (ix2 k p) * x3 (ix2 k q)) (x5 (ix2 p 0))) Spec.two := by
  unfold k9_pay1
  simp only [shapeCast_self]
  rw [addf_apply, divf_apply, addf_apply, divf_apply, divf_apply, broadcast_apply, matmulT9_apply, matmulT9_apply,
    bcol9_apply, bcol9_apply]
  rfl

/-! ## From the blocks to the array -/

-- the buffer contents when the region is entered
variable (V : (c : Dev nD) → (b : Ref sig .tc) → Buf (Elt Ideal) ((c : Thread nD τ).loc b))

theorem hz9 : (![0, 0] : Fin 2 → Nat) = fun _ => 0 := funext fun a => by fin_cases a <;> rfl

/-- The printed index maps, decided over the grid: the attention windows take all rows and the output's block of
    columns; the projected features are taken whole; the denominators and the relation features move with the
    output's block of rows; the output's blocks are the 32 blocks of 512 rows. -/
theorem idx_facts9 : ∀ t : Fin cfg9.N,
    win9_0.index t (0 : Fin 2) = 0 ∧ win9_0.index t (1 : Fin 2) = win9_7.index t (0 : Fin 2)
    ∧ win9_1.index t (0 : Fin 2) = 0 ∧ win9_1.index t (1 : Fin 2) = win9_7.index t (0 : Fin 2)
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = win9_7.index t (0 : Fin 2) ∧ win9_4.index t (1 : Fin 2) = 0
    ∧ win9_5.index t (0 : Fin 2) = win9_7.index t (0 : Fin 2) ∧ win9_5.index t (1 : Fin 2) = 0
    ∧ win9_6.index t (0 : Fin 2) = win9_7.index t (0 : Fin 2) ∧ win9_6.index t (1 : Fin 2) = 0
    ∧ win9_7.index t (0 : Fin 2) ≤ 31 ∧ win9_7.index t (1 : Fin 2) = 0 :=
  (by decide +kernel : ∀ t : Fin grid9.N, _)

/-- Every block of rows is some point's. -/
theorem idx_onto9 : ∀ (q0 : Fin 32), ∃ t : Fin cfg9.N, win9_7.index t = ![q0.val, 0] :=
  (by decide +kernel : ∀ (q0 : Fin 32), ∃ t : Fin grid9.N, win9_7.index t = ![q0.val, 0])

/-- The array row that row `p` of point `t`'s output block is. -/
def row9 (t : Fin cfg9.N) (p : Fin 512) : Fin 16384 :=
  ⟨win9_7.index t (0 : Fin 2) * 512 + p.val, by
    have h := (idx_facts9 t).2.2.2.2.2.2.2.2.2.2.2.2.2.2.1
    have hp := p.isLt
    omega⟩

/-! ### Each window's block, read where the output's block says -/

theorem read9_0 (c : Dev nD) (t : Fin cfg9.N) (k : Fin 2048) (p : Fin 512) :
    iblk9 V c 0 t (ix2 k p) = Spec.co2 (a := 2048) (b := 16384) (V c (Pipeline.arrRef spec9 0)) k (row9 t p) := by
  obtain ⟨e00, e01, e10, e11, e20, e21, e30, e31, e40, e41, e50, e51, e60, e61, e7b, e71⟩ := idx_facts9 t
  show V c main_v22 (((cfg9.win 0).blk t).view.emb (ix2 k p)) = V c main_v22 (ix2 k (row9 t p))
  refine congrArg _ (funext fun a => Fin.ext ?_)
  match a with
  | ⟨0, _⟩ => show win9_0.index t (0 : Fin 2) * 2048 + 1 * (k : Fin 2048).val = k.val; omega
  | ⟨1, _⟩ => show win9_0.index t (1 : Fin 2) * 512 + 1 * (p : Fin 512).val = win9_7.index t (0 : Fin 2) * 512 + p.val; omega

theorem read9_1 (c : Dev nD) (t : Fin cfg9.N) (k : Fin 2048) (p : Fin 512) :
    iblk9 V c 1 t (ix2 k p) = Spec.co2 (a := 2048) (b := 16384) (V c (Pipeline.arrRef spec9 1)) k (row9 t p) := by
  obtain ⟨e00, e01, e10, e11, e20, e21, e30, e31, e40, e41, e50, e51, e60, e61, e7b, e71⟩ := idx_facts9 t
  show V c main_v23 (((cfg9.win 1).blk t).view.emb (ix2 k p)) = V c main_v23 (ix2 k (row9 t p))
  refine congrArg _ (funext fun a => Fin.ext ?_)
  match a with
  | ⟨0, _⟩ => show win9_1.index t (0 : Fin 2) * 2048 + 1 * (k : Fin 2048).val = k.val; omega
  | ⟨1, _⟩ => show win9_1.index t (1 : Fin 2) * 512 + 1 * (p : Fin 512).val = win9_7.index t (0 : Fin 2) * 512 + p.val; omega

theorem read9_2 (c : Dev nD) (t : Fin cfg9.N) (k : Fin 2048) (q : Fin 1024) :
    iblk9 V c 2 t (ix2 k q) = Spec.co2 (a := 2048) (b := 1024) (V c (Pipeline.arrRef spec9 2)) k q := by
  obtain ⟨e00, e01, e10, e11, e20, e21, e30, e31, e40, e41, e50, e51, e60, e61, e7b, e71⟩ := idx_facts9 t
  show V c main_v43_0 (((cfg9.win 2).blk t).view.emb (ix2 k q)) = V c main_v43_0 (ix2 k q)
  refine congrArg _ (funext fun a => Fin.ext ?_)
  match a with
  | ⟨0, _⟩ => show win9_2.index t (0 : Fin 2) * 2048 + 1 * (k : Fin 2048).val = k.val; omega
  | ⟨1, _⟩ => show win9_2.index t (1 : Fin 2) * 1024 + 1 * (q : Fin 1024).val = q.val; omega

theorem read9_3 (c : Dev nD) (t : Fin cfg9.N) (k : Fin 2048) (q : Fin 1024) :
    iblk9 V c 3 t (ix2 k q) = Spec.co2 (a := 2048) (b := 1024) (V c (Pipeline.arrRef spec9 3)) k q := by
  obtain ⟨e00, e01, e10, e11, e20, e21, e30, e31, e40, e41, e50, e51, e60, e61, e7b, e71⟩ := idx_facts9 t
  show V c main_v43_1 (((cfg9.win 3).blk t).view.emb (ix2 k q)) = V c main_v43_1 (ix2 k q)
  refine congrArg _ (funext fun a => Fin.ext ?_)
  match a with
  | ⟨0, _⟩ => show win9_3.index t (0 : Fin 2) * 2048 + 1 * (k : Fin 2048).val = k.val; omega
  | ⟨1, _⟩ => show win9_3.index t (1 : Fin 2) * 1024 + 1 * (q : Fin 1024).val = q.val; omega

theorem read9_4 (c : Dev nD) (t : Fin cfg9.N) (p : Fin 512) :
    iblk9 V c 4 t (ix2 p (0 : Fin 1)) = Spec.co2 (a := 16384) (b := 1) (V c (Pipeline.arrRef spec9 4)) (row9 t p) 0 := by
  obtain ⟨e00, e01, e10, e11, e20, e21, e30, e31, e40, e41, e50, e51, e60, e61, e7b, e71⟩ := idx_facts9 t
  show V c main_v16 (((cfg9.win 4).blk t).view.emb (ix2 p (0 : Fin 1))) = V c main_v16 (ix2 (row9 t p) (0 : Fin 1))
  refine congrArg _ (funext fun a => Fin.ext ?_)
  match a with
  | ⟨0, _⟩ => show win9_4.index t (0 : Fin 2) * 512 + 1 * (p : Fin 512).val = win9_7.index t (0 : Fin 2) * 512 + p.val; omega
  | ⟨1, _⟩ => show win9_4.index t (1 : Fin 2) * 1 + 1 * ((0 : Fin 1) : Fin 1).val = (0 : Fin 1).val; omega

theorem read9_5 (c : Dev nD) (t : Fin cfg9.N) (p : Fin 512) :
    iblk9 V c 5 t (ix2 p (0 : Fin 1)) = Spec.co2 (a := 16384) (b := 1) (V c (Pipeline.arrRef spec9 5)) (row9 t p) 0 := by
  obtain ⟨e00, e01, e10, e11, e20, e21, e30, e31, e40, e41, e50, e51, e60, e61, e7b, e71⟩ := idx_facts9 t
  show V c main_v21 (((cfg9.win 5).blk t).view.emb (ix2 p (0 : Fin 1))) = V c main_v21 (ix2 (row9 t p) (0 : Fin 1))
  refine congrArg _ (funext fun a => Fin.ext ?_)
  match a with
  | ⟨0, _⟩ => show win9_5.index t (0 : Fin 2) * 512 + 1 * (p : Fin 512).val = win9_7.index t (0 : Fin 2) * 512 + p.val; omega
  | ⟨1, _⟩ => show win9_5.index t (1 : Fin 2) * 1 + 1 * ((0 : Fin 1) : Fin 1).val = (0 : Fin 1).val; omega

theorem read9_6 (c : Dev nD) (t : Fin cfg9.N) (p : Fin 512) (q : Fin 1024) :
    iblk9 V c 6 t (ix2 p q) = Spec.co2 (a := 16384) (b := 1024) (V c (Pipeline.arrRef spec9 6)) (row9 t p) q := by
  obtain ⟨e00, e01, e10, e11, e20, e21, e30, e31, e40, e41, e50, e51, e60, e61, e7b, e71⟩ := idx_facts9 t
  show V c main_v34 (((cfg9.win 6).blk t).view.emb (ix2 p q)) = V c main_v34 (ix2 (row9 t p) q)
  refine congrArg _ (funext fun a => Fin.ext ?_)
  match a with
  | ⟨0, _⟩ => show win9_6.index t (0 : Fin 2) * 512 + 1 * (p : Fin 512).val = win9_7.index t (0 : Fin 2) * 512 + p.val; omega
  | ⟨1, _⟩ => show win9_6.index t (1 : Fin 2) * 1024 + 1 * (q : Fin 1024).val = q.val; omega

/-- Where entry `(p, q)` of point `t`'s output block sits in the array. -/
theorem emb9_7 (t : Fin cfg9.N) (p : Fin 512) (q : Fin 1024) :
    ((cfg9.win 7).blk t).view.emb (ix2 p q) = ix2 (row9 t p) q := by
  obtain ⟨e00, e01, e10, e11, e20, e21, e30, e31, e40, e41, e50, e51, e60, e61, e7b, e71⟩ := idx_facts9 t
  refine funext fun a => Fin.ext ?_
  match a with
  | ⟨0, _⟩ => show win9_7.index t (0 : Fin 2) * 512 + 1 * p.val = win9_7.index t (0 : Fin 2) * 512 + p.val; omega
  | ⟨1, _⟩ => show win9_7.index t (1 : Fin 2) * 1024 + 1 * q.val = q.val; omega

/-- What the output array ends holding: row `r`, feature `d`. -/
def G9 (c : Dev nD) : S16384x1024.Idx → EReal :=
  Spec.arr2 (fun (r : Fin 16384) (d : Fin 1024) =>
      Spec.co2 (a := 16384) (b := 1024) (V c (Pipeline.arrRef spec9 6)) r d
        + Ideal.div (Ideal.div (∑ t : Fin 2048, Spec.co2 (a := 2048) (b := 16384) (V c (Pipeline.arrRef spec9 0)) t r * Spec.co2 (a := 2048) (b := 1024) (V c (Pipeline.arrRef spec9 2)) t d) (Spec.co2 (a := 16384) (b := 1) (V c (Pipeline.arrRef spec9 4)) r 0)
            + Ideal.div (∑ t : Fin 2048, Spec.co2 (a := 2048) (b := 16384) (V c (Pipeline.arrRef spec9 1)) t r * Spec.co2 (a := 2048) (b := 1024) (V c (Pipeline.arrRef spec9 3)) t d) (Spec.co2 (a := 16384) (b := 1) (V c (Pipeline.arrRef spec9 5)) r 0)) Spec.two)

/-- What point `t` writes back is block `t` of `G9`. -/
theorem flushed9_7_eq (c : Dev nD) (t : Fin cfg9.N) :
    (dat9 (F := Ideal) V c).flushed 7 t = ((cfg9.win 7).blk t).view.read (Elt Ideal) (G9 V c) := by
  show (cfg9.win 7).cut (grid9.coords t) ((dat9 V c).after 7 t) = _
  rw [after9_7]
  unfold out9_7
  rw [View.canon_unit_zero hz9]
  simp only [View.ld_unit_zero (S := S2048x512) hz9, View.ld_unit_zero (S := S2048x1024) hz9, View.ld_unit_zero (S := S512x1) hz9, View.ld_unit_zero (S := S512x1024) hz9]
  funext j
  obtain ⟨p, q, rfl⟩ : ∃ (p : Fin 512) (q : Fin 1024), j = ix2 p q := ⟨j 0, j 1, eq_ix2 j⟩
  show k9_pay1 (F := Ideal) (iblk9 V c 0 t) (iblk9 V c 2 t) (iblk9 V c 4 t) (iblk9 V c 1 t) (iblk9 V c 3 t) (iblk9 V c 5 t) (iblk9 V c 6 t) (ix2 p q)
    = G9 V c (((cfg9.win 7).blk t).view.emb (ix2 p q))
  rw [pay9_apply, emb9_7, read9_6, read9_4, read9_5]
  simp only [read9_0, read9_1, read9_2, read9_3]
  rfl

/-- An index of the array is in point `t`'s block iff each coordinate is in the block's range on its axis. -/
theorem mem_blk9_7 (t : Fin cfg9.N) (i : S16384x1024.Idx) :
    i ∈ ((cfg9.win 7).blk t).view.set ↔ ∀ a : Fin 2, win9_7.index t a * S512x1024.size a ≤ (i a).val ∧ (i a).val < win9_7.index t a * S512x1024.size a + S512x1024.size a := by
  show i ∈ ((View.whole main_v44).slice (win9_7.rect t)).set ↔ _
  rw [View.set_slice_whole, Rect.mem_set_unit]
  exact Iff.rfl

/-- Every index of the array is in some point's block: row `r` is in the block of point `r / 512`. -/
theorem covered9_7 (i : S16384x1024.Idx) :
    ∃ t : Fin cfg9.N, (cfg9.win 7).flush t = true ∧ i ∈ ((cfg9.win 7).blk t).view.set := by
  have hi0 : (i 0).val < 16384 := (i 0).isLt
  have hi1 : (i 1).val < 1024 := (i 1).isLt
  obtain ⟨t, ht⟩ := idx_onto9 ⟨(i 0).val / 512, by omega⟩
  have q0 : win9_7.index t (0 : Fin 2) = (i 0).val / 512 := congrFun ht 0
  have q1 : win9_7.index t (1 : Fin 2) = 0 := congrFun ht 1
  refine ⟨t, flush9_7 t, ?_⟩
  rw [mem_blk9_7]
  intro a
  match a with
  | ⟨0, _⟩ => show win9_7.index t (0 : Fin 2) * 512 ≤ (i 0).val ∧ (i 0).val < win9_7.index t (0 : Fin 2) * 512 + 512; omega
  | ⟨1, _⟩ => show win9_7.index t (1 : Fin 2) * 1024 ≤ (i 1).val ∧ (i 1).val < win9_7.index t (1 : Fin 2) * 1024 + 1024; omega

/-- THE OUTPUT ARRAY after the region: the relation features plus half the sum of the two collections, from the arrays
    the region's windows read at its entry. -/
theorem val9 (c : Dev nD) :
    (dat9 (F := Ideal) V c).arrAt 7 cfg9.N = Spec.arr2 (fun (r : Fin 16384) (d : Fin 1024) =>
      Spec.co2 (a := 16384) (b := 1024) (V c (Pipeline.arrRef spec9 6)) r d
        + Ideal.div (Ideal.div (∑ t : Fin 2048, Spec.co2 (a := 2048) (b := 16384) (V c (Pipeline.arrRef spec9 0)) t r * Spec.co2 (a := 2048) (b := 1024) (V c (Pipeline.arrRef spec9 2)) t d) (Spec.co2 (a := 16384) (b := 1) (V c (Pipeline.arrRef spec9 4)) r 0)
            + Ideal.div (∑ t : Fin 2048, Spec.co2 (a := 2048) (b := 16384) (V c (Pipeline.arrRef spec9 1)) t r * Spec.co2 (a := 2048) (b := 1024) (V c (Pipeline.arrRef spec9 3)) t d) (Spec.co2 (a := 16384) (b := 1) (V c (Pipeline.arrRef spec9 5)) r 0)) Spec.two) :=
  (dat9 V c).arrAt_eq_of_cover 7 (G9 V c) (fun t _ => flushed9_7_eq V c t) (covered9_7)

end Cert.KernelIdeal.HandVal
-- ==== Proof.KI.Chain2a.lean ====
/-
  Round two of the kernel program, first links: the projection of the round-one object features by the self weights
  (region 6), and the relation features after round two (region 9). Each link reads its region's output array as the
  region's value at the region's input arrays, and walks every input array back through the items that do not write it:
  to the item that wrote it (whose fact is a hypothesis here), or to the launch memory for an argument array; a bias
  row, an attention matrix and a denominator are what the host operations before the regions wrote.
-/
import proofs.«152197_j87351044866369_2_alg».proof.Proof.KI.ChainBase
import proofs.«152197_j87351044866369_2_alg».proof.Proof.KI.Val6
import proofs.«152197_j87351044866369_2_alg».proof.Proof.KI.Val9

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 6 the buffer `main_v39` holds the projection, by the self weights, of the object features after round one. -/
theorem F39 (h6 : ∀ V c, 𝒟.D 6 V c = dat6 V c)
    (h30 : Cert.Spec.co2 (a := 2048) (b := 1024) (W5 𝒟 m c (Proc.devRef .tc main_v30)) = Cert.Spec.obj1 (A m c)) :
    Cert.Spec.co2 (a := 2048) (b := 1024) (W12 𝒟 m c (Proc.devRef .tc main_v39))
      = Cert.Spec.fc (Cert.Spec.obj1 (A m c)) (A m c).wSelf (A m c).bSelf := by
  have e : W12 𝒟 m c (Proc.devRef .tc main_v39) = (dat6 (F := Ideal) (rd (W11 𝒟 m)) c).arrAt 3 cfg6.N := by
    rw [← h6]; exact stepR_arr 𝒟 6 (W11 𝒟 m) c 3
  have hx : Cert.Spec.co2 (a := 2048) (b := 1024) (rd (W11 𝒟 m) c (Pipeline.arrRef spec6 0)) = Cert.Spec.obj1 (A m c) := by
    show Cert.Spec.co2 (a := 2048) (b := 1024) (W11 𝒟 m c (Proc.devRef .tc main_v30)) = _
    rw [back11 𝒟 m c main_v30 (by decide), back10 𝒟 m c main_v30 (by decide), back9 𝒟 m c main_v30 (by decide), back8 𝒟 m c main_v30 (by decide), back7 𝒟 m c main_v30 (by decide), back6 𝒟 m c main_v30 (by decide)]
    exact h30
  have hw : Cert.Spec.co2 (a := 1024) (b := 1024) (rd (W11 𝒟 m) c (Pipeline.arrRef spec6 1)) = (A m c).wSelf := by
    show Cert.Spec.co2 (a := 1024) (b := 1024) (W11 𝒟 m c (Proc.devRef .tc main_arg13)) = _
    rw [back11 𝒟 m c main_arg13 (by decide), back10 𝒟 m c main_arg13 (by decide), back9 𝒟 m c main_arg13 (by decide), back8 𝒟 m c main_arg13 (by decide), back7 𝒟 m c main_arg13 (by decide), back6 𝒟 m c main_arg13 (by decide), back5 𝒟 m c main_arg13 (by decide), back4 𝒟 m c main_arg13 (by decide), back3 𝒟 m c main_arg13 (by decide), back2 𝒟 m c main_arg13 (by decide), back1 m c main_arg13 (by decide)]
    rfl
  have hb : (fun d : Fin 1024 => (rd (W11 𝒟 m) c (Pipeline.arrRef spec6 2) : S1x1024.Idx → EReal) (ix2 0 d)) = (A m c).bSelf := by
    funext d
    show (StableHlo.after (hostOps6 (F := Ideal)) (W10 𝒟 m c) (Proc.devRef .tc main_v38) : S1x1024.Idx → EReal) (ix2 0 d) = _
    rw [bias_row_38 (W10 𝒟 m c) d, back10 𝒟 m c main_arg14 (by decide), back9 𝒟 m c main_arg14 (by decide), back8 𝒟 m c main_arg14 (by decide), back7 𝒟 m c main_arg14 (by decide), back6 𝒟 m c main_arg14 (by decide), back5 𝒟 m c main_arg14 (by decide), back4 𝒟 m c main_arg14 (by decide), back3 𝒟 m c main_arg14 (by decide), back2 𝒟 m c main_arg14 (by decide), back1 m c main_arg14 (by decide)]
    rfl
  rw [e, val6]
  unfold G6
  rw [co2_arr2, hx, hw, hb]

/-- After region 9 the buffer `main_v44` holds the relation features after round two, given what the region's inputs
    hold: the relation features after round one and the two projections of the object features after round one. The
    attention matrices are the arguments' (the host's format changes are the identity here and are read transposed by
    the region), and the denominators are the host's column sums plus `ε`. -/
theorem F44_of (h9 : ∀ V c, 𝒟.D 9 V c = dat9 V c)
    (h34 : Cert.Spec.co2 (a := 16384) (b := 1024) (W8 𝒟 m c (Proc.devRef .tc main_v34)) = Cert.Spec.rel1 (A m c))
    (h43_0 : Cert.Spec.co2 (a := 2048) (b := 1024) (W15 𝒟 m c (Proc.devRef .tc main_v43_0)) = Cert.Spec.fc (Cert.Spec.obj1 (A m c)) (A m c).wOS (A m c).bOS)
    (h43_1 : Cert.Spec.co2 (a := 2048) (b := 1024) (W15 𝒟 m c (Proc.devRef .tc main_v43_1)) = Cert.Spec.fc (Cert.Spec.obj1 (A m c)) (A m c).wOO (A m c).bOO) :
    Cert.Spec.co2 (a := 16384) (b := 1024) (W16 𝒟 m c (Proc.devRef .tc main_v44)) = Cert.Spec.rel2 (A m c) := by
  have e : W16 𝒟 m c (Proc.devRef .tc main_v44) = (dat9 (F := Ideal) (rd (W15 𝒟 m)) c).arrAt 7 cfg9.N := by
    rw [← h9]; exact stepR_arr 𝒟 9 (W15 𝒟 m) c 7
  have hxr : Cert.Spec.co2 (a := 16384) (b := 1024) (rd (W15 𝒟 m) c (Pipeline.arrRef spec9 6)) = Cert.Spec.rel1 (A m c) := by
    show Cert.Spec.co2 (a := 16384) (b := 1024) (W15 𝒟 m c (Proc.devRef .tc main_v34)) = _
    rw [back15 𝒟 m c main_v34 (by decide), back14 𝒟 m c main_v34 (by decide), back13 𝒟 m c main_v34 (by decide), back12 𝒟 m c main_v34 (by decide), back11 𝒟 m c main_v34 (by decide), back10 𝒟 m c main_v34 (by decide), back9 𝒟 m c main_v34 (by decide)]
    exact h34
  have ha0 : Cert.Spec.co2 (a := 2048) (b := 16384) (rd (W15 𝒟 m) c (Pipeline.arrRef spec9 0)) = (A m c).aSub := by
    show Cert.Spec.co2 (a := 2048) (b := 16384) (W15 𝒟 m c (Proc.devRef .tc main_v22)) = _
    rw [back15 𝒟 m c main_v22 (by decide), back14 𝒟 m c main_v22 (by decide), back13 𝒟 m c main_v22 (by decide), back12 𝒟 m c main_v22 (by decide), back11 𝒟 m c main_v22 (by decide), back10 𝒟 m c main_v22 (by decide), back9 𝒟 m c main_v22 (by decide), back8 𝒟 m c main_v22 (by decide), back7 𝒟 m c main_v22 (by decide), back6 𝒟 m c main_v22 (by decide), back5 𝒟 m c main_v22 (by decide), back4 𝒟 m c main_v22 (by decide), back3 𝒟 m c main_v22 (by decide), back2 𝒟 m c main_v22 (by decide)]
    show Cert.Spec.co2 (a := 2048) (b := 16384) ((StableHlo.after (hostOps0 (F := Ideal)) (W0 m c) (Proc.devRef .tc main_v22) : S2048x16384.Idx → EReal)) = _
    rw [attn_sub_narrow (W0 m c)]
    rfl
  have ha1 : Cert.Spec.co2 (a := 2048) (b := 16384) (rd (W15 𝒟 m) c (Pipeline.arrRef spec9 1)) = (A m c).aObj := by
    show Cert.Spec.co2 (a := 2048) (b := 16384) (W15 𝒟 m c (Proc.devRef .tc main_v23)) = _
    rw [back15 𝒟 m c main_v23 (by decide), back14 𝒟 m c main_v23 (by decide), back13 𝒟 m c main_v23 (by decide), back12 𝒟 m c main_v23 (by decide), back11 𝒟 m c main_v23 (by decide), back10 𝒟 m c main_v23 (by decide), back9 𝒟 m c main_v23 (by decide), back8 𝒟 m c main_v23 (by decide), back7 𝒟 m c main_v23 (by decide), back6 𝒟 m c main_v23 (by decide), back5 𝒟 m c main_v23 (by decide), back4 𝒟 m c main_v23 (by decide), back3 𝒟 m c main_v23 (by decide), back2 𝒟 m c main_v23 (by decide)]
    show Cert.Spec.co2 (a := 2048) (b := 16384) ((StableHlo.after (hostOps0 (F := Ideal)) (W0 m c) (Proc.devRef .tc main_v23) : S2048x16384.Idx → EReal)) = _
    rw [attn_obj_narrow (W0 m c)]
    rfl
  have hf0 : Cert.Spec.co2 (a := 2048) (b := 1024) (rd (W15 𝒟 m) c (Pipeline.arrRef spec9 2)) = Cert.Spec.fc (Cert.Spec.obj1 (A m c)) (A m c).wOS (A m c).bOS := h43_0
  have hf1 : Cert.Spec.co2 (a := 2048) (b := 1024) (rd (W15 𝒟 m) c (Pipeline.arrRef spec9 3)) = Cert.Spec.fc (Cert.Spec.obj1 (A m c)) (A m c).wOO (A m c).bOO := h43_1
  have hd0 : ∀ r : Fin 16384, Cert.Spec.co2 (a := 16384) (b := 1) (rd (W15 𝒟 m) c (Pipeline.arrRef spec9 4)) r 0
      = (∑ t : Fin 2048, (A m c).aSub t r) + Cert.Spec.eps := by
    intro r
    show Cert.Spec.co2 (a := 16384) (b := 1) (W15 𝒟 m c (Proc.devRef .tc main_v16)) r 0 = _
    rw [back15 𝒟 m c main_v16 (by decide), back14 𝒟 m c main_v16 (by decide), back13 𝒟 m c main_v16 (by decide), back12 𝒟 m c main_v16 (by decide), back11 𝒟 m c main_v16 (by decide), back10 𝒟 m c main_v16 (by decide), back9 𝒟 m c main_v16 (by decide), back8 𝒟 m c main_v16 (by decide), back7 𝒟 m c main_v16 (by decide), back6 𝒟 m c main_v16 (by decide), back5 𝒟 m c main_v16 (by decide), back4 𝒟 m c main_v16 (by decide), back3 𝒟 m c main_v16 (by decide), back2 𝒟 m c main_v16 (by decide)]
    show (StableHlo.after (hostOps0 (F := Ideal)) (W0 m c) (Proc.devRef .tc main_v16) : S16384x1.Idx → EReal) (ix2 r 0) = _
    rw [denom_rel_sub (W0 m c) r]
    rfl
  have hd1 : ∀ r : Fin 16384, Cert.Spec.co2 (a := 16384) (b := 1) (rd (W15 𝒟 m) c (Pipeline.arrRef spec9 5)) r 0
      = (∑ t : Fin 2048, (A m c).aObj t r) + Cert.Spec.eps := by
    intro r
    show Cert.Spec.co2 (a := 16384) (b := 1) (W15 𝒟 m c (Proc.devRef .tc main_v21)) r 0 = _
    rw [back15 𝒟 m c main_v21 (by decide), back14 𝒟 m c main_v21 (by decide), back13 𝒟 m c main_v21 (by decide), back12 𝒟 m c main_v21 (by decide), back11 𝒟 m c main_v21 (by decide), back10 𝒟 m c main_v21 (by decide), back9 𝒟 m c main_v21 (by decide), back8 𝒟 m c main_v21 (by decide), back7 𝒟 m c main_v21 (by decide), back6 𝒟 m c main_v21 (by decide), back5 𝒟 m c main_v21 (by decide), back4 𝒟 m c main_v21 (by decide), back3 𝒟 m c main_v21 (by decide), back2 𝒟 m c main_v21 (by decide)]
    show (StableHlo.after (hostOps0 (F := Ideal)) (W0 m c) (Proc.devRef .tc main_v21) : S16384x1.Idx → EReal) (ix2 r 0) = _
    rw [denom_rel_obj (W0 m c) r]
    rfl
  rw [e, val9, co2_arr2]
  funext r d
  rw [hxr, ha0, ha1, hf0, hf1, hd0 r, hd1 r]
  rfl

end Cert.KernelIdeal.HandVal

end
-- ==== Proof.KI.Val5.lean ====
import proofs.«152197_j87351044866369_2_alg».proof.Proof.KI.Reg5
import proofs.«152197_j87351044866369_2_alg».proof.Proof.KI.FcPay
import proofs.«152197_j87351044866369_2_alg».proof.Proof.Spec
import Idealize.ShloMosaic.Lib.Pipeline.Value

/-! # Region 5 at the ideal values: the two projected arrays

The region writes block `t` of each of its two outputs from block `t` of the source rows, one whole weight matrix and
one bias row. Each write-back is block `t` of ONE function of the region's input arrays — the projection
`max (X · Wᵀ + b) 0` row by row — and the 16 blocks tile the 16384 rows, so after the region each output array is
that function of the source and of its own weights and bias. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The projection of the source array `X` by the weights `W` and the bias row `B`, as an array. -/
def G5 (X : S16384x1024.Idx → EReal) (W : S1024x1024.Idx → EReal) (B : S1x1024.Idx → EReal) : S16384x1024.Idx → EReal :=
  Spec.arr2 (Spec.fc (Spec.co2 X) (Spec.co2 W) (fun d => B (ix2 0 d)))

/-- The printed index maps over the grid: the source and output blocks are the point's, each weight matrix's and
    bias's block is its one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Block `t` of the projection: the projection of block `t` of the source rows by the whole weight matrix and bias row
    is block `t` (of window 5) of the projection of the whole source array. -/
theorem blk5_5_eq (X : S16384x1024.Idx → EReal) (W : S1024x1024.Idx → EReal) (B : S1x1024.Idx → EReal) (t : Fin cfg5.N) :
    (cfg5.win 5).cut (grid5.coords t) (fcBlk (((cfg5.win 0).blk t).view.read (Elt Ideal) X)
        (((cfg5.win 1).blk t).view.read (Elt Ideal) W) (((cfg5.win 2).blk t).view.read (Elt Ideal) B))
      = ((cfg5.win 5).blk t).view.read (Elt Ideal) (G5 X W B) := by
  obtain ⟨e00, e01, e10, e11, e20, e21, e30, e31, e40, e41, e50, e51, e60, e61⟩ := idx_facts5 t
  funext j
  show max ((∑ k : Fin 1024, X (((cfg5.win 0).blk t).view.emb (ix2 (j 0) k)) * W (((cfg5.win 1).blk t).view.emb (ix2 (j 1) k)))
      + B (((cfg5.win 2).blk t).view.emb (ix2 0 (j 1)))) 0
    = max ((∑ k : Fin 1024, X (ix2 ⟨((((cfg5.win 5).blk t).view.emb j) 0).val, ((((cfg5.win 5).blk t).view.emb j) 0).isLt⟩ k)
        * W (ix2 ⟨((((cfg5.win 5).blk t).view.emb j) 1).val, ((((cfg5.win 5).blk t).view.emb j) 1).isLt⟩ k))
      + B (ix2 0 ⟨((((cfg5.win 5).blk t).view.emb j) 1).val, ((((cfg5.win 5).blk t).view.emb j) 1).isLt⟩)) 0
  have hj0 : (j 0).val < 1024 := (j 0).isLt
  have hj1 : (j 1).val < 1024 := (j 1).isLt
  have h0 : ∀ k : Fin 1024, ((cfg5.win 0).blk t).view.emb (ix2 (j 0) k)
      = ix2 ⟨((((cfg5.win 5).blk t).view.emb j) 0).val, ((((cfg5.win 5).blk t).view.emb j) 0).isLt⟩ k := fun k => by
    funext a; apply Fin.ext
    match a with
    | ⟨0, _⟩ => show win5_0.index t (0 : Fin 2) * 1024 + 1 * (j 0).val = win5_5.index t (0 : Fin 2) * 1024 + 1 * (j 0).val; omega
    | ⟨1, _⟩ => show win5_0.index t (1 : Fin 2) * 1024 + 1 * k.val = k.val; omega
  have h1 : ∀ k : Fin 1024, ((cfg5.win 1).blk t).view.emb (ix2 (j 1) k)
      = ix2 ⟨((((cfg5.win 5).blk t).view.emb j) 1).val, ((((cfg5.win 5).blk t).view.emb j) 1).isLt⟩ k := fun k => by
    funext a; apply Fin.ext
    match a with
    | ⟨0, _⟩ => show win5_1.index t (0 : Fin 2) * 1024 + 1 * (j 1).val = win5_5.index t (1 : Fin 2) * 1024 + 1 * (j 1).val; omega
    | ⟨1, _⟩ => show win5_1.index t (1 : Fin 2) * 1024 + 1 * k.val = k.val; omega
  have h2 : ((cfg5.win 2).blk t).view.emb (ix2 0 (j 1))
      = ix2 0 ⟨((((cfg5.win 5).blk t).view.emb j) 1).val, ((((cfg5.win 5).blk t).view.emb j) 1).isLt⟩ := by
    funext a; apply Fin.ext
    match a with
    | ⟨0, _⟩ => show win5_2.index t (0 : Fin 2) * 1 + 1 * 0 = 0; omega
    | ⟨1, _⟩ => show win5_2.index t (1 : Fin 2) * 1024 + 1 * (j 1).val = win5_5.index t (1 : Fin 2) * 1024 + 1 * (j 1).val; omega
  have hS : (∑ k : Fin 1024, X (((cfg5.win 0).blk t).view.emb (ix2 (j 0) k)) * W (((cfg5.win 1).blk t).view.emb (ix2 (j 1) k)))
      = ∑ k : Fin 1024, X (ix2 ⟨((((cfg5.win 5).blk t).view.emb j) 0).val, ((((cfg5.win 5).blk t).view.emb j) 0).isLt⟩ k)
        * W (ix2 ⟨((((cfg5.win 5).blk t).view.emb j) 1).val, ((((cfg5.win 5).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 5 is block `t` of the projection of the arrays as the region finds them. -/
theorem flushed5_5_eq (c : Dev nD) (t : Fin cfg5.N) :
    (dat5 V c).flushed 5 t = ((cfg5.win 5).blk t).view.read (Elt Ideal)
      (G5 (V c (Pipeline.arrRef spec5 0)) (V c (Pipeline.arrRef spec5 1)) (V c (Pipeline.arrRef spec5 2))) := by
  show (cfg5.win 5).cut (grid5.coords t) ((dat5 V c).after 5 t) = _
  rw [after5_5]
  unfold out5_5
  rw [View.canon_unit_zero hz5]
  simp only [View.ld_unit_zero (S := S1024x1024) hz5, View.ld_unit_zero (S := S1x1024) hz5]
  rw [k5_pay2_eq]
  exact blk5_5_eq (V c (Pipeline.arrRef spec5 0)) (V c (Pipeline.arrRef spec5 1)) (V c (Pipeline.arrRef spec5 2)) t

/-- An index of window 5's array is in point `t`'s block iff each coordinate is in the block's range on its axis. -/
theorem mem_blk5_5 (t : Fin cfg5.N) (i : S16384x1024.Idx) :
    i ∈ ((cfg5.win 5).blk t).view.set ↔ ∀ a : Fin 2, win5_5.index t a * S1024x1024.size a ≤ (i a).val ∧ (i a).val < win5_5.index t a * S1024x1024.size a + S1024x1024.size a := by
  show i ∈ ((View.whole main_v37_0).slice (win5_5.rect t)).set ↔ _
  rw [View.set_slice_whole, Rect.mem_set_unit]
  exact Iff.rfl

/-- The 16 blocks tile the array: row `r` is in the block of point `r / 1024`. -/
theorem covered5_5 (i : S16384x1024.Idx) :
    ∃ t : Fin cfg5.N, (cfg5.win 5).flush t = true ∧ i ∈ ((cfg5.win 5).blk t).view.set := by
  have hi0 : (i 0).val < 16384 := (i 0).isLt
  have hi1 : (i 1).val < 1024 := (i 1).isLt
  have hN : cfg5.N = 16 := N_5
  let t : Fin cfg5.N := ⟨(i 0).val / 1024, by omega⟩
  obtain ⟨e00, e01, e10, e11, e20, e21, e30, e31, e40, e41, e50, e51, e60, e61⟩ := idx_facts5 t
  have ht : t.val = (i 0).val / 1024 := rfl
  refine ⟨t, flush5_5 t, ?_⟩
  rw [mem_blk5_5]
  intro a
  match a with
  | ⟨0, _⟩ => show win5_5.index t (0 : Fin 2) * 1024 ≤ (i 0).val ∧ (i 0).val < win5_5.index t (0 : Fin 2) * 1024 + 1024; omega
  | ⟨1, _⟩ => show win5_5.index t (1 : Fin 2) * 1024 ≤ (i 1).val ∧ (i 1).val < win5_5.index t (1 : Fin 2) * 1024 + 1024; omega

/-- OUTPUT ARRAY 5 after the region: the projection of the region's input arrays by its weights and bias. -/
theorem val5_5 (c : Dev nD) : (dat5 (F := Ideal) V c).arrAt 5 cfg5.N
    = G5 (V c (Pipeline.arrRef spec5 0)) (V c (Pipeline.arrRef spec5 1)) (V c (Pipeline.arrRef spec5 2)) :=
  (dat5 V c).arrAt_eq_of_cover 5 _ (fun t _ => flushed5_5_eq V c t) (covered5_5)

/-- Block `t` of the projection: the projection of block `t` of the source rows by the whole weight matrix and bias row
    is block `t` (of window 6) of the projection of the whole source array. -/
theorem blk5_6_eq (X : S16384x1024.Idx → EReal) (W : S1024x1024.Idx → EReal) (B : S1x1024.Idx → EReal) (t : Fin cfg5.N) :
    (cfg5.win 6).cut (grid5.coords t) (fcBlk (((cfg5.win 0).blk t).view.read (Elt Ideal) X)
        (((cfg5.win 3).blk t).view.read (Elt Ideal) W) (((cfg5.win 4).blk t).view.read (Elt Ideal) B))
      = ((cfg5.win 6).blk t).view.read (Elt Ideal) (G5 X W B) := by
  obtain ⟨e00, e01, e10, e11, e20, e21, e30, e31, e40, e41, e50, e51, e60, e61⟩ := idx_facts5 t
  funext j
  show max ((∑ k : Fin 1024, X (((cfg5.win 0).blk t).view.emb (ix2 (j 0) k)) * W (((cfg5.win 3).blk t).view.emb (ix2 (j 1) k)))
      + B (((cfg5.win 4).blk t).view.emb (ix2 0 (j 1)))) 0
    = max ((∑ k : Fin 1024, X (ix2 ⟨((((cfg5.win 6).blk t).view.emb j) 0).val, ((((cfg5.win 6).blk t).view.emb j) 0).isLt⟩ k)
        * W (ix2 ⟨((((cfg5.win 6).blk t).view.emb j) 1).val, ((((cfg5.win 6).blk t).view.emb j) 1).isLt⟩ k))
      + B (ix2 0 ⟨((((cfg5.win 6).blk t).view.emb j) 1).val, ((((cfg5.win 6).blk t).view.emb j) 1).isLt⟩)) 0
  have hj0 : (j 0).val < 1024 := (j 0).isLt
  have hj1 : (j 1).val < 1024 := (j 1).isLt
  have h0 : ∀ k : Fin 1024, ((cfg5.win 0).blk t).view.emb (ix2 (j 0) k)
      = ix2 ⟨((((cfg5.win 6).blk t).view.emb j) 0).val, ((((cfg5.win 6).blk t).view.emb j) 0).isLt⟩ k := fun k => by
    funext a; apply Fin.ext
    match a with
    | ⟨0, _⟩ => show win5_0.index t (0 : Fin 2) * 1024 + 1 * (j 0).val = win5_6.index t (0 : Fin 2) * 1024 + 1 * (j 0).val; omega
    | ⟨1, _⟩ => show win5_0.index t (1 : Fin 2) * 1024 + 1 * k.val = k.val; omega
  have h1 : ∀ k : Fin 1024, ((cfg5.win 3).blk t).view.emb (ix2 (j 1) k)
      = ix2 ⟨((((cfg5.win 6).blk t).view.emb j) 1).val, ((((cfg5.win 6).blk t).view.emb j) 1).isLt⟩ k := fun k => by
    funext a; apply Fin.ext
    match a with
    | ⟨0, _⟩ => show win5_3.index t (0 : Fin 2) * 1024 + 1 * (j 1).val = win5_6.index t (1 : Fin 2) * 1024 + 1 * (j 1).val; omega
    | ⟨1, _⟩ => show win5_3.index t (1 : Fin 2) * 1024 + 1 * k.val = k.val; omega
  have h2 : ((cfg5.win 4).blk t).view.emb (ix2 0 (j 1))
      = ix2 0 ⟨((((cfg5.win 6).blk t).view.emb j) 1).val, ((((cfg5.win 6).blk t).view.emb j) 1).isLt⟩ := by
    funext a; apply Fin.ext
    match a with
    | ⟨0, _⟩ => show win5_4.index t (0 : Fin 2) * 1 + 1 * 0 = 0; omega
    | ⟨1, _⟩ => show win5_4.index t (1 : Fin 2) * 1024 + 1 * (j 1).val = win5_6.index t (1 : Fin 2) * 1024 + 1 * (j 1).val; omega
  have hS : (∑ k : Fin 1024, X (((cfg5.win 0).blk t).view.emb (ix2 (j 0) k)) * W (((cfg5.win 3).blk t).view.emb (ix2 (j 1) k)))
      = ∑ k : Fin 1024, X (ix2 ⟨((((cfg5.win 6).blk t).view.emb j) 0).val, ((((cfg5.win 6).blk t).view.emb j) 0).isLt⟩ k)
        * W (ix2 ⟨((((cfg5.win 6).blk t).view.emb j) 1).val, ((((cfg5.win 6).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 6 is block `t` of the projection of the arrays as the region finds them. -/
theorem flushed5_6_eq (c : Dev nD) (t : Fin cfg5.N) :
    (dat5 V c).flushed 6 t = ((cfg5.win 6).blk t).view.read (Elt Ideal)
      (G5 (V c (Pipeline.arrRef spec5 0)) (V c (Pipeline.arrRef spec5 3)) (V c (Pipeline.arrRef spec5 4))) := by
  show (cfg5.win 6).cut (grid5.coords t) ((dat5 V c).after 6 t) = _
  rw [after5_6]
  unfold out5_6
  rw [View.canon_unit_zero hz5]
  simp only [View.ld_unit_zero (S := S1024x1024) hz5, View.ld_unit_zero (S := S1x1024) hz5]
  rw [k5_pay3_eq]
  exact blk5_6_eq (V c (Pipeline.arrRef spec5 0)) (V c (Pipeline.arrRef spec5 3)) (V c (Pipeline.arrRef spec5 4)) t

/-- An index of window 6's array is in point `t`'s block iff each coordinate is in the block's range on its axis. -/
theorem mem_blk5_6 (t : Fin cfg5.N) (i : S16384x1024.Idx) :
    i ∈ ((cfg5.win 6).blk t).view.set ↔ ∀ a : Fin 2, win5_6.index t a * S1024x1024.size a ≤ (i a).val ∧ (i a).val < win5_6.index t a * S1024x1024.size a + S1024x1024.size a := by
  show i ∈ ((View.whole main_v37_1).slice (win5_6.rect t)).set ↔ _
  rw [View.set_slice_whole, Rect.mem_set_unit]
  exact Iff.rfl

/-- The 16 blocks tile the array: row `r` is in the block of point `r / 1024`. -/
theorem covered5_6 (i : S16384x1024.Idx) :
    ∃ t : Fin cfg5.N, (cfg5.win 6).flush t = true ∧ i ∈ ((cfg5.win 6).blk t).view.set := by
  have hi0 : (i 0).val < 16384 := (i 0).isLt
  have hi1 : (i 1).val < 1024 := (i 1).isLt
  have hN : cfg5.N = 16 := N_5
  let t : Fin cfg5.N := ⟨(i 0).val / 1024, by omega⟩
  obtain ⟨e00, e01, e10, e11, e20, e21, e30, e31, e40, e41, e50, e51, e60, e61⟩ := idx_facts5 t
  have ht : t.val = (i 0).val / 1024 := rfl
  refine ⟨t, flush5_6 t, ?_⟩
  rw [mem_blk5_6]
  intro a
  match a with
  | ⟨0, _⟩ => show win5_6.index t (0 : Fin 2) * 1024 ≤ (i 0).val ∧ (i 0).val < win5_6.index t (0 : Fin 2) * 1024 + 1024; omega
  | ⟨1, _⟩ => show win5_6.index t (1 : Fin 2) * 1024 ≤ (i 1).val ∧ (i 1).val < win5_6.index t (1 : Fin 2) * 1024 + 1024; omega

/-- OUTPUT ARRAY 6 after the region: the projection of the region's input arrays by its weights and bias. -/
theorem val5_6 (c : Dev nD) : (dat5 (F := Ideal) V c).arrAt 6 cfg5.N
    = G5 (V c (Pipeline.arrRef spec5 0)) (V c (Pipeline.arrRef spec5 3)) (V c (Pipeline.arrRef spec5 4)) :=
  (dat5 V c).arrAt_eq_of_cover 6 _ (fun t _ => flushed5_6_eq V c t) (covered5_6)

end Cert.KernelIdeal.HandVal
-- ==== Proof.KI.Chain2b.lean ====
/-
  Round two of the kernel program: the two projections of the round-one relation features towards the objects
  (region 5, one source array, two weight matrices and bias rows, two output arrays). Each output array is the region's
  value at its input arrays; the source array is walked back to the region that wrote it (its fact is a hypothesis),
  the weights to the launch memory, and the bias rows are what the host operations before the region wrote.
-/
import proofs.«152197_j87351044866369_2_alg».proof.Proof.KI.ChainBase
import proofs.«152197_j87351044866369_2_alg».proof.Proof.KI.Val5

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 5 the buffer `main_v37_0` holds the projection, by the subject weights towards the objects, of the relation features after round one. -/
theorem F37_0 (h5 : ∀ V c, 𝒟.D 5 V c = dat5 V c)
    (h34 : Cert.Spec.co2 (a := 16384) (b := 1024) (W8 𝒟 m c (Proc.devRef .tc main_v34)) = Cert.Spec.rel1 (A m c)) :
    Cert.Spec.co2 (a := 16384) (b := 1024) (W10 𝒟 m c (Proc.devRef .tc main_v37_0))
      = Cert.Spec.fc (Cert.Spec.rel1 (A m c)) (A m c).wRS (A m c).bRS := by
  have e : W10 𝒟 m c (Proc.devRef .tc main_v37_0) = (dat5 (F := Ideal) (rd (W9 𝒟 m)) c).arrAt 5 cfg5.N := by
    rw [← h5]; exact stepR_arr 𝒟 5 (W9 𝒟 m) c 5
  have hx : Cert.Spec.co2 (a := 16384) (b := 1024) (rd (W9 𝒟 m) c (Pipeline.arrRef spec5 0)) = Cert.Spec.rel1 (A m c) := by
    show Cert.Spec.co2 (a := 16384) (b := 1024) (W9 𝒟 m c (Proc.devRef .tc main_v34)) = _
    rw [back9 𝒟 m c main_v34 (by decide)]
    exact h34
  have hw : Cert.Spec.co2 (a := 1024) (b := 1024) (rd (W9 𝒟 m) c (Pipeline.arrRef spec5 1)) = (A m c).wRS := by
    show Cert.Spec.co2 (a := 1024) (b := 1024) (W9 𝒟 m c (Proc.devRef .tc main_arg5)) = _
    rw [back9 𝒟 m c main_arg5 (by decide), back8 𝒟 m c main_arg5 (by decide), back7 𝒟 m c main_arg5 (by decide), back6 𝒟 m c main_arg5 (by decide), back5 𝒟 m c main_arg5 (by decide), back4 𝒟 m c main_arg5 (by decide), back3 𝒟 m c main_arg5 (by decide), back2 𝒟 m c main_arg5 (by decide), back1 m c main_arg5 (by decide)]
    rfl
  have hb : (fun d : Fin 1024 => (rd (W9 𝒟 m) c (Pipeline.arrRef spec5 2) : S1x1024.Idx → EReal) (ix2 0 d)) = (A m c).bRS := by
    funext d
    show (StableHlo.after (hostOps5 (F := Ideal)) (W8 𝒟 m c) (Proc.devRef .tc main_v35) : S1x1024.Idx → EReal) (ix2 0 d) = _
    rw [bias_row_35 (W8 𝒟 m c) d, back8 𝒟 m c main_arg6 (by decide), back7 𝒟 m c main_arg6 (by decide), back6 𝒟 m c main_arg6 (by decide), back5 𝒟 m c main_arg6 (by decide), back4 𝒟 m c main_arg6 (by decide), back3 𝒟 m c main_arg6 (by decide), back2 𝒟 m c main_arg6 (by decide), back1 m c main_arg6 (by decide)]
    rfl
  rw [e, val5_5]
  unfold G5
  rw [co2_arr2, hx, hw, hb]

/-- After region 5 the buffer `main_v37_1` holds the projection, by the object weights towards the objects, of the relation features after round one. -/
theorem F37_1 (h5 : ∀ V c, 𝒟.D 5 V c = dat5 V c)
    (h34 : Cert.Spec.co2 (a := 16384) (b := 1024) (W8 𝒟 m c (Proc.devRef .tc main_v34)) = Cert.Spec.rel1 (A m c)) :
    Cert.Spec.co2 (a := 16384) (b := 1024) (W10 𝒟 m c (Proc.devRef .tc main_v37_1))
      = Cert.Spec.fc (Cert.Spec.rel1 (A m c)) (A m c).wRO (A m c).bRO := by
  have e : W10 𝒟 m c (Proc.devRef .tc main_v37_1) = (dat5 (F := Ideal) (rd (W9 𝒟 m)) c).arrAt 6 cfg5.N := by
    rw [← h5]; exact stepR_arr 𝒟 5 (W9 𝒟 m) c 6
  have hx : Cert.Spec.co2 (a := 16384) (b := 1024) (rd (W9 𝒟 m) c (Pipeline.arrRef spec5 0)) = Cert.Spec.rel1 (A m c) := by
    show Cert.Spec.co2 (a := 16384) (b := 1024) (W9 𝒟 m c (Proc.devRef .tc main_v34)) = _
    rw [back9 𝒟 m c main_v34 (by decide)]
    exact h34
  have hw : Cert.Spec.co2 (a := 1024) (b := 1024) (rd (W9 𝒟 m) c (Pipeline.arrRef spec5 3)) = (A m c).wRO := by
    show Cert.Spec.co2 (a := 1024) (b := 1024) (W9 𝒟 m c (Proc.devRef .tc main_arg7)) = _
    rw [back9 𝒟 m c main_arg7 (by decide), back8 𝒟 m c main_arg7 (by decide), back7 𝒟 m c main_arg7 (by decide), back6 𝒟 m c main_arg7 (by decide), back5 𝒟 m c main_arg7 (by decide), back4 𝒟 m c main_arg7 (by decide), back3 𝒟 m c main_arg7 (by decide), back2 𝒟 m c main_arg7 (by decide), back1 m c main_arg7 (by decide)]
    rfl
  have hb : (fun d : Fin 1024 => (rd (W9 𝒟 m) c (Pipeline.arrRef spec5 4) : S1x1024.Idx → EReal) (ix2 0 d)) = (A m c).bRO := by
    funext d
    show (StableHlo.after (hostOps5 (F := Ideal)) (W8 𝒟 m c) (Proc.devRef .tc main_v36) : S1x1024.Idx → EReal) (ix2 0 d) = _
    rw [bias_row_36 (W8 𝒟 m c) d, back8 𝒟 m c main_arg8 (by decide), back7 𝒟 m c main_arg8 (by decide), back6 𝒟 m c main_arg8 (by decide), back5 𝒟 m c main_arg8 (by decide), back4 𝒟 m c main_arg8 (by decide), back3 𝒟 m c main_arg8 (by decide), back2 𝒟 m c main_arg8 (by decide), back1 m c main_arg8 (by decide)]
    rfl
  rw [e, val5_6]
  unfold G5
  rw [co2_arr2, hx, hw, hb]

end Cert.KernelIdeal.HandVal

end
-- ==== Proof.KI.Val8.lean ====
import proofs.«152197_j87351044866369_2_alg».proof.Proof.KI.Reg8
import proofs.«152197_j87351044866369_2_alg».proof.Proof.KI.FcPay
import proofs.«152197_j87351044866369_2_alg».proof.Proof.Spec
import Idealize.ShloMosaic.Lib.Pipeline.Value

/-! # Region 8 at the ideal values: the two projected arrays

The region writes block `t` of each of its two outputs from block `t` of the source rows, one whole weight matrix and
one bias row. Each write-back is block `t` of ONE function of the region's input arrays — the projection
`max (X · Wᵀ + b) 0` row by row — and the 2 blocks tile the 2048 rows, so after the region each output array is
that function of the source and of its own weights and bias. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-- The projection of the source array `X` by the weights `W` and the bias row `B`, as an array. -/
def G8 (X : S2048x1024.Idx → EReal) (W : S1024x1024.Idx → EReal) (B : S1x1024.Idx → EReal) : S2048x1024.Idx → EReal :=
  Spec.arr2 (Spec.fc (Spec.co2 X) (Spec.co2 W) (fun d => B (ix2 0 d)))

/-- The printed index maps over the grid: the source and output blocks are the point's, each weight matrix's and
    bias's block is its one block. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-- Block `t` of the projection: the projection of block `t` of the source rows by the whole weight matrix and bias row
    is block `t` (of window 5) of the projection of the whole source array. -/
theorem blk8_5_eq (X : S2048x1024.Idx → EReal) (W : S1024x1024.Idx → EReal) (B : S1x1024.Idx → EReal) (t : Fin cfg8.N) :
    (cfg8.win 5).cut (grid8.coords t) (fcBlk (((cfg8.win 0).blk t).view.read (Elt Ideal) X)
        (((cfg8.win 1).blk t).view.read (Elt Ideal) W) (((cfg8.win 2).blk t).view.read (Elt Ideal) B))
      = ((cfg8.win 5).blk t).view.read (Elt Ideal) (G8 X W B) := by
  obtain ⟨e00, e01, e10, e11, e20, e21, e30, e31, e40, e41, e50, e51, e60, e61⟩ := idx_facts8 t
  funext j
  show max ((∑ k : Fin 1024, X (((cfg8.win 0).blk t).view.emb (ix2 (j 0) k)) * W (((cfg8.win 1).blk t).view.emb (ix2 (j 1) k)))
      + B (((cfg8.win 2).blk t).view.emb (ix2 0 (j 1)))) 0
    = max ((∑ k : Fin 1024, X (ix2 ⟨((((cfg8.win 5).blk t).view.emb j) 0).val, ((((cfg8.win 5).blk t).view.emb j) 0).isLt⟩ k)
        * W (ix2 ⟨((((cfg8.win 5).blk t).view.emb j) 1).val, ((((cfg8.win 5).blk t).view.emb j) 1).isLt⟩ k))
      + B (ix2 0 ⟨((((cfg8.win 5).blk t).view.emb j) 1).val, ((((cfg8.win 5).blk t).view.emb j) 1).isLt⟩)) 0
  have hj0 : (j 0).val < 1024 := (j 0).isLt
  have hj1 : (j 1).val < 1024 := (j 1).isLt
  have h0 : ∀ k : Fin 1024, ((cfg8.win 0).blk t).view.emb (ix2 (j 0) k)
      = ix2 ⟨((((cfg8.win 5).blk t).view.emb j) 0).val, ((((cfg8.win 5).blk t).view.emb j) 0).isLt⟩ k := fun k => by
    funext a; apply Fin.ext
    match a with
    | ⟨0, _⟩ => show win8_0.index t (0 : Fin 2) * 1024 + 1 * (j 0).val = win8_5.index t (0 : Fin 2) * 1024 + 1 * (j 0).val; omega
    | ⟨1, _⟩ => show win8_0.index t (1 : Fin 2) * 1024 + 1 * k.val = k.val; omega
  have h1 : ∀ k : Fin 1024, ((cfg8.win 1).blk t).view.emb (ix2 (j 1) k)
      = ix2 ⟨((((cfg8.win 5).blk t).view.emb j) 1).val, ((((cfg8.win 5).blk t).view.emb j) 1).isLt⟩ k := fun k => by
    funext a; apply Fin.ext
    match a with
    | ⟨0, _⟩ => show win8_1.index t (0 : Fin 2) * 1024 + 1 * (j 1).val = win8_5.index t (1 : Fin 2) * 1024 + 1 * (j 1).val; omega
    | ⟨1, _⟩ => show win8_1.index t (1 : Fin 2) * 1024 + 1 * k.val = k.val; omega
  have h2 : ((cfg8.win 2).blk t).view.emb (ix2 0 (j 1))
      = ix2 0 ⟨((((cfg8.win 5).blk t).view.emb j) 1).val, ((((cfg8.win 5).blk t).view.emb j) 1).isLt⟩ := by
    funext a; apply Fin.ext
    match a with
    | ⟨0, _⟩ => show win8_2.index t (0 : Fin 2) * 1 + 1 * 0 = 0; omega
    | ⟨1, _⟩ => show win8_2.index t (1 : Fin 2) * 1024 + 1 * (j 1).val = win8_5.index t (1 : Fin 2) * 1024 + 1 * (j 1).val; omega
  have hS : (∑ k : Fin 1024, X (((cfg8.win 0).blk t).view.emb (ix2 (j 0) k)) * W (((cfg8.win 1).blk t).view.emb (ix2 (j 1) k)))
      = ∑ k : Fin 1024, X (ix2 ⟨((((cfg8.win 5).blk t).view.emb j) 0).val, ((((cfg8.win 5).blk t).view.emb j) 0).isLt⟩ k)
        * W (ix2 ⟨((((cfg8.win 5).blk t).view.emb j) 1).val, ((((cfg8.win 5).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 5 is block `t` of the projection of the arrays as the region finds them. -/
theorem flushed8_5_eq (c : Dev nD) (t : Fin cfg8.N) :
    (dat8 V c).flushed 5 t = ((cfg8.win 5).blk t).view.read (Elt Ideal)
      (G8 (V c (Pipeline.arrRef spec8 0)) (V c (Pipeline.arrRef spec8 1)) (V c (Pipeline.arrRef spec8 2))) := by
  show (cfg8.win 5).cut (grid8.coords t) ((dat8 V c).after 5 t) = _
  rw [after8_5]
  unfold out8_5
  rw [View.canon_unit_zero hz8]
  simp only [View.ld_unit_zero (S := S1024x1024) hz8, View.ld_unit_zero (S := S1x1024) hz8]
  rw [k8_pay2_eq]
  exact blk8_5_eq (V c (Pipeline.arrRef spec8 0)) (V c (Pipeline.arrRef spec8 1)) (V c (Pipeline.arrRef spec8 2)) t

/-- An index of window 5's array is in point `t`'s block iff each coordinate is in the block's range on its axis. -/
theorem mem_blk8_5 (t : Fin cfg8.N) (i : S2048x1024.Idx) :
    i ∈ ((cfg8.win 5).blk t).view.set ↔ ∀ a : Fin 2, win8_5.index t a * S1024x1024.size a ≤ (i a).val ∧ (i a).val < win8_5.index t a * S1024x1024.size a + S1024x1024.size a := by
  show i ∈ ((View.whole main_v43_0).slice (win8_5.rect t)).set ↔ _
  rw [View.set_slice_whole, Rect.mem_set_unit]
  exact Iff.rfl

/-- The 2 blocks tile the array: row `r` is in the block of point `r / 1024`. -/
theorem covered8_5 (i : S2048x1024.Idx) :
    ∃ t : Fin cfg8.N, (cfg8.win 5).flush t = true ∧ i ∈ ((cfg8.win 5).blk t).view.set := by
  have hi0 : (i 0).val < 2048 := (i 0).isLt
  have hi1 : (i 1).val < 1024 := (i 1).isLt
  have hN : cfg8.N = 2 := N_8
  let t : Fin cfg8.N := ⟨(i 0).val / 1024, by omega⟩
  obtain ⟨e00, e01, e10, e11, e20, e21, e30, e31, e40, e41, e50, e51, e60, e61⟩ := idx_facts8 t
  have ht : t.val = (i 0).val / 1024 := rfl
  refine ⟨t, flush8_5 t, ?_⟩
  rw [mem_blk8_5]
  intro a
  match a with
  | ⟨0, _⟩ => show win8_5.index t (0 : Fin 2) * 1024 ≤ (i 0).val ∧ (i 0).val < win8_5.index t (0 : Fin 2) * 1024 + 1024; omega
  | ⟨1, _⟩ => show win8_5.index t (1 : Fin 2) * 1024 ≤ (i 1).val ∧ (i 1).val < win8_5.index t (1 : Fin 2) * 1024 + 1024; omega

/-- OUTPUT ARRAY 5 after the region: the projection of the region's input arrays by its weights and bias. -/
theorem val8_5 (c : Dev nD) : (dat8 (F := Ideal) V c).arrAt 5 cfg8.N
    = G8 (V c (Pipeline.arrRef spec8 0)) (V c (Pipeline.arrRef spec8 1)) (V c (Pipeline.arrRef spec8 2)) :=
  (dat8 V c).arrAt_eq_of_cover 5 _ (fun t _ => flushed8_5_eq V c t) (covered8_5)

/-- Block `t` of the projection: the projection of block `t` of the source rows by the whole weight matrix and bias row
    is block `t` (of window 6) of the projection of the whole source array. -/
theorem blk8_6_eq (X : S2048x1024.Idx → EReal) (W : S1024x1024.Idx → EReal) (B : S1x1024.Idx → EReal) (t : Fin cfg8.N) :
    (cfg8.win 6).cut (grid8.coords t) (fcBlk (((cfg8.win 0).blk t).view.read (Elt Ideal) X)
        (((cfg8.win 3).blk t).view.read (Elt Ideal) W) (((cfg8.win 4).blk t).view.read (Elt Ideal) B))
      = ((cfg8.win 6).blk t).view.read (Elt Ideal) (G8 X W B) := by
  obtain ⟨e00, e01, e10, e11, e20, e21, e30, e31, e40, e41, e50, e51, e60, e61⟩ := idx_facts8 t
  funext j
  show max ((∑ k : Fin 1024, X (((cfg8.win 0).blk t).view.emb (ix2 (j 0) k)) * W (((cfg8.win 3).blk t).view.emb (ix2 (j 1) k)))
      + B (((cfg8.win 4).blk t).view.emb (ix2 0 (j 1)))) 0
    = max ((∑ k : Fin 1024, X (ix2 ⟨((((cfg8.win 6).blk t).view.emb j) 0).val, ((((cfg8.win 6).blk t).view.emb j) 0).isLt⟩ k)
        * W (ix2 ⟨((((cfg8.win 6).blk t).view.emb j) 1).val, ((((cfg8.win 6).blk t).view.emb j) 1).isLt⟩ k))
      + B (ix2 0 ⟨((((cfg8.win 6).blk t).view.emb j) 1).val, ((((cfg8.win 6).blk t).view.emb j) 1).isLt⟩)) 0
  have hj0 : (j 0).val < 1024 := (j 0).isLt
  have hj1 : (j 1).val < 1024 := (j 1).isLt
  have h0 : ∀ k : Fin 1024, ((cfg8.win 0).blk t).view.emb (ix2 (j 0) k)
      = ix2 ⟨((((cfg8.win 6).blk t).view.emb j) 0).val, ((((cfg8.win 6).blk t).view.emb j) 0).isLt⟩ k := fun k => by
    funext a; apply Fin.ext
    match a with
    | ⟨0, _⟩ => show win8_0.index t (0 : Fin 2) * 1024 + 1 * (j 0).val = win8_6.index t (0 : Fin 2) * 1024 + 1 * (j 0).val; omega
    | ⟨1, _⟩ => show win8_0.index t (1 : Fin 2) * 1024 + 1 * k.val = k.val; omega
  have h1 : ∀ k : Fin 1024, ((cfg8.win 3).blk t).view.emb (ix2 (j 1) k)
      = ix2 ⟨((((cfg8.win 6).blk t).view.emb j) 1).val, ((((cfg8.win 6).blk t).view.emb j) 1).isLt⟩ k := fun k => by
    funext a; apply Fin.ext
    match a with
    | ⟨0, _⟩ => show win8_3.index t (0 : Fin 2) * 1024 + 1 * (j 1).val = win8_6.index t (1 : Fin 2) * 1024 + 1 * (j 1).val; omega
    | ⟨1, _⟩ => show win8_3.index t (1 : Fin 2) * 1024 + 1 * k.val = k.val; omega
  have h2 : ((cfg8.win 4).blk t).view.emb (ix2 0 (j 1))
      = ix2 0 ⟨((((cfg8.win 6).blk t).view.emb j) 1).val, ((((cfg8.win 6).blk t).view.emb j) 1).isLt⟩ := by
    funext a; apply Fin.ext
    match a with
    | ⟨0, _⟩ => show win8_4.index t (0 : Fin 2) * 1 + 1 * 0 = 0; omega
    | ⟨1, _⟩ => show win8_4.index t (1 : Fin 2) * 1024 + 1 * (j 1).val = win8_6.index t (1 : Fin 2) * 1024 + 1 * (j 1).val; omega
  have hS : (∑ k : Fin 1024, X (((cfg8.win 0).blk t).view.emb (ix2 (j 0) k)) * W (((cfg8.win 3).blk t).view.emb (ix2 (j 1) k)))
      = ∑ k : Fin 1024, X (ix2 ⟨((((cfg8.win 6).blk t).view.emb j) 0).val, ((((cfg8.win 6).blk t).view.emb j) 0).isLt⟩ k)
        * W (ix2 ⟨((((cfg8.win 6).blk t).view.emb j) 1).val, ((((cfg8.win 6).blk t).view.emb j) 1).isLt⟩ k) :=
    Finset.sum_congr rfl fun k _ => congrArg₂ (· * ·) (congrArg X (h0 k)) (congrArg W (h1 k))
  exact congrArg₂ (fun s b => max (s + b) 0) hS (congrArg B h2)

/-- What point `t` writes back to window 6 is block `t` of the projection of the arrays as the region finds them. -/
theorem flushed8_6_eq (c : Dev nD) (t : Fin cfg8.N) :
    (dat8 V c).flushed 6 t = ((cfg8.win 6).blk t).view.read (Elt Ideal)
      (G8 (V c (Pipeline.arrRef spec8 0)) (V c (Pipeline.arrRef spec8 3)) (V c (Pipeline.arrRef spec8 4))) := by
  show (cfg8.win 6).cut (grid8.coords t) ((dat8 V c).after 6 t) = _
  rw [after8_6]
  unfold out8_6
  rw [View.canon_unit_zero hz8]
  simp only [View.ld_unit_zero (S := S1024x1024) hz8, View.ld_unit_zero (S := S1x1024) hz8]
  rw [k8_pay3_eq]
  exact blk8_6_eq (V c (Pipeline.arrRef spec8 0)) (V c (Pipeline.arrRef spec8 3)) (V c (Pipeline.arrRef spec8 4)) t

/-- An index of window 6's array is in point `t`'s block iff each coordinate is in the block's range on its axis. -/
theorem mem_blk8_6 (t : Fin cfg8.N) (i : S2048x1024.Idx) :
    i ∈ ((cfg8.win 6).blk t).view.set ↔ ∀ a : Fin 2, win8_6.index t a * S1024x1024.size a ≤ (i a).val ∧ (i a).val < win8_6.index t a * S1024x1024.size a + S1024x1024.size a := by
  show i ∈ ((View.whole main_v43_1).slice (win8_6.rect t)).set ↔ _
  rw [View.set_slice_whole, Rect.mem_set_unit]
  exact Iff.rfl

/-- The 2 blocks tile the array: row `r` is in the block of point `r / 1024`. -/
theorem covered8_6 (i : S2048x1024.Idx) :
    ∃ t : Fin cfg8.N, (cfg8.win 6).flush t = true ∧ i ∈ ((cfg8.win 6).blk t).view.set := by
  have hi0 : (i 0).val < 2048 := (i 0).isLt
  have hi1 : (i 1).val < 1024 := (i 1).isLt
  have hN : cfg8.N = 2 := N_8
  let t : Fin cfg8.N := ⟨(i 0).val / 1024, by omega⟩
  obtain ⟨e00, e01, e10, e11, e20, e21, e30, e31, e40, e41, e50, e51, e60, e61⟩ := idx_facts8 t
  have ht : t.val = (i 0).val / 1024 := rfl
  refine ⟨t, flush8_6 t, ?_⟩
  rw [mem_blk8_6]
  intro a
  match a with
  | ⟨0, _⟩ => show win8_6.index t (0 : Fin 2) * 1024 ≤ (i 0).val ∧ (i 0).val < win8_6.index t (0 : Fin 2) * 1024 + 1024; omega
  | ⟨1, _⟩ => show win8_6.index t (1 : Fin 2) * 1024 ≤ (i 1).val ∧ (i 1).val < win8_6.index t (1 : Fin 2) * 1024 + 1024; omega

/-- OUTPUT ARRAY 6 after the region: the projection of the region's input arrays by its weights and bias. -/
theorem val8_6 (c : Dev nD) : (dat8 (F := Ideal) V c).arrAt 6 cfg8.N
    = G8 (V c (Pipeline.arrRef spec8 0)) (V c (Pipeline.arrRef spec8 3)) (V c (Pipeline.arrRef spec8 4)) :=
  (dat8 V c).arrAt_eq_of_cover 6 _ (fun t _ => flushed8_6_eq V c t) (covered8_6)

end Cert.KernelIdeal.HandVal
-- ==== Proof.KI.Chain2c.lean ====
/-
  Round two of the kernel program: the two projections of the round-one object features towards the relations
  (region 8, one source array, two weight matrices and bias rows, two output arrays). Each output array is the region's
  value at its input arrays; the source array is walked back to the region that wrote it (its fact is a hypothesis),
  the weights to the launch memory, and the bias rows are what the host operations before the region wrote.
-/
import proofs.«152197_j87351044866369_2_alg».proof.Proof.KI.ChainBase
import proofs.«152197_j87351044866369_2_alg».proof.Proof.KI.Val8

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 8 the buffer `main_v43_0` holds the projection, by the subject weights towards the relations, of the object features after round one. -/
theorem F43_0 (h8 : ∀ V c, 𝒟.D 8 V c = dat8 V c)
    (h30 : Cert.Spec.co2 (a := 2048) (b := 1024) (W5 𝒟 m c (Proc.devRef .tc main_v30)) = Cert.Spec.obj1 (A m c)) :
    Cert.Spec.co2 (a := 2048) (b := 1024) (W15 𝒟 m c (Proc.devRef .tc main_v43_0))
      = Cert.Spec.fc (Cert.Spec.obj1 (A m c)) (A m c).wOS (A m c).bOS := by
  have e : W15 𝒟 m c (Proc.devRef .tc main_v43_0) = (dat8 (F := Ideal) (rd (W14 𝒟 m)) c).arrAt 5 cfg8.N := by
    rw [← h8]; exact stepR_arr 𝒟 8 (W14 𝒟 m) c 5
  have hx : Cert.Spec.co2 (a := 2048) (b := 1024) (rd (W14 𝒟 m) c (Pipeline.arrRef spec8 0)) = Cert.Spec.obj1 (A m c) := by
    show Cert.Spec.co2 (a := 2048) (b := 1024) (W14 𝒟 m c (Proc.devRef .tc main_v30)) = _
    rw [back14 𝒟 m c main_v30 (by decide), back13 𝒟 m c main_v30 (by decide), back12 𝒟 m c main_v30 (by decide), back11 𝒟 m c main_v30 (by decide), back10 𝒟 m c main_v30 (by decide), back9 𝒟 m c main_v30 (by decide), back8 𝒟 m c main_v30 (by decide), back7 𝒟 m c main_v30 (by decide), back6 𝒟 m c main_v30 (by decide)]
    exact h30
  have hw : Cert.Spec.co2 (a := 1024) (b := 1024) (rd (W14 𝒟 m) c (Pipeline.arrRef spec8 1)) = (A m c).wOS := by
    show Cert.Spec.co2 (a := 1024) (b := 1024) (W14 𝒟 m c (Proc.devRef .tc main_arg9)) = _
    rw [back14 𝒟 m c main_arg9 (by decide), back13 𝒟 m c main_arg9 (by decide), back12 𝒟 m c main_arg9 (by decide), back11 𝒟 m c main_arg9 (by decide), back10 𝒟 m c main_arg9 (by decide), back9 𝒟 m c main_arg9 (by decide), back8 𝒟 m c main_arg9 (by decide), back7 𝒟 m c main_arg9 (by decide), back6 𝒟 m c main_arg9 (by decide), back5 𝒟 m c main_arg9 (by decide), back4 𝒟 m c main_arg9 (by decide), back3 𝒟 m c main_arg9 (by decide), back2 𝒟 m c main_arg9 (by decide), back1 m c main_arg9 (by decide)]
    rfl
  have hb : (fun d : Fin 1024 => (rd (W14 𝒟 m) c (Pipeline.arrRef spec8 2) : S1x1024.Idx → EReal) (ix2 0 d)) = (A m c).bOS := by
    funext d
    show (StableHlo.after (hostOps8 (F := Ideal)) (W13 𝒟 m c) (Proc.devRef .tc main_v41) : S1x1024.Idx → EReal) (ix2 0 d) = _
    rw [bias_row_41 (W13 𝒟 m c) d, back13 𝒟 m c main_arg10 (by decide), back12 𝒟 m c main_arg10 (by decide), back11 𝒟 m c main_arg10 (by decide), back10 𝒟 m c main_arg10 (by decide), back9 𝒟 m c main_arg10 (by decide), back8 𝒟 m c main_arg10 (by decide), back7 𝒟 m c main_arg10 (by decide), back6 𝒟 m c main_arg10 (by decide), back5 𝒟 m c main_arg10 (by decide), back4 𝒟 m c main_arg10 (by decide), back3 𝒟 m c main_arg10 (by decide), back2 𝒟 m c main_arg10 (by decide), back1 m c main_arg10 (by decide)]
    rfl
  rw [e, val8_5]
  unfold G8
  rw [co2_arr2, hx, hw, hb]

/-- After region 8 the buffer `main_v43_1` holds the projection, by the object weights towards the relations, of the object features after round one. -/
theorem F43_1 (h8 : ∀ V c, 𝒟.D 8 V c = dat8 V c)
    (h30 : Cert.Spec.co2 (a := 2048) (b := 1024) (W5 𝒟 m c (Proc.devRef .tc main_v30)) = Cert.Spec.obj1 (A m c)) :
    Cert.Spec.co2 (a := 2048) (b := 1024) (W15 𝒟 m c (Proc.devRef .tc main_v43_1))
      = Cert.Spec.fc (Cert.Spec.obj1 (A m c)) (A m c).wOO (A m c).bOO := by
  have e : W15 𝒟 m c (Proc.devRef .tc main_v43_1) = (dat8 (F := Ideal) (rd (W14 𝒟 m)) c).arrAt 6 cfg8.N := by
    rw [← h8]; exact stepR_arr 𝒟 8 (W14 𝒟 m) c 6
  have hx : Cert.Spec.co2 (a := 2048) (b := 1024) (rd (W14 𝒟 m) c (Pipeline.arrRef spec8 0)) = Cert.Spec.obj1 (A m c) := by
    show Cert.Spec.co2 (a := 2048) (b := 1024) (W14 𝒟 m c (Proc.devRef .tc main_v30)) = _
    rw [back14 𝒟 m c main_v30 (by decide), back13 𝒟 m c main_v30 (by decide), back12 𝒟 m c main_v30 (by decide), back11 𝒟 m c main_v30 (by decide), back10 𝒟 m c main_v30 (by decide), back9 𝒟 m c main_v30 (by decide), back8 𝒟 m c main_v30 (by decide), back7 𝒟 m c main_v30 (by decide), back6 𝒟 m c main_v30 (by decide)]
    exact h30
  have hw : Cert.Spec.co2 (a := 1024) (b := 1024) (rd (W14 𝒟 m) c (Pipeline.arrRef spec8 3)) = (A m c).wOO := by
    show Cert.Spec.co2 (a := 1024) (b := 1024) (W14 𝒟 m c (Proc.devRef .tc main_arg11)) = _
    rw [back14 𝒟 m c main_arg11 (by decide), back13 𝒟 m c main_arg11 (by decide), back12 𝒟 m c main_arg11 (by decide), back11 𝒟 m c main_arg11 (by decide), back10 𝒟 m c main_arg11 (by decide), back9 𝒟 m c main_arg11 (by decide), back8 𝒟 m c main_arg11 (by decide), back7 𝒟 m c main_arg11 (by decide), back6 𝒟 m c main_arg11 (by decide), back5 𝒟 m c main_arg11 (by decide), back4 𝒟 m c main_arg11 (by decide), back3 𝒟 m c main_arg11 (by decide), back2 𝒟 m c main_arg11 (by decide), back1 m c main_arg11 (by decide)]
    rfl
  have hb : (fun d : Fin 1024 => (rd (W14 𝒟 m) c (Pipeline.arrRef spec8 4) : S1x1024.Idx → EReal) (ix2 0 d)) = (A m c).bOO := by
    funext d
    show (StableHlo.after (hostOps8 (F := Ideal)) (W13 𝒟 m c) (Proc.devRef .tc main_v42) : S1x1024.Idx → EReal) (ix2 0 d) = _
    rw [bias_row_42 (W13 𝒟 m c) d, back13 𝒟 m c main_arg12 (by decide), back12 𝒟 m c main_arg12 (by decide), back11 𝒟 m c main_arg12 (by decide), back10 𝒟 m c main_arg12 (by decide), back9 𝒟 m c main_arg12 (by decide), back8 𝒟 m c main_arg12 (by decide), back7 𝒟 m c main_arg12 (by decide), back6 𝒟 m c main_arg12 (by decide), back5 𝒟 m c main_arg12 (by decide), back4 𝒟 m c main_arg12 (by decide), back3 𝒟 m c main_arg12 (by decide), back2 𝒟 m c main_arg12 (by decide), back1 m c main_arg12 (by decide)]
    rfl
  rw [e, val8_6]
  unfold G8
  rw [co2_arr2, hx, hw, hb]

end Cert.KernelIdeal.HandVal

end
-- ==== Proof.KI.Val7.lean ====
import proofs.«152197_j87351044866369_2_alg».proof.Proof.KI.Reg7
import proofs.«152197_j87351044866369_2_alg».proof.Proof.Spec
import proofs.«152197_j87351044866369_2_alg».proof.Proof.KI.ValLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
/-! ## The payloads at an index -/

theorem k7_pay1_apply (r : Fin 512) (d : Fin 1024) : (k7_pay1 (F := Ideal) (ix2 r d) : EReal) = 0 := by
  unfold k7_pay1
  simp only [shapeCast_self]
  exact Ideal.ofBits_zero_f32

theorem k7_pay2_apply (r : Fin 512) (d : Fin 1024) : (k7_pay2 (F := Ideal) (ix2 r d) : EReal) = 0 := by
  unfold k7_pay2
  simp only [shapeCast_self]
  exact Ideal.ofBits_zero_f32

theorem k7_pay4_apply (x0 : Vec Ideal S512x512 .bf16) (x2 : Vec Ideal S512x1024 .bf16) (s : Vec Ideal S512x1024 .f32) (r : Fin 512) (d : Fin 1024) :
    (k7_pay4 (F := Ideal) x0 x2 s (ix2 r d) : EReal) = (s (ix2 r d) : EReal) + ∑ k : Fin 512, (x0 (ix2 r k) : EReal) * (x2 (ix2 k d) : EReal) := by
  unfold k7_pay4
  simp only [shapeCast_self]
  exact congrArg ((s (ix2 r d) : EReal) + ·) (mm512_apply x0 x2 r d)

theorem k7_pay5_apply (x1 : Vec Ideal S512x512 .bf16) (x3 : Vec Ideal S512x1024 .bf16) (s : Vec Ideal S512x1024 .f32) (r : Fin 512) (d : Fin 1024) :
    (k7_pay5 (F := Ideal) x1 x3 s (ix2 r d) : EReal) = (s (ix2 r d) : EReal) + ∑ k : Fin 512, (x1 (ix2 r k) : EReal) * (x3 (ix2 k d) : EReal) := by
  unfold k7_pay5
  simp only [shapeCast_self]
  exact congrArg ((s (ix2 r d) : EReal) + ·) (mm512_apply x1 x3 r d)

theorem k7_pay3_apply (x4 : Vec Ideal S512x2048 .bf16) (x5 : Vec Ideal S2048x1024 .bf16) (x8 : Vec Ideal S512x1 .f32) (r : Fin 512) (d : Fin 1024) :
    (k7_pay3 (F := Ideal) x4 x5 x8 (ix2 r d) : EReal) = Ideal.div (∑ k : Fin 2048, (x4 (ix2 r k) : EReal) * (x5 (ix2 k d) : EReal)) (x8 (ix2 r 0) : EReal) := by
  unfold k7_pay3
  simp only [shapeCast_self]
  exact congrArg₂ Ideal.div (mm2048_apply x4 x5 r d) (bcol_apply x8 r d)

theorem k7_pay6_apply (v26 : Vec Ideal S512x1024 .f32) (v27 : Vec Ideal S512x1 .f32) (v31 : Vec Ideal S512x1024 .f32) (v32 : Vec Ideal S512x1 .f32)
    (v37 v41 : Vec Ideal S512x1024 .f32) (r : Fin 512) (d : Fin 1024) :
    (k7_pay6 (F := Ideal) v26 v27 v31 v32 v37 v41 (ix2 r d) : EReal)
      = (v41 (ix2 r d) : EReal) + Ideal.div ((Ideal.div (v26 (ix2 r d) : EReal) (v27 (ix2 r 0) : EReal) + Ideal.div (v31 (ix2 r d) : EReal) (v32 (ix2 r 0) : EReal)) + (v37 (ix2 r d) : EReal)) Spec.three := by
  unfold k7_pay6
  simp only [shapeCast_self]
  exact congrArg ((v41 (ix2 r d) : EReal) + ·) (congrArg (fun x => Ideal.div x Spec.three)
    (congrArg (· + (v37 (ix2 r d) : EReal)) (congrArg₂ (· + ·) (congrArg (Ideal.div (v26 (ix2 r d) : EReal)) (bcol_apply v27 r d))
      (congrArg (Ideal.div (v31 (ix2 r d) : EReal)) (bcol_apply v32 r d)))))

section Value
variable (V : (c : Dev nD) → (b : Ref sig .tc) → Buf (Elt Ideal) ((c : Thread nD τ).loc b))

/-! ## The region's input arrays -/

abbrev in7_0 (c : Dev nD) : S2048x16384.Idx → EReal := V c (Pipeline.arrRef spec7 0)
abbrev in7_1 (c : Dev nD) : S2048x16384.Idx → EReal := V c (Pipeline.arrRef spec7 1)
abbrev in7_2 (c : Dev nD) : S16384x1024.Idx → EReal := V c (Pipeline.arrRef spec7 2)
abbrev in7_3 (c : Dev nD) : S16384x1024.Idx → EReal := V c (Pipeline.arrRef spec7 3)
abbrev in7_4 (c : Dev nD) : S2048x2048.Idx → EReal := V c (Pipeline.arrRef spec7 4)
abbrev in7_5 (c : Dev nD) : S2048x1024.Idx → EReal := V c (Pipeline.arrRef spec7 5)
abbrev in7_6 (c : Dev nD) : S2048x1.Idx → EReal := V c (Pipeline.arrRef spec7 6)
abbrev in7_7 (c : Dev nD) : S2048x1.Idx → EReal := V c (Pipeline.arrRef spec7 7)
abbrev in7_8 (c : Dev nD) : S2048x1.Idx → EReal := V c (Pipeline.arrRef spec7 8)
abbrev in7_9 (c : Dev nD) : S2048x1024.Idx → EReal := V c (Pipeline.arrRef spec7 9)

theorem lt128_7 (t : Fin cfg7.N) : t.val < 128 := lt_of_lt_of_eq t.isLt (show cfg7.N = 128 from N_7)

/-- The printed index maps over the grid `(i, j)`, `t = 32 i + j` — decided over the grid. -/
theorem idx_facts7 : ∀ t : Fin cfg7.N, win7_0.index t (0 : Fin 2) = t.val / 32 ∧ win7_0.index t (1 : Fin 2) = t.val % 32
    ∧ win7_1.index t (0 : Fin 2) = t.val / 32 ∧ win7_1.index t (1 : Fin 2) = t.val % 32
    ∧ win7_2.index t (0 : Fin 2) = t.val % 32 ∧ win7_2.index t (1 : Fin 2) = 0
    ∧ win7_3.index t (0 : Fin 2) = t.val % 32 ∧ win7_3.index t (1 : Fin 2) = 0
    ∧ win7_4.index t (0 : Fin 2) = t.val / 32 ∧ win7_4.index t (1 : Fin 2) = 0
    ∧ win7_5.index t (0 : Fin 2) = 0 ∧ win7_5.index t (1 : Fin 2) = 0
    ∧ win7_6.index t (0 : Fin 2) = t.val / 32 ∧ win7_6.index t (1 : Fin 2) = 0
    ∧ win7_7.index t (0 : Fin 2) = t.val / 32 ∧ win7_7.index t (1 : Fin 2) = 0
    ∧ win7_8.index t (0 : Fin 2) = t.val / 32 ∧ win7_8.index t (1 : Fin 2) = 0
    ∧ win7_9.index t (0 : Fin 2) = t.val / 32 ∧ win7_9.index t (1 : Fin 2) = 0
    ∧ win7_10.index t (0 : Fin 2) = t.val / 32 ∧ win7_10.index t (1 : Fin 2) = 0 :=
  (by decide +kernel : ∀ t : Fin grid7.N, _)

/-! ## Each window's block read where its rectangle says -/

/-- Window 0's block at point `t` read at a block coordinate is its array at the matching array coordinate. -/
theorem iblk7_0_at (c : Dev nD) (t : Fin cfg7.N) (a : Fin 512) (b : Fin 512) (p : Fin 2048) (q : Fin 16384)
    (hp : p.val = (t.val / 32) * 512 + a.val) (hq : q.val = (t.val % 32) * 512 + b.val) :
    (iblk7 (F := Ideal) V c 0 t (ix2 a b) : EReal) = in7_0 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 0) (((cfg7.win 0).blk t).view.emb (ix2 a b)) = V c (Pipeline.arrRef spec7 0) (ix2 p q)
  refine congrArg _ (funext fun ax => Fin.ext ?_)
  match ax with
  | ⟨0, _⟩ => show win7_0.index t (0 : Fin 2) * 512 + 1 * a.val = p.val; rw [e0_0, hp]; omega
  | ⟨1, _⟩ => show win7_0.index t (1 : Fin 2) * 512 + 1 * b.val = q.val; rw [e0_1, hq]; omega

/-- Window 1's block at point `t` read at a block coordinate is its array at the matching array coordinate. -/
theorem iblk7_1_at (c : Dev nD) (t : Fin cfg7.N) (a : Fin 512) (b : Fin 512) (p : Fin 2048) (q : Fin 16384)
    (hp : p.val = (t.val / 32) * 512 + a.val) (hq : q.val = (t.val % 32) * 512 + b.val) :
    (iblk7 (F := Ideal) V c 1 t (ix2 a b) : EReal) = in7_1 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 1) (((cfg7.win 1).blk t).view.emb (ix2 a b)) = V c (Pipeline.arrRef spec7 1) (ix2 p q)
  refine congrArg _ (funext fun ax => Fin.ext ?_)
  match ax with
  | ⟨0, _⟩ => show win7_1.index t (0 : Fin 2) * 512 + 1 * a.val = p.val; rw [e1_0, hp]; omega
  | ⟨1, _⟩ => show win7_1.index t (1 : Fin 2) * 512 + 1 * b.val = q.val; rw [e1_1, hq]; omega

/-- Window 2's block at point `t` read at a block coordinate is its array at the matching array coordinate. -/
theorem iblk7_2_at (c : Dev nD) (t : Fin cfg7.N) (a : Fin 512) (b : Fin 1024) (p : Fin 16384) (q : Fin 1024)
    (hp : p.val = (t.val % 32) * 512 + a.val) (hq : q.val = (0) * 1024 + b.val) :
    (iblk7 (F := Ideal) V c 2 t (ix2 a b) : EReal) = in7_2 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 2) (((cfg7.win 2).blk t).view.emb (ix2 a b)) = V c (Pipeline.arrRef spec7 2) (ix2 p q)
  refine congrArg _ (funext fun ax => Fin.ext ?_)
  match ax with
  | ⟨0, _⟩ => show win7_2.index t (0 : Fin 2) * 512 + 1 * a.val = p.val; rw [e2_0, hp]; omega
  | ⟨1, _⟩ => show win7_2.index t (1 : Fin 2) * 1024 + 1 * b.val = q.val; rw [e2_1, hq]; omega

/-- Window 3's block at point `t` read at a block coordinate is its array at the matching array coordinate. -/
theorem iblk7_3_at (c : Dev nD) (t : Fin cfg7.N) (a : Fin 512) (b : Fin 1024) (p : Fin 16384) (q : Fin 1024)
    (hp : p.val = (t.val % 32) * 512 + a.val) (hq : q.val = (0) * 1024 + b.val) :
    (iblk7 (F := Ideal) V c 3 t (ix2 a b) : EReal) = in7_3 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 3) (((cfg7.win 3).blk t).view.emb (ix2 a b)) = V c (Pipeline.arrRef spec7 3) (ix2 p q)
  refine congrArg _ (funext fun ax => Fin.ext ?_)
  match ax with
  | ⟨0, _⟩ => show win7_3.index t (0 : Fin 2) * 512 + 1 * a.val = p.val; rw [e3_0, hp]; omega
  | ⟨1, _⟩ => show win7_3.index t (1 : Fin 2) * 1024 + 1 * b.val = q.val; rw [e3_1, hq]; omega

/-- Window 4's block at point `t` read at a block coordinate is its array at the matching array coordinate. -/
theorem iblk7_4_at (c : Dev nD) (t : Fin cfg7.N) (a : Fin 512) (b : Fin 2048) (p : Fin 2048) (q : Fin 2048)
    (hp : p.val = (t.val / 32) * 512 + a.val) (hq : q.val = (0) * 2048 + b.val) :
    (iblk7 (F := Ideal) V c 4 t (ix2 a b) : EReal) = in7_4 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 4) (((cfg7.win 4).blk t).view.emb (ix2 a b)) = V c (Pipeline.arrRef spec7 4) (ix2 p q)
  refine congrArg _ (funext fun ax => Fin.ext ?_)
  match ax with
  | ⟨0, _⟩ => show win7_4.index t (0 : Fin 2) * 512 + 1 * a.val = p.val; rw [e4_0, hp]; omega
  | ⟨1, _⟩ => show win7_4.index t (1 : Fin 2) * 2048 + 1 * b.val = q.val; rw [e4_1, hq]; omega

/-- Window 5's block at point `t` read at a block coordinate is its array at the matching array coordinate. -/
theorem iblk7_5_at (c : Dev nD) (t : Fin cfg7.N) (a : Fin 2048) (b : Fin 1024) (p : Fin 2048) (q : Fin 1024)
    (hp : p.val = (0) * 2048 + a.val) (hq : q.val = (0) * 1024 + b.val) :
    (iblk7 (F := Ideal) V c 5 t (ix2 a b) : EReal) = in7_5 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 5) (((cfg7.win 5).blk t).view.emb (ix2 a b)) = V c (Pipeline.arrRef spec7 5) (ix2 p q)
  refine congrArg _ (funext fun ax => Fin.ext ?_)
  match ax with
  | ⟨0, _⟩ => show win7_5.index t (0 : Fin 2) * 2048 + 1 * a.val = p.val; rw [e5_0, hp]; omega
  | ⟨1, _⟩ => show win7_5.index t (1 : Fin 2) * 1024 + 1 * b.val = q.val; rw [e5_1, hq]; omega

/-- Window 6's block at point `t` read at a block coordinate is its array at the matching array coordinate. -/
theorem iblk7_6_at (c : Dev nD) (t : Fin cfg7.N) (a : Fin 512) (b : Fin 1) (p : Fin 2048) (q : Fin 1)
    (hp : p.val = (t.val / 32) * 512 + a.val) (hq : q.val = (0) * 1 + b.val) :
    (iblk7 (F := Ideal) V c 6 t (ix2 a b) : EReal) = in7_6 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 6) (((cfg7.win 6).blk t).view.emb (ix2 a b)) = V c (Pipeline.arrRef spec7 6) (ix2 p q)
  refine congrArg _ (funext fun ax => Fin.ext ?_)
  match ax with
  | ⟨0, _⟩ => show win7_6.index t (0 : Fin 2) * 512 + 1 * a.val = p.val; rw [e6_0, hp]; omega
  | ⟨1, _⟩ => show win7_6.index t (1 : Fin 2) * 1 + 1 * b.val = q.val; rw [e6_1, hq]; omega

/-- Window 7's block at point `t` read at a block coordinate is its array at the matching array coordinate. -/
theorem iblk7_7_at (c : Dev nD) (t : Fin cfg7.N) (a : Fin 512) (b : Fin 1) (p : Fin 2048) (q : Fin 1)
    (hp : p.val = (t.val / 32) * 512 + a.val) (hq : q.val = (0) * 1 + b.val) :
    (iblk7 (F := Ideal) V c 7 t (ix2 a b) : EReal) = in7_7 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 7) (((cfg7.win 7).blk t).view.emb (ix2 a b)) = V c (Pipeline.arrRef spec7 7) (ix2 p q)
  refine congrArg _ (funext fun ax => Fin.ext ?_)
  match ax with
  | ⟨0, _⟩ => show win7_7.index t (0 : Fin 2) * 512 + 1 * a.val = p.val; rw [e7_0, hp]; omega
  | ⟨1, _⟩ => show win7_7.index t (1 : Fin 2) * 1 + 1 * b.val = q.val; rw [e7_1, hq]; omega

/-- Window 8's block at point `t` read at a block coordinate is its array at the matching array coordinate. -/
theorem iblk7_8_at (c : Dev nD) (t : Fin cfg7.N) (a : Fin 512) (b : Fin 1) (p : Fin 2048) (q : Fin 1)
    (hp : p.val = (t.val / 32) * 512 + a.val) (hq : q.val = (0) * 1 + b.val) :
    (iblk7 (F := Ideal) V c 8 t (ix2 a b) : EReal) = in7_8 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 8) (((cfg7.win 8).blk t).view.emb (ix2 a b)) = V c (Pipeline.arrRef spec7 8) (ix2 p q)
  refine congrArg _ (funext fun ax => Fin.ext ?_)
  match ax with
  | ⟨0, _⟩ => show win7_8.index t (0 : Fin 2) * 512 + 1 * a.val = p.val; rw [e8_0, hp]; omega
  | ⟨1, _⟩ => show win7_8.index t (1 : Fin 2) * 1 + 1 * b.val = q.val; rw [e8_1, hq]; omega

/-- Window 9's block at point `t` read at a block coordinate is its array at the matching array coordinate. -/
theorem iblk7_9_at (c : Dev nD) (t : Fin cfg7.N) (a : Fin 512) (b : Fin 1024) (p : Fin 2048) (q : Fin 1024)
    (hp : p.val = (t.val / 32) * 512 + a.val) (hq : q.val = (0) * 1024 + b.val) :
    (iblk7 (F := Ideal) V c 9 t (ix2 a b) : EReal) = in7_9 V c (ix2 p q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  show V c (Pipeline.arrRef spec7 9) (((cfg7.win 9).blk t).view.emb (ix2 a b)) = V c (Pipeline.arrRef spec7 9) (ix2 p q)
  refine congrArg _ (funext fun ax => Fin.ext ?_)
  match ax with
  | ⟨0, _⟩ => show win7_9.index t (0 : Fin 2) * 512 + 1 * a.val = p.val; rw [e9_0, hp]; omega
  | ⟨1, _⟩ => show win7_9.index t (1 : Fin 2) * 1024 + 1 * b.val = q.val; rw [e9_1, hq]; omega

/-! ## The accumulation -/

/-- The summand of the collection through window 0 at source index `s` (zero past the source axis). -/
def term7_0 (c : Dev nD) (p : Fin 2048) (d : Fin 1024) (s : ℕ) : EReal :=
  if h : s < 16384 then Spec.co2 (in7_0 V c) p ⟨s, h⟩ * Spec.co2 (in7_2 V c) ⟨s, h⟩ d else 0

/-- A block's product is its stretch of the collection's sum: the blocks' entries are the arrays' at the stretch's sources. -/
theorem blk_sum7_0 (c : Dev nD) (x : Vec Ideal S512x512 .bf16) (y : Vec Ideal S512x1024 .bf16) (j : ℕ) (hj : j < 32) (p : Fin 2048) (r : Fin 512) (d : Fin 1024)
    (hx : ∀ (k : Fin 512) (hs : j * 512 + k.val < 16384), (x (ix2 r k) : EReal) = in7_0 V c (ix2 p ⟨j * 512 + k.val, hs⟩))
    (hy : ∀ (k : Fin 512) (hs : j * 512 + k.val < 16384), (y (ix2 k d) : EReal) = in7_2 V c (ix2 ⟨j * 512 + k.val, hs⟩ d)) :
    ∑ k : Fin 512, (x (ix2 r k) : EReal) * (y (ix2 k d) : EReal)
      = ∑ k ∈ Finset.range 512, term7_0 V c p d (j * 512 + k) := by
  rw [← Fin.sum_univ_eq_sum_range (fun k => term7_0 V c p d (j * 512 + k)) 512]
  refine Finset.sum_congr rfl fun k _ => ?_
  have hk := k.isLt
  have hs : j * 512 + k.val < 16384 := by omega
  rw [hx k hs, hy k hs]
  show _ = term7_0 V c p d (j * 512 + k.val)
  unfold term7_0
  rw [dif_pos hs]
  rfl

/-- Point `t = 32 i + j`'s blocks of windows 0 and 2, for object row `p = 512 i + r`, are the arrays at the stretch's sources. -/
theorem hx7_0 (c : Dev nD) (t : Fin cfg7.N) (i j : ℕ) (hi : t.val / 32 = i) (hj : t.val % 32 = j) (p : Fin 2048) (r : Fin 512)
    (hp : p.val = i * 512 + r.val) (k : Fin 512) (hs : j * 512 + k.val < 16384) :
    (iblk7 (F := Ideal) V c 0 t (ix2 r k) : EReal) = in7_0 V c (ix2 p ⟨j * 512 + k.val, hs⟩) :=
  iblk7_0_at V c t r k p ⟨j * 512 + k.val, hs⟩ (by rw [hi]; exact hp) (by rw [hj])
theorem hy7_2 (c : Dev nD) (t : Fin cfg7.N) (j : ℕ) (hj : t.val % 32 = j) (d : Fin 1024) (k : Fin 512) (hs : j * 512 + k.val < 16384) :
    (iblk7 (F := Ideal) V c 2 t (ix2 k d) : EReal) = in7_2 V c (ix2 ⟨j * 512 + k.val, hs⟩ d) :=
  iblk7_2_at V c t k d ⟨j * 512 + k.val, hs⟩ d (by rw [hj]) (by omega)

/-- The whole collection's sum, by the source index. -/
theorem term7_0_total (c : Dev nD) (p : Fin 2048) (d : Fin 1024) :
    ∑ s ∈ Finset.range 16384, term7_0 V c p d s = ∑ s : Fin 16384, Spec.co2 (in7_0 V c) p s * Spec.co2 (in7_2 V c) s d := by
  rw [← Fin.sum_univ_eq_sum_range (fun s => term7_0 V c p d s) 16384]
  refine Finset.sum_congr rfl fun s _ => ?_
  show term7_0 V c p d s.val = _
  unfold term7_0
  rw [dif_pos s.isLt]

/-- The summand of the collection through window 1 at source index `s` (zero past the source axis). -/
def term7_1 (c : Dev nD) (p : Fin 2048) (d : Fin 1024) (s : ℕ) : EReal :=
  if h : s < 16384 then Spec.co2 (in7_1 V c) p ⟨s, h⟩ * Spec.co2 (in7_3 V c) ⟨s, h⟩ d else 0

/-- A block's product is its stretch of the collection's sum: the blocks' entries are the arrays' at the stretch's sources. -/
theorem blk_sum7_1 (c : Dev nD) (x : Vec Ideal S512x512 .bf16) (y : Vec Ideal S512x1024 .bf16) (j : ℕ) (hj : j < 32) (p : Fin 2048) (r : Fin 512) (d : Fin 1024)
    (hx : ∀ (k : Fin 512) (hs : j * 512 + k.val < 16384), (x (ix2 r k) : EReal) = in7_1 V c (ix2 p ⟨j * 512 + k.val, hs⟩))
    (hy : ∀ (k : Fin 512) (hs : j * 512 + k.val < 16384), (y (ix2 k d) : EReal) = in7_3 V c (ix2 ⟨j * 512 + k.val, hs⟩ d)) :
    ∑ k : Fin 512, (x (ix2 r k) : EReal) * (y (ix2 k d) : EReal)
      = ∑ k ∈ Finset.range 512, term7_1 V c p d (j * 512 + k) := by
  rw [← Fin.sum_univ_eq_sum_range (fun k => term7_1 V c p d (j * 512 + k)) 512]
  refine Finset.sum_congr rfl fun k _ => ?_
  have hk := k.isLt
  have hs : j * 512 + k.val < 16384 := by omega
  rw [hx k hs, hy k hs]
  show _ = term7_1 V c p d (j * 512 + k.val)
  unfold term7_1
  rw [dif_pos hs]
  rfl

/-- Point `t = 32 i + j`'s blocks of windows 1 and 3, for object row `p = 512 i + r`, are the arrays at the stretch's sources. -/
theorem hx7_1 (c : Dev nD) (t : Fin cfg7.N) (i j : ℕ) (hi : t.val / 32 = i) (hj : t.val % 32 = j) (p : Fin 2048) (r : Fin 512)
    (hp : p.val = i * 512 + r.val) (k : Fin 512) (hs : j * 512 + k.val < 16384) :
    (iblk7 (F := Ideal) V c 1 t (ix2 r k) : EReal) = in7_1 V c (ix2 p ⟨j * 512 + k.val, hs⟩) :=
  iblk7_1_at V c t r k p ⟨j * 512 + k.val, hs⟩ (by rw [hi]; exact hp) (by rw [hj])
theorem hy7_3 (c : Dev nD) (t : Fin cfg7.N) (j : ℕ) (hj : t.val % 32 = j) (d : Fin 1024) (k : Fin 512) (hs : j * 512 + k.val < 16384) :
    (iblk7 (F := Ideal) V c 3 t (ix2 k d) : EReal) = in7_3 V c (ix2 ⟨j * 512 + k.val, hs⟩ d) :=
  iblk7_3_at V c t k d ⟨j * 512 + k.val, hs⟩ d (by rw [hj]) (by omega)

/-- The whole collection's sum, by the source index. -/
theorem term7_1_total (c : Dev nD) (p : Fin 2048) (d : Fin 1024) :
    ∑ s ∈ Finset.range 16384, term7_1 V c p d s = ∑ s : Fin 16384, Spec.co2 (in7_1 V c) p s * Spec.co2 (in7_3 V c) s d := by
  rw [← Fin.sum_univ_eq_sum_range (fun s => term7_1 V c p d s) 16384]
  refine Finset.sum_congr rfl fun s _ => ?_
  show term7_1 V c p d s.val = _
  unfold term7_1
  rw [dif_pos s.isLt]

/-- The self term of object row `p`. -/
def self7 (c : Dev nD) (p : Fin 2048) (d : Fin 1024) : EReal :=
  Ideal.div (∑ k : Fin 2048, Spec.co2 (in7_4 V c) p k * Spec.co2 (in7_5 V c) k d) (Spec.co2 (in7_8 V c) p 0)

/-- What the scratch buffers hold after the point `t = 32 i + j`, at row `r` of the block (object row `p = 512 i + r`): the
    two collections' sums over the first `512 (j + 1)` sources, and the row's self term. -/
def ScrInv7 (c : Dev nD) (s : Scr7 Ideal) (i j : ℕ) : Prop :=
  ∀ (p : Fin 2048) (r : Fin 512) (_ : p.val = i * 512 + r.val) (d : Fin 1024),
    (s.1 (ix2 r d) : EReal) = ∑ x ∈ Finset.range ((j + 1) * 512), term7_0 V c p d x
    ∧ (s.2.1 (ix2 r d) : EReal) = ∑ x ∈ Finset.range ((j + 1) * 512), term7_1 V c p d x
    ∧ (s.2.2 (ix2 r d) : EReal) = self7 V c p d

/-- The first point of a row. -/
theorem stepA7_inv (c : Dev nD) (t : Fin cfg7.N) (i : ℕ) (hi : t.val / 32 = i) (hj : t.val % 32 = 0) :
    ScrInv7 V c (stepA7 (F := Ideal) V c t) i 0 := by
  intro p r hp d
  refine ⟨?_, ?_, ?_⟩
  · show (k7_pay4 (F := Ideal) (iblk7 V c 0 t) (iblk7 V c 2 t) (k7_pay1 (F := Ideal)) (ix2 r d) : EReal) = _
    refine (k7_pay4_apply (iblk7 V c 0 t) (iblk7 V c 2 t) (k7_pay1 (F := Ideal)) r d).trans ?_
    rw [k7_pay1_apply, blk_sum7_0 V c (iblk7 (F := Ideal) V c 0 t) (iblk7 (F := Ideal) V c 2 t) 0 (by have := lt128_7 t; omega) p r d (hx7_0 V c t i 0 hi hj p r hp) (hy7_2 V c t 0 hj d)]
    exact step_sum (term7_0 V c p d) 0 0 (by rw [Nat.zero_mul, Finset.range_zero, Finset.sum_empty])
  · show (k7_pay5 (F := Ideal) (iblk7 V c 1 t) (iblk7 V c 3 t) (k7_pay2 (F := Ideal)) (ix2 r d) : EReal) = _
    refine (k7_pay5_apply (iblk7 V c 1 t) (iblk7 V c 3 t) (k7_pay2 (F := Ideal)) r d).trans ?_
    rw [k7_pay2_apply, blk_sum7_1 V c (iblk7 (F := Ideal) V c 1 t) (iblk7 (F := Ideal) V c 3 t) 0 (by have := lt128_7 t; omega) p r d (hx7_1 V c t i 0 hi hj p r hp) (hy7_3 V c t 0 hj d)]
    exact step_sum (term7_1 V c p d) 0 0 (by rw [Nat.zero_mul, Finset.range_zero, Finset.sum_empty])
  · show (k7_pay3 (F := Ideal) (iblk7 V c 4 t) (iblk7 V c 5 t) (iblk7 V c 8 t) (ix2 r d) : EReal) = _
    refine (k7_pay3_apply (iblk7 V c 4 t) (iblk7 V c 5 t) (iblk7 V c 8 t) r d).trans ?_
    unfold self7
    rw [iblk7_8_at V c t r 0 p 0 (by rw [hi]; exact hp) (by rfl)]
    refine congrArg (fun x => Ideal.div x _) (Finset.sum_congr rfl fun k _ => ?_)
    rw [iblk7_4_at V c t r k p k (by rw [hi]; exact hp) (by omega), iblk7_5_at V c t k d k d (by omega) (by omega)]
    rfl

/-- A later point of a row, over what the point before left. -/
theorem stepB7_inv (c : Dev nD) (t : Fin cfg7.N) (i j : ℕ) (hi : t.val / 32 = i) (hj : t.val % 32 = j + 1) (s : Scr7 Ideal)
    (hs : ScrInv7 V c s i j) : ScrInv7 V c (stepB7 (F := Ideal) V c t s) i (j + 1) := by
  intro p r hp d
  obtain ⟨h0, h1, h2⟩ := hs p r hp d
  refine ⟨?_, ?_, h2⟩
  · show (k7_pay4 (F := Ideal) (iblk7 V c 0 t) (iblk7 V c 2 t) s.1 (ix2 r d) : EReal) = _
    refine (k7_pay4_apply (iblk7 V c 0 t) (iblk7 V c 2 t) s.1 r d).trans ?_
    rw [blk_sum7_0 V c (iblk7 (F := Ideal) V c 0 t) (iblk7 (F := Ideal) V c 2 t) (j + 1) (by have := lt128_7 t; omega) p r d (hx7_0 V c t i (j + 1) hi hj p r hp) (hy7_2 V c t (j + 1) hj d)]
    exact step_sum (term7_0 V c p d) (j + 1) _ h0
  · show (k7_pay5 (F := Ideal) (iblk7 V c 1 t) (iblk7 V c 3 t) s.2.1 (ix2 r d) : EReal) = _
    refine (k7_pay5_apply (iblk7 V c 1 t) (iblk7 V c 3 t) s.2.1 r d).trans ?_
    rw [blk_sum7_1 V c (iblk7 (F := Ideal) V c 1 t) (iblk7 (F := Ideal) V c 3 t) (j + 1) (by have := lt128_7 t; omega) p r d (hx7_1 V c t i (j + 1) hi hj p r hp) (hy7_3 V c t (j + 1) hj d)]
    exact step_sum (term7_1 V c p d) (j + 1) _ h1

/-- THE INVARIANT of the accumulation, by induction on the point. -/
theorem scr7_inv (c : Dev nD) : ∀ (n : ℕ) (hn : n < cfg7.N), ScrInv7 V c (scr7 (F := Ideal) V c n hn) (n / 32) (n % 32)
  | 0, hn => stepA7_inv V c ⟨0, hn⟩ 0 (Nat.zero_div 32) (Nat.zero_mod 32)
  | n + 1, hn => by
    by_cases h0 : (n + 1) % 32 = 0
    · have e : scr7 (F := Ideal) V c (n + 1) hn = stepA7 V c ⟨n + 1, hn⟩ := dif_pos h0
      rw [e, h0]
      exact stepA7_inv V c ⟨n + 1, hn⟩ ((n + 1) / 32) rfl h0
    · have e : scr7 (F := Ideal) V c (n + 1) hn = stepB7 V c ⟨n + 1, hn⟩ (scr7 V c n (Nat.lt_of_succ_lt hn)) := dif_neg h0
      have hd : (n + 1) / 32 = n / 32 := by omega
      have hm : (n + 1) % 32 = n % 32 + 1 := by omega
      rw [e, hd, hm]
      exact stepB7_inv V c ⟨n + 1, hn⟩ (n / 32) (n % 32) hd hm _ (scr7_inv c n (Nat.lt_of_succ_lt hn))

/-! ## From blocks to the array -/

/-- What the region leaves in its output array: the object rows' update from the region's input arrays. -/
def G7 (c : Dev nD) : S2048x1024.Idx → EReal :=
  Spec.arr2 (fun p d => Spec.co2 (in7_9 V c) p d + Ideal.div
    ((Ideal.div (∑ s : Fin 16384, Spec.co2 (in7_0 V c) p s * Spec.co2 (in7_2 V c) s d) (Spec.co2 (in7_6 V c) p 0)
        + Ideal.div (∑ s : Fin 16384, Spec.co2 (in7_1 V c) p s * Spec.co2 (in7_3 V c) s d) (Spec.co2 (in7_7 V c) p 0))
      + Ideal.div (∑ s : Fin 2048, Spec.co2 (in7_4 V c) p s * Spec.co2 (in7_5 V c) s d) (Spec.co2 (in7_8 V c) p 0)) Spec.three)

/-- WHAT A ROW'S LAST POINT WRITES BACK is its block of `G7`. -/
theorem flushed7_eq (c : Dev nD) (t : Fin cfg7.N) (hf : (cfg7.win 10).flush t = true) :
    (dat7 (F := Ideal) V c).flushed 10 t = ((cfg7.win 10).blk t).view.read (Elt Ideal) (G7 V c) := by
  have h31 : t.val % 32 = 31 := (flush7_10 t).mp hf
  have ht := lt128_7 t
  show (cfg7.win 10).cut (grid7.coords t) ((dat7 (F := Ideal) V c).after 10 t) = _
  rw [after7_10]
  funext y
  obtain ⟨r, d, rfl⟩ : ∃ (r : Fin 512) (d : Fin 1024), y = ix2 r d := ⟨y 0, y 1, eq_ix2 y⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  have hr := r.isLt
  have hpl : (t.val / 32) * 512 + r.val < 2048 := by omega
  have eR : ((cfg7.win 10).blk t).view.read (Elt Ideal) (G7 V c) (ix2 r d) = G7 V c (ix2 (⟨(t.val / 32) * 512 + r.val, hpl⟩ : Fin 2048) d) := by
    show G7 V c (((cfg7.win 10).blk t).view.emb (ix2 r d)) = G7 V c (ix2 (⟨(t.val / 32) * 512 + r.val, hpl⟩ : Fin 2048) d)
    refine congrArg _ (funext fun ax => Fin.ext ?_)
    match ax with
    | ⟨0, _⟩ => show win7_10.index t (0 : Fin 2) * 512 + 1 * r.val = (t.val / 32) * 512 + r.val; rw [e10_0]; omega
    | ⟨1, _⟩ => show win7_10.index t (1 : Fin 2) * 1024 + 1 * d.val = d.val; rw [e10_1]; omega
  rw [eR]
  show (out7_10 (F := Ideal) V c t (ix2 r d) : EReal) = _
  unfold out7_10
  refine (k7_pay6_apply (scr7 (F := Ideal) V c t.val t.isLt).1 (iblk7 V c 6 t) (scr7 (F := Ideal) V c t.val t.isLt).2.1 (iblk7 V c 7 t)
    (scr7 (F := Ideal) V c t.val t.isLt).2.2 (iblk7 V c 9 t) r d).trans ?_
  obtain ⟨h0, h1, h2⟩ := scr7_inv V c t.val t.isLt (⟨(t.val / 32) * 512 + r.val, hpl⟩ : Fin 2048) r rfl d
  have h0' : ((scr7 (F := Ideal) V c t.val t.isLt).1 (ix2 r d) : EReal) = ∑ x ∈ Finset.range 16384, term7_0 V c (⟨(t.val / 32) * 512 + r.val, hpl⟩ : Fin 2048) d x := by
    rw [h0, h31]
  have h1' : ((scr7 (F := Ideal) V c t.val t.isLt).2.1 (ix2 r d) : EReal) = ∑ x ∈ Finset.range 16384, term7_1 V c (⟨(t.val / 32) * 512 + r.val, hpl⟩ : Fin 2048) d x := by
    rw [h1, h31]
  rw [h0', h1', h2, term7_0_total, term7_1_total,
    iblk7_6_at V c t r 0 (⟨(t.val / 32) * 512 + r.val, hpl⟩ : Fin 2048) 0 rfl (by rfl),
    iblk7_7_at V c t r 0 (⟨(t.val / 32) * 512 + r.val, hpl⟩ : Fin 2048) 0 rfl (by rfl),
    iblk7_9_at V c t r d (⟨(t.val / 32) * 512 + r.val, hpl⟩ : Fin 2048) d rfl (by omega)]
  rfl

/-- An index of the output array is in point `t`'s block iff each coordinate is in the block's range on its axis. -/
theorem mem_blk7_10 (t : Fin cfg7.N) (i : S2048x1024.Idx) :
    i ∈ ((cfg7.win 10).blk t).view.set ↔ ∀ a : Fin 2, win7_10.index t a * S512x1024.size a ≤ (i a).val ∧ (i a).val < win7_10.index t a * S512x1024.size a + S512x1024.size a := by
  show i ∈ ((View.whole main_v40).slice (win7_10.rect t)).set ↔ _
  rw [View.set_slice_whole, Rect.mem_set_unit]
  exact Iff.rfl

/-- Every index of the output array is in the block some row's last point writes back. -/
theorem cover7_10 (i : S2048x1024.Idx) : ∃ t : Fin cfg7.N, (cfg7.win 10).flush t = true ∧ i ∈ ((cfg7.win 10).blk t).view.set := by
  have hi0 : (i 0).val < 2048 := (i 0).isLt
  have hi1 : (i 1).val < 1024 := (i 1).isLt
  have hlt : 32 * ((i 0).val / 512) + 31 < 128 := by omega
  obtain ⟨t, htv⟩ : ∃ t : Fin cfg7.N, t.val = 32 * ((i 0).val / 512) + 31 := ⟨⟨_, lt_of_lt_of_eq hlt N_7.symm⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts7 t
  refine ⟨t, (flush7_10 t).mpr (by rw [htv]; omega), ?_⟩
  rw [mem_blk7_10]
  intro a
  match a with
  | ⟨0, _⟩ => show win7_10.index t (0 : Fin 2) * 512 ≤ (i 0).val ∧ (i 0).val < win7_10.index t (0 : Fin 2) * 512 + 512; rw [e10_0, htv]; omega
  | ⟨1, _⟩ => show win7_10.index t (1 : Fin 2) * 1024 ≤ (i 1).val ∧ (i 1).val < win7_10.index t (1 : Fin 2) * 1024 + 1024; rw [e10_1]; omega

/-- THE OUTPUT ARRAY after the region: `G7` of the region's input arrays. -/
theorem val7 (c : Dev nD) : (dat7 (F := Ideal) V c).arrAt 10 cfg7.N = G7 V c :=
  (dat7 (F := Ideal) V c).arrAt_eq_of_cover 10 (G7 V c) (fun t hf => flushed7_eq V c t hf) cover7_10

end Value

end Cert.KernelIdeal.HandVal

end
-- ==== Proof.KI.Chain2d.lean ====
/-
  Round two of the kernel program: the object features after round two (region 7). The region's output array is the
  region's value at its ten input arrays: the round-one object features plus the mean of three collections. Each input
  array is walked back through the items that do not write it: to the region that wrote it (whose fact is a hypothesis
  here), or to the host operations before the first region for an attention matrix (the argument itself) and a
  denominator (the argument's row sum plus `ε`).
-/
import proofs.«152197_j87351044866369_2_alg».proof.Proof.KI.ChainBase
import proofs.«152197_j87351044866369_2_alg».proof.Proof.KI.Val7

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 7 the buffer `main_v40` holds the object features after round two, given what the region's inputs
    hold: the object features after round one, the two projections of the round-one relation features, and the self
    projection of the round-one object features. The attention matrices are the arguments', and the three denominators
    are the host's row sums plus `ε`. -/
theorem F40_of (h7 : ∀ V c, 𝒟.D 7 V c = dat7 V c)
    (h30 : Cert.Spec.co2 (a := 2048) (b := 1024) (W5 𝒟 m c (Proc.devRef .tc main_v30)) = Cert.Spec.obj1 (A m c))
    (h37_0 : Cert.Spec.co2 (a := 16384) (b := 1024) (W10 𝒟 m c (Proc.devRef .tc main_v37_0)) = Cert.Spec.fc (Cert.Spec.rel1 (A m c)) (A m c).wRS (A m c).bRS)
    (h37_1 : Cert.Spec.co2 (a := 16384) (b := 1024) (W10 𝒟 m c (Proc.devRef .tc main_v37_1)) = Cert.Spec.fc (Cert.Spec.rel1 (A m c)) (A m c).wRO (A m c).bRO)
    (h39 : Cert.Spec.co2 (a := 2048) (b := 1024) (W12 𝒟 m c (Proc.devRef .tc main_v39)) = Cert.Spec.fc (Cert.Spec.obj1 (A m c)) (A m c).wSelf (A m c).bSelf) :
    Cert.Spec.co2 (a := 2048) (b := 1024) (W13 𝒟 m c (Proc.devRef .tc main_v40)) = Cert.Spec.obj2 (A m c) := by
  have e : W13 𝒟 m c (Proc.devRef .tc main_v40) = (dat7 (F := Ideal) (rd (W12 𝒟 m)) c).arrAt 10 cfg7.N := by
    rw [← h7]; exact stepR_arr 𝒟 7 (W12 𝒟 m) c 10
  have hxo : Cert.Spec.co2 (in7_9 (rd (W12 𝒟 m)) c) = Cert.Spec.obj1 (A m c) := by
    show Cert.Spec.co2 (a := 2048) (b := 1024) (W12 𝒟 m c (Proc.devRef .tc main_v30)) = _
    rw [back12 𝒟 m c main_v30 (by decide), back11 𝒟 m c main_v30 (by decide), back10 𝒟 m c main_v30 (by decide), back9 𝒟 m c main_v30 (by decide), back8 𝒟 m c main_v30 (by decide), back7 𝒟 m c main_v30 (by decide), back6 𝒟 m c main_v30 (by decide)]
    exact h30
  have ha0 : Cert.Spec.co2 (in7_0 (rd (W12 𝒟 m)) c) = (A m c).aSub := by
    show Cert.Spec.co2 (a := 2048) (b := 16384) (W12 𝒟 m c (Proc.devRef .tc main_v22)) = _
    rw [back12 𝒟 m c main_v22 (by decide), back11 𝒟 m c main_v22 (by decide), back10 𝒟 m c main_v22 (by decide), back9 𝒟 m c main_v22 (by decide), back8 𝒟 m c main_v22 (by decide), back7 𝒟 m c main_v22 (by decide), back6 𝒟 m c main_v22 (by decide), back5 𝒟 m c main_v22 (by decide), back4 𝒟 m c main_v22 (by decide), back3 𝒟 m c main_v22 (by decide), back2 𝒟 m c main_v22 (by decide)]
    show Cert.Spec.co2 (a := 2048) (b := 16384) ((StableHlo.after (hostOps0 (F := Ideal)) (W0 m c) (Proc.devRef .tc main_v22) : S2048x16384.Idx → EReal)) = _
    rw [attn_sub_narrow (W0 m c)]
    rfl
  have ha1 : Cert.Spec.co2 (in7_1 (rd (W12 𝒟 m)) c) = (A m c).aObj := by
    show Cert.Spec.co2 (a := 2048) (b := 16384) (W12 𝒟 m c (Proc.devRef .tc main_v23)) = _
    rw [back12 𝒟 m c main_v23 (by decide), back11 𝒟 m c main_v23 (by decide), back10 𝒟 m c main_v23 (by decide), back9 𝒟 m c main_v23 (by decide), back8 𝒟 m c main_v23 (by decide), back7 𝒟 m c main_v23 (by decide), back6 𝒟 m c main_v23 (by decide), back5 𝒟 m c main_v23 (by decide), back4 𝒟 m c main_v23 (by decide), back3 𝒟 m c main_v23 (by decide), back2 𝒟 m c main_v23 (by decide)]
    show Cert.Spec.co2 (a := 2048) (b := 16384) ((StableHlo.after (hostOps0 (F := Ideal)) (W0 m c) (Proc.devRef .tc main_v23) : S2048x16384.Idx → EReal)) = _
    rw [attn_obj_narrow (W0 m c)]
    rfl
  have ha4 : Cert.Spec.co2 (in7_4 (rd (W12 𝒟 m)) c) = (A m c).aSelf := by
    show Cert.Spec.co2 (a := 2048) (b := 2048) (W12 𝒟 m c (Proc.devRef .tc main_v24)) = _
    rw [back12 𝒟 m c main_v24 (by decide), back11 𝒟 m c main_v24 (by decide), back10 𝒟 m c main_v24 (by decide), back9 𝒟 m c main_v24 (by decide), back8 𝒟 m c main_v24 (by decide), back7 𝒟 m c main_v24 (by decide), back6 𝒟 m c main_v24 (by decide), back5 𝒟 m c main_v24 (by decide), back4 𝒟 m c main_v24 (by decide), back3 𝒟 m c main_v24 (by decide), back2 𝒟 m c main_v24 (by decide)]
    show Cert.Spec.co2 (a := 2048) (b := 2048) ((StableHlo.after (hostOps0 (F := Ideal)) (W0 m c) (Proc.devRef .tc main_v24) : S2048x2048.Idx → EReal)) = _
    rw [attn_self_narrow (W0 m c)]
    rfl
  have hf2 : Cert.Spec.co2 (in7_2 (rd (W12 𝒟 m)) c) = Cert.Spec.fc (Cert.Spec.rel1 (A m c)) (A m c).wRS (A m c).bRS := by
    show Cert.Spec.co2 (a := 16384) (b := 1024) (W12 𝒟 m c (Proc.devRef .tc main_v37_0)) = _
    rw [back12 𝒟 m c main_v37_0 (by decide), back11 𝒟 m c main_v37_0 (by decide)]
    exact h37_0
  have hf3 : Cert.Spec.co2 (in7_3 (rd (W12 𝒟 m)) c) = Cert.Spec.fc (Cert.Spec.rel1 (A m c)) (A m c).wRO (A m c).bRO := by
    show Cert.Spec.co2 (a := 16384) (b := 1024) (W12 𝒟 m c (Proc.devRef .tc main_v37_1)) = _
    rw [back12 𝒟 m c main_v37_1 (by decide), back11 𝒟 m c main_v37_1 (by decide)]
    exact h37_1
  have hf5 : Cert.Spec.co2 (in7_5 (rd (W12 𝒟 m)) c) = Cert.Spec.fc (Cert.Spec.obj1 (A m c)) (A m c).wSelf (A m c).bSelf := h39
  have hd6 : ∀ p : Fin 2048, Cert.Spec.co2 (in7_6 (rd (W12 𝒟 m)) c) p 0
      = (∑ s : Fin 16384, (A m c).aSub p s) + Cert.Spec.eps := by
    intro p
    show Cert.Spec.co2 (a := 2048) (b := 1) (W12 𝒟 m c (Proc.devRef .tc main_v3)) p 0 = _
    rw [back12 𝒟 m c main_v3 (by decide), back11 𝒟 m c main_v3 (by decide), back10 𝒟 m c main_v3 (by decide), back9 𝒟 m c main_v3 (by decide), back8 𝒟 m c main_v3 (by decide), back7 𝒟 m c main_v3 (by decide), back6 𝒟 m c main_v3 (by decide), back5 𝒟 m c main_v3 (by decide), back4 𝒟 m c main_v3 (by decide), back3 𝒟 m c main_v3 (by decide), back2 𝒟 m c main_v3 (by decide)]
    show (StableHlo.after (hostOps0 (F := Ideal)) (W0 m c) (Proc.devRef .tc main_v3) : S2048x1.Idx → EReal) (ix2 p 0) = _
    rw [denom_sub (W0 m c) p]
    rfl
  have hd7 : ∀ p : Fin 2048, Cert.Spec.co2 (in7_7 (rd (W12 𝒟 m)) c) p 0
      = (∑ s : Fin 16384, (A m c).aObj p s) + Cert.Spec.eps := by
    intro p
    show Cert.Spec.co2 (a := 2048) (b := 1) (W12 𝒟 m c (Proc.devRef .tc main_v7)) p 0 = _
    rw [back12 𝒟 m c main_v7 (by decide), back11 𝒟 m c main_v7 (by decide), back10 𝒟 m c main_v7 (by decide), back9 𝒟 m c main_v7 (by decide), back8 𝒟 m c main_v7 (by decide), back7 𝒟 m c main_v7 (by decide), back6 𝒟 m c main_v7 (by decide), back5 𝒟 m c main_v7 (by decide), back4 𝒟 m c main_v7 (by decide), back3 𝒟 m c main_v7 (by decide), back2 𝒟 m c main_v7 (by decide)]
    show (StableHlo.after (hostOps0 (F := Ideal)) (W0 m c) (Proc.devRef .tc main_v7) : S2048x1.Idx → EReal) (ix2 p 0) = _
    rw [denom_obj (W0 m c) p]
    rfl
  have hd8 : ∀ p : Fin 2048, Cert.Spec.co2 (in7_8 (rd (W12 𝒟 m)) c) p 0
      = (∑ s : Fin 2048, (A m c).aSelf p s) + Cert.Spec.eps := by
    intro p
    show Cert.Spec.co2 (a := 2048) (b := 1) (W12 𝒟 m c (Proc.devRef .tc main_v11)) p 0 = _
    rw [back12 𝒟 m c main_v11 (by decide), back11 𝒟 m c main_v11 (by decide), back10 𝒟 m c main_v11 (by decide), back9 𝒟 m c main_v11 (by decide), back8 𝒟 m c main_v11 (by decide), back7 𝒟 m c main_v11 (by decide), back6 𝒟 m c main_v11 (by decide), back5 𝒟 m c main_v11 (by decide), back4 𝒟 m c main_v11 (by decide), back3 𝒟 m c main_v11 (by decide), back2 𝒟 m c main_v11 (by decide)]
    show (StableHlo.after (hostOps0 (F := Ideal)) (W0 m c) (Proc.devRef .tc main_v11) : S2048x1.Idx → EReal) (ix2 p 0) = _
    rw [denom_self (W0 m c) p]
    rfl
  rw [e, val7]
  unfold G7
  rw [co2_arr2]
  funext p d
  rw [hxo, ha0, ha1, ha4, hf2, hf3, hf5, hd6 p, hd7 p, hd8 p]
  rfl

end Cert.KernelIdeal.HandVal

end
-- ==== Proof.KI.Chain2.lean ====
/-
  Round two of the kernel program, assembled: from what the two round-one feature buffers hold, the two results. The
  projections of the round-one features (regions 5, 6 and 8) feed the two combining regions (7 for the objects, 9 for
  the relations); the object result, written by region 7, is then left alone by the three items after it.
-/
import proofs.«152197_j87351044866369_2_alg».proof.Proof.KI.Chain2a
import proofs.«152197_j87351044866369_2_alg».proof.Proof.KI.Chain2b
import proofs.«152197_j87351044866369_2_alg».proof.Proof.KI.Chain2c
import proofs.«152197_j87351044866369_2_alg».proof.Proof.KI.Chain2d

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (𝒟 : RegData Ideal) (m : (ℓ : Loc nD τ sig) → Buf (Elt Ideal) ℓ) (c : Dev nD)

/-- After region 9 the buffer `main_v44` holds the relation features after round two. -/
theorem F44 (h8 : ∀ V c, 𝒟.D 8 V c = dat8 V c) (h9 : ∀ V c, 𝒟.D 9 V c = dat9 V c)
    (h30 : Cert.Spec.co2 (a := 2048) (b := 1024) (W5 𝒟 m c (Proc.devRef .tc main_v30)) = Cert.Spec.obj1 (A m c))
    (h34 : Cert.Spec.co2 (a := 16384) (b := 1024) (W8 𝒟 m c (Proc.devRef .tc main_v34)) = Cert.Spec.rel1 (A m c)) :
    Cert.Spec.co2 (a := 16384) (b := 1024) (W16 𝒟 m c (Proc.devRef .tc main_v44)) = Cert.Spec.rel2 (A m c) :=
  F44_of 𝒟 m c h9 h34 (F43_0 𝒟 m c h8 h30) (F43_1 𝒟 m c h8 h30)

/-- After region 7 the buffer `main_v40` holds the object features after round two. -/
theorem F40 (h5 : ∀ V c, 𝒟.D 5 V c = dat5 V c) (h6 : ∀ V c, 𝒟.D 6 V c = dat6 V c) (h7 : ∀ V c, 𝒟.D 7 V c = dat7 V c)
    (h30 : Cert.Spec.co2 (a := 2048) (b := 1024) (W5 𝒟 m c (Proc.devRef .tc main_v30)) = Cert.Spec.obj1 (A m c))
    (h34 : Cert.Spec.co2 (a := 16384) (b := 1024) (W8 𝒟 m c (Proc.devRef .tc main_v34)) = Cert.Spec.rel1 (A m c)) :
    Cert.Spec.co2 (a := 2048) (b := 1024) (W13 𝒟 m c (Proc.devRef .tc main_v40)) = Cert.Spec.obj2 (A m c) :=
  F40_of 𝒟 m c h7 h30 (F37_0 𝒟 m c h5 h34) (F37_1 𝒟 m c h5 h34) (F39 𝒟 m c h6 h30)

/-- At the end of the run the first result buffer holds the specification's object features after two rounds: region 7
    wrote them, and the host stretch and the two regions after it do not write that buffer. -/
theorem obj_result (h5 : ∀ V c, 𝒟.D 5 V c = dat5 V c) (h6 : ∀ V c, 𝒟.D 6 V c = dat6 V c) (h7 : ∀ V c, 𝒟.D 7 V c = dat7 V c)
    (h30 : Cert.Spec.co2 (a := 2048) (b := 1024) (W5 𝒟 m c (Proc.devRef .tc main_v30)) = Cert.Spec.obj1 (A m c))
    (h34 : Cert.Spec.co2 (a := 16384) (b := 1024) (W8 𝒟 m c (Proc.devRef .tc main_v34)) = Cert.Spec.rel1 (A m c)) :
    W16 𝒟 m c (Proc.devRef .tc main_v40) = Cert.Spec.arr2 (Cert.Spec.obj2 (A m c)) := by
  rw [back16 𝒟 m c main_v40 (by decide), back15 𝒟 m c main_v40 (by decide), back14 𝒟 m c main_v40 (by decide)]
  exact (Cert.Spec.arr2_co2 (a := 2048) (b := 1024) (W13 𝒟 m c (Proc.devRef .tc main_v40))).symm.trans
    (congrArg Cert.Spec.arr2 (F40 𝒟 m c h5 h6 h7 h30 h34))

/-- At the end of the run the second result buffer holds the specification's relation features after two rounds. -/
theorem rel_result (h8 : ∀ V c, 𝒟.D 8 V c = dat8 V c) (h9 : ∀ V c, 𝒟.D 9 V c = dat9 V c)
    (h30 : Cert.Spec.co2 (a := 2048) (b := 1024) (W5 𝒟 m c (Proc.devRef .tc main_v30)) = Cert.Spec.obj1 (A m c))
    (h34 : Cert.Spec.co2 (a := 16384) (b := 1024) (W8 𝒟 m c (Proc.devRef .tc main_v34)) = Cert.Spec.rel1 (A m c)) :
    W16 𝒟 m c (Proc.devRef .tc main_v44) = Cert.Spec.arr2 (Cert.Spec.rel2 (A m c)) :=
  (Cert.Spec.arr2_co2 (a := 16384) (b := 1024) (W16 𝒟 m c (Proc.devRef .tc main_v44))).symm.trans
    (congrArg Cert.Spec.arr2 (F44 𝒟 m c h8 h9 h30 h34))

end Cert.KernelIdeal.HandVal

end
-- ==== Proof.KI.ChainAll.lean ====
/-
  The chain closed over the concrete regions: at the end of the run the two result buffers hold the specification's
  object and relation features after two rounds, as functions of the argument arrays.
-/
import proofs.«152197_j87351044866369_2_alg».proof.Proof.KI.Data
import proofs.«152197_j87351044866369_2_alg».proof.Proof.KI.Chain1
import proofs.«152197_j87351044866369_2_alg».proof.Proof.KI.Chain1o
import proofs.«152197_j87351044866369_2_alg».proof.Proof.KI.Chain2

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- After round one the object features' buffer holds the specification's. -/
theorem obj1_all : Cert.Spec.co2 (a := 2048) (b := 1024) (W5 (regData (F := Ideal)) m c (Proc.devRef .tc main_v30)) = Cert.Spec.obj1 (A m c) :=
  F30 regData m c (fun _ _ => rfl) (fun _ _ => rfl) (fun _ _ => rfl)

/-- After round one the relation features' buffer holds the specification's. -/
theorem rel1_all : Cert.Spec.co2 (a := 16384) (b := 1024) (W8 (regData (F := Ideal)) m c (Proc.devRef .tc main_v34)) = Cert.Spec.rel1 (A m c) :=
  F34 regData m c (fun _ _ => rfl) (fun _ _ => rfl)

theorem obj_result_all : W16 (regData (F := Ideal)) m c (Proc.devRef .tc main_v40) = Cert.Spec.arr2 (Cert.Spec.obj2 (A m c)) :=
  obj_result regData m c (fun _ _ => rfl) (fun _ _ => rfl) (fun _ _ => rfl) (obj1_all m c) (rel1_all m c)

theorem rel_result_all : W16 (regData (F := Ideal)) m c (Proc.devRef .tc main_v44) = Cert.Spec.arr2 (Cert.Spec.rel2 (A m c)) :=
  rel_result regData m c (fun _ _ => rfl) (fun _ _ => rfl) (obj1_all m c) (rel1_all m c)

end Cert.KernelIdeal.HandVal

end
-- ==== Proof.RefBase.lean ====
/-
  Shared vocabulary for reading the reference program against the specification: names for the argument array types,
  two small tactics that prove an equation between two indices coordinate by coordinate, and the fact that taking
  coordinates of an array built from a coordinate function gives the function back.
-/
import proofs.«152197_j87351044866369_2_alg».proof.Proof.Gen.ReferenceIdeal.Read
import proofs.«152197_j87351044866369_2_alg».proof.Proof.Spec

noncomputable section

open scoped BigOperators

namespace Cert.RefSpec

open Cert.ReferenceIdeal Cert.ReferenceIdeal.Gen Cert.ReferenceIdeal.Read Idealize.ShloMosaic Idealize.ShloMosaic.ValueIdx

/-- Object features: 2048 rows of 1024. -/
abbrev TObj := (⟨S2048x1024, .f32⟩ : BufTy).Contents (Elt Ideal)
/-- Relation features: 16384 rows of 1024. -/
abbrev TRel := (⟨S16384x1024, .f32⟩ : BufTy).Contents (Elt Ideal)
/-- Attention of objects over relations: 2048 by 16384. -/
abbrev TAtt := (⟨S2048x16384, .f32⟩ : BufTy).Contents (Elt Ideal)
/-- Attention of objects over objects: 2048 by 2048. -/
abbrev TSelf := (⟨S2048x2048, .f32⟩ : BufTy).Contents (Elt Ideal)
/-- A weight matrix: 1024 by 1024. -/
abbrev TW := (⟨S1024x1024, .f32⟩ : BufTy).Contents (Elt Ideal)
/-- A bias: 1024 entries. -/
abbrev TB := (⟨S1024, .f32⟩ : BufTy).Contents (Elt Ideal)

/-- Two rank-2 indices are equal when both coordinates are, each by computation. -/
macro "idx2" : tactic =>
  `(tactic| exact funext fun a => Fin.ext (by match a with | ⟨0, _⟩ => rfl | ⟨1, _⟩ => rfl))
/-- Two rank-1 indices are equal when their coordinate is, by computation. -/
macro "idx1" : tactic =>
  `(tactic| exact funext fun a => Fin.ext (by match a with | ⟨0, _⟩ => rfl))

/-- The coordinates of the array of a coordinate function are that function. -/
theorem co2_arr2 {a b : ℕ} (f : Fin a → Fin b → EReal) : Spec.co2 (Spec.arr2 f) = f := by
  funext p q; exact Spec.arr2_ix2 f p q

end Cert.RefSpec

end
-- ==== Proof.RefFc.lean ====
/-
  A projection of the reference, read against the specification. The reference computes `relu (x · Wᵀ + b)` as a
  transpose of `W`, a contraction over the 1024 input features, a bias row broadcast over the rows, an addition, and a
  maximum with a broadcast zero. At the coordinate `(p, d)` this is `max ((∑ k, x p k * W d k) + b d) 0`, which is
  `Spec.fc`. Proved once for 16384-row inputs (relation features) and once for 2048-row inputs (object features), for
  arbitrary input, weight and bias arrays.
-/
import proofs.«152197_j87351044866369_2_alg».proof.Proof.RefBase

noncomputable section

open scoped BigOperators

namespace Cert.RefSpec

open Cert.ReferenceIdeal Cert.ReferenceIdeal.Gen Cert.ReferenceIdeal.Read Idealize.ShloMosaic Idealize.ShloMosaic.ValueIdx

/-- The projection of a relation-shaped array: the reference's value is `Spec.fc` by coordinates. -/
theorem fcRel (x : TRel) (W : TW) (b : TB) :
    val_main_v5 (F := Ideal) x W b = Spec.arr2 (Spec.fc (Spec.co2 x) (Spec.co2 W) (Spec.co1 b)) := by
  funext i
  obtain ⟨p, q, rfl⟩ : ∃ (p : Fin 16384) (q : Fin 1024), i = ix2 p q := ⟨i 0, i 1, eq_ix2 i⟩
  rw [val_main_v5_apply, val_main_v4_apply, val_main_v1_apply, val_main_v3_apply, val_main_v2_apply,
    val_main_call0_v0_apply, val_main_call0_cst_apply, Spec.arr2_ix2]
  have e1 : ∀ k : Fin 1024, lidx_main_v1 (ix2 p q) k = ix2 p k := fun k => by idx2
  have e2 : ∀ k : Fin 1024, idx_main_v0 (ridx_main_v1 (ix2 p q) k) = ix2 q k := fun k => by idx2
  have e3 : idx_main_v2 (idx_main_v3 (ix2 p q)) = ix1 q := by idx1
  have hs : ∀ k : Fin 1024, x (lidx_main_v1 (ix2 p q) k) * val_main_v0 (F := Ideal) W (ridx_main_v1 (ix2 p q) k)
      = Spec.co2 x p k * Spec.co2 W q k := fun k => by
    rw [val_main_v0_apply, e1, e2]; rfl
  rw [Finset.sum_congr rfl (fun k _ => hs k), e3, Ideal.maximumf_def, Ideal.addf_def, Ideal.ofBits_def,
    Ideal.ofBits_zero_f32]
  rfl

/-- The projection of an object-shaped array: the reference's value is `Spec.fc` by coordinates. -/
theorem fcObj (x : TObj) (W : TW) (b : TB) :
    val_main_v31 (F := Ideal) x W b = Spec.arr2 (Spec.fc (Spec.co2 x) (Spec.co2 W) (Spec.co1 b)) := by
  funext i
  obtain ⟨p, q, rfl⟩ : ∃ (p : Fin 2048) (q : Fin 1024), i = ix2 p q := ⟨i 0, i 1, eq_ix2 i⟩
  rw [val_main_v31_apply, val_main_v30_apply, val_main_v27_apply, val_main_v29_apply, val_main_v28_apply,
    val_main_call2_v0_apply, val_main_call2_cst_apply, Spec.arr2_ix2]
  have e1 : ∀ k : Fin 1024, lidx_main_v27 (ix2 p q) k = ix2 p k := fun k => by idx2
  have e2 : ∀ k : Fin 1024, idx_main_v26 (ridx_main_v27 (ix2 p q) k) = ix2 q k := fun k => by idx2
  have e3 : idx_main_v28 (idx_main_v29 (ix2 p q)) = ix1 q := by idx1
  have hs : ∀ k : Fin 1024, x (lidx_main_v27 (ix2 p q) k) * val_main_v26 (F := Ideal) W (ridx_main_v27 (ix2 p q) k)
      = Spec.co2 x p k * Spec.co2 W q k := fun k => by
    rw [val_main_v26_apply, e1, e2]; rfl
  rw [Finset.sum_congr rfl (fun k _ => hs k), e3, Ideal.maximumf_def, Ideal.addf_def, Ideal.ofBits_def,
    Ideal.ofBits_zero_f32]
  rfl

end Cert.RefSpec

end
-- ==== Proof.RefColRel.lean ====
/-
  A collection of the reference, read against the specification: objects gathering projected relations. The reference
  computes `(a · f) / (rowsum a + ε)` as a contraction of the attention matrix with the projected source rows, a row sum
  of the attention matrix (a zero initial value plus the sum), a broadcast of the row sums with the literal `ε` added,
  and a division. At the coordinate `(p, d)` this is `(∑ k, a p k * f k d) / ((∑ k, a p k) + ε)`: `Spec.collect`.
-/
import proofs.«152197_j87351044866369_2_alg».proof.Proof.RefFc

noncomputable section

open scoped BigOperators

namespace Cert.RefSpec

open Cert.ReferenceIdeal Cert.ReferenceIdeal.Gen Cert.ReferenceIdeal.Read Idealize.ShloMosaic Idealize.ShloMosaic.ValueIdx

/-- Objects gathering projected relations through an attention matrix `a`. -/
theorem colRel (x : TRel) (a : TAtt) (W : TW) (b : TB) :
    val_main_v12 (F := Ideal) x a W b
      = Spec.arr2 (Spec.collect (Spec.co2 a) (Spec.fc (Spec.co2 x) (Spec.co2 W) (Spec.co1 b))) := by
  funext i
  obtain ⟨p, q, rfl⟩ : ∃ (p : Fin 2048) (q : Fin 1024), i = ix2 p q := ⟨i 0, i 1, eq_ix2 i⟩
  rw [val_main_v12_apply, val_main_v6_apply, val_main_v11_apply, val_main_v10_apply, val_main_v8_apply,
    val_main_v7_apply, val_main_v9_apply, val_main_cst_0_apply, val_main_cst_apply, fcRel, Spec.arr2_ix2]
  have e1 : ∀ k : Fin 16384, lidx_main_v6 (ix2 p q) k = ix2 p k := fun k => by idx2
  have e2 : ∀ k : Fin 16384, ridx_main_v6 (ix2 p q) k = ix2 k q := fun k => by idx2
  have e3 : ∀ k : Fin 16384, idx_main_v7 (idx_main_v8 (idx_main_v11 (ix2 p q))) k = ix2 p k := fun k => by idx2
  have hs : ∀ k : Fin 16384, a (lidx_main_v6 (ix2 p q) k)
        * Spec.arr2 (Spec.fc (Spec.co2 x) (Spec.co2 W) (Spec.co1 b)) (ridx_main_v6 (ix2 p q) k)
      = Spec.co2 a p k * Spec.fc (Spec.co2 x) (Spec.co2 W) (Spec.co1 b) k q := fun k => by
    rw [e1, e2, Spec.arr2_ix2]; rfl
  have hr : ∀ k : Fin 16384, a (idx_main_v7 (idx_main_v8 (idx_main_v11 (ix2 p q))) k) = Spec.co2 a p k :=
    fun k => by rw [e3]; rfl
  rw [Finset.sum_congr rfl (fun k _ => hs k), Finset.sum_congr rfl (fun k _ => hr k), Ideal.hostDivf_def,
    Ideal.addf_def, Ideal.ofBits_def, Ideal.ofBits_def, Ideal.ofBits_zero_f32, zero_add]
  rfl

end Cert.RefSpec

end
-- ==== Proof.RefColSelf.lean ====
/-
  A collection of the reference, read against the specification: objects gathering projected objects through the
  2048 by 2048 self attention matrix. The same operations as for relations, contracting over 2048 source rows: at the
  coordinate `(p, d)` the value is `(∑ k, a p k * f k d) / ((∑ k, a p k) + ε)`, which is `Spec.collect`.
-/
import proofs.«152197_j87351044866369_2_alg».proof.Proof.RefFc

noncomputable section

open scoped BigOperators

namespace Cert.RefSpec

open Cert.ReferenceIdeal Cert.ReferenceIdeal.Gen Cert.ReferenceIdeal.Read Idealize.ShloMosaic Idealize.ShloMosaic.ValueIdx

/-- Objects gathering projected objects through the self attention matrix `a`. -/
theorem colSelf (x : TObj) (a : TSelf) (W : TW) (b : TB) :
    val_main_v38 (F := Ideal) x a W b
      = Spec.arr2 (Spec.collect (Spec.co2 a) (Spec.fc (Spec.co2 x) (Spec.co2 W) (Spec.co1 b))) := by
  funext i
  obtain ⟨p, q, rfl⟩ : ∃ (p : Fin 2048) (q : Fin 1024), i = ix2 p q := ⟨i 0, i 1, eq_ix2 i⟩
  rw [val_main_v38_apply, val_main_v32_apply, val_main_v37_apply, val_main_v36_apply, val_main_v34_apply,
    val_main_v33_apply, val_main_v35_apply, val_main_cst_4_apply, val_main_cst_3_apply, fcObj, Spec.arr2_ix2]
  have e1 : ∀ k : Fin 2048, lidx_main_v32 (ix2 p q) k = ix2 p k := fun k => by idx2
  have e2 : ∀ k : Fin 2048, ridx_main_v32 (ix2 p q) k = ix2 k q := fun k => by idx2
  have e3 : ∀ k : Fin 2048, idx_main_v33 (idx_main_v34 (idx_main_v37 (ix2 p q))) k = ix2 p k := fun k => by idx2
  have hs : ∀ k : Fin 2048, a (lidx_main_v32 (ix2 p q) k)
        * Spec.arr2 (Spec.fc (Spec.co2 x) (Spec.co2 W) (Spec.co1 b)) (ridx_main_v32 (ix2 p q) k)
      = Spec.co2 a p k * Spec.fc (Spec.co2 x) (Spec.co2 W) (Spec.co1 b) k q := fun k => by
    rw [e1, e2, Spec.arr2_ix2]; rfl
  have hr : ∀ k : Fin 2048, a (idx_main_v33 (idx_main_v34 (idx_main_v37 (ix2 p q))) k) = Spec.co2 a p k :=
    fun k => by rw [e3]; rfl
  rw [Finset.sum_congr rfl (fun k _ => hs k), Finset.sum_congr rfl (fun k _ => hr k), Ideal.hostDivf_def,
    Ideal.addf_def, Ideal.ofBits_def, Ideal.ofBits_def, Ideal.ofBits_zero_f32, zero_add]
  rfl

end Cert.RefSpec

end
-- ==== Proof.RefColT.lean ====
/-
  A collection of the reference, read against the specification: relations gathering projected objects through the
  TRANSPOSE of a 2048 by 16384 attention matrix. The transpose only swaps the two coordinates at which the matrix is
  read, in the contraction and in the row sum alike, so at the coordinate `(r, d)` the value is
  `(∑ t, a t r * f t d) / ((∑ t, a t r) + ε)`: `Spec.collect` of the matrix read with its coordinates swapped.
-/
import proofs.«152197_j87351044866369_2_alg».proof.Proof.RefFc

noncomputable section

open scoped BigOperators

namespace Cert.RefSpec

open Cert.ReferenceIdeal Cert.ReferenceIdeal.Gen Cert.ReferenceIdeal.Read Idealize.ShloMosaic Idealize.ShloMosaic.ValueIdx

/-- The second object-to-relation projection is the first one's operations at other arguments. -/
theorem v50_eq (x : TObj) (W : TW) (b : TB) :
    val_main_v50 (F := Ideal) x W b = val_main_v31 (F := Ideal) x W b := rfl

/-- Relations gathering projected objects through the transpose of an attention matrix `a`. -/
theorem colT (x : TObj) (a : TAtt) (W : TW) (b : TB) :
    val_main_v57 (F := Ideal) x a W b
      = Spec.arr2 (Spec.collect (fun r t => Spec.co2 a t r) (Spec.fc (Spec.co2 x) (Spec.co2 W) (Spec.co1 b))) := by
  funext i
  obtain ⟨p, q, rfl⟩ : ∃ (p : Fin 16384) (q : Fin 1024), i = ix2 p q := ⟨i 0, i 1, eq_ix2 i⟩
  rw [val_main_v57_apply, val_main_v51_apply, val_main_v56_apply, val_main_v55_apply, val_main_v53_apply,
    val_main_v52_apply, val_main_v54_apply, val_main_cst_7_apply, val_main_cst_6_apply, v50_eq, fcObj,
    Spec.arr2_ix2]
  have e1 : ∀ k : Fin 2048, idx_main_v44 (lidx_main_v51 (ix2 p q) k) = ix2 k p := fun k => by idx2
  have e2 : ∀ k : Fin 2048, ridx_main_v51 (ix2 p q) k = ix2 k q := fun k => by idx2
  have e3 : ∀ k : Fin 2048,
      idx_main_v44 (idx_main_v52 (idx_main_v53 (idx_main_v56 (ix2 p q))) k) = ix2 k p := fun k => by idx2
  have hs : ∀ k : Fin 2048, val_main_v44 (F := Ideal) a (lidx_main_v51 (ix2 p q) k)
        * Spec.arr2 (Spec.fc (Spec.co2 x) (Spec.co2 W) (Spec.co1 b)) (ridx_main_v51 (ix2 p q) k)
      = Spec.co2 a k p * Spec.fc (Spec.co2 x) (Spec.co2 W) (Spec.co1 b) k q := fun k => by
    rw [val_main_v44_apply, e1, e2, Spec.arr2_ix2]; rfl
  have hr : ∀ k : Fin 2048,
      val_main_v44 (F := Ideal) a (idx_main_v52 (idx_main_v53 (idx_main_v56 (ix2 p q))) k) = Spec.co2 a k p :=
    fun k => by rw [val_main_v44_apply, e3]; rfl
  rw [Finset.sum_congr rfl (fun k _ => hs k), Finset.sum_congr rfl (fun k _ => hr k), Ideal.hostDivf_def,
    Ideal.addf_def, Ideal.ofBits_def, Ideal.ofBits_def, Ideal.ofBits_zero_f32, zero_add]
  rfl

end Cert.RefSpec

end
-- ==== Proof.RefRound1.lean ====
/-
  One round of the reference, read against the specification, for arbitrary feature arrays. The new object features are
  the old ones plus the mean of three collections (over the literal `3.0`); the new relation features are the old ones
  plus the mean of two collections through the transposed attention matrices (over the literal `2.0`). Each collection
  is one of the three shapes read in the collection modules; the second collection of each kind is the first one's
  operations at other arguments. The feature arrays `x0`, `x1` are arbitrary and need not be the specification's
  arguments `y0`, `y1`: a step only reads the attention matrices, weights and biases from the argument record.
-/
import proofs.«152197_j87351044866369_2_alg».proof.Proof.RefColRel
import proofs.«152197_j87351044866369_2_alg».proof.Proof.RefColSelf
import proofs.«152197_j87351044866369_2_alg».proof.Proof.RefColT

noncomputable section

open scoped BigOperators

namespace Cert.RefSpec

open Cert.ReferenceIdeal Cert.ReferenceIdeal.Gen Cert.ReferenceIdeal.Read Idealize.ShloMosaic Idealize.ShloMosaic.ValueIdx

/-- The second relation-to-object collection is the first one's operations at other arguments. -/
theorem v25_eq (x : TRel) (a : TAtt) (W : TW) (b : TB) :
    val_main_v25 (F := Ideal) x a W b = val_main_v12 (F := Ideal) x a W b := rfl

/-- The second object-to-relation collection is the first one's operations at other arguments. -/
theorem v71_eq (x : TObj) (a : TAtt) (W : TW) (b : TB) :
    val_main_v71 (F := Ideal) x a W b = val_main_v57 (F := Ideal) x a W b := rfl

/-- One object step of the reference from features `x0`, `x1` is `Spec.objStep` at their coordinates. -/
theorem objStep_read (y0 : TObj) (y1 : TRel) (x0 : TObj) (x1 : TRel) (x2 x3 : TAtt) (x4 : TSelf) (x5 : TW) (x6 : TB) (x7 : TW) (x8 : TB) (x9 : TW) (x10 : TB) (x11 : TW) (x12 : TB) (x13 : TW) (x14 : TB) :
    val_main_v43 (F := Ideal) x0 x1 x2 x3 x4 x5 x6 x7 x8 x13 x14
      = Spec.arr2 (Spec.objStep (Spec.args y0 y1 x2 x3 x4 x5 x6 x7 x8 x9 x10 x11 x12 x13 x14)
          (Spec.co2 x0) (Spec.co2 x1)) := by
  funext i
  obtain ⟨p, q, rfl⟩ : ∃ (p : Fin 2048) (q : Fin 1024), i = ix2 p q := ⟨i 0, i 1, eq_ix2 i⟩
  rw [val_main_v43_apply, val_main_v42_apply, val_main_v40_apply, val_main_v39_apply, val_main_v41_apply,
    val_main_cst_5_apply, v25_eq, colRel x1 x2 x5 x6, colRel x1 x3 x7 x8, colSelf x0 x4 x13 x14]
  simp only [Spec.arr2_ix2]
  rfl

/-- One relation step of the reference from features `x0`, `x1` is `Spec.relStep` at their coordinates. -/
theorem relStep_read (y0 : TObj) (y1 : TRel) (x0 : TObj) (x1 : TRel) (x2 x3 : TAtt) (x4 : TSelf) (x5 : TW) (x6 : TB) (x7 : TW) (x8 : TB) (x9 : TW) (x10 : TB) (x11 : TW) (x12 : TB) (x13 : TW) (x14 : TB) :
    val_main_v75 (F := Ideal) x0 x1 x2 x3 x9 x10 x11 x12
      = Spec.arr2 (Spec.relStep (Spec.args y0 y1 x2 x3 x4 x5 x6 x7 x8 x9 x10 x11 x12 x13 x14)
          (Spec.co2 x0) (Spec.co2 x1)) := by
  funext i
  obtain ⟨p, q, rfl⟩ : ∃ (p : Fin 16384) (q : Fin 1024), i = ix2 p q := ⟨i 0, i 1, eq_ix2 i⟩
  rw [val_main_v75_apply, val_main_v74_apply, val_main_v72_apply, val_main_v73_apply, val_main_cst_10_apply,
    v71_eq, colT x0 x2 x9 x10, colT x0 x3 x11 x12]
  simp only [Spec.arr2_ix2]
  rfl

end Cert.RefSpec

end
-- ==== Proof.RefBridge.lean ====
/-
  The second round of the reference is the first round's operations applied to the first round's results: the program
  lists the same operations again, reading the updated object features where the first round read the object
  argument and the updated relation features where it read the relation argument. Both equations hold by unfolding the
  operation names; no arithmetic is involved.
-/
import proofs.«152197_j87351044866369_2_alg».proof.Proof.RefBase

noncomputable section

open scoped BigOperators

namespace Cert.RefSpec

open Cert.ReferenceIdeal Cert.ReferenceIdeal.Gen Cert.ReferenceIdeal.Read Idealize.ShloMosaic Idealize.ShloMosaic.ValueIdx

/-- The object features after round two: the round-one object step at the round-one results. -/
theorem v119_eq (x0 : TObj) (x1 : TRel) (x2 x3 : TAtt) (x4 : TSelf) (x5 : TW) (x6 : TB) (x7 : TW) (x8 : TB) (x9 : TW) (x10 : TB) (x11 : TW) (x12 : TB) (x13 : TW) (x14 : TB) :
    val_main_v119 (F := Ideal) x0 x1 x2 x3 x4 x5 x6 x7 x8 x9 x10 x11 x12 x13 x14
      = val_main_v43 (F := Ideal) (val_main_v43 (F := Ideal) x0 x1 x2 x3 x4 x5 x6 x7 x8 x13 x14)
          (val_main_v75 (F := Ideal) x0 x1 x2 x3 x9 x10 x11 x12) x2 x3 x4 x5 x6 x7 x8 x13 x14 := rfl

/-- The relation features after round two: the round-one relation step at the round-one results. -/
theorem v151_eq (x0 : TObj) (x1 : TRel) (x2 x3 : TAtt) (x4 : TSelf) (x5 : TW) (x6 : TB) (x7 : TW) (x8 : TB) (x9 : TW) (x10 : TB) (x11 : TW) (x12 : TB) (x13 : TW) (x14 : TB) :
    val_main_v151 (F := Ideal) x0 x1 x2 x3 x4 x5 x6 x7 x8 x9 x10 x11 x12 x13 x14
      = val_main_v75 (F := Ideal) (val_main_v43 (F := Ideal) x0 x1 x2 x3 x4 x5 x6 x7 x8 x13 x14)
          (val_main_v75 (F := Ideal) x0 x1 x2 x3 x9 x10 x11 x12) x2 x3 x9 x10 x11 x12 := rfl

end Cert.RefSpec

end
-- ==== Proof.RefSpec.lean ====
/-
  The reference program computes the specification: its first result is the object features after two rounds and its
  second result the relation features after two rounds. Round one is one step from the argument features; round two is
  the same step's operations applied to round one's results, whose coordinates are round one's specification values.
-/
import proofs.«152197_j87351044866369_2_alg».proof.Proof.RefRound1
import proofs.«152197_j87351044866369_2_alg».proof.Proof.RefBridge

noncomputable section

open scoped BigOperators

namespace Cert.RefSpec

open Cert.ReferenceIdeal Cert.ReferenceIdeal.Gen Cert.ReferenceIdeal.Read Idealize.ShloMosaic Idealize.ShloMosaic.ValueIdx

/-- The object features after round one. -/
theorem obj1_read (x0 : TObj) (x1 : TRel) (x2 x3 : TAtt) (x4 : TSelf) (x5 : TW) (x6 : TB) (x7 : TW) (x8 : TB) (x9 : TW) (x10 : TB) (x11 : TW) (x12 : TB) (x13 : TW) (x14 : TB) :
    val_main_v43 (F := Ideal) x0 x1 x2 x3 x4 x5 x6 x7 x8 x13 x14 = Spec.arr2 (Spec.obj1 (Spec.args x0 x1 x2 x3 x4 x5 x6 x7 x8 x9 x10 x11 x12 x13 x14)) :=
  objStep_read x0 x1 x0 x1 x2 x3 x4 x5 x6 x7 x8 x9 x10 x11 x12 x13 x14

/-- The relation features after round one. -/
theorem rel1_read (x0 : TObj) (x1 : TRel) (x2 x3 : TAtt) (x4 : TSelf) (x5 : TW) (x6 : TB) (x7 : TW) (x8 : TB) (x9 : TW) (x10 : TB) (x11 : TW) (x12 : TB) (x13 : TW) (x14 : TB) :
    val_main_v75 (F := Ideal) x0 x1 x2 x3 x9 x10 x11 x12 = Spec.arr2 (Spec.rel1 (Spec.args x0 x1 x2 x3 x4 x5 x6 x7 x8 x9 x10 x11 x12 x13 x14)) :=
  relStep_read x0 x1 x0 x1 x2 x3 x4 x5 x6 x7 x8 x9 x10 x11 x12 x13 x14

/-- The reference's first result is the specification's object features after two rounds. -/
theorem obj2_eq (x0 : (⟨S2048x1024, .f32⟩ : BufTy).Contents (Elt Ideal)) (x1 : (⟨S16384x1024, .f32⟩ : BufTy).Contents (Elt Ideal))
    (x2 x3 : (⟨S2048x16384, .f32⟩ : BufTy).Contents (Elt Ideal)) (x4 : (⟨S2048x2048, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal))
    (x13 : (⟨S1024x1024, .f32⟩ : BufTy).Contents (Elt Ideal)) (x14 : (⟨S1024, .f32⟩ : BufTy).Contents (Elt Ideal)) :
    Cert.ReferenceIdeal.Read.val_main_v119 (F := Ideal) x0 x1 x2 x3 x4 x5 x6 x7 x8 x9 x10 x11 x12 x13 x14
      = Cert.Spec.arr2 (Cert.Spec.obj2 (Cert.Spec.args x0 x1 x2 x3 x4 x5 x6 x7 x8 x9 x10 x11 x12 x13 x14)) := by
  rw [v119_eq, objStep_read x0 x1 (val_main_v43 (F := Ideal) x0 x1 x2 x3 x4 x5 x6 x7 x8 x13 x14)
    (val_main_v75 (F := Ideal) x0 x1 x2 x3 x9 x10 x11 x12) x2 x3 x4 x5 x6 x7 x8 x9 x10 x11 x12 x13 x14,
    obj1_read x0 x1 x2 x3 x4 x5 x6 x7 x8 x9 x10 x11 x12 x13 x14, rel1_read x0 x1 x2 x3 x4 x5 x6 x7 x8 x9 x10 x11 x12 x13 x14, co2_arr2, co2_arr2]
  rfl

/-- The reference's second result is the specification's relation features after two rounds. -/
theorem rel2_eq (x0 : (⟨S2048x1024, .f32⟩ : BufTy).Contents (Elt Ideal)) (x1 : (⟨S16384x1024, .f32⟩ : BufTy).Contents (Elt Ideal))
    (x2 x3 : (⟨S2048x16384, .f32⟩ : BufTy).Contents (Elt Ideal)) (x4 : (⟨S2048x2048, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal))
    (x13 : (⟨S1024x1024, .f32⟩ : BufTy).Contents (Elt Ideal)) (x14 : (⟨S1024, .f32⟩ : BufTy).Contents (Elt Ideal)) :
    Cert.ReferenceIdeal.Read.val_main_v151 (F := Ideal) x0 x1 x2 x3 x4 x5 x6 x7 x8 x9 x10 x11 x12 x13 x14
      = Cert.Spec.arr2 (Cert.Spec.rel2 (Cert.Spec.args x0 x1 x2 x3 x4 x5 x6 x7 x8 x9 x10 x11 x12 x13 x14)) := by
  rw [v151_eq, relStep_read x0 x1 (val_main_v43 (F := Ideal) x0 x1 x2 x3 x4 x5 x6 x7 x8 x13 x14)
    (val_main_v75 (F := Ideal) x0 x1 x2 x3 x9 x10 x11 x12) x2 x3 x4 x5 x6 x7 x8 x9 x10 x11 x12 x13 x14,
    obj1_read x0 x1 x2 x3 x4 x5 x6 x7 x8 x9 x10 x11 x12 x13 x14, rel1_read x0 x1 x2 x3 x4 x5 x6 x7 x8 x9 x10 x11 x12 x13 x14, co2_arr2, co2_arr2]
  rfl

end Cert.RefSpec

end
-- ==== Proof.RefRun.lean ====
/-
  The reference program's run, stated against the specification. The generated run of the reference ends with every
  result array equal to its term over the argument arrays and with the argument arrays unchanged. Dropping the two
  result conjuncts gives the frame claim of the reference; replacing the two result terms by the specification's
  object and relation features after two rounds (the reading of the reference against the specification) gives the
  run in the form the comparison with the kernel uses.
-/
import proofs.«152197_j87351044866369_2_alg».proof.Defs
import proofs.«152197_j87351044866369_2_alg».proof.Proof.Gen.ReferenceIdeal
import proofs.«152197_j87351044866369_2_alg».proof.Proof.Gen.ReferenceIdeal.Run
import proofs.«152197_j87351044866369_2_alg».proof.Proof.Gen.ReferenceIdeal.Read
import proofs.«152197_j87351044866369_2_alg».proof.Proof.Gen.Pre_finite_inputs
import proofs.«152197_j87351044866369_2_alg».proof.Proof.RefSpec

noncomputable section

namespace Cert.RefSpec

open Idealize.ShloMosaic Idealize.SL.Sem

/-- The reference runs and leaves its fifteen argument arrays unchanged: the generated run without its two result
    conjuncts. -/
theorem frame_ri : Cert.frame_ReferenceIdeal := fun m ρ _ =>
  (θ_run Cert.ReferenceIdeal.defs _ _).mono (fun _ h c => (h c).2.2) (Cert.ReferenceIdeal.Value.run (F := Ideal) m ρ)

/-- The reference runs, its two results are the specification's object and relation features after two rounds of the
    argument arrays it started from, and the argument arrays end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v119)
          = Cert.Spec.arr2 (Cert.Spec.obj2 (Cert.Spec.args
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))))
      ∧ r.2.mem ((c.tc : Thread Cert.ReferenceIdeal.nD Cert.ReferenceIdeal.τ).loc Cert.ReferenceIdeal.main_v151)
          = Cert.Spec.arr2 (Cert.Spec.rel2 (Cert.Spec.args
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)) :=
  (θ_run Cert.ReferenceIdeal.defs _ _).mono (fun _ h c =>
    ⟨(h c).1.trans ((Cert.ReferenceIdeal.Read.val_main_v119_eq (F := Ideal) m' c).trans
        (obj2_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))),
      (h c).2.1.trans ((Cert.ReferenceIdeal.Read.val_main_v151_eq (F := Ideal) m' c).trans
        (rel2_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))),
      (h c).2.2⟩)
    (Cert.ReferenceIdeal.Value.run (F := Ideal) m' ρ')

end Cert.RefSpec

end
-- ==== Proof.lean ====
/-
  Two rounds of attention-weighted message passing between 2048 object nodes and 16384 relation nodes: the kernel
  program computes them in ten tiled kernel regions (projections as matrix products on the matrix unit, the
  attention-weighted sums accumulated block by block over a grid axis, the mean and the residual fused in), the
  reference in plain array operations. At the exact instance every float is an extended real and a change of float
  format is the identity, so both programs compute the same finite sums of the same products, in different orders and
  groupings; addition of extended reals is commutative and associative, and nothing here distributes a product over a
  sum, so the two results are equal for every input — the precondition is never opened.

  * The frames of the two kernel programs: the program is sixteen items, six stretches of host operations and ten
    regions. Each region is a segment between two boundary states (every unscoped buffer at known contents); eight
    regions keep nothing between grid points, the two object-side combine regions carry three accumulators. The run
    theorem gives every unscoped buffer's final contents as a fold through the items; no item writes an argument.
  * The reference's frame is its run with the results dropped.
  * The idealization rewrote nothing, so there is nothing to preserve.
  * The results: the fold's contents of the two result buffers, read region by region, are the specification's
    functions of the arguments (Proof/Spec.lean); the reference's run ends at the same functions.
-/
import proofs.«152197_j87351044866369_2_alg».proof.Defs
import proofs.«152197_j87351044866369_2_alg».proof.Proof.Gen.Kernel
import proofs.«152197_j87351044866369_2_alg».proof.Proof.Gen.KernelIdeal
import proofs.«152197_j87351044866369_2_alg».proof.Proof.Gen.ReferenceIdeal
import proofs.«152197_j87351044866369_2_alg».proof.Proof.Gen.Pre_finite_inputs
import proofs.«152197_j87351044866369_2_alg».proof.Proof.KB.Frames
import proofs.«152197_j87351044866369_2_alg».proof.Proof.KI.Frames
import proofs.«152197_j87351044866369_2_alg».proof.Proof.KI.ChainAll
import proofs.«152197_j87351044866369_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_p : Cert.frame_Kernel := fun m ρ _ => Cert.Kernel.Hand.frame m ρ

/-- The same of the kernel program read at the exact instance. -/
theorem frame_pi : Cert.frame_KernelIdeal := fun m ρ _ => Cert.KernelIdeal.Hand.frame m ρ

/-- The idealization rewrote no operation. -/
theorem preserves : Cert.preserves_Kernel_KernelIdeal := trivial

open Cert.KernelIdeal Cert.KernelIdeal.Hand Cert.KernelIdeal.HandVal in
/-- Both programs end at the specification's two functions of the arguments. -/
theorem algebraic : Cert.algebraic_KernelIdeal_ReferenceIdeal := by
  intro m ρ m' ρ' _ hagree
  refine ⟨fun c => Cert.Spec.arr2 (Cert.Spec.obj2 (A m c)), fun c => Cert.Spec.arr2 (Cert.Spec.rel2 (A m c)), ?_, ?_⟩
  · exact (θ_run Cert.KernelIdeal.defs _ _).mono (fun r h c =>
      ⟨(h c _ (mem_uc main_v40 (by decide))).trans (obj_result_all m c),
       (h c _ (mem_uc main_v44 (by decide))).trans (rel_result_all m c),
       (h c _ (mem_uc main_arg0 (by decide))).trans (kept_arg0 m c),
       (h c _ (mem_uc main_arg1 (by decide))).trans (kept_arg1 m c),
       (h c _ (mem_uc main_arg2 (by decide))).trans (kept_arg2 m c),
       (h c _ (mem_uc main_arg3 (by decide))).trans (kept_arg3 m c),
       (h c _ (mem_uc main_arg4 (by decide))).trans (kept_arg4 m c),
       (h c _ (mem_uc main_arg5 (by decide))).trans (kept_arg5 m c),
       (h c _ (mem_uc main_arg6 (by decide))).trans (kept_arg6 m c),
       (h c _ (mem_uc main_arg7 (by decide))).trans (kept_arg7 m c),
       (h c _ (mem_uc main_arg8 (by decide))).trans (kept_arg8 m c),
       (h c _ (mem_uc main_arg9 (by decide))).trans (kept_arg9 m c),
       (h c _ (mem_uc main_arg10 (by decide))).trans (kept_arg10 m c),
       (h c _ (mem_uc main_arg11 (by decide))).trans (kept_arg11 m c),
       (h c _ (mem_uc main_arg12 (by decide))).trans (kept_arg12 m c),
       (h c _ (mem_uc main_arg13 (by decide))).trans (kept_arg13 m c),
       (h c _ (mem_uc main_arg14 (by decide))).trans (kept_arg14 m c)⟩)
      (run_all regData m ρ)
  · refine (θ_run Cert.ReferenceIdeal.defs _ _).mono (fun r h c => ?_) (Cert.RefSpec.ref_run m' ρ')
    obtain ⟨h0, h1, hargs⟩ := h c
    refine ⟨?_, ?_, hargs⟩
    · rw [h0, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    · rw [h1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, Cert.RefSpec.frame_ri, preserves, algebraic⟩

end Cert.Proof

end
